-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v476)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v476) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v524) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S65536 : Shape := ⟨1, ![65536]⟩
abbrev S16 : Shape := ⟨1, ![16]⟩
abbrev S16x3 : Shape := ⟨2, ![16, 3]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S65536 : S_.BroadcastsInDim S65536 (![] : Fin 0 → Fin S65536.rank)
  reducesTo_S65536_S_d0 : S65536.ReducesTo [0] S_
  bcast_S_S16 : S_.BroadcastsInDim S16 (![] : Fin 0 → Fin S16.rank)
  reducesTo_S16_S_d0 : S16.ReducesTo [0] S_
  bcast_S_S16x3 : S_.BroadcastsInDim S16x3 (![] : Fin 0 → Fin S16x3.rank)
  reducesTo_S16x3_S_d0_1 : S16x3.ReducesTo [0, 1] S_

variable [Facts]

def fn_part1 {F : FTy → Type} [FloatOps F] (main_arg4 : FVec F S16x3 .f32) (main_v13 : IVec S_ 1) (main_v16 : IVec S16x3 1) : IVec S_ 1 :=
  let main_c_5 : IVec S_ 1 := constantI S_ 1 1#1
  let main_v17 : IVec S_ 1 := (fun x v => Host.reduce IntOp.andi x v reducesTo_S16x3_S_d0_1 h_S_) main_v16 main_c_5
  let main_v18 : IVec S_ 1 := andi main_v13 main_v17
  let main_v19 : FVec F S16x3 .f32 := Host.absf main_arg4
  let main_cst_6 : FVec F S_ .f32 := constant S_ .f32 0x7F800000#32
  let main_v20 : FVec F S16x3 .f32 := broadcastInDim S16x3 ![] bcast_S_S16x3 main_cst_6
  let main_v21 : IVec S16x3 1 := cmpf .olt main_v19 main_v20
  let main_c_7 : IVec S_ 1 := constantI S_ 1 1#1
  let main_v22 : IVec S_ 1 := (fun x v => Host.reduce IntOp.andi x v reducesTo_S16x3_S_d0_1 h_S_) main_v21 main_c_7
  let main_v23 : IVec S_ 1 := andi main_v18 main_v22
  main_v23

def fn {F : FTy → Type} [FloatOps F] (main_arg0 : FVec F S65536x1024 .f32) (main_arg1 : FVec F S65536 .f32) (main_arg2 : FVec F S16 .f32) (main_arg3 : FVec F S16x3 .f32) (main_arg4 : FVec F S16x3 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S65536 .f32 := Host.absf main_arg1
  let main_cst_0 : FVec F S_ .f32 := constant S_ .f32 0x7F800000#32
  let main_v5 : FVec F S65536 .f32 := broadcastInDim S65536 ![] bcast_S_S65536 main_cst_0
  let main_v6 : IVec S65536 1 := cmpf .olt main_v4 main_v5
  let main_c_1 : IVec S_ 1 := constantI S_ 1 1#1
  let main_v7 : IVec S_ 1 := (fun x v => Host.reduce IntOp.andi x v reducesTo_S65536_S_d0 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x3 .f32 := Host.absf main_arg3
  let main_cst_4 : FVec F S_ .f32 := constant S_ .f32 0x7F800000#32
  let main_v15 : FVec F S16x3 .f32 := broadcastInDim S16x3 ![] bcast_S_S16x3 main_cst_4
  let main_v16 : IVec S16x3 1 := cmpf .olt main_v14 main_v15
  fn_part1 (F := F) main_arg4 main_v13 main_v16
-- ==== Kernel.lean ====
abbrev S65536x1024 : Shape := ⟨2, ![65536, 1024]⟩
abbrev S65536 : Shape := ⟨1, ![65536]⟩
abbrev S16 : Shape := ⟨1, ![16]⟩
abbrev S16x3 : Shape := ⟨2, ![16, 3]⟩
abbrev S4096 : Shape := ⟨1, ![4096]⟩
abbrev S64x64 : Shape := ⟨2, ![64, 64]⟩
abbrev S_ : Shape := ⟨0, ![]⟩
abbrev S1x1 : Shape := ⟨2, ![1, 1]⟩
abbrev S1 : Shape := ⟨1, ![1]⟩
abbrev S2 : Shape := ⟨1, ![2]⟩
abbrev S64x1x64x1 : Shape := ⟨4, ![64, 1, 64, 1]⟩
abbrev S1x1x1x1 : Shape := ⟨4, ![1, 1, 1, 1]⟩
abbrev S1x3 : Shape := ⟨2, ![1, 3]⟩
abbrev S1x1x1x3 : Shape := ⟨4, ![1, 1, 1, 3]⟩
abbrev S64x1x64x3 : Shape := ⟨4, ![64, 1, 64, 3]⟩
abbrev S64x192 : Shape := ⟨2, ![64, 192]⟩
abbrev S1x5 : Shape := ⟨2, ![1, 5]⟩
abbrev S1x1x1x5 : Shape := ⟨4, ![1, 1, 1, 5]⟩
abbrev S64x1x64x5 : Shape := ⟨4, ![64, 1, 64, 5]⟩
abbrev S64x320 : Shape := ⟨2, ![64, 320]⟩
abbrev S1x7 : Shape := ⟨2, ![1, 7]⟩
abbrev S1x1x1x7 : Shape := ⟨4, ![1, 1, 1, 7]⟩
abbrev S64x1x64x7 : Shape := ⟨4, ![64, 1, 64, 7]⟩
abbrev S64x448 : Shape := ⟨2, ![64, 448]⟩
abbrev S64x1024 : Shape := ⟨2, ![64, 1024]⟩
abbrev S3x1 : Shape := ⟨2, ![3, 1]⟩
abbrev S1x3x1x1 : Shape := ⟨4, ![1, 3, 1, 1]⟩
abbrev S64x3x64x1 : Shape := ⟨4, ![64, 3, 64, 1]⟩
abbrev S192x64 : Shape := ⟨2, ![192, 64]⟩
abbrev S3x3 : Shape := ⟨2, ![3, 3]⟩
abbrev S1x3x1x3 : Shape := ⟨4, ![1, 3, 1, 3]⟩
abbrev S64x3x64x3 : Shape := ⟨4, ![64, 3, 64, 3]⟩
abbrev S192x192 : Shape := ⟨2, ![192, 192]⟩
abbrev S3x5 : Shape := ⟨2, ![3, 5]⟩
abbrev S1x3x1x5 : Shape := ⟨4, ![1, 3, 1, 5]⟩
abbrev S64x3x64x5 : Shape := ⟨4, ![64, 3, 64, 5]⟩
abbrev S192x320 : Shape := ⟨2, ![192, 320]⟩
abbrev S3x7 : Shape := ⟨2, ![3, 7]⟩
abbrev S1x3x1x7 : Shape := ⟨4, ![1, 3, 1, 7]⟩
abbrev S64x3x64x7 : Shape := ⟨4, ![64, 3, 64, 7]⟩
abbrev S192x448 : Shape := ⟨2, ![192, 448]⟩
abbrev S192x1024 : Shape := ⟨2, ![192, 1024]⟩
abbrev S5x1 : Shape := ⟨2, ![5, 1]⟩
abbrev S1x5x1x1 : Shape := ⟨4, ![1, 5, 1, 1]⟩
abbrev S64x5x64x1 : Shape := ⟨4, ![64, 5, 64, 1]⟩
abbrev S320x64 : Shape := ⟨2, ![320, 64]⟩
abbrev S5x3 : Shape := ⟨2, ![5, 3]⟩
abbrev S1x5x1x3 : Shape := ⟨4, ![1, 5, 1, 3]⟩
abbrev S64x5x64x3 : Shape := ⟨4, ![64, 5, 64, 3]⟩
abbrev S320x192 : Shape := ⟨2, ![320, 192]⟩
abbrev S5x5 : Shape := ⟨2, ![5, 5]⟩
abbrev S1x5x1x5 : Shape := ⟨4, ![1, 5, 1, 5]⟩
abbrev S64x5x64x5 : Shape := ⟨4, ![64, 5, 64, 5]⟩
abbrev S320x320 : Shape := ⟨2, ![320, 320]⟩
abbrev S5x7 : Shape := ⟨2, ![5, 7]⟩
abbrev S1x5x1x7 : Shape := ⟨4, ![1, 5, 1, 7]⟩
abbrev S64x5x64x7 : Shape := ⟨4, ![64, 5, 64, 7]⟩
abbrev S320x448 : Shape := ⟨2, ![320, 448]⟩
abbrev S320x1024 : Shape := ⟨2, ![320, 1024]⟩
abbrev S7x1 : Shape := ⟨2, ![7, 1]⟩
abbrev S1x7x1x1 : Shape := ⟨4, ![1, 7, 1, 1]⟩
abbrev S64x7x64x1 : Shape := ⟨4, ![64, 7, 64, 1]⟩
abbrev S448x64 : Shape := ⟨2, ![448, 64]⟩
abbrev S7x3 : Shape := ⟨2, ![7, 3]⟩
abbrev S1x7x1x3 : Shape := ⟨4, ![1, 7, 1, 3]⟩
abbrev S64x7x64x3 : Shape := ⟨4, ![64, 7, 64, 3]⟩
abbrev S448x192 : Shape := ⟨2, ![448, 192]⟩
abbrev S7x5 : Shape := ⟨2, ![7, 5]⟩
abbrev S1x7x1x5 : Shape := ⟨4, ![1, 7, 1, 5]⟩
abbrev S64x7x64x5 : Shape := ⟨4, ![64, 7, 64, 5]⟩
abbrev S448x320 : Shape := ⟨2, ![448, 320]⟩
abbrev S7x7 : Shape := ⟨2, ![7, 7]⟩
abbrev S1x7x1x7 : Shape := ⟨4, ![1, 7, 1, 7]⟩
abbrev S64x7x64x7 : Shape := ⟨4, ![64, 7, 64, 7]⟩
abbrev S448x448 : Shape := ⟨2, ![448, 448]⟩
abbrev S448x1024 : Shape := ⟨2, ![448, 1024]⟩
abbrev S1024x1024 : Shape := ⟨2, ![1024, 1024]⟩

abbrev nBuf : Space → Nat
  | .hbm => 721
  | .vmem => 5
  | .smem => 0
  | _ => 0

abbrev hbmTy0_0 (i : Nat) : BufTy := match i % 128 with
  | 0 => ⟨S65536x1024, .f32⟩
  | 1 => ⟨S65536, .f32⟩
  | 2 => ⟨S16, .f32⟩
  | 3 => ⟨S16x3, .f32⟩
  | 4 => ⟨S16x3, .f32⟩
  | 5 => ⟨S4096, .f32⟩
  | 6 => ⟨S64x64, .f32⟩
  | 7 => ⟨S_, .f32⟩
  | 8 => ⟨S1x1, .f32⟩
  | 9 => ⟨S1, .f32⟩
  | 10 => ⟨S_, .f32⟩
  | 11 => ⟨S_, .i32⟩
  | 12 => ⟨S1, .i32⟩
  | 13 => ⟨S_, .i32⟩
  | 14 => ⟨S1, .i32⟩
  | 15 => ⟨S2, .i32⟩
  | 16 => ⟨S1x1, .f32⟩
  | 17 => ⟨S64x64, .f32⟩
  | 18 => ⟨S64x1x64x1, .f32⟩
  | 19 => ⟨S1x1x1x1, .f32⟩
  | 20 => ⟨S64x1x64x1, .f32⟩
  | 21 => ⟨S64x1x64x1, .f32⟩
  | 22 => ⟨S64x64, .f32⟩
  | 23 => ⟨S4096, .f32⟩
  | 24 => ⟨S64x64, .f32⟩
  | 25 => ⟨S_, .f32⟩
  | 26 => ⟨S1x3, .f32⟩
  | 27 => ⟨S1, .f32⟩
  | 28 => ⟨S_, .f32⟩
  | 29 => ⟨S_, .i32⟩
  | 30 => ⟨S1, .i32⟩
  | 31 => ⟨S_, .i32⟩
  | 32 => ⟨S1, .i32⟩
  | 33 => ⟨S2, .i32⟩
  | 34 => ⟨S1x3, .f32⟩
  | 35 => ⟨S64x64, .f32⟩
  | 36 => ⟨S64x1x64x1, .f32⟩
  | 37 => ⟨S1x1x1x3, .f32⟩
  | 38 => ⟨S64x1x64x3, .f32⟩
  | 39 => ⟨S64x1x64x3, .f32⟩
  | 40 => ⟨S64x1x64x3, .f32⟩
  | 41 => ⟨S64x192, .f32⟩
  | 42 => ⟨S4096, .f32⟩
  | 43 => ⟨S64x64, .f32⟩
  | 44 => ⟨S_, .f32⟩
  | 45 => ⟨S1x5, .f32⟩
  | 46 => ⟨S1, .f32⟩
  | 47 => ⟨S_, .f32⟩
  | 48 => ⟨S_, .i32⟩
  | 49 => ⟨S1, .i32⟩
  | 50 => ⟨S_, .i32⟩
  | 51 => ⟨S1, .i32⟩
  | 52 => ⟨S2, .i32⟩
  | 53 => ⟨S1x5, .f32⟩
  | 54 => ⟨S64x64, .f32⟩
  | 55 => ⟨S64x1x64x1, .f32⟩
  | 56 => ⟨S1x1x1x5, .f32⟩
  | 57 => ⟨S64x1x64x5, .f32⟩
  | 58 => ⟨S64x1x64x5, .f32⟩
  | 59 => ⟨S64x1x64x5, .f32⟩
  | 60 => ⟨S64x320, .f32⟩
  | 61 => ⟨S4096, .f32⟩
  | 62 => ⟨S64x64, .f32⟩
  | 63 => ⟨S_, .f32⟩
  | 64 => ⟨S1x7, .f32⟩
  | 65 => ⟨S1, .f32⟩
  | 66 => ⟨S_, .f32⟩
  | 67 => ⟨S_, .i32⟩
  | 68 => ⟨S1, .i32⟩
  | 69 => ⟨S_, .i32⟩
  | 70 => ⟨S1, .i32⟩
  | 71 => ⟨S2, .i32⟩
  | 72 => ⟨S1x7, .f32⟩
  | 73 => ⟨S64x64, .f32⟩
  | 74 => ⟨S64x1x64x1, .f32⟩
  | 75 => ⟨S1x1x1x7, .f32⟩
  | 76 => ⟨S64x1x64x7, .f32⟩
  | 77 => ⟨S64x1x64x7, .f32⟩
  | 78 => ⟨S64x1x64x7, .f32⟩
  | 79 => ⟨S64x448, .f32⟩
  | 80 => ⟨S64x1024, .f32⟩
  | 81 => ⟨S4096, .f32⟩
  | 82 => ⟨S64x64, .f32⟩
  | 83 => ⟨S_, .f32⟩
  | 84 => ⟨S3x1, .f32⟩
  | 85 => ⟨S1, .f32⟩
  | 86 => ⟨S_, .f32⟩
  | 87 => ⟨S_, .i32⟩
  | 88 => ⟨S1, .i32⟩
  | 89 => ⟨S_, .i32⟩
  | 90 => ⟨S1, .i32⟩
  | 91 => ⟨S2, .i32⟩
  | 92 => ⟨S3x1, .f32⟩
  | 93 => ⟨S64x64, .f32⟩
  | 94 => ⟨S64x1x64x1, .f32⟩
  | 95 => ⟨S1x3x1x1, .f32⟩
  | 96 => ⟨S64x3x64x1, .f32⟩
  | 97 => ⟨S64x3x64x1, .f32⟩
  | 98 => ⟨S64x3x64x1, .f32⟩
  | 99 => ⟨S192x64, .f32⟩
  | 100 => ⟨S4096, .f32⟩
  | 101 => ⟨S64x64, .f32⟩
  | 102 => ⟨S_, .f32⟩
  | 103 => ⟨S3x3, .f32⟩
  | 104 => ⟨S1, .f32⟩
  | 105 => ⟨S_, .f32⟩
  | 106 => ⟨S_, .i32⟩
  | 107 => ⟨S1, .i32⟩
  | 108 => ⟨S_, .i32⟩
  | 109 => ⟨S1, .i32⟩
  | 110 => ⟨S2, .i32⟩
  | 111 => ⟨S3x3, .f32⟩
  | 112 => ⟨S1x1, .f32⟩
  | 113 => ⟨S_, .f32⟩
  | 114 => ⟨S1x1, .f32⟩
  | 115 => ⟨S_, .f32⟩
  | 116 => ⟨S_, .i32⟩
  | 117 => ⟨S1, .i32⟩
  | 118 => ⟨S_, .i32⟩
  | 119 => ⟨S1, .i32⟩
  | 120 => ⟨S2, .i32⟩
  | 121 => ⟨S3x3, .f32⟩
  | 122 => ⟨S_, .i32⟩
  | 123 => ⟨S1, .i32⟩
  | 124 => ⟨S_, .i32⟩
  | 125 => ⟨S1, .i32⟩
  | 126 => ⟨S2, .i32⟩
  | 127 => ⟨S3x3, .f32⟩
  | _ => ⟨S65536x1024, .f32⟩

abbrev hbmTy0_1 (i : Nat) : BufTy := match i % 128 with
  | 0 => ⟨S_, .i32⟩
  | 1 => ⟨S1, .i32⟩
  | 2 => ⟨S_, .i32⟩
  | 3 => ⟨S1, .i32⟩
  | 4 => ⟨S2, .i32⟩
  | 5 => ⟨S3x3, .f32⟩
  | 6 => ⟨S_, .f32⟩
  | 7 => ⟨S_, .i32⟩
  | 8 => ⟨S1, .i32⟩
  | 9 => ⟨S_, .i32⟩
  | 10 => ⟨S1, .i32⟩
  | 11 => ⟨S2, .i32⟩
  | 12 => ⟨S3x3, .f32⟩
  | 13 => ⟨S64x64, .f32⟩
  | 14 => ⟨S64x1x64x1, .f32⟩
  | 15 => ⟨S1x3x1x3, .f32⟩
  | 16 => ⟨S64x3x64x3, .f32⟩
  | 17 => ⟨S64x3x64x3, .f32⟩
  | 18 => ⟨S64x3x64x3, .f32⟩
  | 19 => ⟨S192x192, .f32⟩
  | 20 => ⟨S4096, .f32⟩
  | 21 => ⟨S64x64, .f32⟩
  | 22 => ⟨S_, .f32⟩
  | 23 => ⟨S3x5, .f32⟩
  | 24 => ⟨S1, .f32⟩
  | 25 => ⟨S_, .f32⟩
  | 26 => ⟨S_, .i32⟩
  | 27 => ⟨S1, .i32⟩
  | 28 => ⟨S_, .i32⟩
  | 29 => ⟨S1, .i32⟩
  | 30 => ⟨S2, .i32⟩
  | 31 => ⟨S3x5, .f32⟩
  | 32 => ⟨S1x1, .f32⟩
  | 33 => ⟨S_, .f32⟩
  | 34 => ⟨S1x1, .f32⟩
  | 35 => ⟨S_, .f32⟩
  | 36 => ⟨S_, .i32⟩
  | 37 => ⟨S1, .i32⟩
  | 38 => ⟨S_, .i32⟩
  | 39 => ⟨S1, .i32⟩
  | 40 => ⟨S2, .i32⟩
  | 41 => ⟨S3x5, .f32⟩
  | 42 => ⟨S_, .i32⟩
  | 43 => ⟨S1, .i32⟩
  | 44 => ⟨S_, .i32⟩
  | 45 => ⟨S1, .i32⟩
  | 46 => ⟨S2, .i32⟩
  | 47 => ⟨S3x5, .f32⟩
  | 48 => ⟨S_, .i32⟩
  | 49 => ⟨S1, .i32⟩
  | 50 => ⟨S_, .i32⟩
  | 51 => ⟨S1, .i32⟩
  | 52 => ⟨S2, .i32⟩
  | 53 => ⟨S3x5, .f32⟩
  | 54 => ⟨S_, .f32⟩
  | 55 => ⟨S_, .i32⟩
  | 56 => ⟨S1, .i32⟩
  | 57 => ⟨S_, .i32⟩
  | 58 => ⟨S1, .i32⟩
  | 59 => ⟨S2, .i32⟩
  | 60 => ⟨S3x5, .f32⟩
  | 61 => ⟨S64x64, .f32⟩
  | 62 => ⟨S64x1x64x1, .f32⟩
  | 63 => ⟨S1x3x1x5, .f32⟩
  | 64 => ⟨S64x3x64x5, .f32⟩
  | 65 => ⟨S64x3x64x5, .f32⟩
  | 66 => ⟨S64x3x64x5, .f32⟩
  | 67 => ⟨S192x320, .f32⟩
  | 68 => ⟨S4096, .f32⟩
  | 69 => ⟨S64x64, .f32⟩
  | 70 => ⟨S_, .f32⟩
  | 71 => ⟨S3x7, .f32⟩
  | 72 => ⟨S1, .f32⟩
  | 73 => ⟨S_, .f32⟩
  | 74 => ⟨S_, .i32⟩
  | 75 => ⟨S1, .i32⟩
  | 76 => ⟨S_, .i32⟩
  | 77 => ⟨S1, .i32⟩
  | 78 => ⟨S2, .i32⟩
  | 79 => ⟨S3x7, .f32⟩
  | 80 => ⟨S1x1, .f32⟩
  | 81 => ⟨S_, .f32⟩
  | 82 => ⟨S1x1, .f32⟩
  | 83 => ⟨S_, .f32⟩
  | 84 => ⟨S_, .i32⟩
  | 85 => ⟨S1, .i32⟩
  | 86 => ⟨S_, .i32⟩
  | 87 => ⟨S1, .i32⟩
  | 88 => ⟨S2, .i32⟩
  | 89 => ⟨S3x7, .f32⟩
  | 90 => ⟨S_, .i32⟩
  | 91 => ⟨S1, .i32⟩
  | 92 => ⟨S_, .i32⟩
  | 93 => ⟨S1, .i32⟩
  | 94 => ⟨S2, .i32⟩
  | 95 => ⟨S3x7, .f32⟩
  | 96 => ⟨S_, .i32⟩
  | 97 => ⟨S1, .i32⟩
  | 98 => ⟨S_, .i32⟩
  | 99 => ⟨S1, .i32⟩
  | 100 => ⟨S2, .i32⟩
  | 101 => ⟨S3x7, .f32⟩
  | 102 => ⟨S_, .f32⟩
  | 103 => ⟨S_, .i32⟩
  | 104 => ⟨S1, .i32⟩
  | 105 => ⟨S_, .i32⟩
  | 106 => ⟨S1, .i32⟩
  | 107 => ⟨S2, .i32⟩
  | 108 => ⟨S3x7, .f32⟩
  | 109 => ⟨S64x64, .f32⟩
  | 110 => ⟨S64x1x64x1, .f32⟩
  | 111 => ⟨S1x3x1x7, .f32⟩
  | 112 => ⟨S64x3x64x7, .f32⟩
  | 113 => ⟨S64x3x64x7, .f32⟩
  | 114 => ⟨S64x3x64x7, .f32⟩
  | 115 => ⟨S192x448, .f32⟩
  | 116 => ⟨S192x1024, .f32⟩
  | 117 => ⟨S4096, .f32⟩
  | 118 => ⟨S64x64, .f32⟩
  | 119 => ⟨S_, .f32⟩
  | 120 => ⟨S5x1, .f32⟩
  | 121 => ⟨S1, .f32⟩
  | 122 => ⟨S_, .f32⟩
  | 123 => ⟨S_, .i32⟩
  | 124 => ⟨S1, .i32⟩
  | 125 => ⟨S_, .i32⟩
  | 126 => ⟨S1, .i32⟩
  | 127 => ⟨S2, .i32⟩
  | _ => ⟨S65536x1024, .f32⟩

abbrev hbmTy0_2 (i : Nat) : BufTy := match i % 128 with
  | 0 => ⟨S5x1, .f32⟩
  | 1 => ⟨S64x64, .f32⟩
  | 2 => ⟨S64x1x64x1, .f32⟩
  | 3 => ⟨S1x5x1x1, .f32⟩
  | 4 => ⟨S64x5x64x1, .f32⟩
  | 5 => ⟨S64x5x64x1, .f32⟩
  | 6 => ⟨S64x5x64x1, .f32⟩
  | 7 => ⟨S320x64, .f32⟩
  | 8 => ⟨S4096, .f32⟩
  | 9 => ⟨S64x64, .f32⟩
  | 10 => ⟨S_, .f32⟩
  | 11 => ⟨S5x3, .f32⟩
  | 12 => ⟨S1, .f32⟩
  | 13 => ⟨S_, .f32⟩
  | 14 => ⟨S_, .i32⟩
  | 15 => ⟨S1, .i32⟩
  | 16 => ⟨S_, .i32⟩
  | 17 => ⟨S1, .i32⟩
  | 18 => ⟨S2, .i32⟩
  | 19 => ⟨S5x3, .f32⟩
  | 20 => ⟨S1x1, .f32⟩
  | 21 => ⟨S_, .f32⟩
  | 22 => ⟨S1x1, .f32⟩
  | 23 => ⟨S_, .f32⟩
  | 24 => ⟨S_, .i32⟩
  | 25 => ⟨S1, .i32⟩
  | 26 => ⟨S_, .i32⟩
  | 27 => ⟨S1, .i32⟩
  | 28 => ⟨S2, .i32⟩
  | 29 => ⟨S5x3, .f32⟩
  | 30 => ⟨S_, .i32⟩
  | 31 => ⟨S1, .i32⟩
  | 32 => ⟨S_, .i32⟩
  | 33 => ⟨S1, .i32⟩
  | 34 => ⟨S2, .i32⟩
  | 35 => ⟨S5x3, .f32⟩
  | 36 => ⟨S_, .i32⟩
  | 37 => ⟨S1, .i32⟩
  | 38 => ⟨S_, .i32⟩
  | 39 => ⟨S1, .i32⟩
  | 40 => ⟨S2, .i32⟩
  | 41 => ⟨S5x3, .f32⟩
  | 42 => ⟨S_, .f32⟩
  | 43 => ⟨S_, .i32⟩
  | 44 => ⟨S1, .i32⟩
  | 45 => ⟨S_, .i32⟩
  | 46 => ⟨S1, .i32⟩
  | 47 => ⟨S2, .i32⟩
  | 48 => ⟨S5x3, .f32⟩
  | 49 => ⟨S64x64, .f32⟩
  | 50 => ⟨S64x1x64x1, .f32⟩
  | 51 => ⟨S1x5x1x3, .f32⟩
  | 52 => ⟨S64x5x64x3, .f32⟩
  | 53 => ⟨S64x5x64x3, .f32⟩
  | 54 => ⟨S64x5x64x3, .f32⟩
  | 55 => ⟨S320x192, .f32⟩
  | 56 => ⟨S4096, .f32⟩
  | 57 => ⟨S64x64, .f32⟩
  | 58 => ⟨S_, .f32⟩
  | 59 => ⟨S5x5, .f32⟩
  | 60 => ⟨S1, .f32⟩
  | 61 => ⟨S_, .f32⟩
  | 62 => ⟨S_, .i32⟩
  | 63 => ⟨S1, .i32⟩
  | 64 => ⟨S_, .i32⟩
  | 65 => ⟨S1, .i32⟩
  | 66 => ⟨S2, .i32⟩
  | 67 => ⟨S5x5, .f32⟩
  | 68 => ⟨S1x1, .f32⟩
  | 69 => ⟨S_, .f32⟩
  | 70 => ⟨S1x1, .f32⟩
  | 71 => ⟨S_, .f32⟩
  | 72 => ⟨S_, .i32⟩
  | 73 => ⟨S1, .i32⟩
  | 74 => ⟨S_, .i32⟩
  | 75 => ⟨S1, .i32⟩
  | 76 => ⟨S2, .i32⟩
  | 77 => ⟨S5x5, .f32⟩
  | 78 => ⟨S_, .i32⟩
  | 79 => ⟨S1, .i32⟩
  | 80 => ⟨S_, .i32⟩
  | 81 => ⟨S1, .i32⟩
  | 82 => ⟨S2, .i32⟩
  | 83 => ⟨S5x5, .f32⟩
  | 84 => ⟨S_, .i32⟩
  | 85 => ⟨S1, .i32⟩
  | 86 => ⟨S_, .i32⟩
  | 87 => ⟨S1, .i32⟩
  | 88 => ⟨S2, .i32⟩
  | 89 => ⟨S5x5, .f32⟩
  | 90 => ⟨S_, .f32⟩
  | 91 => ⟨S_, .i32⟩
  | 92 => ⟨S1, .i32⟩
  | 93 => ⟨S_, .i32⟩
  | 94 => ⟨S1, .i32⟩
  | 95 => ⟨S2, .i32⟩
  | 96 => ⟨S5x5, .f32⟩
  | 97 => ⟨S1x1, .f32⟩
  | 98 => ⟨S_, .f32⟩
  | 99 => ⟨S1x1, .f32⟩
  | 100 => ⟨S_, .f32⟩
  | 101 => ⟨S_, .i32⟩
  | 102 => ⟨S1, .i32⟩
  | 103 => ⟨S_, .i32⟩
  | 104 => ⟨S1, .i32⟩
  | 105 => ⟨S2, .i32⟩
  | 106 => ⟨S5x5, .f32⟩
  | 107 => ⟨S_, .i32⟩
  | 108 => ⟨S1, .i32⟩
  | 109 => ⟨S_, .i32⟩
  | 110 => ⟨S1, .i32⟩
  | 111 => ⟨S2, .i32⟩
  | 112 => ⟨S5x5, .f32⟩
  | 113 => ⟨S_, .i32⟩
  | 114 => ⟨S1, .i32⟩
  | 115 => ⟨S_, .i32⟩
  | 116 => ⟨S1, .i32⟩
  | 117 => ⟨S2, .i32⟩
  | 118 => ⟨S5x5, .f32⟩
  | 119 => ⟨S_, .f32⟩
  | 120 => ⟨S_, .i32⟩
  | 121 => ⟨S1, .i32⟩
  | 122 => ⟨S_, .i32⟩
  | 123 => ⟨S1, .i32⟩
  | 124 => ⟨S2, .i32⟩
  | 125 => ⟨S5x5, .f32⟩
  | 126 => ⟨S64x64, .f32⟩
  | 127 => ⟨S64x1x64x1, .f32⟩
  | _ => ⟨S65536x1024, .f32⟩

abbrev hbmTy0_3 (i : Nat) : BufTy := match i % 128 with
  | 0 => ⟨S1x5x1x5, .f32⟩
  | 1 => ⟨S64x5x64x5, .f32⟩
  | 2 => ⟨S64x5x64x5, .f32⟩
  | 3 => ⟨S64x5x64x5, .f32⟩
  | 4 => ⟨S320x320, .f32⟩
  | 5 => ⟨S4096, .f32⟩
  | 6 => ⟨S64x64, .f32⟩
  | 7 => ⟨S_, .f32⟩
  | 8 => ⟨S5x7, .f32⟩
  | 9 => ⟨S1, .f32⟩
  | 10 => ⟨S_, .f32⟩
  | 11 => ⟨S_, .i32⟩
  | 12 => ⟨S1, .i32⟩
  | 13 => ⟨S_, .i32⟩
  | 14 => ⟨S1, .i32⟩
  | 15 => ⟨S2, .i32⟩
  | 16 => ⟨S5x7, .f32⟩
  | 17 => ⟨S1x1, .f32⟩
  | 18 => ⟨S_, .f32⟩
  | 19 => ⟨S1x1, .f32⟩
  | 20 => ⟨S_, .f32⟩
  | 21 => ⟨S_, .i32⟩
  | 22 => ⟨S1, .i32⟩
  | 23 => ⟨S_, .i32⟩
  | 24 => ⟨S1, .i32⟩
  | 25 => ⟨S2, .i32⟩
  | 26 => ⟨S5x7, .f32⟩
  | 27 => ⟨S_, .i32⟩
  | 28 => ⟨S1, .i32⟩
  | 29 => ⟨S_, .i32⟩
  | 30 => ⟨S1, .i32⟩
  | 31 => ⟨S2, .i32⟩
  | 32 => ⟨S5x7, .f32⟩
  | 33 => ⟨S_, .i32⟩
  | 34 => ⟨S1, .i32⟩
  | 35 => ⟨S_, .i32⟩
  | 36 => ⟨S1, .i32⟩
  | 37 => ⟨S2, .i32⟩
  | 38 => ⟨S5x7, .f32⟩
  | 39 => ⟨S_, .f32⟩
  | 40 => ⟨S_, .i32⟩
  | 41 => ⟨S1, .i32⟩
  | 42 => ⟨S_, .i32⟩
  | 43 => ⟨S1, .i32⟩
  | 44 => ⟨S2, .i32⟩
  | 45 => ⟨S5x7, .f32⟩
  | 46 => ⟨S1x1, .f32⟩
  | 47 => ⟨S_, .f32⟩
  | 48 => ⟨S1x1, .f32⟩
  | 49 => ⟨S_, .f32⟩
  | 50 => ⟨S_, .i32⟩
  | 51 => ⟨S1, .i32⟩
  | 52 => ⟨S_, .i32⟩
  | 53 => ⟨S1, .i32⟩
  | 54 => ⟨S2, .i32⟩
  | 55 => ⟨S5x7, .f32⟩
  | 56 => ⟨S_, .i32⟩
  | 57 => ⟨S1, .i32⟩
  | 58 => ⟨S_, .i32⟩
  | 59 => ⟨S1, .i32⟩
  | 60 => ⟨S2, .i32⟩
  | 61 => ⟨S5x7, .f32⟩
  | 62 => ⟨S_, .i32⟩
  | 63 => ⟨S1, .i32⟩
  | 64 => ⟨S_, .i32⟩
  | 65 => ⟨S1, .i32⟩
  | 66 => ⟨S2, .i32⟩
  | 67 => ⟨S5x7, .f32⟩
  | 68 => ⟨S_, .f32⟩
  | 69 => ⟨S_, .i32⟩
  | 70 => ⟨S1, .i32⟩
  | 71 => ⟨S_, .i32⟩
  | 72 => ⟨S1, .i32⟩
  | 73 => ⟨S2, .i32⟩
  | 74 => ⟨S5x7, .f32⟩
  | 75 => ⟨S64x64, .f32⟩
  | 76 => ⟨S64x1x64x1, .f32⟩
  | 77 => ⟨S1x5x1x7, .f32⟩
  | 78 => ⟨S64x5x64x7, .f32⟩
  | 79 => ⟨S64x5x64x7, .f32⟩
  | 80 => ⟨S64x5x64x7, .f32⟩
  | 81 => ⟨S320x448, .f32⟩
  | 82 => ⟨S320x1024, .f32⟩
  | 83 => ⟨S4096, .f32⟩
  | 84 => ⟨S64x64, .f32⟩
  | 85 => ⟨S_, .f32⟩
  | 86 => ⟨S7x1, .f32⟩
  | 87 => ⟨S1, .f32⟩
  | 88 => ⟨S_, .f32⟩
  | 89 => ⟨S_, .i32⟩
  | 90 => ⟨S1, .i32⟩
  | 91 => ⟨S_, .i32⟩
  | 92 => ⟨S1, .i32⟩
  | 93 => ⟨S2, .i32⟩
  | 94 => ⟨S7x1, .f32⟩
  | 95 => ⟨S64x64, .f32⟩
  | 96 => ⟨S64x1x64x1, .f32⟩
  | 97 => ⟨S1x7x1x1, .f32⟩
  | 98 => ⟨S64x7x64x1, .f32⟩
  | 99 => ⟨S64x7x64x1, .f32⟩
  | 100 => ⟨S64x7x64x1, .f32⟩
  | 101 => ⟨S448x64, .f32⟩
  | 102 => ⟨S4096, .f32⟩
  | 103 => ⟨S64x64, .f32⟩
  | 104 => ⟨S_, .f32⟩
  | 105 => ⟨S7x3, .f32⟩
  | 106 => ⟨S1, .f32⟩
  | 107 => ⟨S_, .f32⟩
  | 108 => ⟨S_, .i32⟩
  | 109 => ⟨S1, .i32⟩
  | 110 => ⟨S_, .i32⟩
  | 111 => ⟨S1, .i32⟩
  | 112 => ⟨S2, .i32⟩
  | 113 => ⟨S7x3, .f32⟩
  | 114 => ⟨S1x1, .f32⟩
  | 115 => ⟨S_, .f32⟩
  | 116 => ⟨S1x1, .f32⟩
  | 117 => ⟨S_, .f32⟩
  | 118 => ⟨S_, .i32⟩
  | 119 => ⟨S1, .i32⟩
  | 120 => ⟨S_, .i32⟩
  | 121 => ⟨S1, .i32⟩
  | 122 => ⟨S2, .i32⟩
  | 123 => ⟨S7x3, .f32⟩
  | 124 => ⟨S_, .i32⟩
  | 125 => ⟨S1, .i32⟩
  | 126 => ⟨S_, .i32⟩
  | 127 => ⟨S1, .i32⟩
  | _ => ⟨S65536x1024, .f32⟩

abbrev hbmTy0_4 (i : Nat) : BufTy := match i % 128 with
  | 0 => ⟨S2, .i32⟩
  | 1 => ⟨S7x3, .f32⟩
  | 2 => ⟨S_, .i32⟩
  | 3 => ⟨S1, .i32⟩
  | 4 => ⟨S_, .i32⟩
  | 5 => ⟨S1, .i32⟩
  | 6 => ⟨S2, .i32⟩
  | 7 => ⟨S7x3, .f32⟩
  | 8 => ⟨S_, .f32⟩
  | 9 => ⟨S_, .i32⟩
  | 10 => ⟨S1, .i32⟩
  | 11 => ⟨S_, .i32⟩
  | 12 => ⟨S1, .i32⟩
  | 13 => ⟨S2, .i32⟩
  | 14 => ⟨S7x3, .f32⟩
  | 15 => ⟨S64x64, .f32⟩
  | 16 => ⟨S64x1x64x1, .f32⟩
  | 17 => ⟨S1x7x1x3, .f32⟩
  | 18 => ⟨S64x7x64x3, .f32⟩
  | 19 => ⟨S64x7x64x3, .f32⟩
  | 20 => ⟨S64x7x64x3, .f32⟩
  | 21 => ⟨S448x192, .f32⟩
  | 22 => ⟨S4096, .f32⟩
  | 23 => ⟨S64x64, .f32⟩
  | 24 => ⟨S_, .f32⟩
  | 25 => ⟨S7x5, .f32⟩
  | 26 => ⟨S1, .f32⟩
  | 27 => ⟨S_, .f32⟩
  | 28 => ⟨S_, .i32⟩
  | 29 => ⟨S1, .i32⟩
  | 30 => ⟨S_, .i32⟩
  | 31 => ⟨S1, .i32⟩
  | 32 => ⟨S2, .i32⟩
  | 33 => ⟨S7x5, .f32⟩
  | 34 => ⟨S1x1, .f32⟩
  | 35 => ⟨S_, .f32⟩
  | 36 => ⟨S1x1, .f32⟩
  | 37 => ⟨S_, .f32⟩
  | 38 => ⟨S_, .i32⟩
  | 39 => ⟨S1, .i32⟩
  | 40 => ⟨S_, .i32⟩
  | 41 => ⟨S1, .i32⟩
  | 42 => ⟨S2, .i32⟩
  | 43 => ⟨S7x5, .f32⟩
  | 44 => ⟨S_, .i32⟩
  | 45 => ⟨S1, .i32⟩
  | 46 => ⟨S_, .i32⟩
  | 47 => ⟨S1, .i32⟩
  | 48 => ⟨S2, .i32⟩
  | 49 => ⟨S7x5, .f32⟩
  | 50 => ⟨S_, .i32⟩
  | 51 => ⟨S1, .i32⟩
  | 52 => ⟨S_, .i32⟩
  | 53 => ⟨S1, .i32⟩
  | 54 => ⟨S2, .i32⟩
  | 55 => ⟨S7x5, .f32⟩
  | 56 => ⟨S_, .f32⟩
  | 57 => ⟨S_, .i32⟩
  | 58 => ⟨S1, .i32⟩
  | 59 => ⟨S_, .i32⟩
  | 60 => ⟨S1, .i32⟩
  | 61 => ⟨S2, .i32⟩
  | 62 => ⟨S7x5, .f32⟩
  | 63 => ⟨S1x1, .f32⟩
  | 64 => ⟨S_, .f32⟩
  | 65 => ⟨S1x1, .f32⟩
  | 66 => ⟨S_, .f32⟩
  | 67 => ⟨S_, .i32⟩
  | 68 => ⟨S1, .i32⟩
  | 69 => ⟨S_, .i32⟩
  | 70 => ⟨S1, .i32⟩
  | 71 => ⟨S2, .i32⟩
  | 72 => ⟨S7x5, .f32⟩
  | 73 => ⟨S_, .i32⟩
  | 74 => ⟨S1, .i32⟩
  | 75 => ⟨S_, .i32⟩
  | 76 => ⟨S1, .i32⟩
  | 77 => ⟨S2, .i32⟩
  | 78 => ⟨S7x5, .f32⟩
  | 79 => ⟨S_, .i32⟩
  | 80 => ⟨S1, .i32⟩
  | 81 => ⟨S_, .i32⟩
  | 82 => ⟨S1, .i32⟩
  | 83 => ⟨S2, .i32⟩
  | 84 => ⟨S7x5, .f32⟩
  | 85 => ⟨S_, .f32⟩
  | 86 => ⟨S_, .i32⟩
  | 87 => ⟨S1, .i32⟩
  | 88 => ⟨S_, .i32⟩
  | 89 => ⟨S1, .i32⟩
  | 90 => ⟨S2, .i32⟩
  | 91 => ⟨S7x5, .f32⟩
  | 92 => ⟨S64x64, .f32⟩
  | 93 => ⟨S64x1x64x1, .f32⟩
  | 94 => ⟨S1x7x1x5, .f32⟩
  | 95 => ⟨S64x7x64x5, .f32⟩
  | 96 => ⟨S64x7x64x5, .f32⟩
  | 97 => ⟨S64x7x64x5, .f32⟩
  | 98 => ⟨S448x320, .f32⟩
  | 99 => ⟨S4096, .f32⟩
  | 100 => ⟨S64x64, .f32⟩
  | 101 => ⟨S_, .f32⟩
  | 102 => ⟨S7x7, .f32⟩
  | 103 => ⟨S1, .f32⟩
  | 104 => ⟨S_, .f32⟩
  | 105 => ⟨S_, .i32⟩
  | 106 => ⟨S1, .i32⟩
  | 107 => ⟨S_, .i32⟩
  | 108 => ⟨S1, .i32⟩
  | 109 => ⟨S2, .i32⟩
  | 110 => ⟨S7x7, .f32⟩
  | 111 => ⟨S1x1, .f32⟩
  | 112 => ⟨S_, .f32⟩
  | 113 => ⟨S1x1, .f32⟩
  | 114 => ⟨S_, .f32⟩
  | 115 => ⟨S_, .i32⟩
  | 116 => ⟨S1, .i32⟩
  | 117 => ⟨S_, .i32⟩
  | 118 => ⟨S1, .i32⟩
  | 119 => ⟨S2, .i32⟩
  | 120 => ⟨S7x7, .f32⟩
  | 121 => ⟨S_, .i32⟩
  | 122 => ⟨S1, .i32⟩
  | 123 => ⟨S_, .i32⟩
  | 124 => ⟨S1, .i32⟩
  | 125 => ⟨S2, .i32⟩
  | 126 => ⟨S7x7, .f32⟩
  | 127 => ⟨S_, .i32⟩
  | _ => ⟨S65536x1024, .f32⟩

abbrev hbmTy0_5 (i : Nat) : BufTy := match i % 128 with
  | 0 => ⟨S1, .i32⟩
  | 1 => ⟨S_, .i32⟩
  | 2 => ⟨S1, .i32⟩
  | 3 => ⟨S2, .i32⟩
  | 4 => ⟨S7x7, .f32⟩
  | 5 => ⟨S_, .f32⟩
  | 6 => ⟨S_, .i32⟩
  | 7 => ⟨S1, .i32⟩
  | 8 => ⟨S_, .i32⟩
  | 9 => ⟨S1, .i32⟩
  | 10 => ⟨S2, .i32⟩
  | 11 => ⟨S7x7, .f32⟩
  | 12 => ⟨S1x1, .f32⟩
  | 13 => ⟨S_, .f32⟩
  | 14 => ⟨S1x1, .f32⟩
  | 15 => ⟨S_, .f32⟩
  | 16 => ⟨S_, .i32⟩
  | 17 => ⟨S1, .i32⟩
  | 18 => ⟨S_, .i32⟩
  | 19 => ⟨S1, .i32⟩
  | 20 => ⟨S2, .i32⟩
  | 21 => ⟨S7x7, .f32⟩
  | 22 => ⟨S_, .i32⟩
  | 23 => ⟨S1, .i32⟩
  | 24 => ⟨S_, .i32⟩
  | 25 => ⟨S1, .i32⟩
  | 26 => ⟨S2, .i32⟩
  | 27 => ⟨S7x7, .f32⟩
  | 28 => ⟨S_, .i32⟩
  | 29 => ⟨S1, .i32⟩
  | 30 => ⟨S_, .i32⟩
  | 31 => ⟨S1, .i32⟩
  | 32 => ⟨S2, .i32⟩
  | 33 => ⟨S7x7, .f32⟩
  | 34 => ⟨S_, .f32⟩
  | 35 => ⟨S_, .i32⟩
  | 36 => ⟨S1, .i32⟩
  | 37 => ⟨S_, .i32⟩
  | 38 => ⟨S1, .i32⟩
  | 39 => ⟨S2, .i32⟩
  | 40 => ⟨S7x7, .f32⟩
  | 41 => ⟨S1x1, .f32⟩
  | 42 => ⟨S_, .f32⟩
  | 43 => ⟨S1x1, .f32⟩
  | 44 => ⟨S_, .f32⟩
  | 45 => ⟨S_, .i32⟩
  | 46 => ⟨S1, .i32⟩
  | 47 => ⟨S_, .i32⟩
  | 48 => ⟨S1, .i32⟩
  | 49 => ⟨S2, .i32⟩
  | 50 => ⟨S7x7, .f32⟩
  | 51 => ⟨S_, .i32⟩
  | 52 => ⟨S1, .i32⟩
  | 53 => ⟨S_, .i32⟩
  | 54 => ⟨S1, .i32⟩
  | 55 => ⟨S2, .i32⟩
  | 56 => ⟨S7x7, .f32⟩
  | 57 => ⟨S_, .i32⟩
  | 58 => ⟨S1, .i32⟩
  | 59 => ⟨S_, .i32⟩
  | 60 => ⟨S1, .i32⟩
  | 61 => ⟨S2, .i32⟩
  | 62 => ⟨S7x7, .f32⟩
  | 63 => ⟨S_, .f32⟩
  | 64 => ⟨S_, .i32⟩
  | 65 => ⟨S1, .i32⟩
  | 66 => ⟨S_, .i32⟩
  | 67 => ⟨S1, .i32⟩
  | 68 => ⟨S2, .i32⟩
  | 69 => ⟨S7x7, .f32⟩
  | 70 => ⟨S64x64, .f32⟩
  | 71 => ⟨S64x1x64x1, .f32⟩
  | 72 => ⟨S1x7x1x7, .f32⟩
  | 73 => ⟨S64x7x64x7, .f32⟩
  | 74 => ⟨S64x7x64x7, .f32⟩
  | 75 => ⟨S64x7x64x7, .f32⟩
  | 76 => ⟨S448x448, .f32⟩
  | 77 => ⟨S448x1024, .f32⟩
  | 78 => ⟨S1024x1024, .f32⟩
  | 79 => ⟨S1024x1024, .bf16⟩
  | 80 => ⟨S65536x1024, .f32⟩
  | _ => ⟨S65536x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S65536x1024, .f32⟩

abbrev bufTy : (tb : Table) → Fin (tcTables nBuf tb) → BufTy
  | .hbm, ⟨i, _⟩ => hbmTy i
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_4 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_5 : Ref sig .tc := ⟨.hbm, 48, rfl⟩
abbrev main_v27 : Ref sig .tc := ⟨.hbm, 49, rfl⟩
abbrev main_c_6 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_7 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_c_8 : Ref sig .tc := ⟨.hbm, 67, rfl⟩
abbrev main_v38 : Ref sig .tc := ⟨.hbm, 68, rfl⟩
abbrev main_c_9 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_call3_v0 : Ref sig .tc := ⟨.hbm, 74, rfl⟩
abbrev main_call3_v1 : Ref sig .tc := ⟨.hbm, 75, rfl⟩
abbrev main_call3_v2 : Ref sig .tc := ⟨.hbm, 76, rfl⟩
abbrev main_call3_v3 : Ref sig .tc := ⟨.hbm, 77, rfl⟩
abbrev main_call3_v4 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_cst_10 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_c_11 : Ref sig .tc := ⟨.hbm, 87, rfl⟩
abbrev main_v50 : Ref sig .tc := ⟨.hbm, 88, rfl⟩
abbrev main_c_12 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_call4_v0 : Ref sig .tc := ⟨.hbm, 94, rfl⟩
abbrev main_call4_v1 : Ref sig .tc := ⟨.hbm, 95, rfl⟩
abbrev main_call4_v2 : Ref sig .tc := ⟨.hbm, 96, rfl⟩
abbrev main_call4_v3 : Ref sig .tc := ⟨.hbm, 97, rfl⟩
abbrev main_call4_v4 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_cst_13 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_c_14 : Ref sig .tc := ⟨.hbm, 106, rfl⟩
abbrev main_v61 : Ref sig .tc := ⟨.hbm, 107, rfl⟩
abbrev main_c_15 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_c_16 : Ref sig .tc := ⟨.hbm, 116, rfl⟩
abbrev main_v69 : Ref sig .tc := ⟨.hbm, 117, rfl⟩
abbrev main_c_17 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_c_18 : Ref sig .tc := ⟨.hbm, 122, rfl⟩
abbrev main_v73 : Ref sig .tc := ⟨.hbm, 123, rfl⟩
abbrev main_c_19 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_c_20 : Ref sig .tc := ⟨.hbm, 128, rfl⟩
abbrev main_v77 : Ref sig .tc := ⟨.hbm, 129, rfl⟩
abbrev main_c_21 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_c_22 : Ref sig .tc := ⟨.hbm, 135, rfl⟩
abbrev main_v82 : Ref sig .tc := ⟨.hbm, 136, rfl⟩
abbrev main_c_23 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_call5_v0 : Ref sig .tc := ⟨.hbm, 142, rfl⟩
abbrev main_call5_v1 : Ref sig .tc := ⟨.hbm, 143, rfl⟩
abbrev main_call5_v2 : Ref sig .tc := ⟨.hbm, 144, rfl⟩
abbrev main_call5_v3 : Ref sig .tc := ⟨.hbm, 145, rfl⟩
abbrev main_call5_v4 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_cst_24 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_c_25 : Ref sig .tc := ⟨.hbm, 154, rfl⟩
abbrev main_v93 : Ref sig .tc := ⟨.hbm, 155, rfl⟩
abbrev main_c_26 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_c_27 : Ref sig .tc := ⟨.hbm, 164, rfl⟩
abbrev main_v101 : Ref sig .tc := ⟨.hbm, 165, rfl⟩
abbrev main_c_28 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_c_29 : Ref sig .tc := ⟨.hbm, 170, rfl⟩
abbrev main_v105 : Ref sig .tc := ⟨.hbm, 171, rfl⟩
abbrev main_c_30 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_c_31 : Ref sig .tc := ⟨.hbm, 176, rfl⟩
abbrev main_v109 : Ref sig .tc := ⟨.hbm, 177, rfl⟩
abbrev main_c_32 : Ref sig .tc := ⟨.hbm, 178, rfl⟩
abbrev main_v110 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_c_33 : Ref sig .tc := ⟨.hbm, 183, rfl⟩
abbrev main_v114 : Ref sig .tc := ⟨.hbm, 184, rfl⟩
abbrev main_c_34 : Ref sig .tc := ⟨.hbm, 185, rfl⟩
abbrev main_v115 : Ref sig .tc := ⟨.hbm, 186, rfl⟩
abbrev main_v116 : Ref sig .tc := ⟨.hbm, 187, rfl⟩
abbrev main_v117 : Ref sig .tc := ⟨.hbm, 188, rfl⟩
abbrev main_v118 : Ref sig .tc := ⟨.hbm, 189, rfl⟩
abbrev main_call6_v0 : Ref sig .tc := ⟨.hbm, 190, rfl⟩
abbrev main_call6_v1 : Ref sig .tc := ⟨.hbm, 191, rfl⟩
abbrev main_call6_v2 : Ref sig .tc := ⟨.hbm, 192, rfl⟩
abbrev main_call6_v3 : Ref sig .tc := ⟨.hbm, 193, rfl⟩
abbrev main_call6_v4 : Ref sig .tc := ⟨.hbm, 194, rfl⟩
abbrev main_v119 : Ref sig .tc := ⟨.hbm, 195, rfl⟩
abbrev main_v120 : Ref sig .tc := ⟨.hbm, 196, rfl⟩
abbrev main_v121 : Ref sig .tc := ⟨.hbm, 197, rfl⟩
abbrev main_cst_35 : Ref sig .tc := ⟨.hbm, 198, rfl⟩
abbrev main_v122 : Ref sig .tc := ⟨.hbm, 199, rfl⟩
abbrev main_v123 : Ref sig .tc := ⟨.hbm, 200, rfl⟩
abbrev main_v124 : Ref sig .tc := ⟨.hbm, 201, rfl⟩
abbrev main_c_36 : Ref sig .tc := ⟨.hbm, 202, rfl⟩
abbrev main_v125 : Ref sig .tc := ⟨.hbm, 203, rfl⟩
abbrev main_c_37 : Ref sig .tc := ⟨.hbm, 204, rfl⟩
abbrev main_v126 : Ref sig .tc := ⟨.hbm, 205, rfl⟩
abbrev main_v127 : Ref sig .tc := ⟨.hbm, 206, rfl⟩
abbrev main_v128 : Ref sig .tc := ⟨.hbm, 207, rfl⟩
abbrev main_v129 : Ref sig .tc := ⟨.hbm, 208, rfl⟩
abbrev main_v130 : Ref sig .tc := ⟨.hbm, 209, rfl⟩
abbrev main_v131 : Ref sig .tc := ⟨.hbm, 210, rfl⟩
abbrev main_v132 : Ref sig .tc := ⟨.hbm, 211, rfl⟩
abbrev main_c_38 : Ref sig .tc := ⟨.hbm, 212, rfl⟩
abbrev main_v133 : Ref sig .tc := ⟨.hbm, 213, rfl⟩
abbrev main_c_39 : Ref sig .tc := ⟨.hbm, 214, rfl⟩
abbrev main_v134 : Ref sig .tc := ⟨.hbm, 215, rfl⟩
abbrev main_v135 : Ref sig .tc := ⟨.hbm, 216, rfl⟩
abbrev main_v136 : Ref sig .tc := ⟨.hbm, 217, rfl⟩
abbrev main_c_40 : Ref sig .tc := ⟨.hbm, 218, rfl⟩
abbrev main_v137 : Ref sig .tc := ⟨.hbm, 219, rfl⟩
abbrev main_c_41 : Ref sig .tc := ⟨.hbm, 220, rfl⟩
abbrev main_v138 : Ref sig .tc := ⟨.hbm, 221, rfl⟩
abbrev main_v139 : Ref sig .tc := ⟨.hbm, 222, rfl⟩
abbrev main_v140 : Ref sig .tc := ⟨.hbm, 223, rfl⟩
abbrev main_c_42 : Ref sig .tc := ⟨.hbm, 224, rfl⟩
abbrev main_v141 : Ref sig .tc := ⟨.hbm, 225, rfl⟩
abbrev main_c_43 : Ref sig .tc := ⟨.hbm, 226, rfl⟩
abbrev main_v142 : Ref sig .tc := ⟨.hbm, 227, rfl⟩
abbrev main_v143 : Ref sig .tc := ⟨.hbm, 228, rfl⟩
abbrev main_v144 : Ref sig .tc := ⟨.hbm, 229, rfl⟩
abbrev main_v145 : Ref sig .tc := ⟨.hbm, 230, rfl⟩
abbrev main_c_44 : Ref sig .tc := ⟨.hbm, 231, rfl⟩
abbrev main_v146 : Ref sig .tc := ⟨.hbm, 232, rfl⟩
abbrev main_c_45 : Ref sig .tc := ⟨.hbm, 233, rfl⟩
abbrev main_v147 : Ref sig .tc := ⟨.hbm, 234, rfl⟩
abbrev main_v148 : Ref sig .tc := ⟨.hbm, 235, rfl⟩
abbrev main_v149 : Ref sig .tc := ⟨.hbm, 236, rfl⟩
abbrev main_v150 : Ref sig .tc := ⟨.hbm, 237, rfl⟩
abbrev main_call7_v0 : Ref sig .tc := ⟨.hbm, 238, rfl⟩
abbrev main_call7_v1 : Ref sig .tc := ⟨.hbm, 239, rfl⟩
abbrev main_call7_v2 : Ref sig .tc := ⟨.hbm, 240, rfl⟩
abbrev main_call7_v3 : Ref sig .tc := ⟨.hbm, 241, rfl⟩
abbrev main_call7_v4 : Ref sig .tc := ⟨.hbm, 242, rfl⟩
abbrev main_v151 : Ref sig .tc := ⟨.hbm, 243, rfl⟩
abbrev main_v152 : Ref sig .tc := ⟨.hbm, 244, rfl⟩
abbrev main_v153 : Ref sig .tc := ⟨.hbm, 245, rfl⟩
abbrev main_v154 : Ref sig .tc := ⟨.hbm, 246, rfl⟩
abbrev main_cst_46 : Ref sig .tc := ⟨.hbm, 247, rfl⟩
abbrev main_v155 : Ref sig .tc := ⟨.hbm, 248, rfl⟩
abbrev main_v156 : Ref sig .tc := ⟨.hbm, 249, rfl⟩
abbrev main_v157 : Ref sig .tc := ⟨.hbm, 250, rfl⟩
abbrev main_c_47 : Ref sig .tc := ⟨.hbm, 251, rfl⟩
abbrev main_v158 : Ref sig .tc := ⟨.hbm, 252, rfl⟩
abbrev main_c_48 : Ref sig .tc := ⟨.hbm, 253, rfl⟩
abbrev main_v159 : Ref sig .tc := ⟨.hbm, 254, rfl⟩
abbrev main_v160 : Ref sig .tc := ⟨.hbm, 255, rfl⟩
abbrev main_v161 : Ref sig .tc := ⟨.hbm, 256, rfl⟩
abbrev main_v162 : Ref sig .tc := ⟨.hbm, 257, rfl⟩
abbrev main_call8_v0 : Ref sig .tc := ⟨.hbm, 258, rfl⟩
abbrev main_call8_v1 : Ref sig .tc := ⟨.hbm, 259, rfl⟩
abbrev main_call8_v2 : Ref sig .tc := ⟨.hbm, 260, rfl⟩
abbrev main_call8_v3 : Ref sig .tc := ⟨.hbm, 261, rfl⟩
abbrev main_call8_v4 : Ref sig .tc := ⟨.hbm, 262, rfl⟩
abbrev main_v163 : Ref sig .tc := ⟨.hbm, 263, rfl⟩
abbrev main_v164 : Ref sig .tc := ⟨.hbm, 264, rfl⟩
abbrev main_v165 : Ref sig .tc := ⟨.hbm, 265, rfl⟩
abbrev main_cst_49 : Ref sig .tc := ⟨.hbm, 266, rfl⟩
abbrev main_v166 : Ref sig .tc := ⟨.hbm, 267, rfl⟩
abbrev main_v167 : Ref sig .tc := ⟨.hbm, 268, rfl⟩
abbrev main_v168 : Ref sig .tc := ⟨.hbm, 269, rfl⟩
abbrev main_c_50 : Ref sig .tc := ⟨.hbm, 270, rfl⟩
abbrev main_v169 : Ref sig .tc := ⟨.hbm, 271, rfl⟩
abbrev main_c_51 : Ref sig .tc := ⟨.hbm, 272, rfl⟩
abbrev main_v170 : Ref sig .tc := ⟨.hbm, 273, rfl⟩
abbrev main_v171 : Ref sig .tc := ⟨.hbm, 274, rfl⟩
abbrev main_v172 : Ref sig .tc := ⟨.hbm, 275, rfl⟩
abbrev main_v173 : Ref sig .tc := ⟨.hbm, 276, rfl⟩
abbrev main_v174 : Ref sig .tc := ⟨.hbm, 277, rfl⟩
abbrev main_v175 : Ref sig .tc := ⟨.hbm, 278, rfl⟩
abbrev main_v176 : Ref sig .tc := ⟨.hbm, 279, rfl⟩
abbrev main_c_52 : Ref sig .tc := ⟨.hbm, 280, rfl⟩
abbrev main_v177 : Ref sig .tc := ⟨.hbm, 281, rfl⟩
abbrev main_c_53 : Ref sig .tc := ⟨.hbm, 282, rfl⟩
abbrev main_v178 : Ref sig .tc := ⟨.hbm, 283, rfl⟩
abbrev main_v179 : Ref sig .tc := ⟨.hbm, 284, rfl⟩
abbrev main_v180 : Ref sig .tc := ⟨.hbm, 285, rfl⟩
abbrev main_c_54 : Ref sig .tc := ⟨.hbm, 286, rfl⟩
abbrev main_v181 : Ref sig .tc := ⟨.hbm, 287, rfl⟩
abbrev main_c_55 : Ref sig .tc := ⟨.hbm, 288, rfl⟩
abbrev main_v182 : Ref sig .tc := ⟨.hbm, 289, rfl⟩
abbrev main_v183 : Ref sig .tc := ⟨.hbm, 290, rfl⟩
abbrev main_v184 : Ref sig .tc := ⟨.hbm, 291, rfl⟩
abbrev main_c_56 : Ref sig .tc := ⟨.hbm, 292, rfl⟩
abbrev main_v185 : Ref sig .tc := ⟨.hbm, 293, rfl⟩
abbrev main_c_57 : Ref sig .tc := ⟨.hbm, 294, rfl⟩
abbrev main_v186 : Ref sig .tc := ⟨.hbm, 295, rfl⟩
abbrev main_v187 : Ref sig .tc := ⟨.hbm, 296, rfl⟩
abbrev main_v188 : Ref sig .tc := ⟨.hbm, 297, rfl⟩
abbrev main_v189 : Ref sig .tc := ⟨.hbm, 298, rfl⟩
abbrev main_c_58 : Ref sig .tc := ⟨.hbm, 299, rfl⟩
abbrev main_v190 : Ref sig .tc := ⟨.hbm, 300, rfl⟩
abbrev main_c_59 : Ref sig .tc := ⟨.hbm, 301, rfl⟩
abbrev main_v191 : Ref sig .tc := ⟨.hbm, 302, rfl⟩
abbrev main_v192 : Ref sig .tc := ⟨.hbm, 303, rfl⟩
abbrev main_v193 : Ref sig .tc := ⟨.hbm, 304, rfl⟩
abbrev main_v194 : Ref sig .tc := ⟨.hbm, 305, rfl⟩
abbrev main_call9_v0 : Ref sig .tc := ⟨.hbm, 306, rfl⟩
abbrev main_call9_v1 : Ref sig .tc := ⟨.hbm, 307, rfl⟩
abbrev main_call9_v2 : Ref sig .tc := ⟨.hbm, 308, rfl⟩
abbrev main_call9_v3 : Ref sig .tc := ⟨.hbm, 309, rfl⟩
abbrev main_call9_v4 : Ref sig .tc := ⟨.hbm, 310, rfl⟩
abbrev main_v195 : Ref sig .tc := ⟨.hbm, 311, rfl⟩
abbrev main_v196 : Ref sig .tc := ⟨.hbm, 312, rfl⟩
abbrev main_v197 : Ref sig .tc := ⟨.hbm, 313, rfl⟩
abbrev main_cst_60 : Ref sig .tc := ⟨.hbm, 314, rfl⟩
abbrev main_v198 : Ref sig .tc := ⟨.hbm, 315, rfl⟩
abbrev main_v199 : Ref sig .tc := ⟨.hbm, 316, rfl⟩
abbrev main_v200 : Ref sig .tc := ⟨.hbm, 317, rfl⟩
abbrev main_c_61 : Ref sig .tc := ⟨.hbm, 318, rfl⟩
abbrev main_v201 : Ref sig .tc := ⟨.hbm, 319, rfl⟩
abbrev main_c_62 : Ref sig .tc := ⟨.hbm, 320, rfl⟩
abbrev main_v202 : Ref sig .tc := ⟨.hbm, 321, rfl⟩
abbrev main_v203 : Ref sig .tc := ⟨.hbm, 322, rfl⟩
abbrev main_v204 : Ref sig .tc := ⟨.hbm, 323, rfl⟩
abbrev main_v205 : Ref sig .tc := ⟨.hbm, 324, rfl⟩
abbrev main_v206 : Ref sig .tc := ⟨.hbm, 325, rfl⟩
abbrev main_v207 : Ref sig .tc := ⟨.hbm, 326, rfl⟩
abbrev main_v208 : Ref sig .tc := ⟨.hbm, 327, rfl⟩
abbrev main_c_63 : Ref sig .tc := ⟨.hbm, 328, rfl⟩
abbrev main_v209 : Ref sig .tc := ⟨.hbm, 329, rfl⟩
abbrev main_c_64 : Ref sig .tc := ⟨.hbm, 330, rfl⟩
abbrev main_v210 : Ref sig .tc := ⟨.hbm, 331, rfl⟩
abbrev main_v211 : Ref sig .tc := ⟨.hbm, 332, rfl⟩
abbrev main_v212 : Ref sig .tc := ⟨.hbm, 333, rfl⟩
abbrev main_c_65 : Ref sig .tc := ⟨.hbm, 334, rfl⟩
abbrev main_v213 : Ref sig .tc := ⟨.hbm, 335, rfl⟩
abbrev main_c_66 : Ref sig .tc := ⟨.hbm, 336, rfl⟩
abbrev main_v214 : Ref sig .tc := ⟨.hbm, 337, rfl⟩
abbrev main_v215 : Ref sig .tc := ⟨.hbm, 338, rfl⟩
abbrev main_v216 : Ref sig .tc := ⟨.hbm, 339, rfl⟩
abbrev main_c_67 : Ref sig .tc := ⟨.hbm, 340, rfl⟩
abbrev main_v217 : Ref sig .tc := ⟨.hbm, 341, rfl⟩
abbrev main_c_68 : Ref sig .tc := ⟨.hbm, 342, rfl⟩
abbrev main_v218 : Ref sig .tc := ⟨.hbm, 343, rfl⟩
abbrev main_v219 : Ref sig .tc := ⟨.hbm, 344, rfl⟩
abbrev main_v220 : Ref sig .tc := ⟨.hbm, 345, rfl⟩
abbrev main_v221 : Ref sig .tc := ⟨.hbm, 346, rfl⟩
abbrev main_c_69 : Ref sig .tc := ⟨.hbm, 347, rfl⟩
abbrev main_v222 : Ref sig .tc := ⟨.hbm, 348, rfl⟩
abbrev main_c_70 : Ref sig .tc := ⟨.hbm, 349, rfl⟩
abbrev main_v223 : Ref sig .tc := ⟨.hbm, 350, rfl⟩
abbrev main_v224 : Ref sig .tc := ⟨.hbm, 351, rfl⟩
abbrev main_v225 : Ref sig .tc := ⟨.hbm, 352, rfl⟩
abbrev main_v226 : Ref sig .tc := ⟨.hbm, 353, rfl⟩
abbrev main_v227 : Ref sig .tc := ⟨.hbm, 354, rfl⟩
abbrev main_v228 : Ref sig .tc := ⟨.hbm, 355, rfl⟩
abbrev main_v229 : Ref sig .tc := ⟨.hbm, 356, rfl⟩
abbrev main_c_71 : Ref sig .tc := ⟨.hbm, 357, rfl⟩
abbrev main_v230 : Ref sig .tc := ⟨.hbm, 358, rfl⟩
abbrev main_c_72 : Ref sig .tc := ⟨.hbm, 359, rfl⟩
abbrev main_v231 : Ref sig .tc := ⟨.hbm, 360, rfl⟩
abbrev main_v232 : Ref sig .tc := ⟨.hbm, 361, rfl⟩
abbrev main_v233 : Ref sig .tc := ⟨.hbm, 362, rfl⟩
abbrev main_c_73 : Ref sig .tc := ⟨.hbm, 363, rfl⟩
abbrev main_v234 : Ref sig .tc := ⟨.hbm, 364, rfl⟩
abbrev main_c_74 : Ref sig .tc := ⟨.hbm, 365, rfl⟩
abbrev main_v235 : Ref sig .tc := ⟨.hbm, 366, rfl⟩
abbrev main_v236 : Ref sig .tc := ⟨.hbm, 367, rfl⟩
abbrev main_v237 : Ref sig .tc := ⟨.hbm, 368, rfl⟩
abbrev main_c_75 : Ref sig .tc := ⟨.hbm, 369, rfl⟩
abbrev main_v238 : Ref sig .tc := ⟨.hbm, 370, rfl⟩
abbrev main_c_76 : Ref sig .tc := ⟨.hbm, 371, rfl⟩
abbrev main_v239 : Ref sig .tc := ⟨.hbm, 372, rfl⟩
abbrev main_v240 : Ref sig .tc := ⟨.hbm, 373, rfl⟩
abbrev main_v241 : Ref sig .tc := ⟨.hbm, 374, rfl⟩
abbrev main_v242 : Ref sig .tc := ⟨.hbm, 375, rfl⟩
abbrev main_c_77 : Ref sig .tc := ⟨.hbm, 376, rfl⟩
abbrev main_v243 : Ref sig .tc := ⟨.hbm, 377, rfl⟩
abbrev main_c_78 : Ref sig .tc := ⟨.hbm, 378, rfl⟩
abbrev main_v244 : Ref sig .tc := ⟨.hbm, 379, rfl⟩
abbrev main_v245 : Ref sig .tc := ⟨.hbm, 380, rfl⟩
abbrev main_v246 : Ref sig .tc := ⟨.hbm, 381, rfl⟩
abbrev main_v247 : Ref sig .tc := ⟨.hbm, 382, rfl⟩
abbrev main_call10_v0 : Ref sig .tc := ⟨.hbm, 383, rfl⟩
abbrev main_call10_v1 : Ref sig .tc := ⟨.hbm, 384, rfl⟩
abbrev main_call10_v2 : Ref sig .tc := ⟨.hbm, 385, rfl⟩
abbrev main_call10_v3 : Ref sig .tc := ⟨.hbm, 386, rfl⟩
abbrev main_call10_v4 : Ref sig .tc := ⟨.hbm, 387, rfl⟩
abbrev main_v248 : Ref sig .tc := ⟨.hbm, 388, rfl⟩
abbrev main_v249 : Ref sig .tc := ⟨.hbm, 389, rfl⟩
abbrev main_v250 : Ref sig .tc := ⟨.hbm, 390, rfl⟩
abbrev main_cst_79 : Ref sig .tc := ⟨.hbm, 391, rfl⟩
abbrev main_v251 : Ref sig .tc := ⟨.hbm, 392, rfl⟩
abbrev main_v252 : Ref sig .tc := ⟨.hbm, 393, rfl⟩
abbrev main_v253 : Ref sig .tc := ⟨.hbm, 394, rfl⟩
abbrev main_c_80 : Ref sig .tc := ⟨.hbm, 395, rfl⟩
abbrev main_v254 : Ref sig .tc := ⟨.hbm, 396, rfl⟩
abbrev main_c_81 : Ref sig .tc := ⟨.hbm, 397, rfl⟩
abbrev main_v255 : Ref sig .tc := ⟨.hbm, 398, rfl⟩
abbrev main_v256 : Ref sig .tc := ⟨.hbm, 399, rfl⟩
abbrev main_v257 : Ref sig .tc := ⟨.hbm, 400, rfl⟩
abbrev main_v258 : Ref sig .tc := ⟨.hbm, 401, rfl⟩
abbrev main_v259 : Ref sig .tc := ⟨.hbm, 402, rfl⟩
abbrev main_v260 : Ref sig .tc := ⟨.hbm, 403, rfl⟩
abbrev main_v261 : Ref sig .tc := ⟨.hbm, 404, rfl⟩
abbrev main_c_82 : Ref sig .tc := ⟨.hbm, 405, rfl⟩
abbrev main_v262 : Ref sig .tc := ⟨.hbm, 406, rfl⟩
abbrev main_c_83 : Ref sig .tc := ⟨.hbm, 407, rfl⟩
abbrev main_v263 : Ref sig .tc := ⟨.hbm, 408, rfl⟩
abbrev main_v264 : Ref sig .tc := ⟨.hbm, 409, rfl⟩
abbrev main_v265 : Ref sig .tc := ⟨.hbm, 410, rfl⟩
abbrev main_c_84 : Ref sig .tc := ⟨.hbm, 411, rfl⟩
abbrev main_v266 : Ref sig .tc := ⟨.hbm, 412, rfl⟩
abbrev main_c_85 : Ref sig .tc := ⟨.hbm, 413, rfl⟩
abbrev main_v267 : Ref sig .tc := ⟨.hbm, 414, rfl⟩
abbrev main_v268 : Ref sig .tc := ⟨.hbm, 415, rfl⟩
abbrev main_v269 : Ref sig .tc := ⟨.hbm, 416, rfl⟩
abbrev main_c_86 : Ref sig .tc := ⟨.hbm, 417, rfl⟩
abbrev main_v270 : Ref sig .tc := ⟨.hbm, 418, rfl⟩
abbrev main_c_87 : Ref sig .tc := ⟨.hbm, 419, rfl⟩
abbrev main_v271 : Ref sig .tc := ⟨.hbm, 420, rfl⟩
abbrev main_v272 : Ref sig .tc := ⟨.hbm, 421, rfl⟩
abbrev main_v273 : Ref sig .tc := ⟨.hbm, 422, rfl⟩
abbrev main_v274 : Ref sig .tc := ⟨.hbm, 423, rfl⟩
abbrev main_c_88 : Ref sig .tc := ⟨.hbm, 424, rfl⟩
abbrev main_v275 : Ref sig .tc := ⟨.hbm, 425, rfl⟩
abbrev main_c_89 : Ref sig .tc := ⟨.hbm, 426, rfl⟩
abbrev main_v276 : Ref sig .tc := ⟨.hbm, 427, rfl⟩
abbrev main_v277 : Ref sig .tc := ⟨.hbm, 428, rfl⟩
abbrev main_v278 : Ref sig .tc := ⟨.hbm, 429, rfl⟩
abbrev main_v279 : Ref sig .tc := ⟨.hbm, 430, rfl⟩
abbrev main_v280 : Ref sig .tc := ⟨.hbm, 431, rfl⟩
abbrev main_v281 : Ref sig .tc := ⟨.hbm, 432, rfl⟩
abbrev main_v282 : Ref sig .tc := ⟨.hbm, 433, rfl⟩
abbrev main_c_90 : Ref sig .tc := ⟨.hbm, 434, rfl⟩
abbrev main_v283 : Ref sig .tc := ⟨.hbm, 435, rfl⟩
abbrev main_c_91 : Ref sig .tc := ⟨.hbm, 436, rfl⟩
abbrev main_v284 : Ref sig .tc := ⟨.hbm, 437, rfl⟩
abbrev main_v285 : Ref sig .tc := ⟨.hbm, 438, rfl⟩
abbrev main_v286 : Ref sig .tc := ⟨.hbm, 439, rfl⟩
abbrev main_c_92 : Ref sig .tc := ⟨.hbm, 440, rfl⟩
abbrev main_v287 : Ref sig .tc := ⟨.hbm, 441, rfl⟩
abbrev main_c_93 : Ref sig .tc := ⟨.hbm, 442, rfl⟩
abbrev main_v288 : Ref sig .tc := ⟨.hbm, 443, rfl⟩
abbrev main_v289 : Ref sig .tc := ⟨.hbm, 444, rfl⟩
abbrev main_v290 : Ref sig .tc := ⟨.hbm, 445, rfl⟩
abbrev main_c_94 : Ref sig .tc := ⟨.hbm, 446, rfl⟩
abbrev main_v291 : Ref sig .tc := ⟨.hbm, 447, rfl⟩
abbrev main_c_95 : Ref sig .tc := ⟨.hbm, 448, rfl⟩
abbrev main_v292 : Ref sig .tc := ⟨.hbm, 449, rfl⟩
abbrev main_v293 : Ref sig .tc := ⟨.hbm, 450, rfl⟩
abbrev main_v294 : Ref sig .tc := ⟨.hbm, 451, rfl⟩
abbrev main_v295 : Ref sig .tc := ⟨.hbm, 452, rfl⟩
abbrev main_c_96 : Ref sig .tc := ⟨.hbm, 453, rfl⟩
abbrev main_v296 : Ref sig .tc := ⟨.hbm, 454, rfl⟩
abbrev main_c_97 : Ref sig .tc := ⟨.hbm, 455, rfl⟩
abbrev main_v297 : Ref sig .tc := ⟨.hbm, 456, rfl⟩
abbrev main_v298 : Ref sig .tc := ⟨.hbm, 457, rfl⟩
abbrev main_v299 : Ref sig .tc := ⟨.hbm, 458, rfl⟩
abbrev main_v300 : Ref sig .tc := ⟨.hbm, 459, rfl⟩
abbrev main_call11_v0 : Ref sig .tc := ⟨.hbm, 460, rfl⟩
abbrev main_call11_v1 : Ref sig .tc := ⟨.hbm, 461, rfl⟩
abbrev main_call11_v2 : Ref sig .tc := ⟨.hbm, 462, rfl⟩
abbrev main_call11_v3 : Ref sig .tc := ⟨.hbm, 463, rfl⟩
abbrev main_call11_v4 : Ref sig .tc := ⟨.hbm, 464, rfl⟩
abbrev main_v301 : Ref sig .tc := ⟨.hbm, 465, rfl⟩
abbrev main_v302 : Ref sig .tc := ⟨.hbm, 466, rfl⟩
abbrev main_v303 : Ref sig .tc := ⟨.hbm, 467, rfl⟩
abbrev main_v304 : Ref sig .tc := ⟨.hbm, 468, rfl⟩
abbrev main_cst_98 : Ref sig .tc := ⟨.hbm, 469, rfl⟩
abbrev main_v305 : Ref sig .tc := ⟨.hbm, 470, rfl⟩
abbrev main_v306 : Ref sig .tc := ⟨.hbm, 471, rfl⟩
abbrev main_v307 : Ref sig .tc := ⟨.hbm, 472, rfl⟩
abbrev main_c_99 : Ref sig .tc := ⟨.hbm, 473, rfl⟩
abbrev main_v308 : Ref sig .tc := ⟨.hbm, 474, rfl⟩
abbrev main_c_100 : Ref sig .tc := ⟨.hbm, 475, rfl⟩
abbrev main_v309 : Ref sig .tc := ⟨.hbm, 476, rfl⟩
abbrev main_v310 : Ref sig .tc := ⟨.hbm, 477, rfl⟩
abbrev main_v311 : Ref sig .tc := ⟨.hbm, 478, rfl⟩
abbrev main_v312 : Ref sig .tc := ⟨.hbm, 479, rfl⟩
abbrev main_call12_v0 : Ref sig .tc := ⟨.hbm, 480, rfl⟩
abbrev main_call12_v1 : Ref sig .tc := ⟨.hbm, 481, rfl⟩
abbrev main_call12_v2 : Ref sig .tc := ⟨.hbm, 482, rfl⟩
abbrev main_call12_v3 : Ref sig .tc := ⟨.hbm, 483, rfl⟩
abbrev main_call12_v4 : Ref sig .tc := ⟨.hbm, 484, rfl⟩
abbrev main_v313 : Ref sig .tc := ⟨.hbm, 485, rfl⟩
abbrev main_v314 : Ref sig .tc := ⟨.hbm, 486, rfl⟩
abbrev main_v315 : Ref sig .tc := ⟨.hbm, 487, rfl⟩
abbrev main_cst_101 : Ref sig .tc := ⟨.hbm, 488, rfl⟩
abbrev main_v316 : Ref sig .tc := ⟨.hbm, 489, rfl⟩
abbrev main_v317 : Ref sig .tc := ⟨.hbm, 490, rfl⟩
abbrev main_v318 : Ref sig .tc := ⟨.hbm, 491, rfl⟩
abbrev main_c_102 : Ref sig .tc := ⟨.hbm, 492, rfl⟩
abbrev main_v319 : Ref sig .tc := ⟨.hbm, 493, rfl⟩
abbrev main_c_103 : Ref sig .tc := ⟨.hbm, 494, rfl⟩
abbrev main_v320 : Ref sig .tc := ⟨.hbm, 495, rfl⟩
abbrev main_v321 : Ref sig .tc := ⟨.hbm, 496, rfl⟩
abbrev main_v322 : Ref sig .tc := ⟨.hbm, 497, rfl⟩
abbrev main_v323 : Ref sig .tc := ⟨.hbm, 498, rfl⟩
abbrev main_v324 : Ref sig .tc := ⟨.hbm, 499, rfl⟩
abbrev main_v325 : Ref sig .tc := ⟨.hbm, 500, rfl⟩
abbrev main_v326 : Ref sig .tc := ⟨.hbm, 501, rfl⟩
abbrev main_c_104 : Ref sig .tc := ⟨.hbm, 502, rfl⟩
abbrev main_v327 : Ref sig .tc := ⟨.hbm, 503, rfl⟩
abbrev main_c_105 : Ref sig .tc := ⟨.hbm, 504, rfl⟩
abbrev main_v328 : Ref sig .tc := ⟨.hbm, 505, rfl⟩
abbrev main_v329 : Ref sig .tc := ⟨.hbm, 506, rfl⟩
abbrev main_v330 : Ref sig .tc := ⟨.hbm, 507, rfl⟩
abbrev main_c_106 : Ref sig .tc := ⟨.hbm, 508, rfl⟩
abbrev main_v331 : Ref sig .tc := ⟨.hbm, 509, rfl⟩
abbrev main_c_107 : Ref sig .tc := ⟨.hbm, 510, rfl⟩
abbrev main_v332 : Ref sig .tc := ⟨.hbm, 511, rfl⟩
abbrev main_v333 : Ref sig .tc := ⟨.hbm, 512, rfl⟩
abbrev main_v334 : Ref sig .tc := ⟨.hbm, 513, rfl⟩
abbrev main_c_108 : Ref sig .tc := ⟨.hbm, 514, rfl⟩
abbrev main_v335 : Ref sig .tc := ⟨.hbm, 515, rfl⟩
abbrev main_c_109 : Ref sig .tc := ⟨.hbm, 516, rfl⟩
abbrev main_v336 : Ref sig .tc := ⟨.hbm, 517, rfl⟩
abbrev main_v337 : Ref sig .tc := ⟨.hbm, 518, rfl⟩
abbrev main_v338 : Ref sig .tc := ⟨.hbm, 519, rfl⟩
abbrev main_v339 : Ref sig .tc := ⟨.hbm, 520, rfl⟩
abbrev main_c_110 : Ref sig .tc := ⟨.hbm, 521, rfl⟩
abbrev main_v340 : Ref sig .tc := ⟨.hbm, 522, rfl⟩
abbrev main_c_111 : Ref sig .tc := ⟨.hbm, 523, rfl⟩
abbrev main_v341 : Ref sig .tc := ⟨.hbm, 524, rfl⟩
abbrev main_v342 : Ref sig .tc := ⟨.hbm, 525, rfl⟩
abbrev main_v343 : Ref sig .tc := ⟨.hbm, 526, rfl⟩
abbrev main_v344 : Ref sig .tc := ⟨.hbm, 527, rfl⟩
abbrev main_call13_v0 : Ref sig .tc := ⟨.hbm, 528, rfl⟩
abbrev main_call13_v1 : Ref sig .tc := ⟨.hbm, 529, rfl⟩
abbrev main_call13_v2 : Ref sig .tc := ⟨.hbm, 530, rfl⟩
abbrev main_call13_v3 : Ref sig .tc := ⟨.hbm, 531, rfl⟩
abbrev main_call13_v4 : Ref sig .tc := ⟨.hbm, 532, rfl⟩
abbrev main_v345 : Ref sig .tc := ⟨.hbm, 533, rfl⟩
abbrev main_v346 : Ref sig .tc := ⟨.hbm, 534, rfl⟩
abbrev main_v347 : Ref sig .tc := ⟨.hbm, 535, rfl⟩
abbrev main_cst_112 : Ref sig .tc := ⟨.hbm, 536, rfl⟩
abbrev main_v348 : Ref sig .tc := ⟨.hbm, 537, rfl⟩
abbrev main_v349 : Ref sig .tc := ⟨.hbm, 538, rfl⟩
abbrev main_v350 : Ref sig .tc := ⟨.hbm, 539, rfl⟩
abbrev main_c_113 : Ref sig .tc := ⟨.hbm, 540, rfl⟩
abbrev main_v351 : Ref sig .tc := ⟨.hbm, 541, rfl⟩
abbrev main_c_114 : Ref sig .tc := ⟨.hbm, 542, rfl⟩
abbrev main_v352 : Ref sig .tc := ⟨.hbm, 543, rfl⟩
abbrev main_v353 : Ref sig .tc := ⟨.hbm, 544, rfl⟩
abbrev main_v354 : Ref sig .tc := ⟨.hbm, 545, rfl⟩
abbrev main_v355 : Ref sig .tc := ⟨.hbm, 546, rfl⟩
abbrev main_v356 : Ref sig .tc := ⟨.hbm, 547, rfl⟩
abbrev main_v357 : Ref sig .tc := ⟨.hbm, 548, rfl⟩
abbrev main_v358 : Ref sig .tc := ⟨.hbm, 549, rfl⟩
abbrev main_c_115 : Ref sig .tc := ⟨.hbm, 550, rfl⟩
abbrev main_v359 : Ref sig .tc := ⟨.hbm, 551, rfl⟩
abbrev main_c_116 : Ref sig .tc := ⟨.hbm, 552, rfl⟩
abbrev main_v360 : Ref sig .tc := ⟨.hbm, 553, rfl⟩
abbrev main_v361 : Ref sig .tc := ⟨.hbm, 554, rfl⟩
abbrev main_v362 : Ref sig .tc := ⟨.hbm, 555, rfl⟩
abbrev main_c_117 : Ref sig .tc := ⟨.hbm, 556, rfl⟩
abbrev main_v363 : Ref sig .tc := ⟨.hbm, 557, rfl⟩
abbrev main_c_118 : Ref sig .tc := ⟨.hbm, 558, rfl⟩
abbrev main_v364 : Ref sig .tc := ⟨.hbm, 559, rfl⟩
abbrev main_v365 : Ref sig .tc := ⟨.hbm, 560, rfl⟩
abbrev main_v366 : Ref sig .tc := ⟨.hbm, 561, rfl⟩
abbrev main_c_119 : Ref sig .tc := ⟨.hbm, 562, rfl⟩
abbrev main_v367 : Ref sig .tc := ⟨.hbm, 563, rfl⟩
abbrev main_c_120 : Ref sig .tc := ⟨.hbm, 564, rfl⟩
abbrev main_v368 : Ref sig .tc := ⟨.hbm, 565, rfl⟩
abbrev main_v369 : Ref sig .tc := ⟨.hbm, 566, rfl⟩
abbrev main_v370 : Ref sig .tc := ⟨.hbm, 567, rfl⟩
abbrev main_v371 : Ref sig .tc := ⟨.hbm, 568, rfl⟩
abbrev main_c_121 : Ref sig .tc := ⟨.hbm, 569, rfl⟩
abbrev main_v372 : Ref sig .tc := ⟨.hbm, 570, rfl⟩
abbrev main_c_122 : Ref sig .tc := ⟨.hbm, 571, rfl⟩
abbrev main_v373 : Ref sig .tc := ⟨.hbm, 572, rfl⟩
abbrev main_v374 : Ref sig .tc := ⟨.hbm, 573, rfl⟩
abbrev main_v375 : Ref sig .tc := ⟨.hbm, 574, rfl⟩
abbrev main_v376 : Ref sig .tc := ⟨.hbm, 575, rfl⟩
abbrev main_v377 : Ref sig .tc := ⟨.hbm, 576, rfl⟩
abbrev main_v378 : Ref sig .tc := ⟨.hbm, 577, rfl⟩
abbrev main_v379 : Ref sig .tc := ⟨.hbm, 578, rfl⟩
abbrev main_c_123 : Ref sig .tc := ⟨.hbm, 579, rfl⟩
abbrev main_v380 : Ref sig .tc := ⟨.hbm, 580, rfl⟩
abbrev main_c_124 : Ref sig .tc := ⟨.hbm, 581, rfl⟩
abbrev main_v381 : Ref sig .tc := ⟨.hbm, 582, rfl⟩
abbrev main_v382 : Ref sig .tc := ⟨.hbm, 583, rfl⟩
abbrev main_v383 : Ref sig .tc := ⟨.hbm, 584, rfl⟩
abbrev main_c_125 : Ref sig .tc := ⟨.hbm, 585, rfl⟩
abbrev main_v384 : Ref sig .tc := ⟨.hbm, 586, rfl⟩
abbrev main_c_126 : Ref sig .tc := ⟨.hbm, 587, rfl⟩
abbrev main_v385 : Ref sig .tc := ⟨.hbm, 588, rfl⟩
abbrev main_v386 : Ref sig .tc := ⟨.hbm, 589, rfl⟩
abbrev main_v387 : Ref sig .tc := ⟨.hbm, 590, rfl⟩
abbrev main_c_127 : Ref sig .tc := ⟨.hbm, 591, rfl⟩
abbrev main_v388 : Ref sig .tc := ⟨.hbm, 592, rfl⟩
abbrev main_c_128 : Ref sig .tc := ⟨.hbm, 593, rfl⟩
abbrev main_v389 : Ref sig .tc := ⟨.hbm, 594, rfl⟩
abbrev main_v390 : Ref sig .tc := ⟨.hbm, 595, rfl⟩
abbrev main_v391 : Ref sig .tc := ⟨.hbm, 596, rfl⟩
abbrev main_v392 : Ref sig .tc := ⟨.hbm, 597, rfl⟩
abbrev main_c_129 : Ref sig .tc := ⟨.hbm, 598, rfl⟩
abbrev main_v393 : Ref sig .tc := ⟨.hbm, 599, rfl⟩
abbrev main_c_130 : Ref sig .tc := ⟨.hbm, 600, rfl⟩
abbrev main_v394 : Ref sig .tc := ⟨.hbm, 601, rfl⟩
abbrev main_v395 : Ref sig .tc := ⟨.hbm, 602, rfl⟩
abbrev main_v396 : Ref sig .tc := ⟨.hbm, 603, rfl⟩
abbrev main_v397 : Ref sig .tc := ⟨.hbm, 604, rfl⟩
abbrev main_call14_v0 : Ref sig .tc := ⟨.hbm, 605, rfl⟩
abbrev main_call14_v1 : Ref sig .tc := ⟨.hbm, 606, rfl⟩
abbrev main_call14_v2 : Ref sig .tc := ⟨.hbm, 607, rfl⟩
abbrev main_call14_v3 : Ref sig .tc := ⟨.hbm, 608, rfl⟩
abbrev main_call14_v4 : Ref sig .tc := ⟨.hbm, 609, rfl⟩
abbrev main_v398 : Ref sig .tc := ⟨.hbm, 610, rfl⟩
abbrev main_v399 : Ref sig .tc := ⟨.hbm, 611, rfl⟩
abbrev main_v400 : Ref sig .tc := ⟨.hbm, 612, rfl⟩
abbrev main_cst_131 : Ref sig .tc := ⟨.hbm, 613, rfl⟩
abbrev main_v401 : Ref sig .tc := ⟨.hbm, 614, rfl⟩
abbrev main_v402 : Ref sig .tc := ⟨.hbm, 615, rfl⟩
abbrev main_v403 : Ref sig .tc := ⟨.hbm, 616, rfl⟩
abbrev main_c_132 : Ref sig .tc := ⟨.hbm, 617, rfl⟩
abbrev main_v404 : Ref sig .tc := ⟨.hbm, 618, rfl⟩
abbrev main_c_133 : Ref sig .tc := ⟨.hbm, 619, rfl⟩
abbrev main_v405 : Ref sig .tc := ⟨.hbm, 620, rfl⟩
abbrev main_v406 : Ref sig .tc := ⟨.hbm, 621, rfl⟩
abbrev main_v407 : Ref sig .tc := ⟨.hbm, 622, rfl⟩
abbrev main_v408 : Ref sig .tc := ⟨.hbm, 623, rfl⟩
abbrev main_v409 : Ref sig .tc := ⟨.hbm, 624, rfl⟩
abbrev main_v410 : Ref sig .tc := ⟨.hbm, 625, rfl⟩
abbrev main_v411 : Ref sig .tc := ⟨.hbm, 626, rfl⟩
abbrev main_c_134 : Ref sig .tc := ⟨.hbm, 627, rfl⟩
abbrev main_v412 : Ref sig .tc := ⟨.hbm, 628, rfl⟩
abbrev main_c_135 : Ref sig .tc := ⟨.hbm, 629, rfl⟩
abbrev main_v413 : Ref sig .tc := ⟨.hbm, 630, rfl⟩
abbrev main_v414 : Ref sig .tc := ⟨.hbm, 631, rfl⟩
abbrev main_v415 : Ref sig .tc := ⟨.hbm, 632, rfl⟩
abbrev main_c_136 : Ref sig .tc := ⟨.hbm, 633, rfl⟩
abbrev main_v416 : Ref sig .tc := ⟨.hbm, 634, rfl⟩
abbrev main_c_137 : Ref sig .tc := ⟨.hbm, 635, rfl⟩
abbrev main_v417 : Ref sig .tc := ⟨.hbm, 636, rfl⟩
abbrev main_v418 : Ref sig .tc := ⟨.hbm, 637, rfl⟩
abbrev main_v419 : Ref sig .tc := ⟨.hbm, 638, rfl⟩
abbrev main_c_138 : Ref sig .tc := ⟨.hbm, 639, rfl⟩
abbrev main_v420 : Ref sig .tc := ⟨.hbm, 640, rfl⟩
abbrev main_c_139 : Ref sig .tc := ⟨.hbm, 641, rfl⟩
abbrev main_v421 : Ref sig .tc := ⟨.hbm, 642, rfl⟩
abbrev main_v422 : Ref sig .tc := ⟨.hbm, 643, rfl⟩
abbrev main_v423 : Ref sig .tc := ⟨.hbm, 644, rfl⟩
abbrev main_v424 : Ref sig .tc := ⟨.hbm, 645, rfl⟩
abbrev main_c_140 : Ref sig .tc := ⟨.hbm, 646, rfl⟩
abbrev main_v425 : Ref sig .tc := ⟨.hbm, 647, rfl⟩
abbrev main_c_141 : Ref sig .tc := ⟨.hbm, 648, rfl⟩
abbrev main_v426 : Ref sig .tc := ⟨.hbm, 649, rfl⟩
abbrev main_v427 : Ref sig .tc := ⟨.hbm, 650, rfl⟩
abbrev main_v428 : Ref sig .tc := ⟨.hbm, 651, rfl⟩
abbrev main_v429 : Ref sig .tc := ⟨.hbm, 652, rfl⟩
abbrev main_v430 : Ref sig .tc := ⟨.hbm, 653, rfl⟩
abbrev main_v431 : Ref sig .tc := ⟨.hbm, 654, rfl⟩
abbrev main_v432 : Ref sig .tc := ⟨.hbm, 655, rfl⟩
abbrev main_c_142 : Ref sig .tc := ⟨.hbm, 656, rfl⟩
abbrev main_v433 : Ref sig .tc := ⟨.hbm, 657, rfl⟩
abbrev main_c_143 : Ref sig .tc := ⟨.hbm, 658, rfl⟩
abbrev main_v434 : Ref sig .tc := ⟨.hbm, 659, rfl⟩
abbrev main_v435 : Ref sig .tc := ⟨.hbm, 660, rfl⟩
abbrev main_v436 : Ref sig .tc := ⟨.hbm, 661, rfl⟩
abbrev main_c_144 : Ref sig .tc := ⟨.hbm, 662, rfl⟩
abbrev main_v437 : Ref sig .tc := ⟨.hbm, 663, rfl⟩
abbrev main_c_145 : Ref sig .tc := ⟨.hbm, 664, rfl⟩
abbrev main_v438 : Ref sig .tc := ⟨.hbm, 665, rfl⟩
abbrev main_v439 : Ref sig .tc := ⟨.hbm, 666, rfl⟩
abbrev main_v440 : Ref sig .tc := ⟨.hbm, 667, rfl⟩
abbrev main_c_146 : Ref sig .tc := ⟨.hbm, 668, rfl⟩
abbrev main_v441 : Ref sig .tc := ⟨.hbm, 669, rfl⟩
abbrev main_c_147 : Ref sig .tc := ⟨.hbm, 670, rfl⟩
abbrev main_v442 : Ref sig .tc := ⟨.hbm, 671, rfl⟩
abbrev main_v443 : Ref sig .tc := ⟨.hbm, 672, rfl⟩
abbrev main_v444 : Ref sig .tc := ⟨.hbm, 673, rfl⟩
abbrev main_v445 : Ref sig .tc := ⟨.hbm, 674, rfl⟩
abbrev main_c_148 : Ref sig .tc := ⟨.hbm, 675, rfl⟩
abbrev main_v446 : Ref sig .tc := ⟨.hbm, 676, rfl⟩
abbrev main_c_149 : Ref sig .tc := ⟨.hbm, 677, rfl⟩
abbrev main_v447 : Ref sig .tc := ⟨.hbm, 678, rfl⟩
abbrev main_v448 : Ref sig .tc := ⟨.hbm, 679, rfl⟩
abbrev main_v449 : Ref sig .tc := ⟨.hbm, 680, rfl⟩
abbrev main_v450 : Ref sig .tc := ⟨.hbm, 681, rfl⟩
abbrev main_v451 : Ref sig .tc := ⟨.hbm, 682, rfl⟩
abbrev main_v452 : Ref sig .tc := ⟨.hbm, 683, rfl⟩
abbrev main_v453 : Ref sig .tc := ⟨.hbm, 684, rfl⟩
abbrev main_c_150 : Ref sig .tc := ⟨.hbm, 685, rfl⟩
abbrev main_v454 : Ref sig .tc := ⟨.hbm, 686, rfl⟩
abbrev main_c_151 : Ref sig .tc := ⟨.hbm, 687, rfl⟩
abbrev main_v455 : Ref sig .tc := ⟨.hbm, 688, rfl⟩
abbrev main_v456 : Ref sig .tc := ⟨.hbm, 689, rfl⟩
abbrev main_v457 : Ref sig .tc := ⟨.hbm, 690, rfl⟩
abbrev main_c_152 : Ref sig .tc := ⟨.hbm, 691, rfl⟩
abbrev main_v458 : Ref sig .tc := ⟨.hbm, 692, rfl⟩
abbrev main_c_153 : Ref sig .tc := ⟨.hbm, 693, rfl⟩
abbrev main_v459 : Ref sig .tc := ⟨.hbm, 694, rfl⟩
abbrev main_v460 : Ref sig .tc := ⟨.hbm, 695, rfl⟩
abbrev main_v461 : Ref sig .tc := ⟨.hbm, 696, rfl⟩
abbrev main_c_154 : Ref sig .tc := ⟨.hbm, 697, rfl⟩
abbrev main_v462 : Ref sig .tc := ⟨.hbm, 698, rfl⟩
abbrev main_c_155 : Ref sig .tc := ⟨.hbm, 699, rfl⟩
abbrev main_v463 : Ref sig .tc := ⟨.hbm, 700, rfl⟩
abbrev main_v464 : Ref sig .tc := ⟨.hbm, 701, rfl⟩
abbrev main_v465 : Ref sig .tc := ⟨.hbm, 702, rfl⟩
abbrev main_v466 : Ref sig .tc := ⟨.hbm, 703, rfl⟩
abbrev main_c_156 : Ref sig .tc := ⟨.hbm, 704, rfl⟩
abbrev main_v467 : Ref sig .tc := ⟨.hbm, 705, rfl⟩
abbrev main_c_157 : Ref sig .tc := ⟨.hbm, 706, rfl⟩
abbrev main_v468 : Ref sig .tc := ⟨.hbm, 707, rfl⟩
abbrev main_v469 : Ref sig .tc := ⟨.hbm, 708, rfl⟩
abbrev main_v470 : Ref sig .tc := ⟨.hbm, 709, rfl⟩
abbrev main_v471 : Ref sig .tc := ⟨.hbm, 710, rfl⟩
abbrev main_call15_v0 : Ref sig .tc := ⟨.hbm, 711, rfl⟩
abbrev main_call15_v1 : Ref sig .tc := ⟨.hbm, 712, rfl⟩
abbrev main_call15_v2 : Ref sig .tc := ⟨.hbm, 713, rfl⟩
abbrev main_call15_v3 : Ref sig .tc := ⟨.hbm, 714, rfl⟩
abbrev main_call15_v4 : Ref sig .tc := ⟨.hbm, 715, rfl⟩
abbrev main_v472 : Ref sig .tc := ⟨.hbm, 716, rfl⟩
abbrev main_v473 : Ref sig .tc := ⟨.hbm, 717, rfl⟩
abbrev main_v474 : Ref sig .tc := ⟨.hbm, 718, rfl⟩
abbrev main_v475 : Ref sig .tc := ⟨.hbm, 719, rfl⟩
abbrev main_v476 : Ref sig .tc := ⟨.hbm, 720, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S65536_S4096_0 : S65536.Slices ![0] S4096
  shapeCasts_S4096_S64x64 : S4096.ShapeCasts S64x64
  bcast_S_S1x1 : S_.BroadcastsInDim S1x1 (![] : Fin 0 → Fin S1x1.rank)
  slices_S16_S1_0 : S16.Slices ![0] S1
  shapeCasts_S1_S_ : S1.ShapeCasts S_
  bcast_S_S1 : S_.BroadcastsInDim S1 (![] : Fin 0 → Fin S1.rank)
  concatenates_S1_S1_S2_d0 : Shape.Concatenates [S1, S1] S2 0
  transposes_S64x64_S64x64_1_0 : S64x64.Transposes [1, 0] S64x64
  bcast_S64x64_S64x1x64x1_0_2 : S64x64.BroadcastsInDim S64x1x64x1 (![0, 2] : Fin 2 → Fin S64x1x64x1.rank)
  bcast_S1x1_S1x1x1x1_1_3 : S1x1.BroadcastsInDim S1x1x1x1 (![1, 3] : Fin 2 → Fin S1x1x1x1.rank)
  bcast_S1x1x1x1_S64x1x64x1_0_1_2_3 : S1x1x1x1.BroadcastsInDim S64x1x64x1 (![0, 1, 2, 3] : Fin 4 → Fin S64x1x64x1.rank)
  shapeCasts_S64x1x64x1_S64x64 : S64x1x64x1.ShapeCasts S64x64
  slices_S65536_S4096_16384 : S65536.Slices ![16384] S4096
  bcast_S_S1x3 : S_.BroadcastsInDim S1x3 (![] : Fin 0 → Fin S1x3.rank)
  slices_S16_S1_4 : S16.Slices ![4] S1
  bcast_S1x3_S1x1x1x3_1_3 : S1x3.BroadcastsInDim S1x1x1x3 (![1, 3] : Fin 2 → Fin S1x1x1x3.rank)
  bcast_S64x1x64x1_S64x1x64x3_0_1_2_3 : S64x1x64x1.BroadcastsInDim S64x1x64x3 (![0, 1, 2, 3] : Fin 4 → Fin S64x1x64x3.rank)
  bcast_S1x1x1x3_S64x1x64x3_0_1_2_3 : S1x1x1x3.BroadcastsInDim S64x1x64x3 (![0, 1, 2, 3] : Fin 4 → Fin S64x1x64x3.rank)
  shapeCasts_S64x1x64x3_S64x192 : S64x1x64x3.ShapeCasts S64x192
  slices_S65536_S4096_32768 : S65536.Slices ![32768] S4096
  bcast_S_S1x5 : S_.BroadcastsInDim S1x5 (![] : Fin 0 → Fin S1x5.rank)
  slices_S16_S1_8 : S16.Slices ![8] S1
  bcast_S1x5_S1x1x1x5_1_3 : S1x5.BroadcastsInDim S1x1x1x5 (![1, 3] : Fin 2 → Fin S1x1x1x5.rank)
  bcast_S64x1x64x1_S64x1x64x5_0_1_2_3 : S64x1x64x1.BroadcastsInDim S64x1x64x5 (![0, 1, 2, 3] : Fin 4 → Fin S64x1x64x5.rank)
  bcast_S1x1x1x5_S64x1x64x5_0_1_2_3 : S1x1x1x5.BroadcastsInDim S64x1x64x5 (![0, 1, 2, 3] : Fin 4 → Fin S64x1x64x5.rank)
  shapeCasts_S64x1x64x5_S64x320 : S64x1x64x5.ShapeCasts S64x320
  slices_S65536_S4096_49152 : S65536.Slices ![49152] S4096
  bcast_S_S1x7 : S_.BroadcastsInDim S1x7 (![] : Fin 0 → Fin S1x7.rank)
  slices_S16_S1_12 : S16.Slices ![12] S1
  bcast_S1x7_S1x1x1x7_1_3 : S1x7.BroadcastsInDim S1x1x1x7 (![1, 3] : Fin 2 → Fin S1x1x1x7.rank)
  bcast_S64x1x64x1_S64x1x64x7_0_1_2_3 : S64x1x64x1.BroadcastsInDim S64x1x64x7 (![0, 1, 2, 3] : Fin 4 → Fin S64x1x64x7.rank)
  bcast_S1x1x1x7_S64x1x64x7_0_1_2_3 : S1x1x1x7.BroadcastsInDim S64x1x64x7 (![0, 1, 2, 3] : Fin 4 → Fin S64x1x64x7.rank)
  shapeCasts_S64x1x64x7_S64x448 : S64x1x64x7.ShapeCasts S64x448
  concatenates_S64x64_S64x192_S64x320_S64x448_S64x1024_d1 : Shape.Concatenates [S64x64, S64x192, S64x320, S64x448] S64x1024 1
  slices_S65536_S4096_4096 : S65536.Slices ![4096] S4096
  bcast_S_S3x1 : S_.BroadcastsInDim S3x1 (![] : Fin 0 → Fin S3x1.rank)
  slices_S16_S1_1 : S16.Slices ![1] S1
  bcast_S3x1_S1x3x1x1_1_3 : S3x1.BroadcastsInDim S1x3x1x1 (![1, 3] : Fin 2 → Fin S1x3x1x1.rank)
  bcast_S64x1x64x1_S64x3x64x1_0_1_2_3 : S64x1x64x1.BroadcastsInDim S64x3x64x1 (![0, 1, 2, 3] : Fin 4 → Fin S64x3x64x1.rank)
  bcast_S1x3x1x1_S64x3x64x1_0_1_2_3 : S1x3x1x1.BroadcastsInDim S64x3x64x1 (![0, 1, 2, 3] : Fin 4 → Fin S64x3x64x1.rank)
  shapeCasts_S64x3x64x1_S192x64 : S64x3x64x1.ShapeCasts S192x64
  slices_S65536_S4096_20480 : S65536.Slices ![20480] S4096
  bcast_S_S3x3 : S_.BroadcastsInDim S3x3 (![] : Fin 0 → Fin S3x3.rank)
  slices_S16_S1_5 : S16.Slices ![5] S1
  slices_S16x3_S1x1_5_0 : S16x3.Slices ![5, 0] S1x1
  shapeCasts_S1x1_S_ : S1x1.ShapeCasts S_
  bcast_S3x3_S1x3x1x3_1_3 : S3x3.BroadcastsInDim S1x3x1x3 (![1, 3] : Fin 2 → Fin S1x3x1x3.rank)
  bcast_S64x1x64x1_S64x3x64x3_0_1_2_3 : S64x1x64x1.BroadcastsInDim S64x3x64x3 (![0, 1, 2, 3] : Fin 4 → Fin S64x3x64x3.rank)
  bcast_S1x3x1x3_S64x3x64x3_0_1_2_3 : S1x3x1x3.BroadcastsInDim S64x3x64x3 (![0, 1, 2, 3] : Fin 4 → Fin S64x3x64x3.rank)
  shapeCasts_S64x3x64x3_S192x192 : S64x3x64x3.ShapeCasts S192x192
  slices_S65536_S4096_36864 : S65536.Slices ![36864] S4096
  bcast_S_S3x5 : S_.BroadcastsInDim S3x5 (![] : Fin 0 → Fin S3x5.rank)
  slices_S16_S1_9 : S16.Slices ![9] S1
  slices_S16x3_S1x1_9_0 : S16x3.Slices ![9, 0] S1x1
  bcast_S3x5_S1x3x1x5_1_3 : S3x5.BroadcastsInDim S1x3x1x5 (![1, 3] : Fin 2 → Fin S1x3x1x5.rank)
  bcast_S64x1x64x1_S64x3x64x5_0_1_2_3 : S64x1x64x1.BroadcastsInDim S64x3x64x5 (![0, 1, 2, 3] : Fin 4 → Fin S64x3x64x5.rank)
  bcast_S1x3x1x5_S64x3x64x5_0_1_2_3 : S1x3x1x5.BroadcastsInDim S64x3x64x5 (![0, 1, 2, 3] : Fin 4 → Fin S64x3x64x5.rank)
  shapeCasts_S64x3x64x5_S192x320 : S64x3x64x5.ShapeCasts S192x320
  slices_S65536_S4096_53248 : S65536.Slices ![53248] S4096
  bcast_S_S3x7 : S_.BroadcastsInDim S3x7 (![] : Fin 0 → Fin S3x7.rank)
  slices_S16_S1_13 : S16.Slices ![13] S1
  slices_S16x3_S1x1_13_0 : S16x3.Slices ![13, 0] S1x1
  bcast_S3x7_S1x3x1x7_1_3 : S3x7.BroadcastsInDim S1x3x1x7 (![1, 3] : Fin 2 → Fin S1x3x1x7.rank)
  bcast_S64x1x64x1_S64x3x64x7_0_1_2_3 : S64x1x64x1.BroadcastsInDim S64x3x64x7 (![0, 1, 2, 3] : Fin 4 → Fin S64x3x64x7.rank)
  bcast_S1x3x1x7_S64x3x64x7_0_1_2_3 : S1x3x1x7.BroadcastsInDim S64x3x64x7 (![0, 1, 2, 3] : Fin 4 → Fin S64x3x64x7.rank)
  shapeCasts_S64x3x64x7_S192x448 : S64x3x64x7.ShapeCasts S192x448
  concatenates_S192x64_S192x192_S192x320_S192x448_S192x1024_d1 : Shape.Concatenates [S192x64, S192x192, S192x320, S192x448] S192x1024 1
  slices_S65536_S4096_8192 : S65536.Slices ![8192] S4096
  bcast_S_S5x1 : S_.BroadcastsInDim S5x1 (![] : Fin 0 → Fin S5x1.rank)
  slices_S16_S1_2 : S16.Slices ![2] S1
  bcast_S5x1_S1x5x1x1_1_3 : S5x1.BroadcastsInDim S1x5x1x1 (![1, 3] : Fin 2 → Fin S1x5x1x1.rank)
  bcast_S64x1x64x1_S64x5x64x1_0_1_2_3 : S64x1x64x1.BroadcastsInDim S64x5x64x1 (![0, 1, 2, 3] : Fin 4 → Fin S64x5x64x1.rank)
  bcast_S1x5x1x1_S64x5x64x1_0_1_2_3 : S1x5x1x1.BroadcastsInDim S64x5x64x1 (![0, 1, 2, 3] : Fin 4 → Fin S64x5x64x1.rank)
  shapeCasts_S64x5x64x1_S320x64 : S64x5x64x1.ShapeCasts S320x64
  slices_S65536_S4096_24576 : S65536.Slices ![24576] S4096
  bcast_S_S5x3 : S_.BroadcastsInDim S5x3 (![] : Fin 0 → Fin S5x3.rank)
  slices_S16_S1_6 : S16.Slices ![6] S1
  slices_S16x3_S1x1_6_0 : S16x3.Slices ![6, 0] S1x1
  bcast_S5x3_S1x5x1x3_1_3 : S5x3.BroadcastsInDim S1x5x1x3 (![1, 3] : Fin 2 → Fin S1x5x1x3.rank)
  bcast_S64x1x64x1_S64x5x64x3_0_1_2_3 : S64x1x64x1.BroadcastsInDim S64x5x64x3 (![0, 1, 2, 3] : Fin 4 → Fin S64x5x64x3.rank)
  bcast_S1x5x1x3_S64x5x64x3_0_1_2_3 : S1x5x1x3.BroadcastsInDim S64x5x64x3 (![0, 1, 2, 3] : Fin 4 → Fin S64x5x64x3.rank)
  shapeCasts_S64x5x64x3_S320x192 : S64x5x64x3.ShapeCasts S320x192
  slices_S65536_S4096_40960 : S65536.Slices ![40960] S4096
  bcast_S_S5x5 : S_.BroadcastsInDim S5x5 (![] : Fin 0 → Fin S5x5.rank)
  slices_S16_S1_10 : S16.Slices ![10] S1
  slices_S16x3_S1x1_10_0 : S16x3.Slices ![10, 0] S1x1
  slices_S16x3_S1x1_10_1 : S16x3.Slices ![10, 1] S1x1
  bcast_S5x5_S1x5x1x5_1_3 : S5x5.BroadcastsInDim S1x5x1x5 (![1, 3] : Fin 2 → Fin S1x5x1x5.rank)
  bcast_S64x1x64x1_S64x5x64x5_0_1_2_3 : S64x1x64x1.BroadcastsInDim S64x5x64x5 (![0, 1, 2, 3] : Fin 4 → Fin S64x5x64x5.rank)
  bcast_S1x5x1x5_S64x5x64x5_0_1_2_3 : S1x5x1x5.BroadcastsInDim S64x5x64x5 (![0, 1, 2, 3] : Fin 4 → Fin S64x5x64x5.rank)
  shapeCasts_S64x5x64x5_S320x320 : S64x5x64x5.ShapeCasts S320x320
  slices_S65536_S4096_57344 : S65536.Slices ![57344] S4096
  bcast_S_S5x7 : S_.BroadcastsInDim S5x7 (![] : Fin 0 → Fin S5x7.rank)
  slices_S16_S1_14 : S16.Slices ![14] S1
  slices_S16x3_S1x1_14_0 : S16x3.Slices ![14, 0] S1x1
  slices_S16x3_S1x1_14_1 : S16x3.Slices ![14, 1] S1x1
  bcast_S5x7_S1x5x1x7_1_3 : S5x7.BroadcastsInDim S1x5x1x7 (![1, 3] : Fin 2 → Fin S1x5x1x7.rank)
  bcast_S64x1x64x1_S64x5x64x7_0_1_2_3 : S64x1x64x1.BroadcastsInDim S64x5x64x7 (![0, 1, 2, 3] : Fin 4 → Fin S64x5x64x7.rank)
  bcast_S1x5x1x7_S64x5x64x7_0_1_2_3 : S1x5x1x7.BroadcastsInDim S64x5x64x7 (![0, 1, 2, 3] : Fin 4 → Fin S64x5x64x7.rank)
  shapeCasts_S64x5x64x7_S320x448 : S64x5x64x7.ShapeCasts S320x448
  concatenates_S320x64_S320x192_S320x320_S320x448_S320x1024_d1 : Shape.Concatenates [S320x64, S320x192, S320x320, S320x448] S320x1024 1
  slices_S65536_S4096_12288 : S65536.Slices ![12288] S4096
  bcast_S_S7x1 : S_.BroadcastsInDim S7x1 (![] : Fin 0 → Fin S7x1.rank)
  slices_S16_S1_3 : S16.Slices ![3] S1
  bcast_S7x1_S1x7x1x1_1_3 : S7x1.BroadcastsInDim S1x7x1x1 (![1, 3] : Fin 2 → Fin S1x7x1x1.rank)
  bcast_S64x1x64x1_S64x7x64x1_0_1_2_3 : S64x1x64x1.BroadcastsInDim S64x7x64x1 (![0, 1, 2, 3] : Fin 4 → Fin S64x7x64x1.rank)
  bcast_S1x7x1x1_S64x7x64x1_0_1_2_3 : S1x7x1x1.BroadcastsInDim S64x7x64x1 (![0, 1, 2, 3] : Fin 4 → Fin S64x7x64x1.rank)
  shapeCasts_S64x7x64x1_S448x64 : S64x7x64x1.ShapeCasts S448x64
  slices_S65536_S4096_28672 : S65536.Slices ![28672] S4096
  bcast_S_S7x3 : S_.BroadcastsInDim S7x3 (![] : Fin 0 → Fin S7x3.rank)
  slices_S16_S1_7 : S16.Slices ![7] S1
  slices_S16x3_S1x1_7_0 : S16x3.Slices ![7, 0] S1x1
  bcast_S7x3_S1x7x1x3_1_3 : S7x3.BroadcastsInDim S1x7x1x3 (![1, 3] : Fin 2 → Fin S1x7x1x3.rank)
  bcast_S64x1x64x1_S64x7x64x3_0_1_2_3 : S64x1x64x1.BroadcastsInDim S64x7x64x3 (![0, 1, 2, 3] : Fin 4 → Fin S64x7x64x3.rank)
  bcast_S1x7x1x3_S64x7x64x3_0_1_2_3 : S1x7x1x3.BroadcastsInDim S64x7x64x3 (![0, 1, 2, 3] : Fin 4 → Fin S64x7x64x3.rank)
  shapeCasts_S64x7x64x3_S448x192 : S64x7x64x3.ShapeCasts S448x192
  slices_S65536_S4096_45056 : S65536.Slices ![45056] S4096
  bcast_S_S7x5 : S_.BroadcastsInDim S7x5 (![] : Fin 0 → Fin S7x5.rank)
  slices_S16_S1_11 : S16.Slices ![11] S1
  slices_S16x3_S1x1_11_0 : S16x3.Slices ![11, 0] S1x1
  slices_S16x3_S1x1_11_1 : S16x3.Slices ![11, 1] S1x1
  bcast_S7x5_S1x7x1x5_1_3 : S7x5.BroadcastsInDim S1x7x1x5 (![1, 3] : Fin 2 → Fin S1x7x1x5.rank)
  bcast_S64x1x64x1_S64x7x64x5_0_1_2_3 : S64x1x64x1.BroadcastsInDim S64x7x64x5 (![0, 1, 2, 3] : Fin 4 → Fin S64x7x64x5.rank)
  bcast_S1x7x1x5_S64x7x64x5_0_1_2_3 : S1x7x1x5.BroadcastsInDim S64x7x64x5 (![0, 1, 2, 3] : Fin 4 → Fin S64x7x64x5.rank)
  shapeCasts_S64x7x64x5_S448x320 : S64x7x64x5.ShapeCasts S448x320
  slices_S65536_S4096_61440 : S65536.Slices ![61440] S4096
  bcast_S_S7x7 : S_.BroadcastsInDim S7x7 (![] : Fin 0 → Fin S7x7.rank)
  slices_S16_S1_15 : S16.Slices ![15] S1
  slices_S16x3_S1x1_15_0 : S16x3.Slices ![15, 0] S1x1
  slices_S16x3_S1x1_15_1 : S16x3.Slices ![15, 1] S1x1
  slices_S16x3_S1x1_15_2 : S16x3.Slices ![15, 2] S1x1
  bcast_S7x7_S1x7x1x7_1_3 : S7x7.BroadcastsInDim S1x7x1x7 (![1, 3] : Fin 2 → Fin S1x7x1x7.rank)
  bcast_S64x1x64x1_S64x7x64x7_0_1_2_3 : S64x1x64x1.BroadcastsInDim S64x7x64x7 (![0, 1, 2, 3] : Fin 4 → Fin S64x7x64x7.rank)
  bcast_S1x7x1x7_S64x7x64x7_0_1_2_3 : S1x7x1x7.BroadcastsInDim S64x7x64x7 (![0, 1, 2, 3] : Fin 4 → Fin S64x7x64x7.rank)
  shapeCasts_S64x7x64x7_S448x448 : S64x7x64x7.ShapeCasts S448x448
  concatenates_S448x64_S448x192_S448x320_S448x448_S448x1024_d1 : Shape.Concatenates [S448x64, S448x192, S448x320, S448x448] S448x1024 1
  concatenates_S64x1024_S192x1024_S320x1024_S448x1024_S1024x1024_d0 : Shape.Concatenates [S64x1024, S192x1024, S320x1024, S448x1024] S1024x1024 0
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  scatter_S1x1_S2_S__n_01_01_0_wf : ScatterDims.WF S1x1 S2 S_ [] [0, 1] [0, 1] 0
  scatter_S1x3_S2_S__n_01_01_0_wf : ScatterDims.WF S1x3 S2 S_ [] [0, 1] [0, 1] 0
  scatter_S1x5_S2_S__n_01_01_0_wf : ScatterDims.WF S1x5 S2 S_ [] [0, 1] [0, 1] 0
  scatter_S1x7_S2_S__n_01_01_0_wf : ScatterDims.WF S1x7 S2 S_ [] [0, 1] [0, 1] 0
  scatter_S3x1_S2_S__n_01_01_0_wf : ScatterDims.WF S3x1 S2 S_ [] [0, 1] [0, 1] 0
  scatter_S3x3_S2_S__n_01_01_0_wf : ScatterDims.WF S3x3 S2 S_ [] [0, 1] [0, 1] 0
  scatter_S3x5_S2_S__n_01_01_0_wf : ScatterDims.WF S3x5 S2 S_ [] [0, 1] [0, 1] 0
  scatter_S3x7_S2_S__n_01_01_0_wf : ScatterDims.WF S3x7 S2 S_ [] [0, 1] [0, 1] 0
  scatter_S5x1_S2_S__n_01_01_0_wf : ScatterDims.WF S5x1 S2 S_ [] [0, 1] [0, 1] 0
  scatter_S5x3_S2_S__n_01_01_0_wf : ScatterDims.WF S5x3 S2 S_ [] [0, 1] [0, 1] 0
  scatter_S5x5_S2_S__n_01_01_0_wf : ScatterDims.WF S5x5 S2 S_ [] [0, 1] [0, 1] 0
  scatter_S5x7_S2_S__n_01_01_0_wf : ScatterDims.WF S5x7 S2 S_ [] [0, 1] [0, 1] 0
  scatter_S7x1_S2_S__n_01_01_0_wf : ScatterDims.WF S7x1 S2 S_ [] [0, 1] [0, 1] 0
  scatter_S7x3_S2_S__n_01_01_0_wf : ScatterDims.WF S7x3 S2 S_ [] [0, 1] [0, 1] 0
  scatter_S7x5_S2_S__n_01_01_0_wf : ScatterDims.WF S7x5 S2 S_ [] [0, 1] [0, 1] 0
  scatter_S7x7_S2_S__n_01_01_0_wf : ScatterDims.WF S7x7 S2 S_ [] [0, 1] [0, 1] 0
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S65536x1024.size a
  hwx0_0 : ∀ i : grid0.Coords, EltTy.bits .f32 = 32 ∨ (Rect.block (s := S65536x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S65536x1024.size a
  hwx0_2 : ∀ i : grid0.Coords, EltTy.bits .f32 = 32 ∨ (Rect.block (s := S65536x1024) S1024x1024.size (cc0_transform_2 i) (hinb0_2 i)).WholeWords (EltTy.packing .f32)

variable [Facts₀]

def scatter_S1x1_S2_S__n_01_01_0 : ScatterDims S1x1 S2 S_ where
  updateWindowDims := []
  insertedWindowDims := [0, 1]
  scatterDimsToOperandDims := [0, 1]
  indexVectorDim := 0
  wf := scatter_S1x1_S2_S__n_01_01_0_wf
def scatter_S1x3_S2_S__n_01_01_0 : ScatterDims S1x3 S2 S_ where
  updateWindowDims := []
  insertedWindowDims := [0, 1]
  scatterDimsToOperandDims := [0, 1]
  indexVectorDim := 0
  wf := scatter_S1x3_S2_S__n_01_01_0_wf
def scatter_S1x5_S2_S__n_01_01_0 : ScatterDims S1x5 S2 S_ where
  updateWindowDims := []
  insertedWindowDims := [0, 1]
  scatterDimsToOperandDims := [0, 1]
  indexVectorDim := 0
  wf := scatter_S1x5_S2_S__n_01_01_0_wf
def scatter_S1x7_S2_S__n_01_01_0 : ScatterDims S1x7 S2 S_ where
  updateWindowDims := []
  insertedWindowDims := [0, 1]
  scatterDimsToOperandDims := [0, 1]
  indexVectorDim := 0
  wf := scatter_S1x7_S2_S__n_01_01_0_wf
def scatter_S3x1_S2_S__n_01_01_0 : ScatterDims S3x1 S2 S_ where
  updateWindowDims := []
  insertedWindowDims := [0, 1]
  scatterDimsToOperandDims := [0, 1]
  indexVectorDim := 0
  wf := scatter_S3x1_S2_S__n_01_01_0_wf
def scatter_S3x3_S2_S__n_01_01_0 : ScatterDims S3x3 S2 S_ where
  updateWindowDims := []
  insertedWindowDims := [0, 1]
  scatterDimsToOperandDims := [0, 1]
  indexVectorDim := 0
  wf := scatter_S3x3_S2_S__n_01_01_0_wf
def scatter_S3x5_S2_S__n_01_01_0 : ScatterDims S3x5 S2 S_ where
  updateWindowDims := []
  insertedWindowDims := [0, 1]
  scatterDimsToOperandDims := [0, 1]
  indexVectorDim := 0
  wf := scatter_S3x5_S2_S__n_01_01_0_wf
def scatter_S3x7_S2_S__n_01_01_0 : ScatterDims S3x7 S2 S_ where
  updateWindowDims := []
  insertedWindowDims := [0, 1]
  scatterDimsToOperandDims := [0, 1]
  indexVectorDim := 0
  wf := scatter_S3x7_S2_S__n_01_01_0_wf
def scatter_S5x1_S2_S__n_01_01_0 : ScatterDims S5x1 S2 S_ where
  updateWindowDims := []
  insertedWindowDims := [0, 1]
  scatterDimsToOperandDims := [0, 1]
  indexVectorDim := 0
  wf := scatter_S5x1_S2_S__n_01_01_0_wf
def scatter_S5x3_S2_S__n_01_01_0 : ScatterDims S5x3 S2 S_ where
  updateWindowDims := []
  insertedWindowDims := [0, 1]
  scatterDimsToOperandDims := [0, 1]
  indexVectorDim := 0
  wf := scatter_S5x3_S2_S__n_01_01_0_wf
def scatter_S5x5_S2_S__n_01_01_0 : ScatterDims S5x5 S2 S_ where
  updateWindowDims := []
  insertedWindowDims := [0, 1]
  scatterDimsToOperandDims := [0, 1]
  indexVectorDim := 0
  wf := scatter_S5x5_S2_S__n_01_01_0_wf
def scatter_S5x7_S2_S__n_01_01_0 : ScatterDims S5x7 S2 S_ where
  updateWindowDims := []
  insertedWindowDims := [0, 1]
  scatterDimsToOperandDims := [0, 1]
  indexVectorDim := 0
  wf := scatter_S5x7_S2_S__n_01_01_0_wf
def scatter_S7x1_S2_S__n_01_01_0 : ScatterDims S7x1 S2 S_ where
  updateWindowDims := []
  insertedWindowDims := [0, 1]
  scatterDimsToOperandDims := [0, 1]
  indexVectorDim := 0
  wf := scatter_S7x1_S2_S__n_01_01_0_wf
def scatter_S7x3_S2_S__n_01_01_0 : ScatterDims S7x3 S2 S_ where
  updateWindowDims := []
  insertedWindowDims := [0, 1]
  scatterDimsToOperandDims := [0, 1]
  indexVectorDim := 0
  wf := scatter_S7x3_S2_S__n_01_01_0_wf
def scatter_S7x5_S2_S__n_01_01_0 : ScatterDims S7x5 S2 S_ where
  updateWindowDims := []
  insertedWindowDims := [0, 1]
  scatterDimsToOperandDims := [0, 1]
  indexVectorDim := 0
  wf := scatter_S7x5_S2_S__n_01_01_0_wf
def scatter_S7x7_S2_S__n_01_01_0 : ScatterDims S7x7 S2 S_ where
  updateWindowDims := []
  insertedWindowDims := [0, 1]
  scatterDimsToOperandDims := [0, 1]
  indexVectorDim := 0
  wf := scatter_S7x7_S2_S__n_01_01_0_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v475) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v476) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S65536 : Shape := ⟨1, ![65536]⟩
abbrev S16 : Shape := ⟨1, ![16]⟩
abbrev S16x3 : Shape := ⟨2, ![16, 3]⟩
abbrev S65536x64 : Shape := ⟨2, ![65536, 64]⟩
abbrev S65536x64x1 : Shape := ⟨3, ![65536, 64, 1]⟩
abbrev S65536x192 : Shape := ⟨2, ![65536, 192]⟩
abbrev S65536x64x3 : Shape := ⟨3, ![65536, 64, 3]⟩
abbrev S65536x320 : Shape := ⟨2, ![65536, 320]⟩
abbrev S65536x64x5 : Shape := ⟨3, ![65536, 64, 5]⟩
abbrev S65536x448 : Shape := ⟨2, ![65536, 448]⟩
abbrev S65536x64x7 : Shape := ⟨3, ![65536, 64, 7]⟩
abbrev S_ : Shape := ⟨0, ![]⟩
abbrev S4096 : Shape := ⟨1, ![4096]⟩
abbrev S64x64 : Shape := ⟨2, ![64, 64]⟩
abbrev S1 : Shape := ⟨1, ![1]⟩
abbrev S1x1 : Shape := ⟨2, ![1, 1]⟩

abbrev nBuf : Space → Nat
  | .hbm => 578
  | .vmem => 0
  | .smem => 0
  | _ => 0

abbrev hbmTy0_0 (i : Nat) : BufTy := match i % 128 with
  | 0 => ⟨S65536x1024, .f32⟩
  | 1 => ⟨S65536, .f32⟩
  | 2 => ⟨S16, .f32⟩
  | 3 => ⟨S16x3, .f32⟩
  | 4 => ⟨S16x3, .f32⟩
  | 5 => ⟨S65536x64, .f32⟩
  | 6 => ⟨S65536x64x1, .f32⟩
  | 7 => ⟨S65536x192, .f32⟩
  | 8 => ⟨S65536x64x3, .f32⟩
  | 9 => ⟨S65536x320, .f32⟩
  | 10 => ⟨S65536x64x5, .f32⟩
  | 11 => ⟨S65536x448, .f32⟩
  | 12 => ⟨S65536x64x7, .f32⟩
  | 13 => ⟨S_, .f32⟩
  | 14 => ⟨S65536x64x1, .f32⟩
  | 15 => ⟨S_, .f32⟩
  | 16 => ⟨S65536x64x3, .f32⟩
  | 17 => ⟨S_, .f32⟩
  | 18 => ⟨S65536x64x5, .f32⟩
  | 19 => ⟨S_, .f32⟩
  | 20 => ⟨S65536x64x7, .f32⟩
  | 21 => ⟨S4096, .f32⟩
  | 22 => ⟨S64x64, .f32⟩
  | 23 => ⟨S65536x64, .f32⟩
  | 24 => ⟨S65536x64, .f32⟩
  | 25 => ⟨S1, .f32⟩
  | 26 => ⟨S_, .f32⟩
  | 27 => ⟨S65536x64, .f32⟩
  | 28 => ⟨S65536x64, .f32⟩
  | 29 => ⟨S_, .i32⟩
  | 30 => ⟨S1, .i32⟩
  | 31 => ⟨S65536x64x1, .f32⟩
  | 32 => ⟨S4096, .f32⟩
  | 33 => ⟨S64x64, .f32⟩
  | 34 => ⟨S65536x64x1, .f32⟩
  | 35 => ⟨S65536x64, .f32⟩
  | 36 => ⟨S65536x64, .f32⟩
  | 37 => ⟨S1, .f32⟩
  | 38 => ⟨S_, .f32⟩
  | 39 => ⟨S65536x64, .f32⟩
  | 40 => ⟨S65536x64, .f32⟩
  | 41 => ⟨S_, .i32⟩
  | 42 => ⟨S1, .i32⟩
  | 43 => ⟨S65536x64x1, .f32⟩
  | 44 => ⟨S4096, .f32⟩
  | 45 => ⟨S64x64, .f32⟩
  | 46 => ⟨S65536x64x1, .f32⟩
  | 47 => ⟨S65536x64, .f32⟩
  | 48 => ⟨S65536x64, .f32⟩
  | 49 => ⟨S1, .f32⟩
  | 50 => ⟨S_, .f32⟩
  | 51 => ⟨S65536x64, .f32⟩
  | 52 => ⟨S65536x64, .f32⟩
  | 53 => ⟨S_, .i32⟩
  | 54 => ⟨S1, .i32⟩
  | 55 => ⟨S65536x64x1, .f32⟩
  | 56 => ⟨S4096, .f32⟩
  | 57 => ⟨S64x64, .f32⟩
  | 58 => ⟨S65536x64x1, .f32⟩
  | 59 => ⟨S65536x64, .f32⟩
  | 60 => ⟨S65536x64, .f32⟩
  | 61 => ⟨S1, .f32⟩
  | 62 => ⟨S_, .f32⟩
  | 63 => ⟨S65536x64, .f32⟩
  | 64 => ⟨S65536x64, .f32⟩
  | 65 => ⟨S_, .i32⟩
  | 66 => ⟨S1, .i32⟩
  | 67 => ⟨S65536x64x1, .f32⟩
  | 68 => ⟨S4096, .f32⟩
  | 69 => ⟨S64x64, .f32⟩
  | 70 => ⟨S65536x64, .f32⟩
  | 71 => ⟨S65536x64, .f32⟩
  | 72 => ⟨S1, .f32⟩
  | 73 => ⟨S_, .f32⟩
  | 74 => ⟨S65536x64, .f32⟩
  | 75 => ⟨S65536x64, .f32⟩
  | 76 => ⟨S_, .i32⟩
  | 77 => ⟨S1, .i32⟩
  | 78 => ⟨S65536x64x3, .f32⟩
  | 79 => ⟨S4096, .f32⟩
  | 80 => ⟨S64x64, .f32⟩
  | 81 => ⟨S65536x64x1, .f32⟩
  | 82 => ⟨S65536x64, .f32⟩
  | 83 => ⟨S65536x64, .f32⟩
  | 84 => ⟨S1, .f32⟩
  | 85 => ⟨S_, .f32⟩
  | 86 => ⟨S65536x64, .f32⟩
  | 87 => ⟨S65536x64, .f32⟩
  | 88 => ⟨S_, .i32⟩
  | 89 => ⟨S1, .i32⟩
  | 90 => ⟨S65536x64x3, .f32⟩
  | 91 => ⟨S1x1, .f32⟩
  | 92 => ⟨S_, .f32⟩
  | 93 => ⟨S1x1, .f32⟩
  | 94 => ⟨S_, .f32⟩
  | 95 => ⟨S65536x64x1, .f32⟩
  | 96 => ⟨S65536x64, .f32⟩
  | 97 => ⟨S65536x64x1, .f32⟩
  | 98 => ⟨S65536x64, .f32⟩
  | 99 => ⟨S65536x64, .f32⟩
  | 100 => ⟨S65536x64, .f32⟩
  | 101 => ⟨S65536x64, .f32⟩
  | 102 => ⟨S65536x64, .f32⟩
  | 103 => ⟨S65536x64, .f32⟩
  | 104 => ⟨S65536x64, .f32⟩
  | 105 => ⟨S_, .i32⟩
  | 106 => ⟨S1, .i32⟩
  | 107 => ⟨S65536x64x3, .f32⟩
  | 108 => ⟨S65536x64, .f32⟩
  | 109 => ⟨S65536x64, .f32⟩
  | 110 => ⟨S65536x64, .f32⟩
  | 111 => ⟨S65536x64, .f32⟩
  | 112 => ⟨S65536x64, .f32⟩
  | 113 => ⟨S65536x64, .f32⟩
  | 114 => ⟨S_, .i32⟩
  | 115 => ⟨S1, .i32⟩
  | 116 => ⟨S65536x64x3, .f32⟩
  | 117 => ⟨S4096, .f32⟩
  | 118 => ⟨S64x64, .f32⟩
  | 119 => ⟨S65536x64x1, .f32⟩
  | 120 => ⟨S65536x64, .f32⟩
  | 121 => ⟨S65536x64, .f32⟩
  | 122 => ⟨S1, .f32⟩
  | 123 => ⟨S_, .f32⟩
  | 124 => ⟨S65536x64, .f32⟩
  | 125 => ⟨S65536x64, .f32⟩
  | 126 => ⟨S_, .i32⟩
  | 127 => ⟨S1, .i32⟩
  | _ => ⟨S65536x1024, .f32⟩

abbrev hbmTy0_1 (i : Nat) : BufTy := match i % 128 with
  | 0 => ⟨S65536x64x3, .f32⟩
  | 1 => ⟨S1x1, .f32⟩
  | 2 => ⟨S_, .f32⟩
  | 3 => ⟨S1x1, .f32⟩
  | 4 => ⟨S_, .f32⟩
  | 5 => ⟨S65536x64x1, .f32⟩
  | 6 => ⟨S65536x64, .f32⟩
  | 7 => ⟨S65536x64x1, .f32⟩
  | 8 => ⟨S65536x64, .f32⟩
  | 9 => ⟨S65536x64, .f32⟩
  | 10 => ⟨S65536x64, .f32⟩
  | 11 => ⟨S65536x64, .f32⟩
  | 12 => ⟨S65536x64, .f32⟩
  | 13 => ⟨S65536x64, .f32⟩
  | 14 => ⟨S65536x64, .f32⟩
  | 15 => ⟨S_, .i32⟩
  | 16 => ⟨S1, .i32⟩
  | 17 => ⟨S65536x64x3, .f32⟩
  | 18 => ⟨S65536x64, .f32⟩
  | 19 => ⟨S65536x64, .f32⟩
  | 20 => ⟨S65536x64, .f32⟩
  | 21 => ⟨S65536x64, .f32⟩
  | 22 => ⟨S65536x64, .f32⟩
  | 23 => ⟨S65536x64, .f32⟩
  | 24 => ⟨S_, .i32⟩
  | 25 => ⟨S1, .i32⟩
  | 26 => ⟨S65536x64x3, .f32⟩
  | 27 => ⟨S4096, .f32⟩
  | 28 => ⟨S64x64, .f32⟩
  | 29 => ⟨S65536x64x1, .f32⟩
  | 30 => ⟨S65536x64, .f32⟩
  | 31 => ⟨S65536x64, .f32⟩
  | 32 => ⟨S1, .f32⟩
  | 33 => ⟨S_, .f32⟩
  | 34 => ⟨S65536x64, .f32⟩
  | 35 => ⟨S65536x64, .f32⟩
  | 36 => ⟨S_, .i32⟩
  | 37 => ⟨S1, .i32⟩
  | 38 => ⟨S65536x64x3, .f32⟩
  | 39 => ⟨S1x1, .f32⟩
  | 40 => ⟨S_, .f32⟩
  | 41 => ⟨S1x1, .f32⟩
  | 42 => ⟨S_, .f32⟩
  | 43 => ⟨S65536x64x1, .f32⟩
  | 44 => ⟨S65536x64, .f32⟩
  | 45 => ⟨S65536x64x1, .f32⟩
  | 46 => ⟨S65536x64, .f32⟩
  | 47 => ⟨S65536x64, .f32⟩
  | 48 => ⟨S65536x64, .f32⟩
  | 49 => ⟨S65536x64, .f32⟩
  | 50 => ⟨S65536x64, .f32⟩
  | 51 => ⟨S65536x64, .f32⟩
  | 52 => ⟨S65536x64, .f32⟩
  | 53 => ⟨S_, .i32⟩
  | 54 => ⟨S1, .i32⟩
  | 55 => ⟨S65536x64x3, .f32⟩
  | 56 => ⟨S65536x64, .f32⟩
  | 57 => ⟨S65536x64, .f32⟩
  | 58 => ⟨S65536x64, .f32⟩
  | 59 => ⟨S65536x64, .f32⟩
  | 60 => ⟨S65536x64, .f32⟩
  | 61 => ⟨S65536x64, .f32⟩
  | 62 => ⟨S_, .i32⟩
  | 63 => ⟨S1, .i32⟩
  | 64 => ⟨S65536x64x3, .f32⟩
  | 65 => ⟨S4096, .f32⟩
  | 66 => ⟨S64x64, .f32⟩
  | 67 => ⟨S65536x64, .f32⟩
  | 68 => ⟨S65536x64, .f32⟩
  | 69 => ⟨S1, .f32⟩
  | 70 => ⟨S_, .f32⟩
  | 71 => ⟨S65536x64, .f32⟩
  | 72 => ⟨S65536x64, .f32⟩
  | 73 => ⟨S_, .i32⟩
  | 74 => ⟨S1, .i32⟩
  | 75 => ⟨S65536x64x5, .f32⟩
  | 76 => ⟨S4096, .f32⟩
  | 77 => ⟨S64x64, .f32⟩
  | 78 => ⟨S65536x64x1, .f32⟩
  | 79 => ⟨S65536x64, .f32⟩
  | 80 => ⟨S65536x64, .f32⟩
  | 81 => ⟨S1, .f32⟩
  | 82 => ⟨S_, .f32⟩
  | 83 => ⟨S65536x64, .f32⟩
  | 84 => ⟨S65536x64, .f32⟩
  | 85 => ⟨S_, .i32⟩
  | 86 => ⟨S1, .i32⟩
  | 87 => ⟨S65536x64x5, .f32⟩
  | 88 => ⟨S1x1, .f32⟩
  | 89 => ⟨S_, .f32⟩
  | 90 => ⟨S1x1, .f32⟩
  | 91 => ⟨S_, .f32⟩
  | 92 => ⟨S65536x64x1, .f32⟩
  | 93 => ⟨S65536x64, .f32⟩
  | 94 => ⟨S65536x64x1, .f32⟩
  | 95 => ⟨S65536x64, .f32⟩
  | 96 => ⟨S65536x64, .f32⟩
  | 97 => ⟨S65536x64, .f32⟩
  | 98 => ⟨S65536x64, .f32⟩
  | 99 => ⟨S65536x64, .f32⟩
  | 100 => ⟨S65536x64, .f32⟩
  | 101 => ⟨S65536x64, .f32⟩
  | 102 => ⟨S_, .i32⟩
  | 103 => ⟨S1, .i32⟩
  | 104 => ⟨S65536x64x5, .f32⟩
  | 105 => ⟨S65536x64, .f32⟩
  | 106 => ⟨S65536x64, .f32⟩
  | 107 => ⟨S65536x64, .f32⟩
  | 108 => ⟨S65536x64, .f32⟩
  | 109 => ⟨S65536x64, .f32⟩
  | 110 => ⟨S65536x64, .f32⟩
  | 111 => ⟨S_, .i32⟩
  | 112 => ⟨S1, .i32⟩
  | 113 => ⟨S65536x64x5, .f32⟩
  | 114 => ⟨S4096, .f32⟩
  | 115 => ⟨S64x64, .f32⟩
  | 116 => ⟨S65536x64x1, .f32⟩
  | 117 => ⟨S65536x64, .f32⟩
  | 118 => ⟨S65536x64, .f32⟩
  | 119 => ⟨S1, .f32⟩
  | 120 => ⟨S_, .f32⟩
  | 121 => ⟨S65536x64, .f32⟩
  | 122 => ⟨S65536x64, .f32⟩
  | 123 => ⟨S_, .i32⟩
  | 124 => ⟨S1, .i32⟩
  | 125 => ⟨S65536x64x5, .f32⟩
  | 126 => ⟨S1x1, .f32⟩
  | 127 => ⟨S_, .f32⟩
  | _ => ⟨S65536x1024, .f32⟩

abbrev hbmTy0_2 (i : Nat) : BufTy := match i % 128 with
  | 0 => ⟨S1x1, .f32⟩
  | 1 => ⟨S_, .f32⟩
  | 2 => ⟨S65536x64x1, .f32⟩
  | 3 => ⟨S65536x64, .f32⟩
  | 4 => ⟨S65536x64x1, .f32⟩
  | 5 => ⟨S65536x64, .f32⟩
  | 6 => ⟨S65536x64, .f32⟩
  | 7 => ⟨S65536x64, .f32⟩
  | 8 => ⟨S65536x64, .f32⟩
  | 9 => ⟨S65536x64, .f32⟩
  | 10 => ⟨S65536x64, .f32⟩
  | 11 => ⟨S65536x64, .f32⟩
  | 12 => ⟨S_, .i32⟩
  | 13 => ⟨S1, .i32⟩
  | 14 => ⟨S65536x64x5, .f32⟩
  | 15 => ⟨S65536x64, .f32⟩
  | 16 => ⟨S65536x64, .f32⟩
  | 17 => ⟨S65536x64, .f32⟩
  | 18 => ⟨S65536x64, .f32⟩
  | 19 => ⟨S65536x64, .f32⟩
  | 20 => ⟨S65536x64, .f32⟩
  | 21 => ⟨S_, .i32⟩
  | 22 => ⟨S1, .i32⟩
  | 23 => ⟨S65536x64x5, .f32⟩
  | 24 => ⟨S1x1, .f32⟩
  | 25 => ⟨S_, .f32⟩
  | 26 => ⟨S1x1, .f32⟩
  | 27 => ⟨S_, .f32⟩
  | 28 => ⟨S65536x64x1, .f32⟩
  | 29 => ⟨S65536x64, .f32⟩
  | 30 => ⟨S65536x64x1, .f32⟩
  | 31 => ⟨S65536x64, .f32⟩
  | 32 => ⟨S65536x64, .f32⟩
  | 33 => ⟨S65536x64, .f32⟩
  | 34 => ⟨S65536x64, .f32⟩
  | 35 => ⟨S65536x64, .f32⟩
  | 36 => ⟨S65536x64, .f32⟩
  | 37 => ⟨S65536x64, .f32⟩
  | 38 => ⟨S_, .i32⟩
  | 39 => ⟨S1, .i32⟩
  | 40 => ⟨S65536x64x5, .f32⟩
  | 41 => ⟨S65536x64, .f32⟩
  | 42 => ⟨S65536x64, .f32⟩
  | 43 => ⟨S65536x64, .f32⟩
  | 44 => ⟨S65536x64, .f32⟩
  | 45 => ⟨S65536x64, .f32⟩
  | 46 => ⟨S65536x64, .f32⟩
  | 47 => ⟨S_, .i32⟩
  | 48 => ⟨S1, .i32⟩
  | 49 => ⟨S65536x64x5, .f32⟩
  | 50 => ⟨S4096, .f32⟩
  | 51 => ⟨S64x64, .f32⟩
  | 52 => ⟨S65536x64x1, .f32⟩
  | 53 => ⟨S65536x64, .f32⟩
  | 54 => ⟨S65536x64, .f32⟩
  | 55 => ⟨S1, .f32⟩
  | 56 => ⟨S_, .f32⟩
  | 57 => ⟨S65536x64, .f32⟩
  | 58 => ⟨S65536x64, .f32⟩
  | 59 => ⟨S_, .i32⟩
  | 60 => ⟨S1, .i32⟩
  | 61 => ⟨S65536x64x5, .f32⟩
  | 62 => ⟨S1x1, .f32⟩
  | 63 => ⟨S_, .f32⟩
  | 64 => ⟨S1x1, .f32⟩
  | 65 => ⟨S_, .f32⟩
  | 66 => ⟨S65536x64x1, .f32⟩
  | 67 => ⟨S65536x64, .f32⟩
  | 68 => ⟨S65536x64x1, .f32⟩
  | 69 => ⟨S65536x64, .f32⟩
  | 70 => ⟨S65536x64, .f32⟩
  | 71 => ⟨S65536x64, .f32⟩
  | 72 => ⟨S65536x64, .f32⟩
  | 73 => ⟨S65536x64, .f32⟩
  | 74 => ⟨S65536x64, .f32⟩
  | 75 => ⟨S65536x64, .f32⟩
  | 76 => ⟨S_, .i32⟩
  | 77 => ⟨S1, .i32⟩
  | 78 => ⟨S65536x64x5, .f32⟩
  | 79 => ⟨S65536x64, .f32⟩
  | 80 => ⟨S65536x64, .f32⟩
  | 81 => ⟨S65536x64, .f32⟩
  | 82 => ⟨S65536x64, .f32⟩
  | 83 => ⟨S65536x64, .f32⟩
  | 84 => ⟨S65536x64, .f32⟩
  | 85 => ⟨S_, .i32⟩
  | 86 => ⟨S1, .i32⟩
  | 87 => ⟨S65536x64x5, .f32⟩
  | 88 => ⟨S1x1, .f32⟩
  | 89 => ⟨S_, .f32⟩
  | 90 => ⟨S1x1, .f32⟩
  | 91 => ⟨S_, .f32⟩
  | 92 => ⟨S65536x64x1, .f32⟩
  | 93 => ⟨S65536x64, .f32⟩
  | 94 => ⟨S65536x64x1, .f32⟩
  | 95 => ⟨S65536x64, .f32⟩
  | 96 => ⟨S65536x64, .f32⟩
  | 97 => ⟨S65536x64, .f32⟩
  | 98 => ⟨S65536x64, .f32⟩
  | 99 => ⟨S65536x64, .f32⟩
  | 100 => ⟨S65536x64, .f32⟩
  | 101 => ⟨S65536x64, .f32⟩
  | 102 => ⟨S_, .i32⟩
  | 103 => ⟨S1, .i32⟩
  | 104 => ⟨S65536x64x5, .f32⟩
  | 105 => ⟨S65536x64, .f32⟩
  | 106 => ⟨S65536x64, .f32⟩
  | 107 => ⟨S65536x64, .f32⟩
  | 108 => ⟨S65536x64, .f32⟩
  | 109 => ⟨S65536x64, .f32⟩
  | 110 => ⟨S65536x64, .f32⟩
  | 111 => ⟨S_, .i32⟩
  | 112 => ⟨S1, .i32⟩
  | 113 => ⟨S65536x64x5, .f32⟩
  | 114 => ⟨S4096, .f32⟩
  | 115 => ⟨S64x64, .f32⟩
  | 116 => ⟨S65536x64, .f32⟩
  | 117 => ⟨S65536x64, .f32⟩
  | 118 => ⟨S1, .f32⟩
  | 119 => ⟨S_, .f32⟩
  | 120 => ⟨S65536x64, .f32⟩
  | 121 => ⟨S65536x64, .f32⟩
  | 122 => ⟨S_, .i32⟩
  | 123 => ⟨S1, .i32⟩
  | 124 => ⟨S65536x64x7, .f32⟩
  | 125 => ⟨S4096, .f32⟩
  | 126 => ⟨S64x64, .f32⟩
  | 127 => ⟨S65536x64x1, .f32⟩
  | _ => ⟨S65536x1024, .f32⟩

abbrev hbmTy0_3 (i : Nat) : BufTy := match i % 128 with
  | 0 => ⟨S65536x64, .f32⟩
  | 1 => ⟨S65536x64, .f32⟩
  | 2 => ⟨S1, .f32⟩
  | 3 => ⟨S_, .f32⟩
  | 4 => ⟨S65536x64, .f32⟩
  | 5 => ⟨S65536x64, .f32⟩
  | 6 => ⟨S_, .i32⟩
  | 7 => ⟨S1, .i32⟩
  | 8 => ⟨S65536x64x7, .f32⟩
  | 9 => ⟨S1x1, .f32⟩
  | 10 => ⟨S_, .f32⟩
  | 11 => ⟨S1x1, .f32⟩
  | 12 => ⟨S_, .f32⟩
  | 13 => ⟨S65536x64x1, .f32⟩
  | 14 => ⟨S65536x64, .f32⟩
  | 15 => ⟨S65536x64x1, .f32⟩
  | 16 => ⟨S65536x64, .f32⟩
  | 17 => ⟨S65536x64, .f32⟩
  | 18 => ⟨S65536x64, .f32⟩
  | 19 => ⟨S65536x64, .f32⟩
  | 20 => ⟨S65536x64, .f32⟩
  | 21 => ⟨S65536x64, .f32⟩
  | 22 => ⟨S65536x64, .f32⟩
  | 23 => ⟨S_, .i32⟩
  | 24 => ⟨S1, .i32⟩
  | 25 => ⟨S65536x64x7, .f32⟩
  | 26 => ⟨S65536x64, .f32⟩
  | 27 => ⟨S65536x64, .f32⟩
  | 28 => ⟨S65536x64, .f32⟩
  | 29 => ⟨S65536x64, .f32⟩
  | 30 => ⟨S65536x64, .f32⟩
  | 31 => ⟨S65536x64, .f32⟩
  | 32 => ⟨S_, .i32⟩
  | 33 => ⟨S1, .i32⟩
  | 34 => ⟨S65536x64x7, .f32⟩
  | 35 => ⟨S4096, .f32⟩
  | 36 => ⟨S64x64, .f32⟩
  | 37 => ⟨S65536x64x1, .f32⟩
  | 38 => ⟨S65536x64, .f32⟩
  | 39 => ⟨S65536x64, .f32⟩
  | 40 => ⟨S1, .f32⟩
  | 41 => ⟨S_, .f32⟩
  | 42 => ⟨S65536x64, .f32⟩
  | 43 => ⟨S65536x64, .f32⟩
  | 44 => ⟨S_, .i32⟩
  | 45 => ⟨S1, .i32⟩
  | 46 => ⟨S65536x64x7, .f32⟩
  | 47 => ⟨S1x1, .f32⟩
  | 48 => ⟨S_, .f32⟩
  | 49 => ⟨S1x1, .f32⟩
  | 50 => ⟨S_, .f32⟩
  | 51 => ⟨S65536x64x1, .f32⟩
  | 52 => ⟨S65536x64, .f32⟩
  | 53 => ⟨S65536x64x1, .f32⟩
  | 54 => ⟨S65536x64, .f32⟩
  | 55 => ⟨S65536x64, .f32⟩
  | 56 => ⟨S65536x64, .f32⟩
  | 57 => ⟨S65536x64, .f32⟩
  | 58 => ⟨S65536x64, .f32⟩
  | 59 => ⟨S65536x64, .f32⟩
  | 60 => ⟨S65536x64, .f32⟩
  | 61 => ⟨S_, .i32⟩
  | 62 => ⟨S1, .i32⟩
  | 63 => ⟨S65536x64x7, .f32⟩
  | 64 => ⟨S65536x64, .f32⟩
  | 65 => ⟨S65536x64, .f32⟩
  | 66 => ⟨S65536x64, .f32⟩
  | 67 => ⟨S65536x64, .f32⟩
  | 68 => ⟨S65536x64, .f32⟩
  | 69 => ⟨S65536x64, .f32⟩
  | 70 => ⟨S_, .i32⟩
  | 71 => ⟨S1, .i32⟩
  | 72 => ⟨S65536x64x7, .f32⟩
  | 73 => ⟨S1x1, .f32⟩
  | 74 => ⟨S_, .f32⟩
  | 75 => ⟨S1x1, .f32⟩
  | 76 => ⟨S_, .f32⟩
  | 77 => ⟨S65536x64x1, .f32⟩
  | 78 => ⟨S65536x64, .f32⟩
  | 79 => ⟨S65536x64x1, .f32⟩
  | 80 => ⟨S65536x64, .f32⟩
  | 81 => ⟨S65536x64, .f32⟩
  | 82 => ⟨S65536x64, .f32⟩
  | 83 => ⟨S65536x64, .f32⟩
  | 84 => ⟨S65536x64, .f32⟩
  | 85 => ⟨S65536x64, .f32⟩
  | 86 => ⟨S65536x64, .f32⟩
  | 87 => ⟨S_, .i32⟩
  | 88 => ⟨S1, .i32⟩
  | 89 => ⟨S65536x64x7, .f32⟩
  | 90 => ⟨S65536x64, .f32⟩
  | 91 => ⟨S65536x64, .f32⟩
  | 92 => ⟨S65536x64, .f32⟩
  | 93 => ⟨S65536x64, .f32⟩
  | 94 => ⟨S65536x64, .f32⟩
  | 95 => ⟨S65536x64, .f32⟩
  | 96 => ⟨S_, .i32⟩
  | 97 => ⟨S1, .i32⟩
  | 98 => ⟨S65536x64x7, .f32⟩
  | 99 => ⟨S4096, .f32⟩
  | 100 => ⟨S64x64, .f32⟩
  | 101 => ⟨S65536x64x1, .f32⟩
  | 102 => ⟨S65536x64, .f32⟩
  | 103 => ⟨S65536x64, .f32⟩
  | 104 => ⟨S1, .f32⟩
  | 105 => ⟨S_, .f32⟩
  | 106 => ⟨S65536x64, .f32⟩
  | 107 => ⟨S65536x64, .f32⟩
  | 108 => ⟨S_, .i32⟩
  | 109 => ⟨S1, .i32⟩
  | 110 => ⟨S65536x64x7, .f32⟩
  | 111 => ⟨S1x1, .f32⟩
  | 112 => ⟨S_, .f32⟩
  | 113 => ⟨S1x1, .f32⟩
  | 114 => ⟨S_, .f32⟩
  | 115 => ⟨S65536x64x1, .f32⟩
  | 116 => ⟨S65536x64, .f32⟩
  | 117 => ⟨S65536x64x1, .f32⟩
  | 118 => ⟨S65536x64, .f32⟩
  | 119 => ⟨S65536x64, .f32⟩
  | 120 => ⟨S65536x64, .f32⟩
  | 121 => ⟨S65536x64, .f32⟩
  | 122 => ⟨S65536x64, .f32⟩
  | 123 => ⟨S65536x64, .f32⟩
  | 124 => ⟨S65536x64, .f32⟩
  | 125 => ⟨S_, .i32⟩
  | 126 => ⟨S1, .i32⟩
  | 127 => ⟨S65536x64x7, .f32⟩
  | _ => ⟨S65536x1024, .f32⟩

abbrev hbmTy0_4 (i : Nat) : BufTy := match i % 128 with
  | 0 => ⟨S65536x64, .f32⟩
  | 1 => ⟨S65536x64, .f32⟩
  | 2 => ⟨S65536x64, .f32⟩
  | 3 => ⟨S65536x64, .f32⟩
  | 4 => ⟨S65536x64, .f32⟩
  | 5 => ⟨S65536x64, .f32⟩
  | 6 => ⟨S_, .i32⟩
  | 7 => ⟨S1, .i32⟩
  | 8 => ⟨S65536x64x7, .f32⟩
  | 9 => ⟨S1x1, .f32⟩
  | 10 => ⟨S_, .f32⟩
  | 11 => ⟨S1x1, .f32⟩
  | 12 => ⟨S_, .f32⟩
  | 13 => ⟨S65536x64x1, .f32⟩
  | 14 => ⟨S65536x64, .f32⟩
  | 15 => ⟨S65536x64x1, .f32⟩
  | 16 => ⟨S65536x64, .f32⟩
  | 17 => ⟨S65536x64, .f32⟩
  | 18 => ⟨S65536x64, .f32⟩
  | 19 => ⟨S65536x64, .f32⟩
  | 20 => ⟨S65536x64, .f32⟩
  | 21 => ⟨S65536x64, .f32⟩
  | 22 => ⟨S65536x64, .f32⟩
  | 23 => ⟨S_, .i32⟩
  | 24 => ⟨S1, .i32⟩
  | 25 => ⟨S65536x64x7, .f32⟩
  | 26 => ⟨S65536x64, .f32⟩
  | 27 => ⟨S65536x64, .f32⟩
  | 28 => ⟨S65536x64, .f32⟩
  | 29 => ⟨S65536x64, .f32⟩
  | 30 => ⟨S65536x64, .f32⟩
  | 31 => ⟨S65536x64, .f32⟩
  | 32 => ⟨S_, .i32⟩
  | 33 => ⟨S1, .i32⟩
  | 34 => ⟨S65536x64x7, .f32⟩
  | 35 => ⟨S1x1, .f32⟩
  | 36 => ⟨S_, .f32⟩
  | 37 => ⟨S1x1, .f32⟩
  | 38 => ⟨S_, .f32⟩
  | 39 => ⟨S65536x64x1, .f32⟩
  | 40 => ⟨S65536x64, .f32⟩
  | 41 => ⟨S65536x64x1, .f32⟩
  | 42 => ⟨S65536x64, .f32⟩
  | 43 => ⟨S65536x64, .f32⟩
  | 44 => ⟨S65536x64, .f32⟩
  | 45 => ⟨S65536x64, .f32⟩
  | 46 => ⟨S65536x64, .f32⟩
  | 47 => ⟨S65536x64, .f32⟩
  | 48 => ⟨S65536x64, .f32⟩
  | 49 => ⟨S_, .i32⟩
  | 50 => ⟨S1, .i32⟩
  | 51 => ⟨S65536x64x7, .f32⟩
  | 52 => ⟨S65536x64, .f32⟩
  | 53 => ⟨S65536x64, .f32⟩
  | 54 => ⟨S65536x64, .f32⟩
  | 55 => ⟨S65536x64, .f32⟩
  | 56 => ⟨S65536x64, .f32⟩
  | 57 => ⟨S65536x64, .f32⟩
  | 58 => ⟨S_, .i32⟩
  | 59 => ⟨S1, .i32⟩
  | 60 => ⟨S65536x64x7, .f32⟩
  | 61 => ⟨S65536x64, .f32⟩
  | 62 => ⟨S65536x192, .f32⟩
  | 63 => ⟨S65536x320, .f32⟩
  | 64 => ⟨S65536x448, .f32⟩
  | 65 => ⟨S65536x1024, .f32⟩
  | _ => ⟨S65536x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_c_4 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_c_5 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_c_6 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_c_7 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_c_8 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_c_9 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_c_10 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_c_11 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_c_12 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_c_13 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_c_14 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_c_15 : Ref sig .tc := ⟨.hbm, 190, rfl⟩
abbrev main_v168 : Ref sig .tc := ⟨.hbm, 191, rfl⟩
abbrev main_v169 : Ref sig .tc := ⟨.hbm, 192, rfl⟩
abbrev main_v170 : Ref sig .tc := ⟨.hbm, 193, rfl⟩
abbrev main_v171 : Ref sig .tc := ⟨.hbm, 194, rfl⟩
abbrev main_v172 : Ref sig .tc := ⟨.hbm, 195, rfl⟩
abbrev main_v173 : Ref sig .tc := ⟨.hbm, 196, rfl⟩
abbrev main_v174 : Ref sig .tc := ⟨.hbm, 197, rfl⟩
abbrev main_v175 : Ref sig .tc := ⟨.hbm, 198, rfl⟩
abbrev main_v176 : Ref sig .tc := ⟨.hbm, 199, rfl⟩
abbrev main_v177 : Ref sig .tc := ⟨.hbm, 200, rfl⟩
abbrev main_c_16 : Ref sig .tc := ⟨.hbm, 201, rfl⟩
abbrev main_v178 : Ref sig .tc := ⟨.hbm, 202, rfl⟩
abbrev main_v179 : Ref sig .tc := ⟨.hbm, 203, rfl⟩
abbrev main_v180 : Ref sig .tc := ⟨.hbm, 204, rfl⟩
abbrev main_v181 : Ref sig .tc := ⟨.hbm, 205, rfl⟩
abbrev main_v182 : Ref sig .tc := ⟨.hbm, 206, rfl⟩
abbrev main_v183 : Ref sig .tc := ⟨.hbm, 207, rfl⟩
abbrev main_v184 : Ref sig .tc := ⟨.hbm, 208, rfl⟩
abbrev main_v185 : Ref sig .tc := ⟨.hbm, 209, rfl⟩
abbrev main_v186 : Ref sig .tc := ⟨.hbm, 210, rfl⟩
abbrev main_v187 : Ref sig .tc := ⟨.hbm, 211, rfl⟩
abbrev main_v188 : Ref sig .tc := ⟨.hbm, 212, rfl⟩
abbrev main_c_17 : Ref sig .tc := ⟨.hbm, 213, rfl⟩
abbrev main_v189 : Ref sig .tc := ⟨.hbm, 214, rfl⟩
abbrev main_v190 : Ref sig .tc := ⟨.hbm, 215, rfl⟩
abbrev main_v191 : Ref sig .tc := ⟨.hbm, 216, rfl⟩
abbrev main_v192 : Ref sig .tc := ⟨.hbm, 217, rfl⟩
abbrev main_v193 : Ref sig .tc := ⟨.hbm, 218, rfl⟩
abbrev main_v194 : Ref sig .tc := ⟨.hbm, 219, rfl⟩
abbrev main_v195 : Ref sig .tc := ⟨.hbm, 220, rfl⟩
abbrev main_v196 : Ref sig .tc := ⟨.hbm, 221, rfl⟩
abbrev main_v197 : Ref sig .tc := ⟨.hbm, 222, rfl⟩
abbrev main_v198 : Ref sig .tc := ⟨.hbm, 223, rfl⟩
abbrev main_v199 : Ref sig .tc := ⟨.hbm, 224, rfl⟩
abbrev main_v200 : Ref sig .tc := ⟨.hbm, 225, rfl⟩
abbrev main_v201 : Ref sig .tc := ⟨.hbm, 226, rfl⟩
abbrev main_v202 : Ref sig .tc := ⟨.hbm, 227, rfl⟩
abbrev main_v203 : Ref sig .tc := ⟨.hbm, 228, rfl⟩
abbrev main_v204 : Ref sig .tc := ⟨.hbm, 229, rfl⟩
abbrev main_c_18 : Ref sig .tc := ⟨.hbm, 230, rfl⟩
abbrev main_v205 : Ref sig .tc := ⟨.hbm, 231, rfl⟩
abbrev main_v206 : Ref sig .tc := ⟨.hbm, 232, rfl⟩
abbrev main_v207 : Ref sig .tc := ⟨.hbm, 233, rfl⟩
abbrev main_v208 : Ref sig .tc := ⟨.hbm, 234, rfl⟩
abbrev main_v209 : Ref sig .tc := ⟨.hbm, 235, rfl⟩
abbrev main_v210 : Ref sig .tc := ⟨.hbm, 236, rfl⟩
abbrev main_v211 : Ref sig .tc := ⟨.hbm, 237, rfl⟩
abbrev main_v212 : Ref sig .tc := ⟨.hbm, 238, rfl⟩
abbrev main_c_19 : Ref sig .tc := ⟨.hbm, 239, rfl⟩
abbrev main_v213 : Ref sig .tc := ⟨.hbm, 240, rfl⟩
abbrev main_v214 : Ref sig .tc := ⟨.hbm, 241, rfl⟩
abbrev main_v215 : Ref sig .tc := ⟨.hbm, 242, rfl⟩
abbrev main_v216 : Ref sig .tc := ⟨.hbm, 243, rfl⟩
abbrev main_v217 : Ref sig .tc := ⟨.hbm, 244, rfl⟩
abbrev main_v218 : Ref sig .tc := ⟨.hbm, 245, rfl⟩
abbrev main_v219 : Ref sig .tc := ⟨.hbm, 246, rfl⟩
abbrev main_v220 : Ref sig .tc := ⟨.hbm, 247, rfl⟩
abbrev main_v221 : Ref sig .tc := ⟨.hbm, 248, rfl⟩
abbrev main_v222 : Ref sig .tc := ⟨.hbm, 249, rfl⟩
abbrev main_v223 : Ref sig .tc := ⟨.hbm, 250, rfl⟩
abbrev main_c_20 : Ref sig .tc := ⟨.hbm, 251, rfl⟩
abbrev main_v224 : Ref sig .tc := ⟨.hbm, 252, rfl⟩
abbrev main_v225 : Ref sig .tc := ⟨.hbm, 253, rfl⟩
abbrev main_v226 : Ref sig .tc := ⟨.hbm, 254, rfl⟩
abbrev main_v227 : Ref sig .tc := ⟨.hbm, 255, rfl⟩
abbrev main_v228 : Ref sig .tc := ⟨.hbm, 256, rfl⟩
abbrev main_v229 : Ref sig .tc := ⟨.hbm, 257, rfl⟩
abbrev main_v230 : Ref sig .tc := ⟨.hbm, 258, rfl⟩
abbrev main_v231 : Ref sig .tc := ⟨.hbm, 259, rfl⟩
abbrev main_v232 : Ref sig .tc := ⟨.hbm, 260, rfl⟩
abbrev main_v233 : Ref sig .tc := ⟨.hbm, 261, rfl⟩
abbrev main_v234 : Ref sig .tc := ⟨.hbm, 262, rfl⟩
abbrev main_v235 : Ref sig .tc := ⟨.hbm, 263, rfl⟩
abbrev main_v236 : Ref sig .tc := ⟨.hbm, 264, rfl⟩
abbrev main_v237 : Ref sig .tc := ⟨.hbm, 265, rfl⟩
abbrev main_v238 : Ref sig .tc := ⟨.hbm, 266, rfl⟩
abbrev main_v239 : Ref sig .tc := ⟨.hbm, 267, rfl⟩
abbrev main_c_21 : Ref sig .tc := ⟨.hbm, 268, rfl⟩
abbrev main_v240 : Ref sig .tc := ⟨.hbm, 269, rfl⟩
abbrev main_v241 : Ref sig .tc := ⟨.hbm, 270, rfl⟩
abbrev main_v242 : Ref sig .tc := ⟨.hbm, 271, rfl⟩
abbrev main_v243 : Ref sig .tc := ⟨.hbm, 272, rfl⟩
abbrev main_v244 : Ref sig .tc := ⟨.hbm, 273, rfl⟩
abbrev main_v245 : Ref sig .tc := ⟨.hbm, 274, rfl⟩
abbrev main_v246 : Ref sig .tc := ⟨.hbm, 275, rfl⟩
abbrev main_v247 : Ref sig .tc := ⟨.hbm, 276, rfl⟩
abbrev main_c_22 : Ref sig .tc := ⟨.hbm, 277, rfl⟩
abbrev main_v248 : Ref sig .tc := ⟨.hbm, 278, rfl⟩
abbrev main_v249 : Ref sig .tc := ⟨.hbm, 279, rfl⟩
abbrev main_v250 : Ref sig .tc := ⟨.hbm, 280, rfl⟩
abbrev main_v251 : Ref sig .tc := ⟨.hbm, 281, rfl⟩
abbrev main_v252 : Ref sig .tc := ⟨.hbm, 282, rfl⟩
abbrev main_v253 : Ref sig .tc := ⟨.hbm, 283, rfl⟩
abbrev main_v254 : Ref sig .tc := ⟨.hbm, 284, rfl⟩
abbrev main_v255 : Ref sig .tc := ⟨.hbm, 285, rfl⟩
abbrev main_v256 : Ref sig .tc := ⟨.hbm, 286, rfl⟩
abbrev main_v257 : Ref sig .tc := ⟨.hbm, 287, rfl⟩
abbrev main_v258 : Ref sig .tc := ⟨.hbm, 288, rfl⟩
abbrev main_v259 : Ref sig .tc := ⟨.hbm, 289, rfl⟩
abbrev main_v260 : Ref sig .tc := ⟨.hbm, 290, rfl⟩
abbrev main_v261 : Ref sig .tc := ⟨.hbm, 291, rfl⟩
abbrev main_v262 : Ref sig .tc := ⟨.hbm, 292, rfl⟩
abbrev main_v263 : Ref sig .tc := ⟨.hbm, 293, rfl⟩
abbrev main_c_23 : Ref sig .tc := ⟨.hbm, 294, rfl⟩
abbrev main_v264 : Ref sig .tc := ⟨.hbm, 295, rfl⟩
abbrev main_v265 : Ref sig .tc := ⟨.hbm, 296, rfl⟩
abbrev main_v266 : Ref sig .tc := ⟨.hbm, 297, rfl⟩
abbrev main_v267 : Ref sig .tc := ⟨.hbm, 298, rfl⟩
abbrev main_v268 : Ref sig .tc := ⟨.hbm, 299, rfl⟩
abbrev main_v269 : Ref sig .tc := ⟨.hbm, 300, rfl⟩
abbrev main_v270 : Ref sig .tc := ⟨.hbm, 301, rfl⟩
abbrev main_v271 : Ref sig .tc := ⟨.hbm, 302, rfl⟩
abbrev main_c_24 : Ref sig .tc := ⟨.hbm, 303, rfl⟩
abbrev main_v272 : Ref sig .tc := ⟨.hbm, 304, rfl⟩
abbrev main_v273 : Ref sig .tc := ⟨.hbm, 305, rfl⟩
abbrev main_v274 : Ref sig .tc := ⟨.hbm, 306, rfl⟩
abbrev main_v275 : Ref sig .tc := ⟨.hbm, 307, rfl⟩
abbrev main_v276 : Ref sig .tc := ⟨.hbm, 308, rfl⟩
abbrev main_v277 : Ref sig .tc := ⟨.hbm, 309, rfl⟩
abbrev main_v278 : Ref sig .tc := ⟨.hbm, 310, rfl⟩
abbrev main_v279 : Ref sig .tc := ⟨.hbm, 311, rfl⟩
abbrev main_v280 : Ref sig .tc := ⟨.hbm, 312, rfl⟩
abbrev main_v281 : Ref sig .tc := ⟨.hbm, 313, rfl⟩
abbrev main_v282 : Ref sig .tc := ⟨.hbm, 314, rfl⟩
abbrev main_c_25 : Ref sig .tc := ⟨.hbm, 315, rfl⟩
abbrev main_v283 : Ref sig .tc := ⟨.hbm, 316, rfl⟩
abbrev main_v284 : Ref sig .tc := ⟨.hbm, 317, rfl⟩
abbrev main_v285 : Ref sig .tc := ⟨.hbm, 318, rfl⟩
abbrev main_v286 : Ref sig .tc := ⟨.hbm, 319, rfl⟩
abbrev main_v287 : Ref sig .tc := ⟨.hbm, 320, rfl⟩
abbrev main_v288 : Ref sig .tc := ⟨.hbm, 321, rfl⟩
abbrev main_v289 : Ref sig .tc := ⟨.hbm, 322, rfl⟩
abbrev main_v290 : Ref sig .tc := ⟨.hbm, 323, rfl⟩
abbrev main_v291 : Ref sig .tc := ⟨.hbm, 324, rfl⟩
abbrev main_v292 : Ref sig .tc := ⟨.hbm, 325, rfl⟩
abbrev main_v293 : Ref sig .tc := ⟨.hbm, 326, rfl⟩
abbrev main_v294 : Ref sig .tc := ⟨.hbm, 327, rfl⟩
abbrev main_v295 : Ref sig .tc := ⟨.hbm, 328, rfl⟩
abbrev main_v296 : Ref sig .tc := ⟨.hbm, 329, rfl⟩
abbrev main_v297 : Ref sig .tc := ⟨.hbm, 330, rfl⟩
abbrev main_v298 : Ref sig .tc := ⟨.hbm, 331, rfl⟩
abbrev main_c_26 : Ref sig .tc := ⟨.hbm, 332, rfl⟩
abbrev main_v299 : Ref sig .tc := ⟨.hbm, 333, rfl⟩
abbrev main_v300 : Ref sig .tc := ⟨.hbm, 334, rfl⟩
abbrev main_v301 : Ref sig .tc := ⟨.hbm, 335, rfl⟩
abbrev main_v302 : Ref sig .tc := ⟨.hbm, 336, rfl⟩
abbrev main_v303 : Ref sig .tc := ⟨.hbm, 337, rfl⟩
abbrev main_v304 : Ref sig .tc := ⟨.hbm, 338, rfl⟩
abbrev main_v305 : Ref sig .tc := ⟨.hbm, 339, rfl⟩
abbrev main_v306 : Ref sig .tc := ⟨.hbm, 340, rfl⟩
abbrev main_c_27 : Ref sig .tc := ⟨.hbm, 341, rfl⟩
abbrev main_v307 : Ref sig .tc := ⟨.hbm, 342, rfl⟩
abbrev main_v308 : Ref sig .tc := ⟨.hbm, 343, rfl⟩
abbrev main_v309 : Ref sig .tc := ⟨.hbm, 344, rfl⟩
abbrev main_v310 : Ref sig .tc := ⟨.hbm, 345, rfl⟩
abbrev main_v311 : Ref sig .tc := ⟨.hbm, 346, rfl⟩
abbrev main_v312 : Ref sig .tc := ⟨.hbm, 347, rfl⟩
abbrev main_v313 : Ref sig .tc := ⟨.hbm, 348, rfl⟩
abbrev main_v314 : Ref sig .tc := ⟨.hbm, 349, rfl⟩
abbrev main_v315 : Ref sig .tc := ⟨.hbm, 350, rfl⟩
abbrev main_v316 : Ref sig .tc := ⟨.hbm, 351, rfl⟩
abbrev main_v317 : Ref sig .tc := ⟨.hbm, 352, rfl⟩
abbrev main_v318 : Ref sig .tc := ⟨.hbm, 353, rfl⟩
abbrev main_v319 : Ref sig .tc := ⟨.hbm, 354, rfl⟩
abbrev main_v320 : Ref sig .tc := ⟨.hbm, 355, rfl⟩
abbrev main_v321 : Ref sig .tc := ⟨.hbm, 356, rfl⟩
abbrev main_v322 : Ref sig .tc := ⟨.hbm, 357, rfl⟩
abbrev main_c_28 : Ref sig .tc := ⟨.hbm, 358, rfl⟩
abbrev main_v323 : Ref sig .tc := ⟨.hbm, 359, rfl⟩
abbrev main_v324 : Ref sig .tc := ⟨.hbm, 360, rfl⟩
abbrev main_v325 : Ref sig .tc := ⟨.hbm, 361, rfl⟩
abbrev main_v326 : Ref sig .tc := ⟨.hbm, 362, rfl⟩
abbrev main_v327 : Ref sig .tc := ⟨.hbm, 363, rfl⟩
abbrev main_v328 : Ref sig .tc := ⟨.hbm, 364, rfl⟩
abbrev main_v329 : Ref sig .tc := ⟨.hbm, 365, rfl⟩
abbrev main_v330 : Ref sig .tc := ⟨.hbm, 366, rfl⟩
abbrev main_c_29 : Ref sig .tc := ⟨.hbm, 367, rfl⟩
abbrev main_v331 : Ref sig .tc := ⟨.hbm, 368, rfl⟩
abbrev main_v332 : Ref sig .tc := ⟨.hbm, 369, rfl⟩
abbrev main_v333 : Ref sig .tc := ⟨.hbm, 370, rfl⟩
abbrev main_v334 : Ref sig .tc := ⟨.hbm, 371, rfl⟩
abbrev main_v335 : Ref sig .tc := ⟨.hbm, 372, rfl⟩
abbrev main_v336 : Ref sig .tc := ⟨.hbm, 373, rfl⟩
abbrev main_v337 : Ref sig .tc := ⟨.hbm, 374, rfl⟩
abbrev main_v338 : Ref sig .tc := ⟨.hbm, 375, rfl⟩
abbrev main_v339 : Ref sig .tc := ⟨.hbm, 376, rfl⟩
abbrev main_v340 : Ref sig .tc := ⟨.hbm, 377, rfl⟩
abbrev main_c_30 : Ref sig .tc := ⟨.hbm, 378, rfl⟩
abbrev main_v341 : Ref sig .tc := ⟨.hbm, 379, rfl⟩
abbrev main_v342 : Ref sig .tc := ⟨.hbm, 380, rfl⟩
abbrev main_v343 : Ref sig .tc := ⟨.hbm, 381, rfl⟩
abbrev main_v344 : Ref sig .tc := ⟨.hbm, 382, rfl⟩
abbrev main_v345 : Ref sig .tc := ⟨.hbm, 383, rfl⟩
abbrev main_v346 : Ref sig .tc := ⟨.hbm, 384, rfl⟩
abbrev main_v347 : Ref sig .tc := ⟨.hbm, 385, rfl⟩
abbrev main_v348 : Ref sig .tc := ⟨.hbm, 386, rfl⟩
abbrev main_v349 : Ref sig .tc := ⟨.hbm, 387, rfl⟩
abbrev main_v350 : Ref sig .tc := ⟨.hbm, 388, rfl⟩
abbrev main_v351 : Ref sig .tc := ⟨.hbm, 389, rfl⟩
abbrev main_c_31 : Ref sig .tc := ⟨.hbm, 390, rfl⟩
abbrev main_v352 : Ref sig .tc := ⟨.hbm, 391, rfl⟩
abbrev main_v353 : Ref sig .tc := ⟨.hbm, 392, rfl⟩
abbrev main_v354 : Ref sig .tc := ⟨.hbm, 393, rfl⟩
abbrev main_v355 : Ref sig .tc := ⟨.hbm, 394, rfl⟩
abbrev main_v356 : Ref sig .tc := ⟨.hbm, 395, rfl⟩
abbrev main_v357 : Ref sig .tc := ⟨.hbm, 396, rfl⟩
abbrev main_v358 : Ref sig .tc := ⟨.hbm, 397, rfl⟩
abbrev main_v359 : Ref sig .tc := ⟨.hbm, 398, rfl⟩
abbrev main_v360 : Ref sig .tc := ⟨.hbm, 399, rfl⟩
abbrev main_v361 : Ref sig .tc := ⟨.hbm, 400, rfl⟩
abbrev main_v362 : Ref sig .tc := ⟨.hbm, 401, rfl⟩
abbrev main_v363 : Ref sig .tc := ⟨.hbm, 402, rfl⟩
abbrev main_v364 : Ref sig .tc := ⟨.hbm, 403, rfl⟩
abbrev main_v365 : Ref sig .tc := ⟨.hbm, 404, rfl⟩
abbrev main_v366 : Ref sig .tc := ⟨.hbm, 405, rfl⟩
abbrev main_v367 : Ref sig .tc := ⟨.hbm, 406, rfl⟩
abbrev main_c_32 : Ref sig .tc := ⟨.hbm, 407, rfl⟩
abbrev main_v368 : Ref sig .tc := ⟨.hbm, 408, rfl⟩
abbrev main_v369 : Ref sig .tc := ⟨.hbm, 409, rfl⟩
abbrev main_v370 : Ref sig .tc := ⟨.hbm, 410, rfl⟩
abbrev main_v371 : Ref sig .tc := ⟨.hbm, 411, rfl⟩
abbrev main_v372 : Ref sig .tc := ⟨.hbm, 412, rfl⟩
abbrev main_v373 : Ref sig .tc := ⟨.hbm, 413, rfl⟩
abbrev main_v374 : Ref sig .tc := ⟨.hbm, 414, rfl⟩
abbrev main_v375 : Ref sig .tc := ⟨.hbm, 415, rfl⟩
abbrev main_c_33 : Ref sig .tc := ⟨.hbm, 416, rfl⟩
abbrev main_v376 : Ref sig .tc := ⟨.hbm, 417, rfl⟩
abbrev main_v377 : Ref sig .tc := ⟨.hbm, 418, rfl⟩
abbrev main_v378 : Ref sig .tc := ⟨.hbm, 419, rfl⟩
abbrev main_v379 : Ref sig .tc := ⟨.hbm, 420, rfl⟩
abbrev main_v380 : Ref sig .tc := ⟨.hbm, 421, rfl⟩
abbrev main_v381 : Ref sig .tc := ⟨.hbm, 422, rfl⟩
abbrev main_v382 : Ref sig .tc := ⟨.hbm, 423, rfl⟩
abbrev main_v383 : Ref sig .tc := ⟨.hbm, 424, rfl⟩
abbrev main_v384 : Ref sig .tc := ⟨.hbm, 425, rfl⟩
abbrev main_v385 : Ref sig .tc := ⟨.hbm, 426, rfl⟩
abbrev main_v386 : Ref sig .tc := ⟨.hbm, 427, rfl⟩
abbrev main_c_34 : Ref sig .tc := ⟨.hbm, 428, rfl⟩
abbrev main_v387 : Ref sig .tc := ⟨.hbm, 429, rfl⟩
abbrev main_v388 : Ref sig .tc := ⟨.hbm, 430, rfl⟩
abbrev main_v389 : Ref sig .tc := ⟨.hbm, 431, rfl⟩
abbrev main_v390 : Ref sig .tc := ⟨.hbm, 432, rfl⟩
abbrev main_v391 : Ref sig .tc := ⟨.hbm, 433, rfl⟩
abbrev main_v392 : Ref sig .tc := ⟨.hbm, 434, rfl⟩
abbrev main_v393 : Ref sig .tc := ⟨.hbm, 435, rfl⟩
abbrev main_v394 : Ref sig .tc := ⟨.hbm, 436, rfl⟩
abbrev main_v395 : Ref sig .tc := ⟨.hbm, 437, rfl⟩
abbrev main_v396 : Ref sig .tc := ⟨.hbm, 438, rfl⟩
abbrev main_v397 : Ref sig .tc := ⟨.hbm, 439, rfl⟩
abbrev main_v398 : Ref sig .tc := ⟨.hbm, 440, rfl⟩
abbrev main_v399 : Ref sig .tc := ⟨.hbm, 441, rfl⟩
abbrev main_v400 : Ref sig .tc := ⟨.hbm, 442, rfl⟩
abbrev main_v401 : Ref sig .tc := ⟨.hbm, 443, rfl⟩
abbrev main_v402 : Ref sig .tc := ⟨.hbm, 444, rfl⟩
abbrev main_c_35 : Ref sig .tc := ⟨.hbm, 445, rfl⟩
abbrev main_v403 : Ref sig .tc := ⟨.hbm, 446, rfl⟩
abbrev main_v404 : Ref sig .tc := ⟨.hbm, 447, rfl⟩
abbrev main_v405 : Ref sig .tc := ⟨.hbm, 448, rfl⟩
abbrev main_v406 : Ref sig .tc := ⟨.hbm, 449, rfl⟩
abbrev main_v407 : Ref sig .tc := ⟨.hbm, 450, rfl⟩
abbrev main_v408 : Ref sig .tc := ⟨.hbm, 451, rfl⟩
abbrev main_v409 : Ref sig .tc := ⟨.hbm, 452, rfl⟩
abbrev main_v410 : Ref sig .tc := ⟨.hbm, 453, rfl⟩
abbrev main_c_36 : Ref sig .tc := ⟨.hbm, 454, rfl⟩
abbrev main_v411 : Ref sig .tc := ⟨.hbm, 455, rfl⟩
abbrev main_v412 : Ref sig .tc := ⟨.hbm, 456, rfl⟩
abbrev main_v413 : Ref sig .tc := ⟨.hbm, 457, rfl⟩
abbrev main_v414 : Ref sig .tc := ⟨.hbm, 458, rfl⟩
abbrev main_v415 : Ref sig .tc := ⟨.hbm, 459, rfl⟩
abbrev main_v416 : Ref sig .tc := ⟨.hbm, 460, rfl⟩
abbrev main_v417 : Ref sig .tc := ⟨.hbm, 461, rfl⟩
abbrev main_v418 : Ref sig .tc := ⟨.hbm, 462, rfl⟩
abbrev main_v419 : Ref sig .tc := ⟨.hbm, 463, rfl⟩
abbrev main_v420 : Ref sig .tc := ⟨.hbm, 464, rfl⟩
abbrev main_v421 : Ref sig .tc := ⟨.hbm, 465, rfl⟩
abbrev main_v422 : Ref sig .tc := ⟨.hbm, 466, rfl⟩
abbrev main_v423 : Ref sig .tc := ⟨.hbm, 467, rfl⟩
abbrev main_v424 : Ref sig .tc := ⟨.hbm, 468, rfl⟩
abbrev main_v425 : Ref sig .tc := ⟨.hbm, 469, rfl⟩
abbrev main_v426 : Ref sig .tc := ⟨.hbm, 470, rfl⟩
abbrev main_c_37 : Ref sig .tc := ⟨.hbm, 471, rfl⟩
abbrev main_v427 : Ref sig .tc := ⟨.hbm, 472, rfl⟩
abbrev main_v428 : Ref sig .tc := ⟨.hbm, 473, rfl⟩
abbrev main_v429 : Ref sig .tc := ⟨.hbm, 474, rfl⟩
abbrev main_v430 : Ref sig .tc := ⟨.hbm, 475, rfl⟩
abbrev main_v431 : Ref sig .tc := ⟨.hbm, 476, rfl⟩
abbrev main_v432 : Ref sig .tc := ⟨.hbm, 477, rfl⟩
abbrev main_v433 : Ref sig .tc := ⟨.hbm, 478, rfl⟩
abbrev main_v434 : Ref sig .tc := ⟨.hbm, 479, rfl⟩
abbrev main_c_38 : Ref sig .tc := ⟨.hbm, 480, rfl⟩
abbrev main_v435 : Ref sig .tc := ⟨.hbm, 481, rfl⟩
abbrev main_v436 : Ref sig .tc := ⟨.hbm, 482, rfl⟩
abbrev main_v437 : Ref sig .tc := ⟨.hbm, 483, rfl⟩
abbrev main_v438 : Ref sig .tc := ⟨.hbm, 484, rfl⟩
abbrev main_v439 : Ref sig .tc := ⟨.hbm, 485, rfl⟩
abbrev main_v440 : Ref sig .tc := ⟨.hbm, 486, rfl⟩
abbrev main_v441 : Ref sig .tc := ⟨.hbm, 487, rfl⟩
abbrev main_v442 : Ref sig .tc := ⟨.hbm, 488, rfl⟩
abbrev main_v443 : Ref sig .tc := ⟨.hbm, 489, rfl⟩
abbrev main_v444 : Ref sig .tc := ⟨.hbm, 490, rfl⟩
abbrev main_v445 : Ref sig .tc := ⟨.hbm, 491, rfl⟩
abbrev main_c_39 : Ref sig .tc := ⟨.hbm, 492, rfl⟩
abbrev main_v446 : Ref sig .tc := ⟨.hbm, 493, rfl⟩
abbrev main_v447 : Ref sig .tc := ⟨.hbm, 494, rfl⟩
abbrev main_v448 : Ref sig .tc := ⟨.hbm, 495, rfl⟩
abbrev main_v449 : Ref sig .tc := ⟨.hbm, 496, rfl⟩
abbrev main_v450 : Ref sig .tc := ⟨.hbm, 497, rfl⟩
abbrev main_v451 : Ref sig .tc := ⟨.hbm, 498, rfl⟩
abbrev main_v452 : Ref sig .tc := ⟨.hbm, 499, rfl⟩
abbrev main_v453 : Ref sig .tc := ⟨.hbm, 500, rfl⟩
abbrev main_v454 : Ref sig .tc := ⟨.hbm, 501, rfl⟩
abbrev main_v455 : Ref sig .tc := ⟨.hbm, 502, rfl⟩
abbrev main_v456 : Ref sig .tc := ⟨.hbm, 503, rfl⟩
abbrev main_v457 : Ref sig .tc := ⟨.hbm, 504, rfl⟩
abbrev main_v458 : Ref sig .tc := ⟨.hbm, 505, rfl⟩
abbrev main_v459 : Ref sig .tc := ⟨.hbm, 506, rfl⟩
abbrev main_v460 : Ref sig .tc := ⟨.hbm, 507, rfl⟩
abbrev main_v461 : Ref sig .tc := ⟨.hbm, 508, rfl⟩
abbrev main_c_40 : Ref sig .tc := ⟨.hbm, 509, rfl⟩
abbrev main_v462 : Ref sig .tc := ⟨.hbm, 510, rfl⟩
abbrev main_v463 : Ref sig .tc := ⟨.hbm, 511, rfl⟩
abbrev main_v464 : Ref sig .tc := ⟨.hbm, 512, rfl⟩
abbrev main_v465 : Ref sig .tc := ⟨.hbm, 513, rfl⟩
abbrev main_v466 : Ref sig .tc := ⟨.hbm, 514, rfl⟩
abbrev main_v467 : Ref sig .tc := ⟨.hbm, 515, rfl⟩
abbrev main_v468 : Ref sig .tc := ⟨.hbm, 516, rfl⟩
abbrev main_v469 : Ref sig .tc := ⟨.hbm, 517, rfl⟩
abbrev main_c_41 : Ref sig .tc := ⟨.hbm, 518, rfl⟩
abbrev main_v470 : Ref sig .tc := ⟨.hbm, 519, rfl⟩
abbrev main_v471 : Ref sig .tc := ⟨.hbm, 520, rfl⟩
abbrev main_v472 : Ref sig .tc := ⟨.hbm, 521, rfl⟩
abbrev main_v473 : Ref sig .tc := ⟨.hbm, 522, rfl⟩
abbrev main_v474 : Ref sig .tc := ⟨.hbm, 523, rfl⟩
abbrev main_v475 : Ref sig .tc := ⟨.hbm, 524, rfl⟩
abbrev main_v476 : Ref sig .tc := ⟨.hbm, 525, rfl⟩
abbrev main_v477 : Ref sig .tc := ⟨.hbm, 526, rfl⟩
abbrev main_v478 : Ref sig .tc := ⟨.hbm, 527, rfl⟩
abbrev main_v479 : Ref sig .tc := ⟨.hbm, 528, rfl⟩
abbrev main_v480 : Ref sig .tc := ⟨.hbm, 529, rfl⟩
abbrev main_v481 : Ref sig .tc := ⟨.hbm, 530, rfl⟩
abbrev main_v482 : Ref sig .tc := ⟨.hbm, 531, rfl⟩
abbrev main_v483 : Ref sig .tc := ⟨.hbm, 532, rfl⟩
abbrev main_v484 : Ref sig .tc := ⟨.hbm, 533, rfl⟩
abbrev main_v485 : Ref sig .tc := ⟨.hbm, 534, rfl⟩
abbrev main_c_42 : Ref sig .tc := ⟨.hbm, 535, rfl⟩
abbrev main_v486 : Ref sig .tc := ⟨.hbm, 536, rfl⟩
abbrev main_v487 : Ref sig .tc := ⟨.hbm, 537, rfl⟩
abbrev main_v488 : Ref sig .tc := ⟨.hbm, 538, rfl⟩
abbrev main_v489 : Ref sig .tc := ⟨.hbm, 539, rfl⟩
abbrev main_v490 : Ref sig .tc := ⟨.hbm, 540, rfl⟩
abbrev main_v491 : Ref sig .tc := ⟨.hbm, 541, rfl⟩
abbrev main_v492 : Ref sig .tc := ⟨.hbm, 542, rfl⟩
abbrev main_v493 : Ref sig .tc := ⟨.hbm, 543, rfl⟩
abbrev main_c_43 : Ref sig .tc := ⟨.hbm, 544, rfl⟩
abbrev main_v494 : Ref sig .tc := ⟨.hbm, 545, rfl⟩
abbrev main_v495 : Ref sig .tc := ⟨.hbm, 546, rfl⟩
abbrev main_v496 : Ref sig .tc := ⟨.hbm, 547, rfl⟩
abbrev main_v497 : Ref sig .tc := ⟨.hbm, 548, rfl⟩
abbrev main_v498 : Ref sig .tc := ⟨.hbm, 549, rfl⟩
abbrev main_v499 : Ref sig .tc := ⟨.hbm, 550, rfl⟩
abbrev main_v500 : Ref sig .tc := ⟨.hbm, 551, rfl⟩
abbrev main_v501 : Ref sig .tc := ⟨.hbm, 552, rfl⟩
abbrev main_v502 : Ref sig .tc := ⟨.hbm, 553, rfl⟩
abbrev main_v503 : Ref sig .tc := ⟨.hbm, 554, rfl⟩
abbrev main_v504 : Ref sig .tc := ⟨.hbm, 555, rfl⟩
abbrev main_v505 : Ref sig .tc := ⟨.hbm, 556, rfl⟩
abbrev main_v506 : Ref sig .tc := ⟨.hbm, 557, rfl⟩
abbrev main_v507 : Ref sig .tc := ⟨.hbm, 558, rfl⟩
abbrev main_v508 : Ref sig .tc := ⟨.hbm, 559, rfl⟩
abbrev main_v509 : Ref sig .tc := ⟨.hbm, 560, rfl⟩
abbrev main_c_44 : Ref sig .tc := ⟨.hbm, 561, rfl⟩
abbrev main_v510 : Ref sig .tc := ⟨.hbm, 562, rfl⟩
abbrev main_v511 : Ref sig .tc := ⟨.hbm, 563, rfl⟩
abbrev main_v512 : Ref sig .tc := ⟨.hbm, 564, rfl⟩
abbrev main_v513 : Ref sig .tc := ⟨.hbm, 565, rfl⟩
abbrev main_v514 : Ref sig .tc := ⟨.hbm, 566, rfl⟩
abbrev main_v515 : Ref sig .tc := ⟨.hbm, 567, rfl⟩
abbrev main_v516 : Ref sig .tc := ⟨.hbm, 568, rfl⟩
abbrev main_v517 : Ref sig .tc := ⟨.hbm, 569, rfl⟩
abbrev main_c_45 : Ref sig .tc := ⟨.hbm, 570, rfl⟩
abbrev main_v518 : Ref sig .tc := ⟨.hbm, 571, rfl⟩
abbrev main_v519 : Ref sig .tc := ⟨.hbm, 572, rfl⟩
abbrev main_v520 : Ref sig .tc := ⟨.hbm, 573, rfl⟩
abbrev main_v521 : Ref sig .tc := ⟨.hbm, 574, rfl⟩
abbrev main_v522 : Ref sig .tc := ⟨.hbm, 575, rfl⟩
abbrev main_v523 : Ref sig .tc := ⟨.hbm, 576, rfl⟩
abbrev main_v524 : Ref sig .tc := ⟨.hbm, 577, rfl⟩

abbrev nD : Nat := 1
abbrev τ : Topo := Topo.v7x

variable {F : FTy → Type} [FloatOps F]

class Facts₀ : Prop where
  slices_S65536x1024_S65536x64_0_0 : S65536x1024.Slices ![0, 0] S65536x64
  shapeCasts_S65536x64_S65536x64x1 : S65536x64.ShapeCasts S65536x64x1
  slices_S65536x1024_S65536x192_0_64 : S65536x1024.Slices ![0, 64] S65536x192
  shapeCasts_S65536x192_S65536x64x3 : S65536x192.ShapeCasts S65536x64x3
  slices_S65536x1024_S65536x320_0_256 : S65536x1024.Slices ![0, 256] S65536x320
  shapeCasts_S65536x320_S65536x64x5 : S65536x320.ShapeCasts S65536x64x5
  slices_S65536x1024_S65536x448_0_576 : S65536x1024.Slices ![0, 576] S65536x448
  shapeCasts_S65536x448_S65536x64x7 : S65536x448.ShapeCasts S65536x64x7
  bcast_S_S65536x64x1 : S_.BroadcastsInDim S65536x64x1 (![] : Fin 0 → Fin S65536x64x1.rank)
  bcast_S_S65536x64x3 : S_.BroadcastsInDim S65536x64x3 (![] : Fin 0 → Fin S65536x64x3.rank)
  bcast_S_S65536x64x5 : S_.BroadcastsInDim S65536x64x5 (![] : Fin 0 → Fin S65536x64x5.rank)
  bcast_S_S65536x64x7 : S_.BroadcastsInDim S65536x64x7 (![] : Fin 0 → Fin S65536x64x7.rank)
  slices_S65536_S4096_0 : S65536.Slices ![0] S4096
  shapeCasts_S4096_S64x64 : S4096.ShapeCasts S64x64
  shapeCasts_S65536x64x1_S65536x64 : S65536x64x1.ShapeCasts S65536x64
  slices_S16_S1_0 : S16.Slices ![0] S1
  shapeCasts_S1_S_ : S1.ShapeCasts S_
  bcast_S_S65536x64 : S_.BroadcastsInDim S65536x64 (![] : Fin 0 → Fin S65536x64.rank)
  bcast_S_S1 : S_.BroadcastsInDim S1 (![] : Fin 0 → Fin S1.rank)
  slices_S65536_S4096_4096 : S65536.Slices ![4096] S4096
  slices_S65536x64x3_S65536x64x1_0_0_1 : S65536x64x3.Slices ![0, 0, 1] S65536x64x1
  slices_S16_S1_1 : S16.Slices ![1] S1
  slices_S65536_S4096_8192 : S65536.Slices ![8192] S4096
  slices_S65536x64x5_S65536x64x1_0_0_2 : S65536x64x5.Slices ![0, 0, 2] S65536x64x1
  slices_S16_S1_2 : S16.Slices ![2] S1
  slices_S65536_S4096_12288 : S65536.Slices ![12288] S4096
  slices_S65536x64x7_S65536x64x1_0_0_3 : S65536x64x7.Slices ![0, 0, 3] S65536x64x1
  slices_S16_S1_3 : S16.Slices ![3] S1
  slices_S65536_S4096_16384 : S65536.Slices ![16384] S4096
  slices_S16_S1_4 : S16.Slices ![4] S1
  slices_S65536_S4096_20480 : S65536.Slices ![20480] S4096
  slices_S16_S1_5 : S16.Slices ![5] S1
  slices_S16x3_S1x1_5_0 : S16x3.Slices ![5, 0] S1x1
  shapeCasts_S1x1_S_ : S1x1.ShapeCasts S_
  slices_S65536x64x3_S65536x64x1_0_0_2 : S65536x64x3.Slices ![0, 0, 2] S65536x64x1
  slices_S65536x64x3_S65536x64x1_0_0_0 : S65536x64x3.Slices ![0, 0, 0] S65536x64x1
  slices_S65536_S4096_24576 : S65536.Slices ![24576] S4096
  slices_S16_S1_6 : S16.Slices ![6] S1
  slices_S16x3_S1x1_6_0 : S16x3.Slices ![6, 0] S1x1
  slices_S65536x64x5_S65536x64x1_0_0_3 : S65536x64x5.Slices ![0, 0, 3] S65536x64x1
  slices_S65536x64x5_S65536x64x1_0_0_1 : S65536x64x5.Slices ![0, 0, 1] S65536x64x1
  slices_S65536_S4096_28672 : S65536.Slices ![28672] S4096
  slices_S16_S1_7 : S16.Slices ![7] S1
  slices_S16x3_S1x1_7_0 : S16x3.Slices ![7, 0] S1x1
  slices_S65536x64x7_S65536x64x1_0_0_4 : S65536x64x7.Slices ![0, 0, 4] S65536x64x1
  slices_S65536x64x7_S65536x64x1_0_0_2 : S65536x64x7.Slices ![0, 0, 2] S65536x64x1
  slices_S65536_S4096_32768 : S65536.Slices ![32768] S4096
  slices_S16_S1_8 : S16.Slices ![8] S1
  slices_S65536_S4096_36864 : S65536.Slices ![36864] S4096
  slices_S16_S1_9 : S16.Slices ![9] S1
  slices_S16x3_S1x1_9_0 : S16x3.Slices ![9, 0] S1x1
  slices_S65536_S4096_40960 : S65536.Slices ![40960] S4096
  slices_S16_S1_10 : S16.Slices ![10] S1
  slices_S16x3_S1x1_10_0 : S16x3.Slices ![10, 0] S1x1
  slices_S16x3_S1x1_10_1 : S16x3.Slices ![10, 1] S1x1
  slices_S65536x64x5_S65536x64x1_0_0_4 : S65536x64x5.Slices ![0, 0, 4] S65536x64x1
  slices_S65536x64x5_S65536x64x1_0_0_0 : S65536x64x5.Slices ![0, 0, 0] S65536x64x1
  slices_S65536_S4096_45056 : S65536.Slices ![45056] S4096
  slices_S16_S1_11 : S16.Slices ![11] S1
  slices_S16x3_S1x1_11_0 : S16x3.Slices ![11, 0] S1x1
  slices_S16x3_S1x1_11_1 : S16x3.Slices ![11, 1] S1x1
  slices_S65536x64x7_S65536x64x1_0_0_5 : S65536x64x7.Slices ![0, 0, 5] S65536x64x1
  slices_S65536x64x7_S65536x64x1_0_0_1 : S65536x64x7.Slices ![0, 0, 1] S65536x64x1
  slices_S65536_S4096_49152 : S65536.Slices ![49152] S4096
  slices_S16_S1_12 : S16.Slices ![12] S1
  slices_S65536_S4096_53248 : S65536.Slices ![53248] S4096
  slices_S16_S1_13 : S16.Slices ![13] S1
  slices_S16x3_S1x1_13_0 : S16x3.Slices ![13, 0] S1x1
  slices_S65536_S4096_57344 : S65536.Slices ![57344] S4096
  slices_S16_S1_14 : S16.Slices ![14] S1
  slices_S16x3_S1x1_14_0 : S16x3.Slices ![14, 0] S1x1
  slices_S16x3_S1x1_14_1 : S16x3.Slices ![14, 1] S1x1
  slices_S65536_S4096_61440 : S65536.Slices ![61440] S4096
  slices_S16_S1_15 : S16.Slices ![15] S1
  slices_S16x3_S1x1_15_0 : S16x3.Slices ![15, 0] S1x1
  slices_S16x3_S1x1_15_1 : S16x3.Slices ![15, 1] S1x1
  slices_S16x3_S1x1_15_2 : S16x3.Slices ![15, 2] S1x1
  slices_S65536x64x7_S65536x64x1_0_0_6 : S65536x64x7.Slices ![0, 0, 6] S65536x64x1
  slices_S65536x64x7_S65536x64x1_0_0_0 : S65536x64x7.Slices ![0, 0, 0] S65536x64x1
  shapeCasts_S65536x64x3_S65536x192 : S65536x64x3.ShapeCasts S65536x192
  shapeCasts_S65536x64x5_S65536x320 : S65536x64x5.ShapeCasts S65536x320
  shapeCasts_S65536x64x7_S65536x448 : S65536x64x7.ShapeCasts S65536x448
  concatenates_S65536x64_S65536x192_S65536x320_S65536x448_S65536x1024_d1 : Shape.Concatenates [S65536x64, S65536x192, S65536x320, S65536x448] S65536x1024 1
  dot_S65536x64_S64x64_S65536x64_1_1_0_0_n_n_wf : DotDims.WF S65536x64 S64x64 S65536x64 [1] [1] [0] [0] [] []
  scatter_S65536x64x1_S1_S65536x64_01_2_2_0_wf : ScatterDims.WF S65536x64x1 S1 S65536x64 [0, 1] [2] [2] 0
  scatter_S65536x64x3_S1_S65536x64_01_2_2_0_wf : ScatterDims.WF S65536x64x3 S1 S65536x64 [0, 1] [2] [2] 0
  scatter_S65536x64x5_S1_S65536x64_01_2_2_0_wf : ScatterDims.WF S65536x64x5 S1 S65536x64 [0, 1] [2] [2] 0
  scatter_S65536x64x7_S1_S65536x64_01_2_2_0_wf : ScatterDims.WF S65536x64x7 S1 S65536x64 [0, 1] [2] [2] 0

variable [Facts₀]

def dot_S65536x64_S64x64_S65536x64_1_1_0_0_n_n : DotDims S65536x64 S64x64 S65536x64 where
  lhsContracting := [1]
  rhsContracting := [1]
  lhsNonContracting := [0]
  rhsNonContracting := [0]
  lhsBatch := []
  rhsBatch := []
  wf := dot_S65536x64_S64x64_S65536x64_1_1_0_0_n_n_wf
def scatter_S65536x64x1_S1_S65536x64_01_2_2_0 : ScatterDims S65536x64x1 S1 S65536x64 where
  updateWindowDims := [0, 1]
  insertedWindowDims := [2]
  scatterDimsToOperandDims := [2]
  indexVectorDim := 0
  wf := scatter_S65536x64x1_S1_S65536x64_01_2_2_0_wf
def scatter_S65536x64x3_S1_S65536x64_01_2_2_0 : ScatterDims S65536x64x3 S1 S65536x64 where
  updateWindowDims := [0, 1]
  insertedWindowDims := [2]
  scatterDimsToOperandDims := [2]
  indexVectorDim := 0
  wf := scatter_S65536x64x3_S1_S65536x64_01_2_2_0_wf
def scatter_S65536x64x5_S1_S65536x64_01_2_2_0 : ScatterDims S65536x64x5 S1 S65536x64 where
  updateWindowDims := [0, 1]
  insertedWindowDims := [2]
  scatterDimsToOperandDims := [2]
  indexVectorDim := 0
  wf := scatter_S65536x64x5_S1_S65536x64_01_2_2_0_wf
def scatter_S65536x64x7_S1_S65536x64_01_2_2_0 : ScatterDims S65536x64x7 S1 S65536x64 where
  updateWindowDims := [0, 1]
  insertedWindowDims := [2]
  scatterDimsToOperandDims := [2]
  indexVectorDim := 0
  wf := scatter_S65536x64x7_S1_S65536x64_01_2_2_0_wf

class Facts : Prop extends Facts₀ where

variable [Facts]
-- ==== Proof.KVBits.lean ====
import proofs.«118270_j50440095924880_1_alg».proof.Proof.Gen.Kernel.Launch

/-!
# The buffers as the matrix product finds them

Before its one matrix product the program runs its host operations: for each pair of degrees a slice of the weight
vector, the small coefficient matrix written entry by entry into zeros, their Kronecker product, and the
concatenations into the 1024×1024 matrix. `V m c b` is core c's buffer b after all of them, as a fold of the
operations over the launch memory; it is never unfolded except to read one buffer's value.
-/

noncomputable section

namespace Cert.Kernel.Hand

open Idealize.ShloMosaic Idealize.ShloMosaic.TcCoe Idealize.SL.Sem
open Cert.Kernel Cert.Kernel.Gen

variable {F : FTy → Type} [FloatOps F]

/-- The stretches of host operations before the matrix product, in program order. -/
abbrev stretches : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32]

/-- Core c's TensorCore buffers when the matrix product starts. -/
abbrev V (m : (ℓ : Loc nD τ sig) → Buf (Elt F) ℓ) (c : Dev nD) (b : Ref sig .tc) : Buf (Elt F) ((c : Thread nD τ).loc b) :=
  StableHlo.after (List.flatten (stretches (F := F))) (fun b => m (c, b)) b

end Cert.Kernel.Hand

end
-- ==== Proof.KFrameMainBits.lean ====
import proofs.«118270_j50440095924880_1_alg».proof.Proof.KVBits
import Idealize.ShloMosaic.Lib.Pipeline.Frame

/-!
# The host operations before the matrix product

The program's text up to its one matrix product is thirty-three stretches of host operations. Each operation
writes exactly one buffer, its result, and none of these results is one of the five argument arrays; so the
matrix product finds the arguments as they were launched. No operation leaves a buffer at contents the program
does not determine.
-/

set_option maxRecDepth 16384

noncomputable section

namespace Cert.Kernel.Hand

open Idealize.ShloMosaic Idealize.ShloMosaic.TcCoe
open Idealize.SL Idealize.SL.Sem
open Cert.Kernel Cert.Kernel.Gen

variable {F : FTy → Type} [FloatOps F]

/-- The five argument arrays. -/
abbrev argRefs : List (Ref sig .tc) := [main_arg0, main_arg1, main_arg2, main_arg3, main_arg4]

/-- An operation keeps the argument arrays: it writes none of them. -/
def Keeps (op : HloOp τ sig (Elt F)) : Prop :=
  ∀ r ∈ argRefs, Proc.devRef (τ := τ) .tc r ∉ op.writes

/-- An operation whose only written buffer is a reference other than the five arguments keeps them. -/
theorem keeps_of_single (op : HloOp τ sig (Elt F)) (y : Ref sig .tc) (h : op.writes = {Proc.devRef .tc y})
    (hy : y ∉ argRefs) : Keeps op := by
  intro r hr hmem
  rw [h, Finset.mem_singleton] at hmem
  exact hy (Proc.devRef_injective _ hmem ▸ hr)

/-- Every operation of a literal stretch writes one result, and that result is no argument. -/
local macro "keeps_stretch" : tactic =>
  `(tactic| (simp only [List.Forall]; (repeat' constructor); all_goals exact keeps_of_single _ _ rfl (by decide)))

/-- No operation of a literal stretch leaves a buffer undetermined. -/
local macro "fresh_stretch" : tactic =>
  `(tactic| (simp only [List.Forall]; repeat' constructor))

theorem keeps0 : (hostOps0 : List (HloOp τ sig (Elt F))).Forall Keeps := by keeps_stretch
theorem fresh0 : (hostOps0 : List (HloOp τ sig (Elt F))).Forall fun op => op.fresh = ∅ := by fresh_stretch
theorem keeps1 : (hostOps0_1 : List (HloOp τ sig (Elt F))).Forall Keeps := by keeps_stretch
theorem fresh1 : (hostOps0_1 : List (HloOp τ sig (Elt F))).Forall fun op => op.fresh = ∅ := by fresh_stretch
theorem keeps2 : (hostOps0_2 : List (HloOp τ sig (Elt F))).Forall Keeps := by keeps_stretch
theorem fresh2 : (hostOps0_2 : List (HloOp τ sig (Elt F))).Forall fun op => op.fresh = ∅ := by fresh_stretch
theorem keeps3 : (hostOps0_3 : List (HloOp τ sig (Elt F))).Forall Keeps := by keeps_stretch
theorem fresh3 : (hostOps0_3 : List (HloOp τ sig (Elt F))).Forall fun op => op.fresh = ∅ := by fresh_stretch
theorem keeps4 : (hostOps0_4 : List (HloOp τ sig (Elt F))).Forall Keeps := by keeps_stretch
theorem fresh4 : (hostOps0_4 : List (HloOp τ sig (Elt F))).Forall fun op => op.fresh = ∅ := by fresh_stretch
theorem keeps5 : (hostOps0_5 : List (HloOp τ sig (Elt F))).Forall Keeps := by keeps_stretch
theorem fresh5 : (hostOps0_5 : List (HloOp τ sig (Elt F))).Forall fun op => op.fresh = ∅ := by fresh_stretch
theorem keeps6 : (hostOps0_6 : List (HloOp τ sig (Elt F))).Forall Keeps := by keeps_stretch
theorem fresh6 : (hostOps0_6 : List (HloOp τ sig (Elt F))).Forall fun op => op.fresh = ∅ := by fresh_stretch
theorem keeps7 : (hostOps0_7 : List (HloOp τ sig (Elt F))).Forall Keeps := by keeps_stretch
theorem fresh7 : (hostOps0_7 : List (HloOp τ sig (Elt F))).Forall fun op => op.fresh = ∅ := by fresh_stretch
theorem keeps8 : (hostOps0_8 : List (HloOp τ sig (Elt F))).Forall Keeps := by keeps_stretch
theorem fresh8 : (hostOps0_8 : List (HloOp τ sig (Elt F))).Forall fun op => op.fresh = ∅ := by fresh_stretch
theorem keeps9 : (hostOps0_9 : List (HloOp τ sig (Elt F))).Forall Keeps := by keeps_stretch
theorem fresh9 : (hostOps0_9 : List (HloOp τ sig (Elt F))).Forall fun op => op.fresh = ∅ := by fresh_stretch
theorem keeps10 : (hostOps0_10 : List (HloOp τ sig (Elt F))).Forall Keeps := by keeps_stretch
theorem fresh10 : (hostOps0_10 : List (HloOp τ sig (Elt F))).Forall fun op => op.fresh = ∅ := by fresh_stretch
theorem keeps11 : (hostOps0_11 : List (HloOp τ sig (Elt F))).Forall Keeps := by keeps_stretch
theorem fresh11 : (hostOps0_11 : List (HloOp τ sig (Elt F))).Forall fun op => op.fresh = ∅ := by fresh_stretch
theorem keeps12 : (hostOps0_12 : List (HloOp τ sig (Elt F))).Forall Keeps := by keeps_stretch
theorem fresh12 : (hostOps0_12 : List (HloOp τ sig (Elt F))).Forall fun op => op.fresh = ∅ := by fresh_stretch
theorem keeps13 : (hostOps0_13 : List (HloOp τ sig (Elt F))).Forall Keeps := by keeps_stretch
theorem fresh13 : (hostOps0_13 : List (HloOp τ sig (Elt F))).Forall fun op => op.fresh = ∅ := by fresh_stretch
theorem keeps14 : (hostOps0_14 : List (HloOp τ sig (Elt F))).Forall Keeps := by keeps_stretch
theorem fresh14 : (hostOps0_14 : List (HloOp τ sig (Elt F))).Forall fun op => op.fresh = ∅ := by fresh_stretch
theorem keeps15 : (hostOps0_15 : List (HloOp τ sig (Elt F))).Forall Keeps := by keeps_stretch
theorem fresh15 : (hostOps0_15 : List (HloOp τ sig (Elt F))).Forall fun op => op.fresh = ∅ := by fresh_stretch
theorem keeps16 : (hostOps0_16 : List (HloOp τ sig (Elt F))).Forall Keeps := by keeps_stretch
theorem fresh16 : (hostOps0_16 : List (HloOp τ sig (Elt F))).Forall fun op => op.fresh = ∅ := by fresh_stretch
theorem keeps17 : (hostOps0_17 : List (HloOp τ sig (Elt F))).Forall Keeps := by keeps_stretch
theorem fresh17 : (hostOps0_17 : List (HloOp τ sig (Elt F))).Forall fun op => op.fresh = ∅ := by fresh_stretch
theorem keeps18 : (hostOps0_18 : List (HloOp τ sig (Elt F))).Forall Keeps := by keeps_stretch
theorem fresh18 : (hostOps0_18 : List (HloOp τ sig (Elt F))).Forall fun op => op.fresh = ∅ := by fresh_stretch
theorem keeps19 : (hostOps0_19 : List (HloOp τ sig (Elt F))).Forall Keeps := by keeps_stretch
theorem fresh19 : (hostOps0_19 : List (HloOp τ sig (Elt F))).Forall fun op => op.fresh = ∅ := by fresh_stretch
theorem keeps20 : (hostOps0_20 : List (HloOp τ sig (Elt F))).Forall Keeps := by keeps_stretch
theorem fresh20 : (hostOps0_20 : List (HloOp τ sig (Elt F))).Forall fun op => op.fresh = ∅ := by fresh_stretch
theorem keeps21 : (hostOps0_21 : List (HloOp τ sig (Elt F))).Forall Keeps := by keeps_stretch
theorem fresh21 : (hostOps0_21 : List (HloOp τ sig (Elt F))).Forall fun op => op.fresh = ∅ := by fresh_stretch
theorem keeps22 : (hostOps0_22 : List (HloOp τ sig (Elt F))).Forall Keeps := by keeps_stretch
theorem fresh22 : (hostOps0_22 : List (HloOp τ sig (Elt F))).Forall fun op => op.fresh = ∅ := by fresh_stretch
theorem keeps23 : (hostOps0_23 : List (HloOp τ sig (Elt F))).Forall Keeps := by keeps_stretch
theorem fresh23 : (hostOps0_23 : List (HloOp τ sig (Elt F))).Forall fun op => op.fresh = ∅ := by fresh_stretch
theorem keeps24 : (hostOps0_24 : List (HloOp τ sig (Elt F))).Forall Keeps := by keeps_stretch
theorem fresh24 : (hostOps0_24 : List (HloOp τ sig (Elt F))).Forall fun op => op.fresh = ∅ := by fresh_stretch
theorem keeps25 : (hostOps0_25 : List (HloOp τ sig (Elt F))).Forall Keeps := by keeps_stretch
theorem fresh25 : (hostOps0_25 : List (HloOp τ sig (Elt F))).Forall fun op => op.fresh = ∅ := by fresh_stretch
theorem keeps26 : (hostOps0_26 : List (HloOp τ sig (Elt F))).Forall Keeps := by keeps_stretch
theorem fresh26 : (hostOps0_26 : List (HloOp τ sig (Elt F))).Forall fun op => op.fresh = ∅ := by fresh_stretch
theorem keeps27 : (hostOps0_27 : List (HloOp τ sig (Elt F))).Forall Keeps := by keeps_stretch
theorem fresh27 : (hostOps0_27 : List (HloOp τ sig (Elt F))).Forall fun op => op.fresh = ∅ := by fresh_stretch
theorem keeps28 : (hostOps0_28 : List (HloOp τ sig (Elt F))).Forall Keeps := by keeps_stretch
theorem fresh28 : (hostOps0_28 : List (HloOp τ sig (Elt F))).Forall fun op => op.fresh = ∅ := by fresh_stretch
theorem keeps29 : (hostOps0_29 : List (HloOp τ sig (Elt F))).Forall Keeps := by keeps_stretch
theorem fresh29 : (hostOps0_29 : List (HloOp τ sig (Elt F))).Forall fun op => op.fresh = ∅ := by fresh_stretch
theorem keeps30 : (hostOps0_30 : List (HloOp τ sig (Elt F))).Forall Keeps := by keeps_stretch
theorem fresh30 : (hostOps0_30 : List (HloOp τ sig (Elt F))).Forall fun op => op.fresh = ∅ := by fresh_stretch
theorem keeps31 : (hostOps0_31 : List (HloOp τ sig (Elt F))).Forall Keeps := by keeps_stretch
theorem fresh31 : (hostOps0_31 : List (HloOp τ sig (Elt F))).Forall fun op => op.fresh = ∅ := by fresh_stretch
theorem keeps32 : (hostOps0_32 : List (HloOp τ sig (Elt F))).Forall Keeps := by keeps_stretch
theorem fresh32 : (hostOps0_32 : List (HloOp τ sig (Elt F))).Forall fun op => op.fresh = ∅ := by fresh_stretch

/-- Every stretch touches TensorCore references only. -/
theorem stretches_sub : (stretches (F := F)).Forall fun ops => ops.Forall fun op => op.bufs ⊆ StableHlo.tcRefs τ sig := by
  simp only [stretches, List.Forall]
  exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub⟩

/-- No stretch leaves a buffer undetermined. -/
theorem stretches_fresh : (stretches (F := F)).Forall fun ops => ops.Forall fun op => op.fresh = ∅ := by
  simp only [stretches, List.Forall]
  exact ⟨fresh0, fresh1, fresh2, fresh3, fresh4, fresh5, fresh6, fresh7, fresh8, fresh9, fresh10, fresh11, fresh12, fresh13, fresh14, fresh15, fresh16, fresh17, fresh18, fresh19, fresh20, fresh21, fresh22, fresh23, fresh24, fresh25, fresh26, fresh27, fresh28, fresh29, fresh30, fresh31, fresh32⟩

/-- Every stretch keeps the argument arrays. -/
theorem stretches_keep : (stretches (F := F)).Forall fun ops => ops.Forall Keeps := by
  simp only [stretches, List.Forall]
  exact ⟨keeps0, keeps1, keeps2, keeps3, keeps4, keeps5, keeps6, keeps7, keeps8, keeps9, keeps10, keeps11, keeps12, keeps13, keeps14, keeps15, keeps16, keeps17, keeps18, keeps19, keeps20, keeps21, keeps22, keeps23, keeps24, keeps25, keeps26, keeps27, keeps28, keeps29, keeps30, keeps31, keeps32⟩

/-- So does every operation of their concatenation. -/
theorem flat_keeps (op : HloOp τ sig (Elt F)) (hop : op ∈ List.flatten (stretches (F := F))) : Keeps op := by
  obtain ⟨ops, hops, hmem⟩ := List.mem_flatten.mp hop
  exact List.forall_iff_forall_mem.mp (List.forall_iff_forall_mem.mp stretches_keep ops hops) op hmem

variable (m : (ℓ : Loc nD τ sig) → Buf (Elt F) ℓ)

/-- The program up to its matrix product is the stretches in order, then the product: the product starts from the
    contents `V m`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main stretches stretches_sub stretches_fresh main_chain

/-- An argument array is found by the matrix product as launched. -/
theorem V_arg (c : Dev nD) (r : Ref sig .tc) (hr : r ∈ argRefs) : V m c r = m ((c : Thread nD τ).loc r) :=
  StableHlo.after_of_forall_not_mem (b := Proc.devRef .tc r) _ _ fun op hop => flat_keeps op hop r hr

theorem V_main_arg0 (c : Dev nD) : V m c main_arg0 = m ((c : Thread nD τ).loc main_arg0) := V_arg m c _ (by decide)
theorem V_main_arg1 (c : Dev nD) : V m c main_arg1 = m ((c : Thread nD τ).loc main_arg1) := V_arg m c _ (by decide)
theorem V_main_arg2 (c : Dev nD) : V m c main_arg2 = m ((c : Thread nD τ).loc main_arg2) := V_arg m c _ (by decide)
theorem V_main_arg3 (c : Dev nD) : V m c main_arg3 = m ((c : Thread nD τ).loc main_arg3) := V_arg m c _ (by decide)
theorem V_main_arg4 (c : Dev nD) : V m c main_arg4 = m ((c : Thread nD τ).loc main_arg4) := V_arg m c _ (by decide)

end Cert.Kernel.Hand

end
-- ==== Proof.KFrameBits.lean ====
import proofs.«118270_j50440095924880_1_alg».proof.Proof.KFrameMainBits
import proofs.«118270_j50440095924880_1_alg».proof.Proof.Gen.Kernel.Skeleton
import proofs.«118270_j50440095924880_1_alg».proof.Proof.Gen.Kernel.Points
import Idealize.ShloMosaic.Lib.Pipeline.FrameBody
import Idealize.ShloMosaic.Lib.Ring
import Idealize.ShloMosaic.Lib.Tactic

/-!
# The matrix product's run

The product is one pipelined call over 64 grid points. At point t it is handed three staging buffers: rows
1024·t … 1024·t + 1023 of the input (window 0), the whole 1024×1024 matrix (window 1, fetched once, at the first
point, and found again unchanged at every later one), and the block of the result for the same rows (window 2).
The body loads the first two whole, also loads the result's buffer (whatever it holds: the value is not used), and
stores one whole-buffer value: the product of the two loaded blocks. So after the body the two inputs' buffers hold
their blocks and the result's buffer holds that product, whatever it held before; the pipeline writes it back to
the result's rows. Every argument array is either an input window's array or no window's, so all end as launched.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window w's block at point t, read off its array as the product finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input rows' staging buffer holds its block at every point, for any proof data over the arrays `V` whose
    body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The matrix's staging buffer holds the whole matrix at every point: fetched at the first, and at a later point
    the block index has not moved and the body left the buffer as it found it. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The arguments end as launched -/

/-- From a run that ends with every windowed array at what the proof data computes and every other buffer as the
    product found it: the input rows' array is an input window's, so unchanged; the other four arguments are no
    window's array. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## What the body leaves in the result's buffer -/

/-- The whole 1024×1024 buffer as one rectangle: every load and the one store go through it. -/
abbrev rAll : Rect S1024x1024 := Rect.unit (s := S1024x1024) ![0, 0] S1024x1024.size inb_S1024x1024_S1024x1024_0_0

/-- The result's staging buffer after the body: its one store, the product of the two loaded blocks, laid over
    the whole buffer. -/
def out0_2 (x0 : Vec F S1024x1024 .f32) (x1 : Vec F S1024x1024 .bf16) : Vec F S1024x1024 .f32 :=
  View.canon [⟨rAll, k0_pay1 (View.ld x0 rAll) (View.ld x1 rAll)⟩]

/-- The one store covers the buffer. -/
theorem cover0_2 (p0 : Vec F S1024x1024 .f32) (y : S1024x1024.Idx) :
    ∃ pc ∈ ([⟨rAll, p0⟩] : List (View.Piece (Elt F) S1024x1024 .f32)), y ∈ pc.1.set :=
  View.cover_of_tiled [⟨rAll, p0⟩] S1024x1024.size (by rfl) y

/-! ## The body's triple -/

set_option maxHeartbeats 1000000 in
/-- The body on whole staging buffers, the inputs' at contents x0, x1 and the result's at anything, runs to the
    continuation with the inputs' as they were and the result's at `out0_2 x0 x1`: three loads (the third reads the
    result's buffer, whatever it holds) and one covering store. -/
theorem sound_kernel (c : Dev nD) (E : Set ℕ) (i : grid0.Coords) (arg1 : Memref sig .tc .vmem S1024x1024 .f32) (harg1 : arg1.IsWhole)
    (arg2 : Memref sig .tc .vmem S1024x1024 .bf16) (harg2 : arg2.IsWhole) (arg3 : Memref sig .tc .vmem S1024x1024 .f32) (harg3 : arg3.IsWhole)
    (x0 : Vec F S1024x1024 .f32) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover0_2 _)

/-! ## The pipeline's proof data -/

/-- The proof data on core c: the arrays as the product finds them; after the body at point t each input's buffer
    at its block and the result's at the product of the two blocks; the invariant the scoped rest and the generator
    register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

/-- The proof data's arrays are the contents the product finds (the definition projected, `V` never unfolded). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so `sound_kernel` applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program on the TensorCores terminates,
    and at its end every windowed array holds what the proof data computes and every other unscoped buffer what the
    product found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs and its five argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Hand

end
-- ==== Proof.KVIdeal.lean ====
import proofs.«118270_j50440095924880_1_alg».proof.Proof.Gen.KernelIdeal.Launch

/-!
# The buffers as the matrix product finds them

Before its one matrix product the program runs its host operations: for each pair of degrees a slice of the weight
vector, the small coefficient matrix written entry by entry into zeros, their Kronecker product, and the
concatenations into the 1024×1024 matrix. `V m c b` is core c's buffer b after all of them, as a fold of the
operations over the launch memory; it is never unfolded except to read one buffer's value.
-/

noncomputable section

namespace Cert.KernelIdeal.Hand

open Idealize.ShloMosaic Idealize.ShloMosaic.TcCoe Idealize.SL.Sem
open Cert.KernelIdeal Cert.KernelIdeal.Gen

variable {F : FTy → Type} [FloatOps F]

/-- The stretches of host operations before the matrix product, in program order. -/
abbrev stretches : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32]

/-- Core c's TensorCore buffers when the matrix product starts. -/
abbrev V (m : (ℓ : Loc nD τ sig) → Buf (Elt F) ℓ) (c : Dev nD) (b : Ref sig .tc) : Buf (Elt F) ((c : Thread nD τ).loc b) :=
  StableHlo.after (List.flatten (stretches (F := F))) (fun b => m (c, b)) b

end Cert.KernelIdeal.Hand

end
-- ==== Proof.KFrameMainIdeal.lean ====
import proofs.«118270_j50440095924880_1_alg».proof.Proof.KVIdeal
import Idealize.ShloMosaic.Lib.Pipeline.Frame

/-!
# The host operations before the matrix product

The program's text up to its one matrix product is thirty-three stretches of host operations. Each operation
writes exactly one buffer, its result, and none of these results is one of the five argument arrays; so the
matrix product finds the arguments as they were launched. No operation leaves a buffer at contents the program
does not determine.
-/

set_option maxRecDepth 16384

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]

/-- The five argument arrays. -/
abbrev argRefs : List (Ref sig .tc) := [main_arg0, main_arg1, main_arg2, main_arg3, main_arg4]

/-- An operation keeps the argument arrays: it writes none of them. -/
def Keeps (op : HloOp τ sig (Elt F)) : Prop :=
  ∀ r ∈ argRefs, Proc.devRef (τ := τ) .tc r ∉ op.writes

/-- An operation whose only written buffer is a reference other than the five arguments keeps them. -/
theorem keeps_of_single (op : HloOp τ sig (Elt F)) (y : Ref sig .tc) (h : op.writes = {Proc.devRef .tc y})
    (hy : y ∉ argRefs) : Keeps op := by
  intro r hr hmem
  rw [h, Finset.mem_singleton] at hmem
  exact hy (Proc.devRef_injective _ hmem ▸ hr)

/-- Every operation of a literal stretch writes one result, and that result is no argument. -/
local macro "keeps_stretch" : tactic =>
  `(tactic| (simp only [List.Forall]; (repeat' constructor); all_goals exact keeps_of_single _ _ rfl (by decide)))

/-- No operation of a literal stretch leaves a buffer undetermined. -/
local macro "fresh_stretch" : tactic =>
  `(tactic| (simp only [List.Forall]; repeat' constructor))

theorem keeps0 : (hostOps0 : List (HloOp τ sig (Elt F))).Forall Keeps := by keeps_stretch
theorem fresh0 : (hostOps0 : List (HloOp τ sig (Elt F))).Forall fun op => op.fresh = ∅ := by fresh_stretch
theorem keeps1 : (hostOps0_1 : List (HloOp τ sig (Elt F))).Forall Keeps := by keeps_stretch
theorem fresh1 : (hostOps0_1 : List (HloOp τ sig (Elt F))).Forall fun op => op.fresh = ∅ := by fresh_stretch
theorem keeps2 : (hostOps0_2 : List (HloOp τ sig (Elt F))).Forall Keeps := by keeps_stretch
theorem fresh2 : (hostOps0_2 : List (HloOp τ sig (Elt F))).Forall fun op => op.fresh = ∅ := by fresh_stretch
theorem keeps3 : (hostOps0_3 : List (HloOp τ sig (Elt F))).Forall Keeps := by keeps_stretch
theorem fresh3 : (hostOps0_3 : List (HloOp τ sig (Elt F))).Forall fun op => op.fresh = ∅ := by fresh_stretch
theorem keeps4 : (hostOps0_4 : List (HloOp τ sig (Elt F))).Forall Keeps := by keeps_stretch
theorem fresh4 : (hostOps0_4 : List (HloOp τ sig (Elt F))).Forall fun op => op.fresh = ∅ := by fresh_stretch
theorem keeps5 : (hostOps0_5 : List (HloOp τ sig (Elt F))).Forall Keeps := by keeps_stretch
theorem fresh5 : (hostOps0_5 : List (HloOp τ sig (Elt F))).Forall fun op => op.fresh = ∅ := by fresh_stretch
theorem keeps6 : (hostOps0_6 : List (HloOp τ sig (Elt F))).Forall Keeps := by keeps_stretch
theorem fresh6 : (hostOps0_6 : List (HloOp τ sig (Elt F))).Forall fun op => op.fresh = ∅ := by fresh_stretch
theorem keeps7 : (hostOps0_7 : List (HloOp τ sig (Elt F))).Forall Keeps := by keeps_stretch
theorem fresh7 : (hostOps0_7 : List (HloOp τ sig (Elt F))).Forall fun op => op.fresh = ∅ := by fresh_stretch
theorem keeps8 : (hostOps0_8 : List (HloOp τ sig (Elt F))).Forall Keeps := by keeps_stretch
theorem fresh8 : (hostOps0_8 : List (HloOp τ sig (Elt F))).Forall fun op => op.fresh = ∅ := by fresh_stretch
theorem keeps9 : (hostOps0_9 : List (HloOp τ sig (Elt F))).Forall Keeps := by keeps_stretch
theorem fresh9 : (hostOps0_9 : List (HloOp τ sig (Elt F))).Forall fun op => op.fresh = ∅ := by fresh_stretch
theorem keeps10 : (hostOps0_10 : List (HloOp τ sig (Elt F))).Forall Keeps := by keeps_stretch
theorem fresh10 : (hostOps0_10 : List (HloOp τ sig (Elt F))).Forall fun op => op.fresh = ∅ := by fresh_stretch
theorem keeps11 : (hostOps0_11 : List (HloOp τ sig (Elt F))).Forall Keeps := by keeps_stretch
theorem fresh11 : (hostOps0_11 : List (HloOp τ sig (Elt F))).Forall fun op => op.fresh = ∅ := by fresh_stretch
theorem keeps12 : (hostOps0_12 : List (HloOp τ sig (Elt F))).Forall Keeps := by keeps_stretch
theorem fresh12 : (hostOps0_12 : List (HloOp τ sig (Elt F))).Forall fun op => op.fresh = ∅ := by fresh_stretch
theorem keeps13 : (hostOps0_13 : List (HloOp τ sig (Elt F))).Forall Keeps := by keeps_stretch
theorem fresh13 : (hostOps0_13 : List (HloOp τ sig (Elt F))).Forall fun op => op.fresh = ∅ := by fresh_stretch
theorem keeps14 : (hostOps0_14 : List (HloOp τ sig (Elt F))).Forall Keeps := by keeps_stretch
theorem fresh14 : (hostOps0_14 : List (HloOp τ sig (Elt F))).Forall fun op => op.fresh = ∅ := by fresh_stretch
theorem keeps15 : (hostOps0_15 : List (HloOp τ sig (Elt F))).Forall Keeps := by keeps_stretch
theorem fresh15 : (hostOps0_15 : List (HloOp τ sig (Elt F))).Forall fun op => op.fresh = ∅ := by fresh_stretch
theorem keeps16 : (hostOps0_16 : List (HloOp τ sig (Elt F))).Forall Keeps := by keeps_stretch
theorem fresh16 : (hostOps0_16 : List (HloOp τ sig (Elt F))).Forall fun op => op.fresh = ∅ := by fresh_stretch
theorem keeps17 : (hostOps0_17 : List (HloOp τ sig (Elt F))).Forall Keeps := by keeps_stretch
theorem fresh17 : (hostOps0_17 : List (HloOp τ sig (Elt F))).Forall fun op => op.fresh = ∅ := by fresh_stretch
theorem keeps18 : (hostOps0_18 : List (HloOp τ sig (Elt F))).Forall Keeps := by keeps_stretch
theorem fresh18 : (hostOps0_18 : List (HloOp τ sig (Elt F))).Forall fun op => op.fresh = ∅ := by fresh_stretch
theorem keeps19 : (hostOps0_19 : List (HloOp τ sig (Elt F))).Forall Keeps := by keeps_stretch
theorem fresh19 : (hostOps0_19 : List (HloOp τ sig (Elt F))).Forall fun op => op.fresh = ∅ := by fresh_stretch
theorem keeps20 : (hostOps0_20 : List (HloOp τ sig (Elt F))).Forall Keeps := by keeps_stretch
theorem fresh20 : (hostOps0_20 : List (HloOp τ sig (Elt F))).Forall fun op => op.fresh = ∅ := by fresh_stretch
theorem keeps21 : (hostOps0_21 : List (HloOp τ sig (Elt F))).Forall Keeps := by keeps_stretch
theorem fresh21 : (hostOps0_21 : List (HloOp τ sig (Elt F))).Forall fun op => op.fresh = ∅ := by fresh_stretch
theorem keeps22 : (hostOps0_22 : List (HloOp τ sig (Elt F))).Forall Keeps := by keeps_stretch
theorem fresh22 : (hostOps0_22 : List (HloOp τ sig (Elt F))).Forall fun op => op.fresh = ∅ := by fresh_stretch
theorem keeps23 : (hostOps0_23 : List (HloOp τ sig (Elt F))).Forall Keeps := by keeps_stretch
theorem fresh23 : (hostOps0_23 : List (HloOp τ sig (Elt F))).Forall fun op => op.fresh = ∅ := by fresh_stretch
theorem keeps24 : (hostOps0_24 : List (HloOp τ sig (Elt F))).Forall Keeps := by keeps_stretch
theorem fresh24 : (hostOps0_24 : List (HloOp τ sig (Elt F))).Forall fun op => op.fresh = ∅ := by fresh_stretch
theorem keeps25 : (hostOps0_25 : List (HloOp τ sig (Elt F))).Forall Keeps := by keeps_stretch
theorem fresh25 : (hostOps0_25 : List (HloOp τ sig (Elt F))).Forall fun op => op.fresh = ∅ := by fresh_stretch
theorem keeps26 : (hostOps0_26 : List (HloOp τ sig (Elt F))).Forall Keeps := by keeps_stretch
theorem fresh26 : (hostOps0_26 : List (HloOp τ sig (Elt F))).Forall fun op => op.fresh = ∅ := by fresh_stretch
theorem keeps27 : (hostOps0_27 : List (HloOp τ sig (Elt F))).Forall Keeps := by keeps_stretch
theorem fresh27 : (hostOps0_27 : List (HloOp τ sig (Elt F))).Forall fun op => op.fresh = ∅ := by fresh_stretch
theorem keeps28 : (hostOps0_28 : List (HloOp τ sig (Elt F))).Forall Keeps := by keeps_stretch
theorem fresh28 : (hostOps0_28 : List (HloOp τ sig (Elt F))).Forall fun op => op.fresh = ∅ := by fresh_stretch
theorem keeps29 : (hostOps0_29 : List (HloOp τ sig (Elt F))).Forall Keeps := by keeps_stretch
theorem fresh29 : (hostOps0_29 : List (HloOp τ sig (Elt F))).Forall fun op => op.fresh = ∅ := by fresh_stretch
theorem keeps30 : (hostOps0_30 : List (HloOp τ sig (Elt F))).Forall Keeps := by keeps_stretch
theorem fresh30 : (hostOps0_30 : List (HloOp τ sig (Elt F))).Forall fun op => op.fresh = ∅ := by fresh_stretch
theorem keeps31 : (hostOps0_31 : List (HloOp τ sig (Elt F))).Forall Keeps := by keeps_stretch
theorem fresh31 : (hostOps0_31 : List (HloOp τ sig (Elt F))).Forall fun op => op.fresh = ∅ := by fresh_stretch
theorem keeps32 : (hostOps0_32 : List (HloOp τ sig (Elt F))).Forall Keeps := by keeps_stretch
theorem fresh32 : (hostOps0_32 : List (HloOp τ sig (Elt F))).Forall fun op => op.fresh = ∅ := by fresh_stretch

/-- Every stretch touches TensorCore references only. -/
theorem stretches_sub : (stretches (F := F)).Forall fun ops => ops.Forall fun op => op.bufs ⊆ StableHlo.tcRefs τ sig := by
  simp only [stretches, List.Forall]
  exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub⟩

/-- No stretch leaves a buffer undetermined. -/
theorem stretches_fresh : (stretches (F := F)).Forall fun ops => ops.Forall fun op => op.fresh = ∅ := by
  simp only [stretches, List.Forall]
  exact ⟨fresh0, fresh1, fresh2, fresh3, fresh4, fresh5, fresh6, fresh7, fresh8, fresh9, fresh10, fresh11, fresh12, fresh13, fresh14, fresh15, fresh16, fresh17, fresh18, fresh19, fresh20, fresh21, fresh22, fresh23, fresh24, fresh25, fresh26, fresh27, fresh28, fresh29, fresh30, fresh31, fresh32⟩

/-- Every stretch keeps the argument arrays. -/
theorem stretches_keep : (stretches (F := F)).Forall fun ops => ops.Forall Keeps := by
  simp only [stretches, List.Forall]
  exact ⟨keeps0, keeps1, keeps2, keeps3, keeps4, keeps5, keeps6, keeps7, keeps8, keeps9, keeps10, keeps11, keeps12, keeps13, keeps14, keeps15, keeps16, keeps17, keeps18, keeps19, keeps20, keeps21, keeps22, keeps23, keeps24, keeps25, keeps26, keeps27, keeps28, keeps29, keeps30, keeps31, keeps32⟩

/-- So does every operation of their concatenation. -/
theorem flat_keeps (op : HloOp τ sig (Elt F)) (hop : op ∈ List.flatten (stretches (F := F))) : Keeps op := by
  obtain ⟨ops, hops, hmem⟩ := List.mem_flatten.mp hop
  exact List.forall_iff_forall_mem.mp (List.forall_iff_forall_mem.mp stretches_keep ops hops) op hmem

variable (m : (ℓ : Loc nD τ sig) → Buf (Elt F) ℓ)

/-- The program up to its matrix product is the stretches in order, then the product: the product starts from the
    contents `V m`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main stretches stretches_sub stretches_fresh main_chain

/-- An argument array is found by the matrix product as launched. -/
theorem V_arg (c : Dev nD) (r : Ref sig .tc) (hr : r ∈ argRefs) : V m c r = m ((c : Thread nD τ).loc r) :=
  StableHlo.after_of_forall_not_mem (b := Proc.devRef .tc r) _ _ fun op hop => flat_keeps op hop r hr

theorem V_main_arg0 (c : Dev nD) : V m c main_arg0 = m ((c : Thread nD τ).loc main_arg0) := V_arg m c _ (by decide)
theorem V_main_arg1 (c : Dev nD) : V m c main_arg1 = m ((c : Thread nD τ).loc main_arg1) := V_arg m c _ (by decide)
theorem V_main_arg2 (c : Dev nD) : V m c main_arg2 = m ((c : Thread nD τ).loc main_arg2) := V_arg m c _ (by decide)
theorem V_main_arg3 (c : Dev nD) : V m c main_arg3 = m ((c : Thread nD τ).loc main_arg3) := V_arg m c _ (by decide)
theorem V_main_arg4 (c : Dev nD) : V m c main_arg4 = m ((c : Thread nD τ).loc main_arg4) := V_arg m c _ (by decide)

end Cert.KernelIdeal.Hand

end
-- ==== Proof.KFrameIdeal.lean ====
import proofs.«118270_j50440095924880_1_alg».proof.Proof.KFrameMainIdeal
import proofs.«118270_j50440095924880_1_alg».proof.Proof.Gen.KernelIdeal.Skeleton
import proofs.«118270_j50440095924880_1_alg».proof.Proof.Gen.KernelIdeal.Points
import Idealize.ShloMosaic.Lib.Pipeline.FrameBody
import Idealize.ShloMosaic.Lib.Ring
import Idealize.ShloMosaic.Lib.Tactic

/-!
# The matrix product's run

The product is one pipelined call over 64 grid points. At point t it is handed three staging buffers: rows
1024·t … 1024·t + 1023 of the input (window 0), the whole 1024×1024 matrix (window 1, fetched once, at the first
point, and found again unchanged at every later one), and the block of the result for the same rows (window 2).
The body loads the first two whole, also loads the result's buffer (whatever it holds: the value is not used), and
stores one whole-buffer value: the product of the two loaded blocks. So after the body the two inputs' buffers hold
their blocks and the result's buffer holds that product, whatever it held before; the pipeline writes it back to
the result's rows. Every argument array is either an input window's array or no window's, so all end as launched.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window w's block at point t, read off its array as the product finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input rows' staging buffer holds its block at every point, for any proof data over the arrays `V` whose
    body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The matrix's staging buffer holds the whole matrix at every point: fetched at the first, and at a later point
    the block index has not moved and the body left the buffer as it found it. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The arguments end as launched -/

/-- From a run that ends with every windowed array at what the proof data computes and every other buffer as the
    product found it: the input rows' array is an input window's, so unchanged; the other four arguments are no
    window's array. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## What the body leaves in the result's buffer -/

/-- The whole 1024×1024 buffer as one rectangle: every load and the one store go through it. -/
abbrev rAll : Rect S1024x1024 := Rect.unit (s := S1024x1024) ![0, 0] S1024x1024.size inb_S1024x1024_S1024x1024_0_0

/-- The result's staging buffer after the body: its one store, the product of the two loaded blocks, laid over
    the whole buffer. -/
def out0_2 (x0 : Vec F S1024x1024 .f32) (x1 : Vec F S1024x1024 .bf16) : Vec F S1024x1024 .f32 :=
  View.canon [⟨rAll, k0_pay1 (View.ld x0 rAll) (View.ld x1 rAll)⟩]

/-- The one store covers the buffer. -/
theorem cover0_2 (p0 : Vec F S1024x1024 .f32) (y : S1024x1024.Idx) :
    ∃ pc ∈ ([⟨rAll, p0⟩] : List (View.Piece (Elt F) S1024x1024 .f32)), y ∈ pc.1.set :=
  View.cover_of_tiled [⟨rAll, p0⟩] S1024x1024.size (by rfl) y

/-! ## The body's triple -/

set_option maxHeartbeats 1000000 in
/-- The body on whole staging buffers, the inputs' at contents x0, x1 and the result's at anything, runs to the
    continuation with the inputs' as they were and the result's at `out0_2 x0 x1`: three loads (the third reads the
    result's buffer, whatever it holds) and one covering store. -/
theorem sound_kernel (c : Dev nD) (E : Set ℕ) (i : grid0.Coords) (arg1 : Memref sig .tc .vmem S1024x1024 .f32) (harg1 : arg1.IsWhole)
    (arg2 : Memref sig .tc .vmem S1024x1024 .bf16) (harg2 : arg2.IsWhole) (arg3 : Memref sig .tc .vmem S1024x1024 .f32) (harg3 : arg3.IsWhole)
    (x0 : Vec F S1024x1024 .f32) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover0_2 _)

/-! ## The pipeline's proof data -/

/-- The proof data on core c: the arrays as the product finds them; after the body at point t each input's buffer
    at its block and the result's at the product of the two blocks; the invariant the scoped rest and the generator
    register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

/-- The proof data's arrays are the contents the product finds (the definition projected, `V` never unfolded). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so `sound_kernel` applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program on the TensorCores terminates,
    and at its end every windowed array holds what the proof data computes and every other unscoped buffer what the
    product found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs and its five argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Hand

end
-- ==== Proof.Spec.lean ====
import Mathlib.Tactic.FinCases
import Mathlib.Tactic.Ring
import Mathlib.Tactic.NormNum
import Idealize.ShloMosaic.PureOps.Ideal
import Idealize.ShloMosaic.Lib.ValueIdx

/-!
# The two arrangements of an O(2)-reduced mixing of irreducible blocks

A row of 1024 numbers is four blocks, one per degree l = 0, 1, 2, 3: block l starts at column 64·l² and holds
64 channels of 2l+1 components, channel-major, so the component a of channel m of degree l sits at column
64·l² + m·(2l+1) + a (col l m a). For every pair of degrees (lo, li) there is a path p = 4·lo + li with a
64×64 weight matrix, the entry (o, m) at position 4096·p + 64·o + m of the flat weight vector, and coefficients
hz p, hp p μ, hn p μ. A component a of degree li feeds a component b of degree lo only when they are equally far
from the middle components li and lo: at distance 0 with coefficient hz p; at distance μ ≥ 1 with hp p (μ-1)
when they lie on the same side, with hn p (μ-1) from below to above, and with -(hn p (μ-1)) from above to below
(mixH).

The result at row n, degree lo, channel o, component b can be written in two ways:

* as one product of the row with a 1024×1024 matrix whose entry at (col li m a, col lo o b) is the weight times
  the coefficient (rowTimesMatrix);
* path by path: for each li, the middle component contracted with the weights and then scaled by hz p, and for
  each distance μ the two combinations hp·x₊ + hn·x₋ and hp·x₋ - hn·x₊ contracted with the weights (pathSum).
-/

noncomputable section

namespace Cert.Mix

open Idealize.ShloMosaic Idealize.ShloMosaic.ValueIdx

/-- The arrays, at the extended reals, indexed by the literal shapes. -/
abbrev XArr := (⟨2, ![65536, 1024]⟩ : Shape).Idx → EReal
abbrev WArr := (⟨1, ![65536]⟩ : Shape).Idx → EReal
abbrev ZArr := (⟨1, ![16]⟩ : Shape).Idx → EReal
abbrev PArr := (⟨2, ![16, 3]⟩ : Shape).Idx → EReal
abbrev MArr := (⟨2, ![1024, 1024]⟩ : Shape).Idx → EReal

/-- A degree's number of components, 2l+1. -/
def dim (l : Fin 4) : ℕ := 2 * l.val + 1
/-- Where a degree's block starts in a row: 64·l². -/
def off (l : Fin 4) : ℕ := 64 * (l.val * l.val)

theorem col_lt (l : Fin 4) (m : Fin 64) (a : Fin (dim l)) : off l + m.val * dim l + a.val < 1024 := by
  have ha := a.isLt; have hm := m.isLt
  fin_cases l <;> simp only [dim, off] at ha ⊢ <;> omega

/-- The column of component a of channel m of degree l. -/
def col (l : Fin 4) (m : Fin 64) (a : Fin (dim l)) : Fin 1024 := ⟨off l + m.val * dim l + a.val, col_lt l m a⟩

/-- The path of a pair of degrees. -/
def path (lo li : Fin 4) : Fin 16 := ⟨4 * lo.val + li.val, by have := lo.isLt; have := li.isLt; omega⟩

/-- The position of the weight (o, m) of the path (lo, li) in the flat weight vector. -/
def wix (lo li : Fin 4) (o m : Fin 64) : Fin 65536 :=
  ⟨4096 * (4 * lo.val + li.val) + 64 * o.val + m.val, by
    have := lo.isLt; have := li.isLt; have := o.isLt; have := m.isLt; omega⟩

/-- A coefficient table read at a position that may lie outside it (then zero). -/
def tab (h : PArr) (p : Fin 16) (k : ℕ) : EReal := if hk : k < 3 then h (ix2 p ⟨k, hk⟩) else 0

/-- A row read at a component position that may lie outside the degree's block (then zero). -/
def comp (x : XArr) (n : Fin 65536) (l : Fin 4) (m : Fin 64) (a : ℕ) : EReal :=
  if ha : a < dim l then x (ix2 n (col l m ⟨a, ha⟩)) else 0

/-- The coefficient with which component a of degree li feeds component b of degree lo. -/
def mixH (hz : ZArr) (hp hn : PArr) (lo li : Fin 4) (a : Fin (dim li)) (b : Fin (dim lo)) : EReal :=
  if ((a.val : ℤ) - li.val).natAbs ≠ ((b.val : ℤ) - lo.val).natAbs then 0
  else if a.val = li.val then hz (ix1 (path lo li))
  else if (li.val < a.val ↔ lo.val < b.val) then tab hp (path lo li) (((a.val : ℤ) - li.val).natAbs - 1)
  else if lo.val < b.val then tab hn (path lo li) (((a.val : ℤ) - li.val).natAbs - 1)
  else -(tab hn (path lo li) (((a.val : ℤ) - li.val).natAbs - 1))

/-- The dense matrix: weight times coefficient at (col li m a, col lo o b). -/
def matEntry (w : WArr) (hz : ZArr) (hp hn : PArr) (lo li : Fin 4) (o m : Fin 64) (a : Fin (dim li)) (b : Fin (dim lo)) : EReal :=
  w (ix1 (wix lo li o m)) * mixH hz hp hn lo li a b

/-- First arrangement: a row times a 1024×1024 matrix, read at a column. -/
def rowTimesMatrix (x : XArr) (M : MArr) (n : Fin 65536) (j : Fin 1024) : EReal :=
  ∑ k : Fin 1024, x (ix2 n k) * M (ix2 k j)

/-- The middle component of degree li contracted with the path's weights, then scaled by hz. -/
def midTerm (x : XArr) (w : WArr) (hz : ZArr) (lo li : Fin 4) (n : Fin 65536) (o : Fin 64) : EReal :=
  (∑ m : Fin 64, comp x n li m li.val * w (ix1 (wix lo li o m))) * hz (ix1 (path lo li))

/-- The combination hp·x₊ + hn·x₋ at distance μ+1, contracted with the path's weights. -/
def upTerm (x : XArr) (w : WArr) (hp hn : PArr) (lo li : Fin 4) (μ : Fin 3) (n : Fin 65536) (o : Fin 64) : EReal :=
  ∑ m : Fin 64, (tab hp (path lo li) μ.val * comp x n li m (li.val + (μ.val + 1))
      + tab hn (path lo li) μ.val * comp x n li m (li.val - (μ.val + 1))) * w (ix1 (wix lo li o m))

/-- The combination hp·x₋ - hn·x₊ at distance μ+1, contracted with the path's weights. -/
def downTerm (x : XArr) (w : WArr) (hp hn : PArr) (lo li : Fin 4) (μ : Fin 3) (n : Fin 65536) (o : Fin 64) : EReal :=
  ∑ m : Fin 64, (tab hp (path lo li) μ.val * comp x n li m (li.val - (μ.val + 1))
      - tab hn (path lo li) μ.val * comp x n li m (li.val + (μ.val + 1))) * w (ix1 (wix lo li o m))

/-- What the path (lo, li) adds to component b of degree lo. -/
def pathTerm (x : XArr) (w : WArr) (hz : ZArr) (hp hn : PArr) (lo li : Fin 4) (n : Fin 65536) (o : Fin 64) (b : Fin (dim lo)) : EReal :=
  (if b.val = lo.val then midTerm x w hz lo li n o else 0)
  + ∑ μ : Fin 3, if μ.val + 1 ≤ min lo.val li.val then
      ((if b.val = lo.val + (μ.val + 1) then upTerm x w hp hn lo li μ n o else 0)
        + (if b.val + (μ.val + 1) = lo.val then downTerm x w hp hn lo li μ n o else 0))
    else 0

/-- Second arrangement: the paths into degree lo, added up. -/
def pathSum (x : XArr) (w : WArr) (hz : ZArr) (hp hn : PArr) (lo : Fin 4) (n : Fin 65536) (o : Fin 64) (b : Fin (dim lo)) : EReal :=
  ∑ li : Fin 4, pathTerm x w hz hp hn lo li n o b

end Cert.Mix

end
-- ==== Proof.KFrameValue.lean ====
import proofs.«118270_j50440095924880_1_alg».proof.Proof.KFrameIdeal
import proofs.«118270_j50440095924880_1_alg».proof.Proof.Spec
import Idealize.ShloMosaic.PureOps.Ideal.Laws
import Idealize.ShloMosaic.Lib.ValueIdx
import Idealize.ShloMosaic.Lib.Pipeline.Value

/-!
# The matrix product's result, read at an index

At grid point t the body stores, at row p and column q of the result's block, the sum over k of the input
block's entry (p, k) times the matrix block's entry (k, q). The input's block at point t is rows 1024·t … of the
input array and the result's block the same rows of the result array, while the matrix's block is the whole matrix
at every point. The 64 blocks of 1024 rows cover the 65536 rows, so the result array ends, at row n and column j,
at the sum over k of x(n, k) · M(k, j): the row times the matrix.
-/

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.Mix

local notation "DD" => dot_S1024x1024_S1024x1024_S1024x1024_1_0_0_1_n_n

/-! ## The stored value at an index -/

/-- The left operand's index at result index (p, q) and contraction position k is (p, k). -/
theorem mm_lhs_at (p q k : Fin 1024) :
    DotDims.lhsIdx DD (ix2 p q) ((contrEquiv1 DD 1024 rfl rfl).symm k) = ix2 p k := by
  have c2 := contrEquiv1_symm_val DD 1024 rfl rfl k
  funext ax; apply Fin.ext
  match ax with
  | ⟨0, _⟩ => simp [DotDims.lhsIdx, dot_S1024x1024_S1024x1024_S1024x1024_1_0_0_1_n_n]; rfl
  | ⟨1, _⟩ => simp [DotDims.lhsIdx, dot_S1024x1024_S1024x1024_S1024x1024_1_0_0_1_n_n]; exact c2

/-- The right operand's index at result index (p, q) and contraction position k is (k, q). -/
theorem mm_rhs_at (p q k : Fin 1024) :
    DotDims.rhsIdx DD (ix2 p q) ((contrEquiv1 DD 1024 rfl rfl).symm k) = ix2 k q := by
  have c2 := contrEquiv1_symm_val DD 1024 rfl rfl k
  funext ax; apply Fin.ext
  match ax with
  | ⟨0, _⟩ => simp [DotDims.rhsIdx, dot_S1024x1024_S1024x1024_S1024x1024_1_0_0_1_n_n]; exact c2
  | ⟨1, _⟩ => simp [DotDims.rhsIdx, dot_S1024x1024_S1024x1024_S1024x1024_1_0_0_1_n_n]; rfl

/-- The body's stored value at row p and column q: the sum over k of the first block's (p, k) entry times the
    second's (k, q) entry. The change of format and the cast to the same shape are identities at the extended
    reals, and the accumulator is zero. -/
theorem mm_pay_apply (x0 : Vec Ideal S1024x1024 .f32) (x1 : Vec Ideal S1024x1024 .bf16) (p q : Fin 1024) :
    k0_pay1 (F := Ideal) x0 x1 (ix2 p q) = ∑ k : Fin 1024, x0 (ix2 p k) * x1 (ix2 k q) := by
  unfold k0_pay1
  show FloatOps.matmul DD none _ _ (constant S1024x1024 .f32 0x00000000#32) (ix2 p q) = _
  rw [Ideal.matmul_constant_zero_apply, ← Equiv.sum_comp (contrEquiv1 DD 1024 rfl rfl).symm]
  refine Finset.sum_congr rfl fun k _ => ?_
  rw [mm_lhs_at, mm_rhs_at, shapeCast_self]
  rfl

/-! ## The blocks -/

theorem mm_hz : (![0, 0] : Fin 2 → Nat) = fun _ => 0 := funext fun a => by fin_cases a <;> rfl

/-- The grid's index maps: at point t the input's and the result's blocks are block t along the rows; the matrix's
    block is the whole matrix. -/
theorem mm_idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The input's block at point t, at (x₀, x₁), is the array at (1024·t + x₀, x₁). -/
theorem mm_blk0_read (A : S65536x1024.Idx → EReal) (t : Fin cfg0.N) (x : S1024x1024.Idx) (k : S65536x1024.Idx)
    (hk0 : (k 0).val = 1024 * t.val + (x 0).val) (hk1 : (k 1).val = (x 1).val) :
    (((cfg0.win 0).blk t).view.read (Elt Ideal) A : S1024x1024.Idx → EReal) x = A k := by
  obtain ⟨e0, e1, -⟩ := mm_idx_facts t
  rw [View.read_apply]
  show A _ = A k
  congr 1
  funext a; apply Fin.ext
  match a with
  | ⟨0, _⟩ => show win0_0.index t (0 : Fin 2) * 1024 + 1 * (x 0).val = (k 0).val; rw [e0, hk0]; omega
  | ⟨1, _⟩ => show win0_0.index t (1 : Fin 2) * 1024 + 1 * (x 1).val = (k 1).val; rw [e1, hk1]; omega

/-- The matrix's block at any point is the whole matrix. -/
theorem mm_blk1_read (A : S1024x1024.Idx → EReal) (t : Fin cfg0.N) (x : S1024x1024.Idx) :
    (((cfg0.win 1).blk t).view.read (Elt Ideal) A : S1024x1024.Idx → EReal) x = A x := by
  obtain ⟨-, -, e0, e1, -⟩ := mm_idx_facts t
  rw [View.read_apply]
  show A _ = A x
  congr 1
  funext a; apply Fin.ext
  match a with
  | ⟨0, _⟩ => show win0_1.index t (0 : Fin 2) * 1024 + 1 * (x 0).val = (x 0).val; rw [e0]; omega
  | ⟨1, _⟩ => show win0_1.index t (1 : Fin 2) * 1024 + 1 * (x 1).val = (x 1).val; rw [e1]; omega

/-- The result's block at point t, at (x₀, x₁), is the array at (1024·t + x₀, x₁). -/
theorem mm_blk2_read (A : S65536x1024.Idx → EReal) (t : Fin cfg0.N) (x : S1024x1024.Idx) (k : S65536x1024.Idx)
    (hk0 : (k 0).val = 1024 * t.val + (x 0).val) (hk1 : (k 1).val = (x 1).val) :
    (((cfg0.win 2).blk t).view.read (Elt Ideal) A : S1024x1024.Idx → EReal) x = A k := by
  obtain ⟨-, -, -, -, e0, e1⟩ := mm_idx_facts t
  rw [View.read_apply]
  show A _ = A k
  congr 1
  funext a; apply Fin.ext
  match a with
  | ⟨0, _⟩ => show win0_2.index t (0 : Fin 2) * 1024 + 1 * (x 0).val = (k 0).val; rw [e0, hk0]; omega
  | ⟨1, _⟩ => show win0_2.index t (1 : Fin 2) * 1024 + 1 * (x 1).val = (k 1).val; rw [e1, hk1]; omega

/-- The result array as a function of the input array X and the matrix M: each row of X times M. -/
def rowsTimes (X : S65536x1024.Idx → EReal) (M : S1024x1024.Idx → EReal) : S65536x1024.Idx → EReal :=
  fun i => rowTimesMatrix X M (i 0) (i 1)

/-- The body's stored value over the blocks of X and M at point t is the result's block of `rowsTimes X M` there. -/
theorem mm_stored_eq (X : S65536x1024.Idx → EReal) (M : S1024x1024.Idx → EReal) (t : Fin cfg0.N) :
    (k0_pay1 (F := Ideal) (((cfg0.win 0).blk t).view.read (Elt Ideal) X) (((cfg0.win 1).blk t).view.read (Elt Ideal) M) : S1024x1024.Idx → EReal)
      = ((cfg0.win 2).blk t).view.read (Elt Ideal) (rowsTimes X M) := by
  funext j
  obtain ⟨p, q, rfl⟩ : ∃ (p q : Fin 1024), j = ix2 p q := ⟨j 0, j 1, eq_ix2 j⟩
  have hN : cfg0.N = 64 := N_0
  have ht := t.isLt
  have hp := p.isLt
  let n : Fin 65536 := ⟨1024 * t.val + p.val, by omega⟩
  refine (mm_pay_apply _ _ p q).trans ?_
  refine Eq.trans ?_ (mm_blk2_read (rowsTimes X M) t (ix2 p q) (ix2 n q) rfl rfl).symm
  show _ = ∑ k : Fin 1024, X (ix2 n k) * M (ix2 k q)
  refine Finset.sum_congr rfl fun k _ => ?_
  rw [mm_blk0_read X t (ix2 p k) (ix2 n k) rfl rfl, mm_blk1_read M t (ix2 k q)]

variable (m : (ℓ : Loc nD τ sig) → Buf (Elt Ideal) ℓ) (ρ : Dev nD → PrngReg)

/-- What point t writes back is block t of `rowsTimes` of the input array and the matrix as the product finds them. -/
theorem mm_flushed_eq (c : Dev nD) (t : Fin cfg0.N) :
    (dats m 0 c).flushed 2 t = ((cfg0.win 2).blk t).view.read (Elt Ideal) (rowsTimes (V m c main_arg0) (V m c main_v475)) := by
  show (cfg0.win 2).cut (grid0.coords t) ((dats m 0 c).after 2 t) = _
  rw [after0_2]
  unfold out0_2
  rw [View.canon_unit_zero mm_hz]
  simp only [View.ld_unit_zero (S := S1024x1024) mm_hz]
  unfold iblk
  exact mm_stored_eq (V m c main_arg0) (V m c main_v475) t

/-- An index of the result array lies in point t's block iff each coordinate lies in the block's range. -/
theorem mm_mem_blk (t : Fin cfg0.N) (i : S65536x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v476).slice (win0_2.rect t)).set ↔ _
  rw [View.set_slice_whole, Rect.mem_set_unit]
  exact Iff.rfl

/-- Row r lies in the block of point r / 1024: the 64 blocks cover the array. -/
theorem mm_cover (i : S65536x1024.Idx) : ∃ t : Fin cfg0.N, (cfg0.win 2).flush t = true ∧ i ∈ ((cfg0.win 2).blk t).view.set := by
  have hN : cfg0.N = 64 := N_0
  have hi0 : (i 0).val < 65536 := (i 0).isLt
  have hi1 : (i 1).val < 1024 := (i 1).isLt
  let t : Fin cfg0.N := ⟨(i 0).val / 1024, by omega⟩
  obtain ⟨-, -, -, -, e0, e1⟩ := mm_idx_facts t
  have e0' : win0_2.index t (0 : Fin 2) = (i 0).val / 1024 := e0
  refine ⟨t, flush0_2 t, ?_⟩
  rw [mm_mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- So the result array ends at `rowsTimes` of the input array and the matrix. -/
theorem mm_final (c : Dev nD) : (dats m 0 c).arrAt 2 cfg0.N = rowsTimes (V m c main_arg0) (V m c main_v475) :=
  (dats m 0 c).arrAt_eq_of_cover 2 (rowsTimes (V m c main_arg0) (V m c main_v475)) (fun t _ => mm_flushed_eq m c t) mm_cover

/-- The run, read: the result array at each input row times the matrix the host operations built, the five argument
    arrays unchanged. -/
theorem run_out : θ_run (defs (F := Ideal)) (onTc (τ := τ) (main (F := Ideal))) ⟨m, fun _ => 0, ρ⟩ (fun r => ∀ c : Dev nD,
      r.2.mem ((c.tc : Thread nD τ).loc main_v476) = (fun i => Cert.Mix.rowTimesMatrix (m ((c.tc : Thread nD τ).loc main_arg0)) (V m c main_v475) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h c).1 2).trans ((mm_final m c).trans (congrArg (fun X => rowsTimes X (V m c main_v475)) (V_main_arg0 m c))),
      ((h c).1 0).trans ((((dats m 0 c).arrAt_in 0 rfl _).trans (A_eq m c 0)).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.KernelIdeal.Hand

end
-- ==== Proof.PreFinite.lean ====
import proofs.«118270_j50440095924880_1_alg».proof.Defs
import Idealize.ShloMosaic.Lib.ReduceAll
import Idealize.ShloMosaic.Lib.ValueIdx

/-!
# The inputs are real numbers

The precondition says, of each of the five input arrays, that the conjunction over all its entries of
`|x| < +∞` is true, and that the five conjunctions are all true. Over the extended reals `|x|` is
`max x (-x)`, which is `+∞` exactly when `x` is `+∞` or `-∞`; so every entry of every input is
neither of the two infinities.
-/

noncomputable section

namespace Cert.KernelIdeal.Hand

open Idealize.ShloMosaic Idealize.SL.Sem
open Cert.KernelIdeal

/-- The rank-0 shape has one index. -/
instance subsingleton_scalar_idx : Subsingleton Cert.Pre_finite_inputs.S_.Idx :=
  ⟨fun a b => funext fun d => d.elim0⟩

/-- The f32 word with all exponent bits set and no fraction bit is `+∞`. -/
theorem ofBits_inf : Ideal.ofBits .f32 0x7F800000#32 = (⊤ : EReal) := by
  simp [Ideal.ofBits, Ideal.ieee]

/-- An extended real whose absolute value `max x (-x)` is below `+∞` is neither infinity. -/
theorem ne_top_bot_of_abs_lt_top {x : EReal} (h : max x (-x) < ⊤) : x ≠ ⊤ ∧ x ≠ ⊥ := by
  constructor
  · rintro rfl
    simp at h
  · rintro rfl
    simp at h

/-- The comparison "less than" on the extended reals gives the word 1 only when it holds. -/
theorem lt_of_cmp_olt {x y : EReal} (h : Ideal.cmp .olt x y = 1#1) : x < y := by
  by_contra hn
  have : Ideal.cmp .olt x y = 0#1 := by simp [Ideal.cmp, hn]
  rw [this] at h
  exact absurd h (by decide)

/-- One `all(|x| < +∞)` of the precondition, over any shape: if the conjunction over all entries is true,
    every entry is neither `+∞` nor `-∞`. -/
theorem finite_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x)
            (broadcastInDim s ![] hb (constant Cert.Pre_finite_inputs.S_ .f32 0x7F800000#32)))
          (constantI Cert.Pre_finite_inputs.S_ 1 1#1) hr hu ValueIdx.ix0 = 1#1)
    (i : s.Idx) : (x i : EReal) ≠ ⊤ ∧ (x i : EReal) ≠ ⊥ := by
  have h := Host.reduce_andi_all _ _ hr hu ValueIdx.ix0 e i
  have h' : Ideal.cmp .olt (max (x i : EReal) (-(x i : EReal))) (Ideal.ofBits .f32 0x7F800000#32) = 1#1 := h
  rw [ofBits_inf] at h'
  exact ne_top_bot_of_abs_lt_top (lt_of_cmp_olt h')

/-- An array of extended reals with no infinite entry is an array of real numbers. -/
theorem exists_real_of_finite {ι : Type} (x : ι → EReal) (h : ∀ i, x i ≠ ⊤ ∧ x i ≠ ⊥) :
    ∃ r : ι → ℝ, x = fun i => ((r i : ℝ) : EReal) :=
  ⟨fun i => (x i).toReal, funext fun i => (EReal.coe_toReal (h i).1 (h i).2).symm⟩

/-- Under the precondition every entry of each of the five inputs, on every core, is neither `+∞` nor `-∞`:
    the precondition is the conjunction of five `all(|x| < +∞)`, one per input. -/
theorem finite_of_pre [hPre : Cert.Pre_finite_inputs.Facts] (m : (ℓ : Loc nD τ sig) → Buf (Elt Ideal) ℓ)
    (h : Cert.Pre_KernelIdeal m) (c : Dev nD) :
      (∀ i, @Ne EReal ((m ((c.tc : Thread nD τ).loc main_arg0) : S65536x1024.Idx → EReal) i) ⊤
          ∧ @Ne EReal ((m ((c.tc : Thread nD τ).loc main_arg0) : S65536x1024.Idx → EReal) i) ⊥)
    ∧ (∀ i, @Ne EReal ((m ((c.tc : Thread nD τ).loc main_arg1) : S65536.Idx → EReal) i) ⊤
          ∧ @Ne EReal ((m ((c.tc : Thread nD τ).loc main_arg1) : S65536.Idx → EReal) i) ⊥)
    ∧ (∀ i, @Ne EReal ((m ((c.tc : Thread nD τ).loc main_arg2) : S16.Idx → EReal) i) ⊤
          ∧ @Ne EReal ((m ((c.tc : Thread nD τ).loc main_arg2) : S16.Idx → EReal) i) ⊥)
    ∧ (∀ i, @Ne EReal ((m ((c.tc : Thread nD τ).loc main_arg3) : S16x3.Idx → EReal) i) ⊤
          ∧ @Ne EReal ((m ((c.tc : Thread nD τ).loc main_arg3) : S16x3.Idx → EReal) i) ⊥)
    ∧ (∀ i, @Ne EReal ((m ((c.tc : Thread nD τ).loc main_arg4) : S16x3.Idx → EReal) i) ⊤
          ∧ @Ne EReal ((m ((c.tc : Thread nD τ).loc main_arg4) : S16x3.Idx → EReal) i) ⊥) := by
  have e := congrFun (h c) ValueIdx.ix0
  dsimp only [Cert.Pre_finite_inputs.fn, Cert.Pre_finite_inputs.fn_part1] at e
  -- the result is ((((a0 ∧ a1) ∧ a2) ∧ a3) ∧ a4), each conjunct one input's test
  obtain ⟨e3, e4⟩ := IntOp.andi_eq_one.1 e
  obtain ⟨e2, e3⟩ := IntOp.andi_eq_one.1 e3
  obtain ⟨e1, e2⟩ := IntOp.andi_eq_one.1 e2
  obtain ⟨e0, e1⟩ := IntOp.andi_eq_one.1 e1
  exact ⟨finite_of_all _ _ _ _ e0, finite_of_all _ _ _ _ e1, finite_of_all _ _ _ _ e2,
    finite_of_all _ _ _ _ e3, finite_of_all _ _ _ _ e4⟩

end Cert.KernelIdeal.Hand

end
-- ==== Proof.KMatFoldLib.lean ====
import proofs.«118270_j50440095924880_1_alg».proof.Proof.KVIdeal
import Idealize.ShloMosaic.Lib.StableHlo.Run

/-!
# Buffers that a run of host operations leaves alone

The host operations before the matrix product come in stretches. Every operation writes exactly one buffer, its
result. Given, for each stretch, a list holding every buffer it writes, a buffer that is in none of the lists of a run
of stretches has after the run the contents it had before. This is what lets one buffer be read out of the long fold:
the stretches after the one that computes it do not write it, and the stretches before do not write the arguments.
-/

set_option maxRecDepth 16384

noncomputable section

namespace Cert.KernelIdeal.Hand.Mat

open Idealize.ShloMosaic Idealize.ShloMosaic.TcCoe Idealize.ShloMosaic.StableHlo
open Cert.KernelIdeal Cert.KernelIdeal.Gen

variable {F : FTy → Type} [FloatOps F]

/-- Two lines run one after the other fold as their concatenation. -/
theorem after_append (l₁ l₂ : List (HloOp τ sig (Elt F))) (X : Valuation τ sig (Elt F)) :
    after (l₁ ++ l₂) X = after l₂ (after l₁ X) := by
  induction l₁ generalizing X with
  | nil => rfl
  | cons op l ih => rw [List.cons_append, after_cons, after_cons, ih]

/-- The operation writes one buffer, a reference of the list. -/
def WrOne (W : List (Ref sig .tc)) (op : HloOp τ sig (Elt F)) : Prop :=
  ∃ y ∈ W, op.writes = {Proc.devRef (τ := τ) .tc y}

theorem wrOne_of_single (W : List (Ref sig .tc)) (op : HloOp τ sig (Elt F)) (y : Ref sig .tc)
    (h : op.writes = {Proc.devRef (τ := τ) .tc y}) (hy : y ∈ W) : WrOne W op := ⟨y, hy, h⟩

/-- Every operation of the stretch writes one buffer of the list. -/
def Wr (L : List (HloOp τ sig (Elt F))) (W : List (Ref sig .tc)) : Prop := L.Forall (WrOne W)

/-- A reference outside the list keeps its contents through the stretch. -/
theorem keep_of_wr {L : List (HloOp τ sig (Elt F))} {W : List (Ref sig .tc)} (h : Wr L W) {r : Ref sig .tc}
    (hr : r ∉ W) (X : Valuation τ sig (Elt F)) : after L X (Proc.devRef .tc r) = X (Proc.devRef .tc r) :=
  after_of_forall_not_mem L X fun op hop hmem => by
    obtain ⟨y, hy, hw⟩ := (List.forall_iff_forall_mem.mp h) op hop
    rw [hw, Finset.mem_singleton] at hmem
    exact hr (Proc.devRef_injective _ hmem ▸ hy)

/-- Stretch by stretch: each stretch writes only buffers of its list. -/
def WrAll : List (List (HloOp τ sig (Elt F))) → List (List (Ref sig .tc)) → Prop
  | [], [] => True
  | L :: Ls, W :: Ws => Wr L W ∧ WrAll Ls Ws
  | [], _ :: _ => False
  | _ :: _, [] => False

/-- A reference in none of the lists keeps its contents through all the stretches. -/
theorem flat_keep : ∀ {Ls : List (List (HloOp τ sig (Elt F)))} {Ws : List (List (Ref sig .tc))}, WrAll Ls Ws →
    ∀ {r : Ref sig .tc}, (∀ W ∈ Ws, r ∉ W) → ∀ X : Valuation τ sig (Elt F),
      after Ls.flatten X (Proc.devRef .tc r) = X (Proc.devRef .tc r)
  | [], [], _, _, _, _ => rfl
  | L :: Ls, W :: Ws, h, r, hr, X => by
    rw [List.flatten_cons, after_append, flat_keep h.2 (fun W' hW' => hr W' (List.mem_cons_of_mem _ hW')),
      keep_of_wr h.1 (hr W List.mem_cons_self)]
  | [], _ :: _, h, _, _, _ => h.elim
  | _ :: _, [], h, _, _, _ => h.elim

theorem wrAll_take : ∀ (n : Nat) {Ls : List (List (HloOp τ sig (Elt F)))} {Ws : List (List (Ref sig .tc))},
    WrAll Ls Ws → WrAll (Ls.take n) (Ws.take n)
  | 0, _, _, _ => by simp only [List.take_zero, WrAll]
  | _ + 1, [], [], _ => by simp only [List.take_nil, WrAll]
  | n + 1, L :: Ls, W :: Ws, h => ⟨h.1, wrAll_take n h.2⟩
  | _ + 1, [], _ :: _, h => h.elim
  | _ + 1, _ :: _, [], h => h.elim

theorem wrAll_drop : ∀ (n : Nat) {Ls : List (List (HloOp τ sig (Elt F)))} {Ws : List (List (Ref sig .tc))},
    WrAll Ls Ws → WrAll (Ls.drop n) (Ws.drop n)
  | 0, _, _, h => h
  | _ + 1, [], [], _ => by simp only [List.drop_nil, WrAll]
  | n + 1, _ :: Ls, _ :: Ws, h => wrAll_drop n h.2
  | _ + 1, [], _ :: _, h => h.elim
  | _ + 1, _ :: _, [], h => h.elim

/-- Every operation of a literal stretch writes one buffer, and it is in the list. -/
macro "wr_stretch" : tactic =>
  `(tactic| (simp only [Wr, List.Forall]; and_intros <;> exact wrOne_of_single _ _ _ rfl (by decide)))

end Cert.KernelIdeal.Hand.Mat

end
-- ==== Proof.KMatWrites.lean ====
import proofs.«118270_j50440095924880_1_alg».proof.Proof.KMatFoldLib

/-!
# The buffers each stretch writes

One list per stretch of host operations, in the stretches' order: the result buffers of the stretch's operations.
-/

set_option maxRecDepth 16384

noncomputable section

namespace Cert.KernelIdeal.Hand.Mat

open Idealize.ShloMosaic Idealize.ShloMosaic.TcCoe Idealize.ShloMosaic.StableHlo
open Cert.KernelIdeal Cert.KernelIdeal.Gen Cert.KernelIdeal.Hand

variable {F : FTy → Type} [FloatOps F]

abbrev W0 : List (Ref sig .tc) := [main_v0, main_v1, main_cst, main_v2, main_v3, main_v4, main_c, main_v5, main_c_0, main_v6, main_v7, main_v8, main_v9]
set_option maxHeartbeats 4000000 in
theorem wr0 : Wr (hostOps0 : List (HloOp τ sig (Elt F))) W0 := by wr_stretch
abbrev W1 : List (Ref sig .tc) := [main_call0_v0, main_call0_v1, main_call0_v2, main_call0_v3, main_v10]
set_option maxHeartbeats 4000000 in
theorem wr1 : Wr (hostOps0_1 : List (HloOp τ sig (Elt F))) W1 := by wr_stretch
abbrev W2 : List (Ref sig .tc) := [main_v11, main_v12, main_cst_1, main_v13, main_v14, main_v15, main_c_2, main_v16, main_c_3, main_v17, main_v18, main_v19, main_v20]
set_option maxHeartbeats 4000000 in
theorem wr2 : Wr (hostOps0_2 : List (HloOp τ sig (Elt F))) W2 := by wr_stretch
abbrev W3 : List (Ref sig .tc) := [main_call1_v0, main_call1_v1, main_call1_v2, main_call1_v3, main_call1_v4, main_v21]
set_option maxHeartbeats 4000000 in
theorem wr3 : Wr (hostOps0_3 : List (HloOp τ sig (Elt F))) W3 := by wr_stretch
abbrev W4 : List (Ref sig .tc) := [main_v22, main_v23, main_cst_4, main_v24, main_v25, main_v26, main_c_5, main_v27, main_c_6, main_v28, main_v29, main_v30, main_v31]
set_option maxHeartbeats 4000000 in
theorem wr4 : Wr (hostOps0_4 : List (HloOp τ sig (Elt F))) W4 := by wr_stretch
abbrev W5 : List (Ref sig .tc) := [main_call2_v0, main_call2_v1, main_call2_v2, main_call2_v3, main_call2_v4, main_v32]
set_option maxHeartbeats 4000000 in
theorem wr5 : Wr (hostOps0_5 : List (HloOp τ sig (Elt F))) W5 := by wr_stretch
abbrev W6 : List (Ref sig .tc) := [main_v33, main_v34, main_cst_7, main_v35, main_v36, main_v37, main_c_8, main_v38, main_c_9, main_v39, main_v40, main_v41, main_v42]
set_option maxHeartbeats 4000000 in
theorem wr6 : Wr (hostOps0_6 : List (HloOp τ sig (Elt F))) W6 := by wr_stretch
abbrev W7 : List (Ref sig .tc) := [main_call3_v0, main_call3_v1, main_call3_v2, main_call3_v3, main_call3_v4, main_v43]
set_option maxHeartbeats 4000000 in
theorem wr7 : Wr (hostOps0_7 : List (HloOp τ sig (Elt F))) W7 := by wr_stretch
abbrev W8 : List (Ref sig .tc) := [main_v44, main_v45, main_v46, main_cst_10, main_v47, main_v48, main_v49, main_c_11, main_v50, main_c_12, main_v51, main_v52, main_v53, main_v54]
set_option maxHeartbeats 4000000 in
theorem wr8 : Wr (hostOps0_8 : List (HloOp τ sig (Elt F))) W8 := by wr_stretch
abbrev W9 : List (Ref sig .tc) := [main_call4_v0, main_call4_v1, main_call4_v2, main_call4_v3, main_call4_v4, main_v55]
set_option maxHeartbeats 4000000 in
theorem wr9 : Wr (hostOps0_9 : List (HloOp τ sig (Elt F))) W9 := by wr_stretch
abbrev W10 : List (Ref sig .tc) := [main_v56, main_v57, main_cst_13, main_v58, main_v59, main_v60, main_c_14, main_v61, main_c_15, main_v62, main_v63, main_v64, main_v65, main_v66, main_v67, main_v68, main_c_16, main_v69, main_c_17, main_v70, main_v71, main_v72, main_c_18, main_v73, main_c_19, main_v74, main_v75, main_v76, main_c_20, main_v77, main_c_21, main_v78, main_v79, main_v80, main_v81, main_c_22, main_v82, main_c_23, main_v83, main_v84, main_v85, main_v86]
set_option maxHeartbeats 4000000 in
theorem wr10 : Wr (hostOps0_10 : List (HloOp τ sig (Elt F))) W10 := by wr_stretch
abbrev W11 : List (Ref sig .tc) := [main_call5_v0, main_call5_v1, main_call5_v2, main_call5_v3, main_call5_v4, main_v87]
set_option maxHeartbeats 4000000 in
theorem wr11 : Wr (hostOps0_11 : List (HloOp τ sig (Elt F))) W11 := by wr_stretch
abbrev W12 : List (Ref sig .tc) := [main_v88, main_v89, main_cst_24, main_v90, main_v91, main_v92, main_c_25, main_v93, main_c_26, main_v94, main_v95, main_v96, main_v97, main_v98, main_v99, main_v100, main_c_27, main_v101, main_c_28, main_v102, main_v103, main_v104, main_c_29, main_v105, main_c_30, main_v106, main_v107, main_v108, main_c_31, main_v109, main_c_32, main_v110, main_v111, main_v112, main_v113, main_c_33, main_v114, main_c_34, main_v115, main_v116, main_v117, main_v118]
set_option maxHeartbeats 4000000 in
theorem wr12 : Wr (hostOps0_12 : List (HloOp τ sig (Elt F))) W12 := by wr_stretch
abbrev W13 : List (Ref sig .tc) := [main_call6_v0, main_call6_v1, main_call6_v2, main_call6_v3, main_call6_v4, main_v119]
set_option maxHeartbeats 4000000 in
theorem wr13 : Wr (hostOps0_13 : List (HloOp τ sig (Elt F))) W13 := by wr_stretch
abbrev W14 : List (Ref sig .tc) := [main_v120, main_v121, main_cst_35, main_v122, main_v123, main_v124, main_c_36, main_v125, main_c_37, main_v126, main_v127, main_v128, main_v129, main_v130, main_v131, main_v132, main_c_38, main_v133, main_c_39, main_v134, main_v135, main_v136, main_c_40, main_v137, main_c_41, main_v138, main_v139, main_v140, main_c_42, main_v141, main_c_43, main_v142, main_v143, main_v144, main_v145, main_c_44, main_v146, main_c_45, main_v147, main_v148, main_v149, main_v150]
set_option maxHeartbeats 4000000 in
theorem wr14 : Wr (hostOps0_14 : List (HloOp τ sig (Elt F))) W14 := by wr_stretch
abbrev W15 : List (Ref sig .tc) := [main_call7_v0, main_call7_v1, main_call7_v2, main_call7_v3, main_call7_v4, main_v151]
set_option maxHeartbeats 4000000 in
theorem wr15 : Wr (hostOps0_15 : List (HloOp τ sig (Elt F))) W15 := by wr_stretch
abbrev W16 : List (Ref sig .tc) := [main_v152, main_v153, main_v154, main_cst_46, main_v155, main_v156, main_v157, main_c_47, main_v158, main_c_48, main_v159, main_v160, main_v161, main_v162]
set_option maxHeartbeats 4000000 in
theorem wr16 : Wr (hostOps0_16 : List (HloOp τ sig (Elt F))) W16 := by wr_stretch
abbrev W17 : List (Ref sig .tc) := [main_call8_v0, main_call8_v1, main_call8_v2, main_call8_v3, main_call8_v4, main_v163]
set_option maxHeartbeats 4000000 in
theorem wr17 : Wr (hostOps0_17 : List (HloOp τ sig (Elt F))) W17 := by wr_stretch
abbrev W18 : List (Ref sig .tc) := [main_v164, main_v165, main_cst_49, main_v166, main_v167, main_v168, main_c_50, main_v169, main_c_51, main_v170, main_v171, main_v172, main_v173, main_v174, main_v175, main_v176, main_c_52, main_v177, main_c_53, main_v178, main_v179, main_v180, main_c_54, main_v181, main_c_55, main_v182, main_v183, main_v184, main_c_56, main_v185, main_c_57, main_v186, main_v187, main_v188, main_v189, main_c_58, main_v190, main_c_59, main_v191, main_v192, main_v193, main_v194]
set_option maxHeartbeats 4000000 in
theorem wr18 : Wr (hostOps0_18 : List (HloOp τ sig (Elt F))) W18 := by wr_stretch
abbrev W19 : List (Ref sig .tc) := [main_call9_v0, main_call9_v1, main_call9_v2, main_call9_v3, main_call9_v4, main_v195]
set_option maxHeartbeats 4000000 in
theorem wr19 : Wr (hostOps0_19 : List (HloOp τ sig (Elt F))) W19 := by wr_stretch
abbrev W20 : List (Ref sig .tc) := [main_v196, main_v197, main_cst_60, main_v198, main_v199, main_v200, main_c_61, main_v201, main_c_62, main_v202, main_v203, main_v204, main_v205, main_v206, main_v207, main_v208, main_c_63, main_v209, main_c_64, main_v210, main_v211, main_v212, main_c_65, main_v213, main_c_66, main_v214, main_v215, main_v216, main_c_67, main_v217, main_c_68, main_v218, main_v219, main_v220, main_v221, main_c_69, main_v222, main_c_70, main_v223, main_v224, main_v225, main_v226, main_v227, main_v228, main_v229, main_c_71, main_v230, main_c_72, main_v231, main_v232, main_v233, main_c_73, main_v234, main_c_74, main_v235, main_v236, main_v237, main_c_75, main_v238, main_c_76, main_v239, main_v240, main_v241, main_v242, main_c_77, main_v243, main_c_78, main_v244, main_v245, main_v246, main_v247]
set_option maxHeartbeats 4000000 in
theorem wr20 : Wr (hostOps0_20 : List (HloOp τ sig (Elt F))) W20 := by wr_stretch
abbrev W21 : List (Ref sig .tc) := [main_call10_v0, main_call10_v1, main_call10_v2, main_call10_v3, main_call10_v4, main_v248]
set_option maxHeartbeats 4000000 in
theorem wr21 : Wr (hostOps0_21 : List (HloOp τ sig (Elt F))) W21 := by wr_stretch
abbrev W22 : List (Ref sig .tc) := [main_v249, main_v250, main_cst_79, main_v251, main_v252, main_v253, main_c_80, main_v254, main_c_81, main_v255, main_v256, main_v257, main_v258, main_v259, main_v260, main_v261, main_c_82, main_v262, main_c_83, main_v263, main_v264, main_v265, main_c_84, main_v266, main_c_85, main_v267, main_v268, main_v269, main_c_86, main_v270, main_c_87, main_v271, main_v272, main_v273, main_v274, main_c_88, main_v275, main_c_89, main_v276, main_v277, main_v278, main_v279, main_v280, main_v281, main_v282, main_c_90, main_v283, main_c_91, main_v284, main_v285, main_v286, main_c_92, main_v287, main_c_93, main_v288, main_v289, main_v290, main_c_94, main_v291, main_c_95, main_v292, main_v293, main_v294, main_v295, main_c_96, main_v296, main_c_97, main_v297, main_v298, main_v299, main_v300]
set_option maxHeartbeats 4000000 in
theorem wr22 : Wr (hostOps0_22 : List (HloOp τ sig (Elt F))) W22 := by wr_stretch
abbrev W23 : List (Ref sig .tc) := [main_call11_v0, main_call11_v1, main_call11_v2, main_call11_v3, main_call11_v4, main_v301]
set_option maxHeartbeats 4000000 in
theorem wr23 : Wr (hostOps0_23 : List (HloOp τ sig (Elt F))) W23 := by wr_stretch
abbrev W24 : List (Ref sig .tc) := [main_v302, main_v303, main_v304, main_cst_98, main_v305, main_v306, main_v307, main_c_99, main_v308, main_c_100, main_v309, main_v310, main_v311, main_v312]
set_option maxHeartbeats 4000000 in
theorem wr24 : Wr (hostOps0_24 : List (HloOp τ sig (Elt F))) W24 := by wr_stretch
abbrev W25 : List (Ref sig .tc) := [main_call12_v0, main_call12_v1, main_call12_v2, main_call12_v3, main_call12_v4, main_v313]
set_option maxHeartbeats 4000000 in
theorem wr25 : Wr (hostOps0_25 : List (HloOp τ sig (Elt F))) W25 := by wr_stretch
abbrev W26 : List (Ref sig .tc) := [main_v314, main_v315, main_cst_101, main_v316, main_v317, main_v318, main_c_102, main_v319, main_c_103, main_v320, main_v321, main_v322, main_v323, main_v324, main_v325, main_v326, main_c_104, main_v327, main_c_105, main_v328, main_v329, main_v330, main_c_106, main_v331, main_c_107, main_v332, main_v333, main_v334, main_c_108, main_v335, main_c_109, main_v336, main_v337, main_v338, main_v339, main_c_110, main_v340, main_c_111, main_v341, main_v342, main_v343, main_v344]
set_option maxHeartbeats 4000000 in
theorem wr26 : Wr (hostOps0_26 : List (HloOp τ sig (Elt F))) W26 := by wr_stretch
abbrev W27 : List (Ref sig .tc) := [main_call13_v0, main_call13_v1, main_call13_v2, main_call13_v3, main_call13_v4, main_v345]
set_option maxHeartbeats 4000000 in
theorem wr27 : Wr (hostOps0_27 : List (HloOp τ sig (Elt F))) W27 := by wr_stretch
abbrev W28 : List (Ref sig .tc) := [main_v346, main_v347, main_cst_112, main_v348, main_v349, main_v350, main_c_113, main_v351, main_c_114, main_v352, main_v353, main_v354, main_v355, main_v356, main_v357, main_v358, main_c_115, main_v359, main_c_116, main_v360, main_v361, main_v362, main_c_117, main_v363, main_c_118, main_v364, main_v365, main_v366, main_c_119, main_v367, main_c_120, main_v368, main_v369, main_v370, main_v371, main_c_121, main_v372, main_c_122, main_v373, main_v374, main_v375, main_v376, main_v377, main_v378, main_v379, main_c_123, main_v380, main_c_124, main_v381, main_v382, main_v383, main_c_125, main_v384, main_c_126, main_v385, main_v386, main_v387, main_c_127, main_v388, main_c_128, main_v389, main_v390, main_v391, main_v392, main_c_129, main_v393, main_c_130, main_v394, main_v395, main_v396, main_v397]
set_option maxHeartbeats 4000000 in
theorem wr28 : Wr (hostOps0_28 : List (HloOp τ sig (Elt F))) W28 := by wr_stretch
abbrev W29 : List (Ref sig .tc) := [main_call14_v0, main_call14_v1, main_call14_v2, main_call14_v3, main_call14_v4, main_v398]
set_option maxHeartbeats 4000000 in
theorem wr29 : Wr (hostOps0_29 : List (HloOp τ sig (Elt F))) W29 := by wr_stretch
abbrev W30 : List (Ref sig .tc) := [main_v399, main_v400, main_cst_131, main_v401, main_v402, main_v403, main_c_132, main_v404, main_c_133, main_v405, main_v406, main_v407, main_v408, main_v409, main_v410, main_v411, main_c_134, main_v412, main_c_135, main_v413, main_v414, main_v415, main_c_136, main_v416, main_c_137, main_v417, main_v418, main_v419, main_c_138, main_v420, main_c_139, main_v421, main_v422, main_v423, main_v424, main_c_140, main_v425, main_c_141, main_v426, main_v427, main_v428, main_v429, main_v430, main_v431, main_v432, main_c_142, main_v433, main_c_143, main_v434, main_v435, main_v436, main_c_144, main_v437, main_c_145, main_v438, main_v439, main_v440, main_c_146, main_v441, main_c_147, main_v442, main_v443, main_v444, main_v445, main_c_148, main_v446, main_c_149, main_v447, main_v448, main_v449, main_v450, main_v451, main_v452, main_v453, main_c_150, main_v454, main_c_151, main_v455, main_v456, main_v457, main_c_152, main_v458, main_c_153, main_v459, main_v460, main_v461, main_c_154, main_v462, main_c_155, main_v463, main_v464, main_v465, main_v466, main_c_156, main_v467, main_c_157, main_v468, main_v469, main_v470, main_v471]
set_option maxHeartbeats 4000000 in
theorem wr30 : Wr (hostOps0_30 : List (HloOp τ sig (Elt F))) W30 := by wr_stretch
abbrev W31 : List (Ref sig .tc) := [main_call15_v0, main_call15_v1, main_call15_v2, main_call15_v3, main_call15_v4, main_v472]
set_option maxHeartbeats 4000000 in
theorem wr31 : Wr (hostOps0_31 : List (HloOp τ sig (Elt F))) W31 := by wr_stretch
abbrev W32 : List (Ref sig .tc) := [main_v473, main_v474, main_v475]
set_option maxHeartbeats 4000000 in
theorem wr32 : Wr (hostOps0_32 : List (HloOp τ sig (Elt F))) W32 := by wr_stretch

/-- The lists, in the stretches' order. -/
abbrev wrs : List (List (Ref sig .tc)) := [W0, W1, W2, W3, W4, W5, W6, W7, W8, W9, W10, W11, W12, W13, W14, W15, W16, W17, W18, W19, W20, W21, W22, W23, W24, W25, W26, W27, W28, W29, W30, W31, W32]

theorem all_wr : WrAll (stretches (F := F)) wrs :=
  ⟨wr0, wr1, wr2, wr3, wr4, wr5, wr6, wr7, wr8, wr9, wr10, wr11, wr12, wr13, wr14, wr15, wr16, wr17, wr18, wr19, wr20, wr21, wr22, wr23, wr24, wr25, wr26, wr27, wr28, wr29, wr30, wr31, wr32, trivial⟩

end Cert.KernelIdeal.Hand.Mat

end
-- ==== Proof.KMatFold.lean ====
import proofs.«118270_j50440095924880_1_alg».proof.Proof.KMatWrites

/-!
# The buffers after the first n stretches

`Vn m c n` is what core c's buffers hold after the first n stretches of host operations; after all 33 it is the
fold the matrix product starts from. One more stretch is one more fold (`Vn_step`); a buffer that the stretches
n, …, n'-1 do not write holds after n' stretches what it held after n (`Vn_keep`).
-/

set_option maxRecDepth 16384

noncomputable section

namespace Cert.KernelIdeal.Hand.Mat

open Idealize.ShloMosaic Idealize.ShloMosaic.TcCoe Idealize.ShloMosaic.StableHlo
open Cert.KernelIdeal Cert.KernelIdeal.Gen Cert.KernelIdeal.Hand

variable {F : FTy → Type} [FloatOps F]

/-- Core c's buffers after the first n stretches. -/
def Vn (m : (ℓ : Loc nD τ sig) → Buf (Elt F) ℓ) (c : Dev nD) (n : Nat) : Valuation τ sig (Elt F) :=
  after (List.flatten ((stretches (F := F)).take n)) (fun b => m (c, b))

/-- After all the stretches: the buffers the matrix product finds. -/
theorem V_eq_Vn (m : (ℓ : Loc nD τ sig) → Buf (Elt F) ℓ) (c : Dev nD) (b : Ref sig .tc) :
    V m c b = Vn m c 33 (Proc.devRef .tc b) := rfl

/-- Before any stretch: the launch contents. -/
theorem Vn_zero (m : (ℓ : Loc nD τ sig) → Buf (Elt F) ℓ) (c : Dev nD) (b : Ref sig .tc) :
    Vn m c 0 (Proc.devRef .tc b) = m ((c : Thread nD τ).loc b) := rfl

/-- One more stretch. -/
theorem Vn_step (m : (ℓ : Loc nD τ sig) → Buf (Elt F) ℓ) (c : Dev nD) (n n' : Nat) (L : List (HloOp τ sig (Elt F)))
    (he : (stretches (F := F)).take n' = (stretches (F := F)).take n ++ [L]) :
    Vn m c n' = after L (Vn m c n) := by
  unfold Vn
  rw [he, List.flatten_append, after_append, List.flatten_cons, List.flatten_nil, List.append_nil]

/-- A buffer that the stretches n, …, n'-1 do not write. -/
theorem Vn_keep (m : (ℓ : Loc nD τ sig) → Buf (Elt F) ℓ) (c : Dev nD) (n n' : Nat)
    (he : (stretches (F := F)).take n' = (stretches (F := F)).take n ++ ((stretches (F := F)).take n').drop n)
    (r : Ref sig .tc) (hr : ∀ W ∈ (wrs.take n').drop n, r ∉ W) :
    Vn m c n' (Proc.devRef .tc r) = Vn m c n (Proc.devRef .tc r) := by
  have h := flat_keep (wrAll_drop n (wrAll_take n' (all_wr (F := F)))) hr (Vn m c n)
  unfold Vn at h ⊢
  rw [he, List.flatten_append, after_append]
  exact h

end Cert.KernelIdeal.Hand.Mat

end
-- ==== Proof.KMatApplyLib.lean ====
import proofs.«118270_j50440095924880_1_alg».proof.Proof.KMatFold
import Idealize.ShloMosaic.PureOps.Ideal

/-!
# One buffer after the first N stretches

A block's buffer is computed by its own two stretches and written by no later one; an argument array is written
by none. So after the first N stretches the block's buffer is what its two stretches made of the buffers before
them, and an argument array is the launch contents.
-/

set_option maxRecDepth 16384

noncomputable section

namespace Cert.KernelIdeal.Hand.Mat

open Idealize.ShloMosaic Idealize.ShloMosaic.TcCoe Idealize.ShloMosaic.StableHlo
open Cert.KernelIdeal Cert.KernelIdeal.Gen Cert.KernelIdeal.Hand

variable (m : (ℓ : Loc nD τ sig) → Buf (Elt Ideal) ℓ) (c : Dev nD)

/-- A buffer computed by the stretches n0 and n1 (= n0 + 1) and written by none of the stretches n2 (= n1 + 1), …, N-1. -/
theorem vn_block (n0 n1 n2 N : Nat) (L0 L1 : List (HloOp τ sig (Elt Ideal))) (vB : Ref sig .tc)
    (he0 : (stretches (F := Ideal)).take n1 = (stretches (F := Ideal)).take n0 ++ [L0])
    (he1 : (stretches (F := Ideal)).take n2 = (stretches (F := Ideal)).take n1 ++ [L1])
    (heN : (stretches (F := Ideal)).take N = (stretches (F := Ideal)).take n2 ++ ((stretches (F := Ideal)).take N).drop n2)
    (hkeep : ∀ W ∈ (wrs.take N).drop n2, vB ∉ W) :
    Vn m c N (Proc.devRef .tc vB) = after L1 (after L0 (Vn m c n0)) (Proc.devRef .tc vB) := by
  rw [Vn_keep m c n2 N heN vB hkeep, Vn_step m c n1 n2 L1 he1, Vn_step m c n0 n1 L0 he0]

/-- A buffer that none of the first n stretches writes: the launch contents. -/
theorem vn_arg (n : Nat) (r : Ref sig .tc) (hr : ∀ W ∈ (wrs.take n).drop 0, r ∉ W) :
    Vn m c n (Proc.devRef .tc r) = m ((c : Thread nD τ).loc r) :=
  (Vn_keep m c 0 n rfl r hr).trans (Vn_zero m c r)

end Cert.KernelIdeal.Hand.Mat

end
-- ==== Proof.KMatRows.lean ====
import proofs.«118270_j50440095924880_1_alg».proof.Proof.Gen.KernelIdeal.Launch
import Idealize.ShloMosaic.Lib.StableHlo.Run
import Idealize.ShloMosaic.PureOps.Ideal

/-!
# The concatenations

The blocks of one degree li are laid side by side (along axis 1) into a row of blocks; the four rows are stacked (along
axis 0) into the 1024×1024 matrix, which is then narrowed to bf16. Each of these operations read out of its stretch,
for any contents X of the buffers when the stretch starts.
-/

set_option maxRecDepth 16384

noncomputable section

namespace Cert.KernelIdeal.Hand.Mat

open Idealize.ShloMosaic Idealize.ShloMosaic.TcCoe Idealize.ShloMosaic.StableHlo
open Cert.KernelIdeal Cert.KernelIdeal.Gen

set_option maxHeartbeats 4000000 in
/-- The row of degree 0: the first operation of the stretch that goes on with degree 1. -/
theorem row0 (X : Valuation τ sig (Elt Ideal)) :
    after hostOps0_8 X (Proc.devRef .tc main_v44)
      = concatenate S64x1024 1 [⟨S64x64, X (Proc.devRef .tc main_v10)⟩, ⟨S64x192, X (Proc.devRef .tc main_v21)⟩, ⟨S64x320, X (Proc.devRef .tc main_v32)⟩, ⟨S64x448, X (Proc.devRef .tc main_v43)⟩] concatenates_S64x64_S64x192_S64x320_S64x448_S64x1024_d1 := by
  simp only [hostOps0_8]
  after_results_simp
  rfl

set_option maxHeartbeats 4000000 in
/-- The row of degree 1. -/
theorem row1 (X : Valuation τ sig (Elt Ideal)) :
    after hostOps0_16 X (Proc.devRef .tc main_v152)
      = concatenate S192x1024 1 [⟨S192x64, X (Proc.devRef .tc main_v55)⟩, ⟨S192x192, X (Proc.devRef .tc main_v87)⟩, ⟨S192x320, X (Proc.devRef .tc main_v119)⟩, ⟨S192x448, X (Proc.devRef .tc main_v151)⟩] concatenates_S192x64_S192x192_S192x320_S192x448_S192x1024_d1 := by
  simp only [hostOps0_16]
  after_results_simp
  rfl

set_option maxHeartbeats 4000000 in
/-- The row of degree 2. -/
theorem row2 (X : Valuation τ sig (Elt Ideal)) :
    after hostOps0_24 X (Proc.devRef .tc main_v302)
      = concatenate S320x1024 1 [⟨S320x64, X (Proc.devRef .tc main_v163)⟩, ⟨S320x192, X (Proc.devRef .tc main_v195)⟩, ⟨S320x320, X (Proc.devRef .tc main_v248)⟩, ⟨S320x448, X (Proc.devRef .tc main_v301)⟩] concatenates_S320x64_S320x192_S320x320_S320x448_S320x1024_d1 := by
  simp only [hostOps0_24]
  after_results_simp
  rfl

set_option maxHeartbeats 4000000 in
/-- The last stretch: the row of degree 3, the four rows stacked, and the narrowing to bf16. -/
theorem last (X : Valuation τ sig (Elt Ideal)) :
    after hostOps0_32 X (Proc.devRef .tc main_v475)
      = truncf (F := Ideal) (φ := .f32) .bf16 (concatenate S1024x1024 0 [⟨S64x1024, X (Proc.devRef .tc main_v44)⟩, ⟨S192x1024, X (Proc.devRef .tc main_v152)⟩, ⟨S320x1024, X (Proc.devRef .tc main_v302)⟩,
          ⟨S448x1024, concatenate S448x1024 1 [⟨S448x64, X (Proc.devRef .tc main_v313)⟩, ⟨S448x192, X (Proc.devRef .tc main_v345)⟩, ⟨S448x320, X (Proc.devRef .tc main_v398)⟩, ⟨S448x448, X (Proc.devRef .tc main_v472)⟩] concatenates_S448x64_S448x192_S448x320_S448x448_S448x1024_d1⟩]
        concatenates_S64x1024_S192x1024_S320x1024_S448x1024_S1024x1024_d0) bitsLt_bf16_f32 := by
  simp only [hostOps0_32]
  after_results_simp
  rfl

end Cert.KernelIdeal.Hand.Mat

end
-- ==== Proof.KMatLib.lean ====
import Idealize.ShloMosaic.Lib.Pipeline.Value
import Idealize.ShloMosaic.Lib.ValueIdx

/-!
# A slice of the weight vector as a transposed matrix, and a Kronecker product, read at an index

* The slice [off, off + 4096) of a flat vector, reshaped to 64×64 and transposed, holds at (mi, mo) the vector's
  element off + 64·mo + mi.
* The Kronecker product of a 64×64 matrix A with an r×s matrix B, computed as the elementwise product of the two
  matrices broadcast to [64, r, 64, s] and reshaped to [64·r, 64·s], holds at (mi·r + a, mo·s + b) the product
  A(mi, mo) · B(a, b).
-/

noncomputable section

namespace Cert.KMat

open Idealize.ShloMosaic Idealize.ShloMosaic.ValueIdx

/-- The transposed 64×64 reshape of the slice starting at `off`, at (mi, mo): the vector at off + 64·mo + mi. -/
theorem weightT_apply {α : Type} (w : (⟨1, ![65536]⟩ : Shape).Idx → α) (off : Nat)
    (hs : (⟨1, ![65536]⟩ : Shape).Slices ![off] ⟨1, ![4096]⟩)
    (hc : (⟨1, ![4096]⟩ : Shape).ShapeCasts ⟨2, ![64, 64]⟩)
    (ht : (⟨2, ![64, 64]⟩ : Shape).Transposes [1, 0] ⟨2, ![64, 64]⟩)
    (mi mo : Fin 64) (k : Fin 65536) (hk : k.val = off + 64 * mo.val + mi.val) :
    transpose ⟨2, ![64, 64]⟩ [1, 0]
        (shapeCast ⟨2, ![64, 64]⟩ (extractStridedSlice ⟨1, ![4096]⟩ ![off] w hs) hc) ht (ix2 mi mo)
      = w (ix1 k) := by
  have hmi := mi.isLt
  have hmo := mo.isLt
  -- the transpose reads the untransposed matrix at (mo, mi)
  refine (transpose_apply _ _ ht (ix2 mi mo) (ix2 mo mi)
    (fun b => match b with | ⟨0, _⟩ => rfl | ⟨1, _⟩ => rfl)).trans ?_
  -- the reshape reads the 4096-vector at the row-major position 64·mo + mi
  refine (shapeCast_apply _ hc (ix2 mo mi) (ix1 (⟨64 * mo.val + mi.val, by omega⟩ : Fin 4096))
    (by rw [Shape.rowMajor_val_one, Shape.rowMajor_val_two]
        show 64 * mo.val + mi.val = mo.val * 64 + mi.val
        omega)).trans ?_
  -- the slice shifts by the offset
  exact extractStridedSlice_apply _ w hs _ (ix1 k)
    (fun a => match a with | ⟨0, _⟩ => by show k.val = off + (64 * mo.val + mi.val); omega)

/-- The Kronecker product of a 64×64 matrix with an r×s matrix at (mi·r + a, mo·s + b). -/
theorem kron_apply {r s R C : Nat} (hC : C = 64 * s)
    (A : (⟨2, ![64, 64]⟩ : Shape).Idx → EReal) (B : (⟨2, ![r, s]⟩ : Shape).Idx → EReal)
    (hA : (⟨2, ![64, 64]⟩ : Shape).BroadcastsInDim ⟨4, ![64, 1, 64, 1]⟩ ![0, 2])
    (hB : (⟨2, ![r, s]⟩ : Shape).BroadcastsInDim ⟨4, ![1, r, 1, s]⟩ ![1, 3])
    (hA' : (⟨4, ![64, 1, 64, 1]⟩ : Shape).BroadcastsInDim ⟨4, ![64, r, 64, s]⟩ ![0, 1, 2, 3])
    (hB' : (⟨4, ![1, r, 1, s]⟩ : Shape).BroadcastsInDim ⟨4, ![64, r, 64, s]⟩ ![0, 1, 2, 3])
    (hc : (⟨4, ![64, r, 64, s]⟩ : Shape).ShapeCasts ⟨2, ![R, C]⟩)
    (mi mo : Fin 64) (a : Fin r) (b : Fin s) (i : Fin R) (j : Fin C)
    (hi : i.val = mi.val * r + a.val) (hj : j.val = mo.val * s + b.val) :
    shapeCast ⟨2, ![R, C]⟩
        (mulf (F := Ideal) (φ := .f32)
          (broadcastInDim ⟨4, ![64, r, 64, s]⟩ ![0, 1, 2, 3] hA' (broadcastInDim ⟨4, ![64, 1, 64, 1]⟩ ![0, 2] hA A))
          (broadcastInDim ⟨4, ![64, r, 64, s]⟩ ![0, 1, 2, 3] hB' (broadcastInDim ⟨4, ![1, r, 1, s]⟩ ![1, 3] hB B)))
        hc (ix2 i j)
      = A (ix2 mi mo) * B (ix2 a b) := by
  have ha := a.isLt
  have hb := b.isLt
  -- the reshape reads the rank-4 product at (mi, a, mo, b): the same row-major position
  refine (shapeCast_apply _ hc (ix2 i j) (ix4 mi a mo b)
    (by rw [Shape.rowMajor_val_four, Shape.rowMajor_val_two]
        show ((mi.val * r + a.val) * 64 + mo.val) * s + b.val = i.val * C + j.val
        rw [hi, hj, hC]; ring)).trans ?_
  refine (mulf_apply _ _ _).trans ?_
  refine congrArg₂ (fun x y : EReal => x * y) ?_ ?_
  · -- the first factor does not depend on (a, b)
    refine (broadcastInDim_apply _ hA' _ (ix4 mi a mo b) (ix4 mi (0 : Fin 1) mo (0 : Fin 1))
      (fun k => match k with | ⟨0, _⟩ => rfl | ⟨1, _⟩ => rfl | ⟨2, _⟩ => rfl | ⟨3, _⟩ => rfl)).trans ?_
    exact broadcastInDim_apply _ hA A _ (ix2 mi mo) (fun k => match k with | ⟨0, _⟩ => rfl | ⟨1, _⟩ => rfl)
  · -- the second factor does not depend on (mi, mo)
    refine (broadcastInDim_apply _ hB' _ (ix4 mi a mo b) (ix4 (0 : Fin 1) a (0 : Fin 1) b)
      (fun k => match k with
        | ⟨0, _⟩ => rfl
        | ⟨1, _⟩ => by
          show a.val = if r = 1 then 0 else a.val
          split_ifs with h
          · omega
          · rfl
        | ⟨2, _⟩ => rfl
        | ⟨3, _⟩ => by
          show b.val = if s = 1 then 0 else b.val
          split_ifs with h
          · omega
          · rfl)).trans ?_
    exact broadcastInDim_apply _ hB B _ (ix2 a b) (fun k => match k with
      | ⟨0, _⟩ => by
        show a.val = if r = 1 then 0 else a.val
        split_ifs with h
        · omega
        · rfl
      | ⟨1, _⟩ => by
        show b.val = if s = 1 then 0 else b.val
        split_ifs with h
        · omega
        · rfl)

/-- The same product when the second matrix is 1×1: the first matrix is broadcast once, the second twice. -/
theorem kron11_apply
    (A : (⟨2, ![64, 64]⟩ : Shape).Idx → EReal) (B : (⟨2, ![1, 1]⟩ : Shape).Idx → EReal)
    (hA : (⟨2, ![64, 64]⟩ : Shape).BroadcastsInDim ⟨4, ![64, 1, 64, 1]⟩ ![0, 2])
    (hB : (⟨2, ![1, 1]⟩ : Shape).BroadcastsInDim ⟨4, ![1, 1, 1, 1]⟩ ![1, 3])
    (hB' : (⟨4, ![1, 1, 1, 1]⟩ : Shape).BroadcastsInDim ⟨4, ![64, 1, 64, 1]⟩ ![0, 1, 2, 3])
    (hc : (⟨4, ![64, 1, 64, 1]⟩ : Shape).ShapeCasts ⟨2, ![64, 64]⟩)
    (mi mo : Fin 64) :
    shapeCast ⟨2, ![64, 64]⟩
        (mulf (F := Ideal) (φ := .f32)
          (broadcastInDim ⟨4, ![64, 1, 64, 1]⟩ ![0, 2] hA A)
          (broadcastInDim ⟨4, ![64, 1, 64, 1]⟩ ![0, 1, 2, 3] hB' (broadcastInDim ⟨4, ![1, 1, 1, 1]⟩ ![1, 3] hB B)))
        hc (ix2 mi mo)
      = A (ix2 mi mo) * B (ix2 (0 : Fin 1) (0 : Fin 1)) := by
  refine (shapeCast_apply _ hc (ix2 mi mo) (ix4 mi (0 : Fin 1) mo (0 : Fin 1))
    (by rw [Shape.rowMajor_val_four, Shape.rowMajor_val_two]
        show ((mi.val * 1 + 0) * 64 + mo.val) * 1 + 0 = mi.val * 64 + mo.val
        omega)).trans ?_
  refine (mulf_apply _ _ _).trans ?_
  refine congrArg₂ (fun x y : EReal => x * y) ?_ ?_
  · exact broadcastInDim_apply _ hA A _ (ix2 mi mo) (fun k => match k with | ⟨0, _⟩ => rfl | ⟨1, _⟩ => rfl)
  · refine (broadcastInDim_apply _ hB' _ _ (ix4 (0 : Fin 1) (0 : Fin 1) (0 : Fin 1) (0 : Fin 1))
      (fun k => match k with | ⟨0, _⟩ => rfl | ⟨1, _⟩ => rfl | ⟨2, _⟩ => rfl | ⟨3, _⟩ => rfl)).trans ?_
    exact broadcastInDim_apply _ hB B _ (ix2 (0 : Fin 1) (0 : Fin 1))
      (fun k => match k with | ⟨0, _⟩ => rfl | ⟨1, _⟩ => rfl)

end Cert.KMat

end
-- ==== Proof.LibScatterRead.lean ====
import Idealize.ShloMosaic.PureOps.ShapeOps

/-!
# A scatter whose updates land on pairwise distinct elements, read at an index

`Host.scatter d f x idx upd` is a left fold over the update indices in row-major order: the update at `j`
replaces the element at its result index `i` by `f` of that element and `upd j`. When every update
index `j` lands inside the operand, at `r j`, and `r` is injective, each element of the operand meets at
most one update, so the order of the fold does not matter:

* at `r j` the result is `f (x (r j)) (upd j)` (`scatter_apply_of_hit`);
* at an index no update lands on the result is the operand's element (`scatter_apply_of_miss`).

Generic in the element type, the combining function, the shapes and the dimension numbers.
-/

namespace Cert.LibScatterRead

open Idealize.ShloMosaic

section Fold

variable {ι β γ : Type} [DecidableEq ι]

/-- A fold of pointwise replacements leaves alone every index none of them names. -/
theorem foldl_replace_of_forall_ne (ρ : γ → ι) (g : β → γ → β) (i : ι) :
    ∀ (l : List γ) (acc : ι → β), (∀ n ∈ l, ρ n ≠ i) →
      l.foldl (fun r n => fun i' => if i' = ρ n then g (r (ρ n)) n else r i') acc i = acc i
  | [], _, _ => rfl
  | n :: l, acc, h => by
    rw [List.foldl_cons, foldl_replace_of_forall_ne ρ g i l _ (fun n' hn' => h n' (List.mem_cons_of_mem _ hn'))]
    exact if_neg (fun e => h n List.mem_cons_self e.symm)

/-- A fold of pointwise replacements at pairwise distinct indices: the index the entry `n` names is replaced once,
    by `g` of what was there and `n`. -/
theorem foldl_replace_of_mem (ρ : γ → ι) (hρ : Function.Injective ρ) (g : β → γ → β) :
    ∀ (l : List γ) (acc : ι → β) (n : γ), n ∈ l → l.Nodup →
      l.foldl (fun r n => fun i' => if i' = ρ n then g (r (ρ n)) n else r i') acc (ρ n) = g (acc (ρ n)) n
  | [], _, _, hn, _ => absurd hn List.not_mem_nil
  | a :: l, acc, n, hn, hnd => by
    have hnd' := List.nodup_cons.mp hnd
    rw [List.foldl_cons]
    rcases List.mem_cons.mp hn with rfl | hn'
    · rw [foldl_replace_of_forall_ne ρ g (ρ n) l _ (fun n' hn' e => hnd'.1 (hρ e ▸ hn'))]
      exact if_pos rfl
    · have hne : ρ n ≠ ρ a := fun e => hnd'.1 (hρ e ▸ hn')
      rw [foldl_replace_of_mem ρ hρ g l _ n hn' hnd'.2, if_neg hne]

end Fold

variable {α : Type} {s si u : Shape} {w : Nat}

/-- The scatter as a fold of pointwise replacements, once every update index is known to land at `r j`. -/
theorem scatter_eq_foldl (d : ScatterDims s si u) (f : α → α → α) (x : s.Idx → α) (idx : IVec si w) (upd : u.Idx → α)
    (r : u.Idx → s.Idx) (hr : ∀ j, d.resultIdx? j idx = some (r j)) :
    Host.scatter d f x idx upd
      = (List.finRange u.numel).foldl (fun acc n => fun i' =>
          if i' = r (u.rowMajor.symm n) then f (acc (r (u.rowMajor.symm n))) (upd (u.rowMajor.symm n)) else acc i') x := by
  unfold Host.scatter
  congr 1
  funext acc n
  rw [hr]

/-- Where the update at `j` lands, the scatter leaves `f` of the operand's element and that update. -/
theorem scatter_apply_of_hit (d : ScatterDims s si u) (f : α → α → α) (x : s.Idx → α) (idx : IVec si w) (upd : u.Idx → α)
    (r : u.Idx → s.Idx) (hr : ∀ j, d.resultIdx? j idx = some (r j)) (hinj : Function.Injective r) (j : u.Idx) :
    Host.scatter d f x idx upd (r j) = f (x (r j)) (upd j) := by
  rw [scatter_eq_foldl d f x idx upd r hr]
  have h := foldl_replace_of_mem (fun n : Fin u.numel => r (u.rowMajor.symm n))
    (hinj.comp u.rowMajor.symm.injective) (fun (a : α) (n : Fin u.numel) => f a (upd (u.rowMajor.symm n)))
    (List.finRange u.numel) x (u.rowMajor j) (List.mem_finRange _) (List.nodup_finRange _)
  simp only [Equiv.symm_apply_apply] at h
  exact h

/-- Where no update lands, the scatter leaves the operand's element. -/
theorem scatter_apply_of_miss (d : ScatterDims s si u) (f : α → α → α) (x : s.Idx → α) (idx : IVec si w) (upd : u.Idx → α)
    (r : u.Idx → s.Idx) (hr : ∀ j, d.resultIdx? j idx = some (r j)) (i : s.Idx) (hi : ∀ j, r j ≠ i) :
    Host.scatter d f x idx upd i = x i := by
  rw [scatter_eq_foldl d f x idx upd r hr]
  exact foldl_replace_of_forall_ne (fun n : Fin u.numel => r (u.rowMajor.symm n))
    (fun (a : α) (n : Fin u.numel) => f a (upd (u.rowMajor.symm n))) i (List.finRange u.numel) x (fun n _ => hi _)

end Cert.LibScatterRead
-- ==== Proof.KMatScatter.lean ====
import Idealize.ShloMosaic.Lib.Pipeline.Value
import Idealize.ShloMosaic.Lib.ValueIdx
import proofs.«118270_j50440095924880_1_alg».proof.Proof.LibScatterRead

/-!
# One scalar written into a small matrix, read at an index

The coefficient matrix of a pair of degrees starts as zeros and receives its entries one at a time: each write is a
scatter of ONE scalar at a literal two-component index (row, column). Read at (a, b), such a write gives the scalar
when (a, b) is the written position and the matrix as it was otherwise. Also here: the matrix of zeros reads 0, and the
scalars written are single elements of the coefficient tables, read through a one-element slice reshaped to a scalar.
-/

noncomputable section

namespace Cert.KMat

open Idealize.ShloMosaic Idealize.ShloMosaic.ValueIdx

section SetOne

variable {r s : Nat}

/-- With no window axes, both operand axes inserted and named by the index vector's two components, the one
    update lands at (i0, i1) when the index vector holds those two numbers. -/
theorem resultIdx_set (d : ScatterDims ⟨2, ![r, s]⟩ ⟨1, ![2]⟩ ⟨0, ![]⟩)
    (hu : d.updateWindowDims = []) (hw : d.insertedWindowDims = [0, 1])
    (hs : d.scatterDimsToOperandDims = [0, 1]) (hv : d.indexVectorDim = 0)
    (idx : IVec ⟨1, ![2]⟩ 32) (i0 : Fin r) (i1 : Fin s)
    (h0 : (idx (ix1 (0 : Fin 2))).toInt = (i0.val : Int)) (h1 : (idx (ix1 (1 : Fin 2))).toInt = (i1.val : Int))
    (j : (⟨0, ![]⟩ : Shape).Idx) :
    d.resultIdx? j idx = some (ix2 i0 i1) := by
  obtain ⟨uw, iw, sd, iv, wf⟩ := d
  dsimp only at hu hw hs hv
  subst hu hw hs hv
  -- the start on each operand axis is the index vector's component for it
  have hst0 : (ScatterDims.mk (s := ⟨2, ![r, s]⟩) (si := ⟨1, ![2]⟩) (u := ⟨0, ![]⟩) [] [0, 1] [0, 1] 0 wf).start j idx
      (⟨0, Nat.zero_lt_two⟩ : Fin 2) = (i0.val : Int) := by
    rw [← h0]
    unfold ScatterDims.start
    refine (dif_pos (List.mem_cons.mpr (Or.inl rfl))).trans ?_
    refine congrArg (fun t => (idx t).toInt) (funext fun b => ?_)
    match b with
    | ⟨0, _⟩ => rfl
  have hst1 : (ScatterDims.mk (s := ⟨2, ![r, s]⟩) (si := ⟨1, ![2]⟩) (u := ⟨0, ![]⟩) [] [0, 1] [0, 1] 0 wf).start j idx
      (⟨1, Nat.one_lt_two⟩ : Fin 2) = (i1.val : Int) := by
    rw [← h1]
    unfold ScatterDims.start
    refine (dif_pos (List.mem_cons_of_mem _ (List.mem_cons.mpr (Or.inl rfl)))).trans ?_
    refine congrArg (fun t => (idx t).toInt) (funext fun b => ?_)
    match b with
    | ⟨0, _⟩ => rfl
  -- no operand axis is a window axis
  have hk : (⟨2, ![r, s]⟩ : Shape).kept [0, 1] = [] := rfl
  have hwin : ∀ a, (ScatterDims.mk (s := ⟨2, ![r, s]⟩) (si := ⟨1, ![2]⟩) (u := ⟨0, ![]⟩) [] [0, 1] [0, 1] 0 wf).window j a = 0 :=
    fun a => dif_neg (by
      show a ∉ (⟨2, ![r, s]⟩ : Shape).kept [0, 1]
      rw [hk]; exact List.not_mem_nil)
  have hi0 := i0.isLt
  have hi1 := i1.isLt
  unfold ScatterDims.resultIdx?
  rw [dif_pos (fun a => by
    rw [hwin a]
    match a with
    | ⟨0, _⟩ => rw [hst0]; show 0 ≤ (i0.val : Int) + ((0 : Nat) : Int) ∧ (i0.val : Int) + ((0 : Nat) : Int) < ((r : Nat) : Int); omega
    | ⟨1, _⟩ => rw [hst1]; show 0 ≤ (i1.val : Int) + ((0 : Nat) : Int) ∧ (i1.val : Int) + ((0 : Nat) : Int) < ((s : Nat) : Int); omega)]
  refine congrArg some (funext fun a => Fin.ext ?_)
  match a with
  | ⟨0, _⟩ =>
    show ((ScatterDims.mk (s := ⟨2, ![r, s]⟩) (si := ⟨1, ![2]⟩) (u := ⟨0, ![]⟩) [] [0, 1] [0, 1] 0 wf).start j idx (⟨0, Nat.zero_lt_two⟩ : Fin 2)
      + (((ScatterDims.mk (s := ⟨2, ![r, s]⟩) (si := ⟨1, ![2]⟩) (u := ⟨0, ![]⟩) [] [0, 1] [0, 1] 0 wf).window j (⟨0, Nat.zero_lt_two⟩ : Fin 2) : Nat) : Int)).toNat = i0.val
    rw [hst0, hwin]; omega
  | ⟨1, _⟩ =>
    show ((ScatterDims.mk (s := ⟨2, ![r, s]⟩) (si := ⟨1, ![2]⟩) (u := ⟨0, ![]⟩) [] [0, 1] [0, 1] 0 wf).start j idx (⟨1, Nat.one_lt_two⟩ : Fin 2)
      + (((ScatterDims.mk (s := ⟨2, ![r, s]⟩) (si := ⟨1, ![2]⟩) (u := ⟨0, ![]⟩) [] [0, 1] [0, 1] 0 wf).window j (⟨1, Nat.one_lt_two⟩ : Fin 2) : Nat) : Int)).toNat = i1.val
    rw [hst1, hwin]; omega

/-- The matrix after one scalar is written at (i0, i1), read at (a, b). -/
theorem set_apply {α : Type} (d : ScatterDims ⟨2, ![r, s]⟩ ⟨1, ![2]⟩ ⟨0, ![]⟩)
    (hu : d.updateWindowDims = []) (hw : d.insertedWindowDims = [0, 1])
    (hs : d.scatterDimsToOperandDims = [0, 1]) (hv : d.indexVectorDim = 0)
    (idx : IVec ⟨1, ![2]⟩ 32) (i0 : Fin r) (i1 : Fin s)
    (h0 : (idx (ix1 (0 : Fin 2))).toInt = (i0.val : Int)) (h1 : (idx (ix1 (1 : Fin 2))).toInt = (i1.val : Int))
    (x : (⟨2, ![r, s]⟩ : Shape).Idx → α) (u : (⟨0, ![]⟩ : Shape).Idx → α) (a : Fin r) (b : Fin s) :
    Host.scatter d (fun _ v => v) x idx u (ix2 a b) = if a = i0 ∧ b = i1 then u ix0 else x (ix2 a b) := by
  have hr := resultIdx_set d hu hw hs hv idx i0 i1 h0 h1
  split_ifs with h
  · obtain ⟨rfl, rfl⟩ := h
    exact Cert.LibScatterRead.scatter_apply_of_hit d (fun _ v => v) x idx u (fun _ => ix2 a b) hr
      (fun p q _ => funext fun k => k.elim0) ix0
  · exact Cert.LibScatterRead.scatter_apply_of_miss d (fun _ v => v) x idx u (fun _ => ix2 i0 i1) hr (ix2 a b)
      (fun _ e => h ⟨(congrFun e (⟨0, Nat.zero_lt_two⟩ : Fin 2)).symm, (congrFun e (⟨1, Nat.one_lt_two⟩ : Fin 2)).symm⟩)

end SetOne

/-- The index vector of a write: two 32-bit constants, each broadcast to one element, concatenated. -/
theorem idxPair_apply (w0 w1 : BitVec 32)
    (hb : (⟨0, ![]⟩ : Shape).BroadcastsInDim ⟨1, ![1]⟩ (![] : Fin 0 → Fin 1))
    (hc : Shape.Concatenates [(⟨1, ![1]⟩ : Shape), ⟨1, ![1]⟩] ⟨1, ![2]⟩ 0) :
    (concatenate ⟨1, ![2]⟩ 0
        [⟨⟨1, ![1]⟩, broadcastInDim ⟨1, ![1]⟩ ![] hb (constantI ⟨0, ![]⟩ 32 w0)⟩,
         ⟨⟨1, ![1]⟩, broadcastInDim ⟨1, ![1]⟩ ![] hb (constantI ⟨0, ![]⟩ 32 w1)⟩] hc (ix1 (0 : Fin 2)) = w0)
    ∧ (concatenate ⟨1, ![2]⟩ 0
        [⟨⟨1, ![1]⟩, broadcastInDim ⟨1, ![1]⟩ ![] hb (constantI ⟨0, ![]⟩ 32 w0)⟩,
         ⟨⟨1, ![1]⟩, broadcastInDim ⟨1, ![1]⟩ ![] hb (constantI ⟨0, ![]⟩ 32 w1)⟩] hc (ix1 (1 : Fin 2)) = w1) :=
  ⟨rfl, rfl⟩

/-- The matrix of zeros reads 0. -/
theorem zeros_apply {t : Shape} (h : (⟨0, ![]⟩ : Shape).BroadcastsInDim t (![] : Fin 0 → Fin t.rank)) (i : t.Idx) :
    broadcastInDim t ![] h (constant (F := Ideal) ⟨0, ![]⟩ .f32 0x00000000#32) i = (0 : EReal) := by
  refine (broadcastInDim_apply _ h _ i ix0 (fun a => a.elim0)).trans ?_
  show Ideal.ofBits .f32 0x00000000#32 = 0
  simp [Ideal.ofBits, Ideal.ieee]

/-- Element p of a 16-vector as a scalar: the one-element slice at p, reshaped. -/
theorem scalar1_apply {α : Type} (hz : (⟨1, ![16]⟩ : Shape).Idx → α) (p : Nat)
    (hs : (⟨1, ![16]⟩ : Shape).Slices ![p] ⟨1, ![1]⟩) (hc : (⟨1, ![1]⟩ : Shape).ShapeCasts ⟨0, ![]⟩)
    (k : Fin 16) (hk : k.val = p) (i : (⟨0, ![]⟩ : Shape).Idx) :
    shapeCast ⟨0, ![]⟩ (extractStridedSlice ⟨1, ![1]⟩ ![p] hz hs) hc i = hz (ix1 k) := by
  refine (shapeCast_apply _ hc i (ix1 (0 : Fin 1))
    (by rw [Shape.rowMajor_val_one]; exact (Shape.rowMajorPi_zero _ i).symm)).trans ?_
  exact extractStridedSlice_apply _ hz hs _ (ix1 k)
    (fun a => match a with | ⟨0, _⟩ => by show k.val = p + 0; omega)

/-- Element (p, q) of a 16×3 table as a scalar: the one-element slice at (p, q), reshaped. -/
theorem scalar2_apply {α : Type} (hp : (⟨2, ![16, 3]⟩ : Shape).Idx → α) (p q : Nat)
    (hs : (⟨2, ![16, 3]⟩ : Shape).Slices ![p, q] ⟨2, ![1, 1]⟩) (hc : (⟨2, ![1, 1]⟩ : Shape).ShapeCasts ⟨0, ![]⟩)
    (k : Fin 16) (hk : k.val = p) (l : Fin 3) (hl : l.val = q) (i : (⟨0, ![]⟩ : Shape).Idx) :
    shapeCast ⟨0, ![]⟩ (extractStridedSlice ⟨2, ![1, 1]⟩ ![p, q] hp hs) hc i = hp (ix2 k l) := by
  refine (shapeCast_apply _ hc i (ix2 (0 : Fin 1) (0 : Fin 1))
    (by rw [Shape.rowMajor_val_two]; exact (Shape.rowMajorPi_zero _ i).symm)).trans ?_
  exact extractStridedSlice_apply _ hp hs _ (ix2 k l)
    (fun a => match a with
      | ⟨0, _⟩ => by show k.val = p + 0; omega
      | ⟨1, _⟩ => by show l.val = q + 0; omega)

/-- A write at the literal position (w0, w1), the index vector spelt as the program spells it, read at (a, b). -/
theorem set_read {α : Type} {r s : Nat} (d : ScatterDims ⟨2, ![r, s]⟩ ⟨1, ![2]⟩ ⟨0, ![]⟩)
    (hu : d.updateWindowDims = []) (hw : d.insertedWindowDims = [0, 1])
    (hs : d.scatterDimsToOperandDims = [0, 1]) (hv : d.indexVectorDim = 0)
    (w0 w1 : BitVec 32)
    (hb : (⟨0, ![]⟩ : Shape).BroadcastsInDim ⟨1, ![1]⟩ (![] : Fin 0 → Fin 1))
    (hc : Shape.Concatenates [(⟨1, ![1]⟩ : Shape), ⟨1, ![1]⟩] ⟨1, ![2]⟩ 0)
    (h0 : w0.toNat < r) (h1 : w1.toNat < s)
    (h0' : w0.toInt = (w0.toNat : Int)) (h1' : w1.toInt = (w1.toNat : Int))
    (x : (⟨2, ![r, s]⟩ : Shape).Idx → α) (u : (⟨0, ![]⟩ : Shape).Idx → α) (a : Fin r) (b : Fin s) :
    Host.scatter d (fun _ v => v) x
        (concatenate ⟨1, ![2]⟩ 0
          [⟨⟨1, ![1]⟩, broadcastInDim ⟨1, ![1]⟩ ![] hb (constantI ⟨0, ![]⟩ 32 w0)⟩,
           ⟨⟨1, ![1]⟩, broadcastInDim ⟨1, ![1]⟩ ![] hb (constantI ⟨0, ![]⟩ 32 w1)⟩] hc) u (ix2 a b)
      = if a.val = w0.toNat ∧ b.val = w1.toNat then u ix0 else x (ix2 a b) := by
  have hidx := idxPair_apply w0 w1 hb hc
  rw [set_apply d hu hw hs hv _ (⟨w0.toNat, h0⟩ : Fin r) (⟨w1.toNat, h1⟩ : Fin s)
    (by rw [hidx.1]; exact h0') (by rw [hidx.2]; exact h1') x u a b]
  by_cases h : a.val = w0.toNat ∧ b.val = w1.toNat
  · rw [if_pos h, if_pos ⟨Fin.ext h.1, Fin.ext h.2⟩]
  · rw [if_neg h, if_neg (fun h' => h ⟨congrArg Fin.val h'.1, congrArg Fin.val h'.2⟩)]

/-- The host's negation at the extended reals is the negation. -/
theorem hostNegf_apply {s : Shape} {φ : FTy} (x : FVec Ideal s φ) (i : s.Idx) : Host.negf x i = -(x i) := rfl

/-- Element p of a 16-vector as a scalar, the position a literal. -/
theorem scalar1_read {α : Type} (hz : (⟨1, ![16]⟩ : Shape).Idx → α) (p : Nat)
    (hs : (⟨1, ![16]⟩ : Shape).Slices ![p] ⟨1, ![1]⟩) (hc : (⟨1, ![1]⟩ : Shape).ShapeCasts ⟨0, ![]⟩)
    (hp : p < 16) (i : (⟨0, ![]⟩ : Shape).Idx) :
    shapeCast ⟨0, ![]⟩ (extractStridedSlice ⟨1, ![1]⟩ ![p] hz hs) hc i = hz (ix1 (⟨p, hp⟩ : Fin 16)) :=
  scalar1_apply hz p hs hc ⟨p, hp⟩ rfl i

/-- Element (p, q) of a 16×3 table as a scalar, the position a literal. -/
theorem scalar2_read {α : Type} (t : (⟨2, ![16, 3]⟩ : Shape).Idx → α) (p q : Nat)
    (hs : (⟨2, ![16, 3]⟩ : Shape).Slices ![p, q] ⟨2, ![1, 1]⟩) (hc : (⟨2, ![1, 1]⟩ : Shape).ShapeCasts ⟨0, ![]⟩)
    (hp : p < 16) (hq : q < 3) (i : (⟨0, ![]⟩ : Shape).Idx) :
    shapeCast ⟨0, ![]⟩ (extractStridedSlice ⟨2, ![1, 1]⟩ ![p, q] t hs) hc i = t (ix2 (⟨p, hp⟩ : Fin 16) (⟨q, hq⟩ : Fin 3)) :=
  scalar2_apply t p q hs hc ⟨p, hp⟩ rfl ⟨q, hq⟩ rfl i

end Cert.KMat

end
-- ==== Proof.KMatChain.lean ====
import Idealize.ShloMosaic.PureOps.Ideal

/-!
# The writes into a coefficient matrix, as a list

The coefficient matrix of a pair of degrees (li for the rows, lo for the columns) is a matrix of zeros into which
single entries are written: first the middle entry (li, lo), then for every distance μ+1 up to min(lo, li) the four
corners (li ± (μ+1), lo ± (μ+1)). `entries` lists the writes in the order they are made; `chain` reads the matrix
after the writes at a position: the last write made there, or 0 when there is none.
-/

noncomputable section

namespace Cert.KMat

/-- The writes (row, column, value), in order: the middle entry with value z; at distance μ+1 the entry below-right
    and the entry above-left with P μ, the entry above-right with N μ and the entry below-left with -(N μ). -/
def entries (li lo : Nat) (z : EReal) (P N : Nat → EReal) : List (Nat × Nat × EReal) :=
  (li, lo, z) :: (List.range (min lo li)).flatMap fun μ =>
    [(li + (μ + 1), lo + (μ + 1), P μ), (li - (μ + 1), lo + (μ + 1), N μ),
     (li - (μ + 1), lo - (μ + 1), P μ), (li + (μ + 1), lo - (μ + 1), -(N μ))]

/-- The matrix of zeros after the writes, read at (a, b). -/
def chain (es : List (Nat × Nat × EReal)) (a b : Nat) : EReal :=
  es.foldl (fun acc e => if a = e.1 ∧ b = e.2.1 then e.2.2 else acc) 0

end Cert.KMat

end
-- ==== Proof.KMatBlocks0.lean ====
import proofs.«118270_j50440095924880_1_alg».proof.Proof.Gen.KernelIdeal.Launch
import proofs.«118270_j50440095924880_1_alg».proof.Proof.KMatLib
import proofs.«118270_j50440095924880_1_alg».proof.Proof.KMatScatter
import proofs.«118270_j50440095924880_1_alg».proof.Proof.KMatChain
import Idealize.ShloMosaic.Lib.StableHlo.Run

set_option maxRecDepth 16384

/-!
# The four blocks of degree li = 0

For each lo: the transposed weight matrix A, the coefficient matrix H (zeros and the single writes, in program order),
their Kronecker product K; the block's buffer after the pair's two stretches is K (A w) (H hz hp hn) for any contents
of the buffers before them; K, A and H read at an index; and the block's buffer read at an index.
-/

noncomputable section

namespace Cert.KernelIdeal.Hand.Mat

open Idealize.ShloMosaic Idealize.ShloMosaic.TcCoe Idealize.ShloMosaic.StableHlo Idealize.ShloMosaic.ValueIdx
open Cert.KernelIdeal Cert.KernelIdeal.Gen Cert.KMat

/-- Degrees (li, lo) = (0, 0), path 0: the transposed weight matrix, the coefficient matrix and their Kronecker product. -/
def A0 (w : S65536.Idx → EReal) : S64x64.Idx → EReal :=
  transpose S64x64 [1, 0] (shapeCast S64x64 (extractStridedSlice S4096 ![0] w slices_S65536_S4096_0) shapeCasts_S4096_S64x64) transposes_S64x64_S64x64_1_0
def H0 (hz : S16.Idx → EReal) (hp hn : S16x3.Idx → EReal) : S1x1.Idx → EReal :=
  (Host.scatter scatter_S1x1_S2_S__n_01_01_0 (fun _ b => b)
      (broadcastInDim S1x1 ![] bcast_S_S1x1 (constant (F := Ideal) S_ .f32 0x00000000#32))
      (concatenate S2 0 [⟨S1, broadcastInDim S1 ![] bcast_S_S1 (constantI S_ 32 0#32)⟩, ⟨S1, broadcastInDim S1 ![] bcast_S_S1 (constantI S_ 32 0#32)⟩] concatenates_S1_S1_S2_d0)
      (shapeCast S_ (extractStridedSlice S1 ![0] hz slices_S16_S1_0) shapeCasts_S1_S_))
def K0 (A : S64x64.Idx → EReal) (H : S1x1.Idx → EReal) : S64x64.Idx → EReal :=
  shapeCast S64x64 (mulf (F := Ideal) (φ := .f32)
      (broadcastInDim S64x1x64x1 ![0, 2] bcast_S64x64_S64x1x64x1_0_2 A)
      (broadcastInDim S64x1x64x1 ![0, 1, 2, 3] bcast_S1x1x1x1_S64x1x64x1_0_1_2_3 (broadcastInDim S1x1x1x1 ![1, 3] bcast_S1x1_S1x1x1x1_1_3 H)))
    shapeCasts_S64x1x64x1_S64x64
set_option maxHeartbeats 4000000 in
theorem blk0 (X : Valuation τ sig (Elt Ideal)) :
    after hostOps0_1 (after hostOps0 X) (Proc.devRef .tc main_v10)
      = K0 (A0 (X (Proc.devRef .tc main_arg1))) (H0 (X (Proc.devRef .tc main_arg2)) (X (Proc.devRef .tc main_arg3)) (X (Proc.devRef .tc main_arg4))) := by
  simp only [hostOps0, hostOps0_1]
  after_results_simp
  rfl
theorem K0_apply (A : S64x64.Idx → EReal) (H : S1x1.Idx → EReal) (mi o : Fin 64) (a b : Fin 1) (i j : Fin 64)
    (hi : i.val = mi.val * 1 + a.val) (hj : j.val = o.val * 1 + b.val) :
    K0 A H (ix2 i j) = A (ix2 mi o) * H (ix2 a b) := by
  have ha : a = 0 := Subsingleton.elim _ _
  have hb : b = 0 := Subsingleton.elim _ _
  have hi' : i = mi := Fin.ext (by rw [hi, ha]; simp)
  have hj' : j = o := Fin.ext (by rw [hj, hb]; simp)
  rw [ha, hb, hi', hj']
  exact kron11_apply A H _ _ _ _ mi o
theorem A0_apply (w : S65536.Idx → EReal) (mi o : Fin 64) (q : Fin 65536) (hq : q.val = 0 + 64 * o.val + mi.val) :
    A0 w (ix2 mi o) = w (ix1 q) :=
  weightT_apply w 0 _ _ _ mi o q hq
theorem H0_apply (hz : S16.Idx → EReal) (hp hn : S16x3.Idx → EReal) (a : Fin 1) (b : Fin 1) :
    H0 hz hp hn (ix2 a b)
      = chain (entries 0 0 (hz (ix1 (⟨0, by decide⟩ : Fin 16)))
          (fun μ => if h : μ < 3 then hp (ix2 (⟨0, by decide⟩ : Fin 16) (⟨μ, h⟩ : Fin 3)) else 0)
          (fun μ => if h : μ < 3 then hn (ix2 (⟨0, by decide⟩ : Fin 16) (⟨μ, h⟩ : Fin 3)) else 0)) a.val b.val := by
  unfold H0
  rw [set_read scatter_S1x1_S2_S__n_01_01_0 rfl rfl rfl rfl 0#32 0#32 _ _ (by decide) (by decide) (by decide) (by decide)]
  rw [zeros_apply]
  rw [scalar1_read hz 0 _ _ (by decide)]
  rfl
/-- The block of degrees (0, 0) as its two stretches leave it, read at (mi·1 + a, o·1 + b). -/
theorem entry0 (X : Valuation τ sig (Elt Ideal)) (w : S65536.Idx → EReal) (hz : S16.Idx → EReal) (hp hn : S16x3.Idx → EReal)
    (h1 : X (Proc.devRef .tc main_arg1) = w) (h2 : X (Proc.devRef .tc main_arg2) = hz)
    (h3 : X (Proc.devRef .tc main_arg3) = hp) (h4 : X (Proc.devRef .tc main_arg4) = hn)
    (mi o : Fin 64) (a : Fin 1) (b : Fin 1) (i : Fin 64) (j : Fin 64)
    (hi : i.val = mi.val * 1 + a.val) (hj : j.val = o.val * 1 + b.val)
    (q : Fin 65536) (hq : q.val = 0 + 64 * o.val + mi.val) :
    (after hostOps0_1 (after hostOps0 X) (Proc.devRef .tc main_v10) : S64x64.Idx → EReal) (ix2 i j)
      = w (ix1 q) * chain (entries 0 0 (hz (ix1 (⟨0, by decide⟩ : Fin 16)))
          (fun μ => if h : μ < 3 then hp (ix2 (⟨0, by decide⟩ : Fin 16) (⟨μ, h⟩ : Fin 3)) else 0)
          (fun μ => if h : μ < 3 then hn (ix2 (⟨0, by decide⟩ : Fin 16) (⟨μ, h⟩ : Fin 3)) else 0)) a.val b.val := by
  subst h1 h2 h3 h4
  rw [blk0]
  refine (K0_apply _ _ mi o a b i j hi hj).trans ?_
  rw [A0_apply _ mi o q hq, H0_apply]

/-- Degrees (li, lo) = (0, 1), path 4: the transposed weight matrix, the coefficient matrix and their Kronecker product. -/
def A1 (w : S65536.Idx → EReal) : S64x64.Idx → EReal :=
  transpose S64x64 [1, 0] (shapeCast S64x64 (extractStridedSlice S4096 ![16384] w slices_S65536_S4096_16384) shapeCasts_S4096_S64x64) transposes_S64x64_S64x64_1_0
def H1 (hz : S16.Idx → EReal) (hp hn : S16x3.Idx → EReal) : S1x3.Idx → EReal :=
  (Host.scatter scatter_S1x3_S2_S__n_01_01_0 (fun _ b => b)
      (broadcastInDim S1x3 ![] bcast_S_S1x3 (constant (F := Ideal) S_ .f32 0x00000000#32))
      (concatenate S2 0 [⟨S1, broadcastInDim S1 ![] bcast_S_S1 (constantI S_ 32 0#32)⟩, ⟨S1, broadcastInDim S1 ![] bcast_S_S1 (constantI S_ 32 1#32)⟩] concatenates_S1_S1_S2_d0)
      (shapeCast S_ (extractStridedSlice S1 ![4] hz slices_S16_S1_4) shapeCasts_S1_S_))
def K1 (A : S64x64.Idx → EReal) (H : S1x3.Idx → EReal) : S64x192.Idx → EReal :=
  shapeCast S64x192 (mulf (F := Ideal) (φ := .f32)
      (broadcastInDim S64x1x64x3 ![0, 1, 2, 3] bcast_S64x1x64x1_S64x1x64x3_0_1_2_3 (broadcastInDim S64x1x64x1 ![0, 2] bcast_S64x64_S64x1x64x1_0_2 A))
      (broadcastInDim S64x1x64x3 ![0, 1, 2, 3] bcast_S1x1x1x3_S64x1x64x3_0_1_2_3 (broadcastInDim S1x1x1x3 ![1, 3] bcast_S1x3_S1x1x1x3_1_3 H)))
    shapeCasts_S64x1x64x3_S64x192
set_option maxHeartbeats 4000000 in
theorem blk1 (X : Valuation τ sig (Elt Ideal)) :
    after hostOps0_3 (after hostOps0_2 X) (Proc.devRef .tc main_v21)
      = K1 (A1 (X (Proc.devRef .tc main_arg1))) (H1 (X (Proc.devRef .tc main_arg2)) (X (Proc.devRef .tc main_arg3)) (X (Proc.devRef .tc main_arg4))) := by
  simp only [hostOps0_2, hostOps0_3]
  after_results_simp
  rfl
theorem K1_apply (A : S64x64.Idx → EReal) (H : S1x3.Idx → EReal) (mi o : Fin 64) (a : Fin 1) (b : Fin 3) (i : Fin 64) (j : Fin 192)
    (hi : i.val = mi.val * 1 + a.val) (hj : j.val = o.val * 3 + b.val) :
    K1 A H (ix2 i j) = A (ix2 mi o) * H (ix2 a b) :=
  kron_apply (r := 1) (s := 3) rfl A H _ _ _ _ _ mi o a b i j hi hj
theorem A1_apply (w : S65536.Idx → EReal) (mi o : Fin 64) (q : Fin 65536) (hq : q.val = 16384 + 64 * o.val + mi.val) :
    A1 w (ix2 mi o) = w (ix1 q) :=
  weightT_apply w 16384 _ _ _ mi o q hq
theorem H1_apply (hz : S16.Idx → EReal) (hp hn : S16x3.Idx → EReal) (a : Fin 1) (b : Fin 3) :
    H1 hz hp hn (ix2 a b)
      = chain (entries 0 1 (hz (ix1 (⟨4, by decide⟩ : Fin 16)))
          (fun μ => if h : μ < 3 then hp (ix2 (⟨4, by decide⟩ : Fin 16) (⟨μ, h⟩ : Fin 3)) else 0)
          (fun μ => if h : μ < 3 then hn (ix2 (⟨4, by decide⟩ : Fin 16) (⟨μ, h⟩ : Fin 3)) else 0)) a.val b.val := by
  unfold H1
  rw [set_read scatter_S1x3_S2_S__n_01_01_0 rfl rfl rfl rfl 0#32 1#32 _ _ (by decide) (by decide) (by decide) (by decide)]
  rw [zeros_apply]
  rw [scalar1_read hz 4 _ _ (by decide)]
  rfl
/-- The block of degrees (0, 1) as its two stretches leave it, read at (mi·1 + a, o·3 + b). -/
theorem entry1 (X : Valuation τ sig (Elt Ideal)) (w : S65536.Idx → EReal) (hz : S16.Idx → EReal) (hp hn : S16x3.Idx → EReal)
    (h1 : X (Proc.devRef .tc main_arg1) = w) (h2 : X (Proc.devRef .tc main_arg2) = hz)
    (h3 : X (Proc.devRef .tc main_arg3) = hp) (h4 : X (Proc.devRef .tc main_arg4) = hn)
    (mi o : Fin 64) (a : Fin 1) (b : Fin 3) (i : Fin 64) (j : Fin 192)
    (hi : i.val = mi.val * 1 + a.val) (hj : j.val = o.val * 3 + b.val)
    (q : Fin 65536) (hq : q.val = 16384 + 64 * o.val + mi.val) :
    (after hostOps0_3 (after hostOps0_2 X) (Proc.devRef .tc main_v21) : S64x192.Idx → EReal) (ix2 i j)
      = w (ix1 q) * chain (entries 0 1 (hz (ix1 (⟨4, by decide⟩ : Fin 16)))
          (fun μ => if h : μ < 3 then hp (ix2 (⟨4, by decide⟩ : Fin 16) (⟨μ, h⟩ : Fin 3)) else 0)
          (fun μ => if h : μ < 3 then hn (ix2 (⟨4, by decide⟩ : Fin 16) (⟨μ, h⟩ : Fin 3)) else 0)) a.val b.val := by
  subst h1 h2 h3 h4
  rw [blk1]
  refine (K1_apply _ _ mi o a b i j hi hj).trans ?_
  rw [A1_apply _ mi o q hq, H1_apply]

/-- Degrees (li, lo) = (0, 2), path 8: the transposed weight matrix, the coefficient matrix and their Kronecker product. -/
def A2 (w : S65536.Idx → EReal) : S64x64.Idx → EReal :=
  transpose S64x64 [1, 0] (shapeCast S64x64 (extractStridedSlice S4096 ![32768] w slices_S65536_S4096_32768) shapeCasts_S4096_S64x64) transposes_S64x64_S64x64_1_0
def H2 (hz : S16.Idx → EReal) (hp hn : S16x3.Idx → EReal) : S1x5.Idx → EReal :=
  (Host.scatter scatter_S1x5_S2_S__n_01_01_0 (fun _ b => b)
      (broadcastInDim S1x5 ![] bcast_S_S1x5 (constant (F := Ideal) S_ .f32 0x00000000#32))
      (concatenate S2 0 [⟨S1, broadcastInDim S1 ![] bcast_S_S1 (constantI S_ 32 0#32)⟩, ⟨S1, broadcastInDim S1 ![] bcast_S_S1 (constantI S_ 32 2#32)⟩] concatenates_S1_S1_S2_d0)
      (shapeCast S_ (extractStridedSlice S1 ![8] hz slices_S16_S1_8) shapeCasts_S1_S_))
def K2 (A : S64x64.Idx → EReal) (H : S1x5.Idx → EReal) : S64x320.Idx → EReal :=
  shapeCast S64x320 (mulf (F := Ideal) (φ := .f32)
      (broadcastInDim S64x1x64x5 ![0, 1, 2, 3] bcast_S64x1x64x1_S64x1x64x5_0_1_2_3 (broadcastInDim S64x1x64x1 ![0, 2] bcast_S64x64_S64x1x64x1_0_2 A))
      (broadcastInDim S64x1x64x5 ![0, 1, 2, 3] bcast_S1x1x1x5_S64x1x64x5_0_1_2_3 (broadcastInDim S1x1x1x5 ![1, 3] bcast_S1x5_S1x1x1x5_1_3 H)))
    shapeCasts_S64x1x64x5_S64x320
set_option maxHeartbeats 4000000 in
theorem blk2 (X : Valuation τ sig (Elt Ideal)) :
    after hostOps0_5 (after hostOps0_4 X) (Proc.devRef .tc main_v32)
      = K2 (A2 (X (Proc.devRef .tc main_arg1))) (H2 (X (Proc.devRef .tc main_arg2)) (X (Proc.devRef .tc main_arg3)) (X (Proc.devRef .tc main_arg4))) := by
  simp only [hostOps0_4, hostOps0_5]
  after_results_simp
  rfl
theorem K2_apply (A : S64x64.Idx → EReal) (H : S1x5.Idx → EReal) (mi o : Fin 64) (a : Fin 1) (b : Fin 5) (i : Fin 64) (j : Fin 320)
    (hi : i.val = mi.val * 1 + a.val) (hj : j.val = o.val * 5 + b.val) :
    K2 A H (ix2 i j) = A (ix2 mi o) * H (ix2 a b) :=
  kron_apply (r := 1) (s := 5) rfl A H _ _ _ _ _ mi o a b i j hi hj
theorem A2_apply (w : S65536.Idx → EReal) (mi o : Fin 64) (q : Fin 65536) (hq : q.val = 32768 + 64 * o.val + mi.val) :
    A2 w (ix2 mi o) = w (ix1 q) :=
  weightT_apply w 32768 _ _ _ mi o q hq
theorem H2_apply (hz : S16.Idx → EReal) (hp hn : S16x3.Idx → EReal) (a : Fin 1) (b : Fin 5) :
    H2 hz hp hn (ix2 a b)
      = chain (entries 0 2 (hz (ix1 (⟨8, by decide⟩ : Fin 16)))
          (fun μ => if h : μ < 3 then hp (ix2 (⟨8, by decide⟩ : Fin 16) (⟨μ, h⟩ : Fin 3)) else 0)
          (fun μ => if h : μ < 3 then hn (ix2 (⟨8, by decide⟩ : Fin 16) (⟨μ, h⟩ : Fin 3)) else 0)) a.val b.val := by
  unfold H2
  rw [set_read scatter_S1x5_S2_S__n_01_01_0 rfl rfl rfl rfl 0#32 2#32 _ _ (by decide) (by decide) (by decide) (by decide)]
  rw [zeros_apply]
  rw [scalar1_read hz 8 _ _ (by decide)]
  rfl
/-- The block of degrees (0, 2) as its two stretches leave it, read at (mi·1 + a, o·5 + b). -/
theorem entry2 (X : Valuation τ sig (Elt Ideal)) (w : S65536.Idx → EReal) (hz : S16.Idx → EReal) (hp hn : S16x3.Idx → EReal)
    (h1 : X (Proc.devRef .tc main_arg1) = w) (h2 : X (Proc.devRef .tc main_arg2) = hz)
    (h3 : X (Proc.devRef .tc main_arg3) = hp) (h4 : X (Proc.devRef .tc main_arg4) = hn)
    (mi o : Fin 64) (a : Fin 1) (b : Fin 5) (i : Fin 64) (j : Fin 320)
    (hi : i.val = mi.val * 1 + a.val) (hj : j.val = o.val * 5 + b.val)
    (q : Fin 65536) (hq : q.val = 32768 + 64 * o.val + mi.val) :
    (after hostOps0_5 (after hostOps0_4 X) (Proc.devRef .tc main_v32) : S64x320.Idx → EReal) (ix2 i j)
      = w (ix1 q) * chain (entries 0 2 (hz (ix1 (⟨8, by decide⟩ : Fin 16)))
          (fun μ => if h : μ < 3 then hp (ix2 (⟨8, by decide⟩ : Fin 16) (⟨μ, h⟩ : Fin 3)) else 0)
          (fun μ => if h : μ < 3 then hn (ix2 (⟨8, by decide⟩ : Fin 16) (⟨μ, h⟩ : Fin 3)) else 0)) a.val b.val := by
  subst h1 h2 h3 h4
  rw [blk2]
  refine (K2_apply _ _ mi o a b i j hi hj).trans ?_
  rw [A2_apply _ mi o q hq, H2_apply]

/-- Degrees (li, lo) = (0, 3), path 12: the transposed weight matrix, the coefficient matrix and their Kronecker product. -/
def A3 (w : S65536.Idx → EReal) : S64x64.Idx → EReal :=
  transpose S64x64 [1, 0] (shapeCast S64x64 (extractStridedSlice S4096 ![49152] w slices_S65536_S4096_49152) shapeCasts_S4096_S64x64) transposes_S64x64_S64x64_1_0
def H3 (hz : S16.Idx → EReal) (hp hn : S16x3.Idx → EReal) : S1x7.Idx → EReal :=
  (Host.scatter scatter_S1x7_S2_S__n_01_01_0 (fun _ b => b)
      (broadcastInDim S1x7 ![] bcast_S_S1x7 (constant (F := Ideal) S_ .f32 0x00000000#32))
      (concatenate S2 0 [⟨S1, broadcastInDim S1 ![] bcast_S_S1 (constantI S_ 32 0#32)⟩, ⟨S1, broadcastInDim S1 ![] bcast_S_S1 (constantI S_ 32 3#32)⟩] concatenates_S1_S1_S2_d0)
      (shapeCast S_ (extractStridedSlice S1 ![12] hz slices_S16_S1_12) shapeCasts_S1_S_))
def K3 (A : S64x64.Idx → EReal) (H : S1x7.Idx → EReal) : S64x448.Idx → EReal :=
  shapeCast S64x448 (mulf (F := Ideal) (φ := .f32)
      (broadcastInDim S64x1x64x7 ![0, 1, 2, 3] bcast_S64x1x64x1_S64x1x64x7_0_1_2_3 (broadcastInDim S64x1x64x1 ![0, 2] bcast_S64x64_S64x1x64x1_0_2 A))
      (broadcastInDim S64x1x64x7 ![0, 1, 2, 3] bcast_S1x1x1x7_S64x1x64x7_0_1_2_3 (broadcastInDim S1x1x1x7 ![1, 3] bcast_S1x7_S1x1x1x7_1_3 H)))
    shapeCasts_S64x1x64x7_S64x448
set_option maxHeartbeats 4000000 in
theorem blk3 (X : Valuation τ sig (Elt Ideal)) :
    after hostOps0_7 (after hostOps0_6 X) (Proc.devRef .tc main_v43)
      = K3 (A3 (X (Proc.devRef .tc main_arg1))) (H3 (X (Proc.devRef .tc main_arg2)) (X (Proc.devRef .tc main_arg3)) (X (Proc.devRef .tc main_arg4))) := by
  simp only [hostOps0_6, hostOps0_7]
  after_results_simp
  rfl
theorem K3_apply (A : S64x64.Idx → EReal) (H : S1x7.Idx → EReal) (mi o : Fin 64) (a : Fin 1) (b : Fin 7) (i : Fin 64) (j : Fin 448)
    (hi : i.val = mi.val * 1 + a.val) (hj : j.val = o.val * 7 + b.val) :
    K3 A H (ix2 i j) = A (ix2 mi o) * H (ix2 a b) :=
  kron_apply (r := 1) (s := 7) rfl A H _ _ _ _ _ mi o a b i j hi hj
theorem A3_apply (w : S65536.Idx → EReal) (mi o : Fin 64) (q : Fin 65536) (hq : q.val = 49152 + 64 * o.val + mi.val) :
    A3 w (ix2 mi o) = w (ix1 q) :=
  weightT_apply w 49152 _ _ _ mi o q hq
theorem H3_apply (hz : S16.Idx → EReal) (hp hn : S16x3.Idx → EReal) (a : Fin 1) (b : Fin 7) :
    H3 hz hp hn (ix2 a b)
      = chain (entries 0 3 (hz (ix1 (⟨12, by decide⟩ : Fin 16)))
          (fun μ => if h : μ < 3 then hp (ix2 (⟨12, by decide⟩ : Fin 16) (⟨μ, h⟩ : Fin 3)) else 0)
          (fun μ => if h : μ < 3 then hn (ix2 (⟨12, by decide⟩ : Fin 16) (⟨μ, h⟩ : Fin 3)) else 0)) a.val b.val := by
  unfold H3
  rw [set_read scatter_S1x7_S2_S__n_01_01_0 rfl rfl rfl rfl 0#32 3#32 _ _ (by decide) (by decide) (by decide) (by decide)]
  rw [zeros_apply]
  rw [scalar1_read hz 12 _ _ (by decide)]
  rfl
/-- The block of degrees (0, 3) as its two stretches leave it, read at (mi·1 + a, o·7 + b). -/
theorem entry3 (X : Valuation τ sig (Elt Ideal)) (w : S65536.Idx → EReal) (hz : S16.Idx → EReal) (hp hn : S16x3.Idx → EReal)
    (h1 : X (Proc.devRef .tc main_arg1) = w) (h2 : X (Proc.devRef .tc main_arg2) = hz)
    (h3 : X (Proc.devRef .tc main_arg3) = hp) (h4 : X (Proc.devRef .tc main_arg4) = hn)
    (mi o : Fin 64) (a : Fin 1) (b : Fin 7) (i : Fin 64) (j : Fin 448)
    (hi : i.val = mi.val * 1 + a.val) (hj : j.val = o.val * 7 + b.val)
    (q : Fin 65536) (hq : q.val = 49152 + 64 * o.val + mi.val) :
    (after hostOps0_7 (after hostOps0_6 X) (Proc.devRef .tc main_v43) : S64x448.Idx → EReal) (ix2 i j)
      = w (ix1 q) * chain (entries 0 3 (hz (ix1 (⟨12, by decide⟩ : Fin 16)))
          (fun μ => if h : μ < 3 then hp (ix2 (⟨12, by decide⟩ : Fin 16) (⟨μ, h⟩ : Fin 3)) else 0)
          (fun μ => if h : μ < 3 then hn (ix2 (⟨12, by decide⟩ : Fin 16) (⟨μ, h⟩ : Fin 3)) else 0)) a.val b.val := by
  subst h1 h2 h3 h4
  rw [blk3]
  refine (K3_apply _ _ mi o a b i j hi hj).trans ?_
  rw [A3_apply _ mi o q hq, H3_apply]

end Cert.KernelIdeal.Hand.Mat

end
-- ==== Proof.KMatBlocks1.lean ====
import proofs.«118270_j50440095924880_1_alg».proof.Proof.Gen.KernelIdeal.Launch
import proofs.«118270_j50440095924880_1_alg».proof.Proof.KMatLib
import proofs.«118270_j50440095924880_1_alg».proof.Proof.KMatScatter
import proofs.«118270_j50440095924880_1_alg».proof.Proof.KMatChain
import Idealize.ShloMosaic.Lib.StableHlo.Run

set_option maxRecDepth 16384

/-!
# The four blocks of degree li = 1

For each lo: the transposed weight matrix A, the coefficient matrix H (zeros and the single writes, in program order),
their Kronecker product K; the block's buffer after the pair's two stretches is K (A w) (H hz hp hn) for any contents
of the buffers before them; K, A and H read at an index; and the block's buffer read at an index.
-/

noncomputable section

namespace Cert.KernelIdeal.Hand.Mat

open Idealize.ShloMosaic Idealize.ShloMosaic.TcCoe Idealize.ShloMosaic.StableHlo Idealize.ShloMosaic.ValueIdx
open Cert.KernelIdeal Cert.KernelIdeal.Gen Cert.KMat

/-- Degrees (li, lo) = (1, 0), path 1: the transposed weight matrix, the coefficient matrix and their Kronecker product. -/
def A4 (w : S65536.Idx → EReal) : S64x64.Idx → EReal :=
  transpose S64x64 [1, 0] (shapeCast S64x64 (extractStridedSlice S4096 ![4096] w slices_S65536_S4096_4096) shapeCasts_S4096_S64x64) transposes_S64x64_S64x64_1_0
def H4 (hz : S16.Idx → EReal) (hp hn : S16x3.Idx → EReal) : S3x1.Idx → EReal :=
  (Host.scatter scatter_S3x1_S2_S__n_01_01_0 (fun _ b => b)
      (broadcastInDim S3x1 ![] bcast_S_S3x1 (constant (F := Ideal) S_ .f32 0x00000000#32))
      (concatenate S2 0 [⟨S1, broadcastInDim S1 ![] bcast_S_S1 (constantI S_ 32 1#32)⟩, ⟨S1, broadcastInDim S1 ![] bcast_S_S1 (constantI S_ 32 0#32)⟩] concatenates_S1_S1_S2_d0)
      (shapeCast S_ (extractStridedSlice S1 ![1] hz slices_S16_S1_1) shapeCasts_S1_S_))
def K4 (A : S64x64.Idx → EReal) (H : S3x1.Idx → EReal) : S192x64.Idx → EReal :=
  shapeCast S192x64 (mulf (F := Ideal) (φ := .f32)
      (broadcastInDim S64x3x64x1 ![0, 1, 2, 3] bcast_S64x1x64x1_S64x3x64x1_0_1_2_3 (broadcastInDim S64x1x64x1 ![0, 2] bcast_S64x64_S64x1x64x1_0_2 A))
      (broadcastInDim S64x3x64x1 ![0, 1, 2, 3] bcast_S1x3x1x1_S64x3x64x1_0_1_2_3 (broadcastInDim S1x3x1x1 ![1, 3] bcast_S3x1_S1x3x1x1_1_3 H)))
    shapeCasts_S64x3x64x1_S192x64
set_option maxHeartbeats 4000000 in
theorem blk4 (X : Valuation τ sig (Elt Ideal)) :
    after hostOps0_9 (after hostOps0_8 X) (Proc.devRef .tc main_v55)
      = K4 (A4 (X (Proc.devRef .tc main_arg1))) (H4 (X (Proc.devRef .tc main_arg2)) (X (Proc.devRef .tc main_arg3)) (X (Proc.devRef .tc main_arg4))) := by
  simp only [hostOps0_8, hostOps0_9]
  after_results_simp
  rfl
theorem K4_apply (A : S64x64.Idx → EReal) (H : S3x1.Idx → EReal) (mi o : Fin 64) (a : Fin 3) (b : Fin 1) (i : Fin 192) (j : Fin 64)
    (hi : i.val = mi.val * 3 + a.val) (hj : j.val = o.val * 1 + b.val) :
    K4 A H (ix2 i j) = A (ix2 mi o) * H (ix2 a b) :=
  kron_apply (r := 3) (s := 1) rfl A H _ _ _ _ _ mi o a b i j hi hj
theorem A4_apply (w : S65536.Idx → EReal) (mi o : Fin 64) (q : Fin 65536) (hq : q.val = 4096 + 64 * o.val + mi.val) :
    A4 w (ix2 mi o) = w (ix1 q) :=
  weightT_apply w 4096 _ _ _ mi o q hq
theorem H4_apply (hz : S16.Idx → EReal) (hp hn : S16x3.Idx → EReal) (a : Fin 3) (b : Fin 1) :
    H4 hz hp hn (ix2 a b)
      = chain (entries 1 0 (hz (ix1 (⟨1, by decide⟩ : Fin 16)))
          (fun μ => if h : μ < 3 then hp (ix2 (⟨1, by decide⟩ : Fin 16) (⟨μ, h⟩ : Fin 3)) else 0)
          (fun μ => if h : μ < 3 then hn (ix2 (⟨1, by decide⟩ : Fin 16) (⟨μ, h⟩ : Fin 3)) else 0)) a.val b.val := by
  unfold H4
  rw [set_read scatter_S3x1_S2_S__n_01_01_0 rfl rfl rfl rfl 1#32 0#32 _ _ (by decide) (by decide) (by decide) (by decide)]
  rw [zeros_apply]
  rw [scalar1_read hz 1 _ _ (by decide)]
  rfl
/-- The block of degrees (1, 0) as its two stretches leave it, read at (mi·3 + a, o·1 + b). -/
theorem entry4 (X : Valuation τ sig (Elt Ideal)) (w : S65536.Idx → EReal) (hz : S16.Idx → EReal) (hp hn : S16x3.Idx → EReal)
    (h1 : X (Proc.devRef .tc main_arg1) = w) (h2 : X (Proc.devRef .tc main_arg2) = hz)
    (h3 : X (Proc.devRef .tc main_arg3) = hp) (h4 : X (Proc.devRef .tc main_arg4) = hn)
    (mi o : Fin 64) (a : Fin 3) (b : Fin 1) (i : Fin 192) (j : Fin 64)
    (hi : i.val = mi.val * 3 + a.val) (hj : j.val = o.val * 1 + b.val)
    (q : Fin 65536) (hq : q.val = 4096 + 64 * o.val + mi.val) :
    (after hostOps0_9 (after hostOps0_8 X) (Proc.devRef .tc main_v55) : S192x64.Idx → EReal) (ix2 i j)
      = w (ix1 q) * chain (entries 1 0 (hz (ix1 (⟨1, by decide⟩ : Fin 16)))
          (fun μ => if h : μ < 3 then hp (ix2 (⟨1, by decide⟩ : Fin 16) (⟨μ, h⟩ : Fin 3)) else 0)
          (fun μ => if h : μ < 3 then hn (ix2 (⟨1, by decide⟩ : Fin 16) (⟨μ, h⟩ : Fin 3)) else 0)) a.val b.val := by
  subst h1 h2 h3 h4
  rw [blk4]
  refine (K4_apply _ _ mi o a b i j hi hj).trans ?_
  rw [A4_apply _ mi o q hq, H4_apply]

/-- Degrees (li, lo) = (1, 1), path 5: the transposed weight matrix, the coefficient matrix and their Kronecker product. -/
def A5 (w : S65536.Idx → EReal) : S64x64.Idx → EReal :=
  transpose S64x64 [1, 0] (shapeCast S64x64 (extractStridedSlice S4096 ![20480] w slices_S65536_S4096_20480) shapeCasts_S4096_S64x64) transposes_S64x64_S64x64_1_0
def H5 (hz : S16.Idx → EReal) (hp hn : S16x3.Idx → EReal) : S3x3.Idx → EReal :=
  (Host.scatter scatter_S3x3_S2_S__n_01_01_0 (fun _ b => b)
      (Host.scatter scatter_S3x3_S2_S__n_01_01_0 (fun _ b => b)
      (Host.scatter scatter_S3x3_S2_S__n_01_01_0 (fun _ b => b)
      (Host.scatter scatter_S3x3_S2_S__n_01_01_0 (fun _ b => b)
      (Host.scatter scatter_S3x3_S2_S__n_01_01_0 (fun _ b => b)
      (broadcastInDim S3x3 ![] bcast_S_S3x3 (constant (F := Ideal) S_ .f32 0x00000000#32))
      (concatenate S2 0 [⟨S1, broadcastInDim S1 ![] bcast_S_S1 (constantI S_ 32 1#32)⟩, ⟨S1, broadcastInDim S1 ![] bcast_S_S1 (constantI S_ 32 1#32)⟩] concatenates_S1_S1_S2_d0)
      (shapeCast S_ (extractStridedSlice S1 ![5] hz slices_S16_S1_5) shapeCasts_S1_S_))
      (concatenate S2 0 [⟨S1, broadcastInDim S1 ![] bcast_S_S1 (constantI S_ 32 2#32)⟩, ⟨S1, broadcastInDim S1 ![] bcast_S_S1 (constantI S_ 32 2#32)⟩] concatenates_S1_S1_S2_d0)
      (shapeCast S_ (extractStridedSlice S1x1 ![5, 0] hp slices_S16x3_S1x1_5_0) shapeCasts_S1x1_S_))
      (concatenate S2 0 [⟨S1, broadcastInDim S1 ![] bcast_S_S1 (constantI S_ 32 0#32)⟩, ⟨S1, broadcastInDim S1 ![] bcast_S_S1 (constantI S_ 32 2#32)⟩] concatenates_S1_S1_S2_d0)
      (shapeCast S_ (extractStridedSlice S1x1 ![5, 0] hn slices_S16x3_S1x1_5_0) shapeCasts_S1x1_S_))
      (concatenate S2 0 [⟨S1, broadcastInDim S1 ![] bcast_S_S1 (constantI S_ 32 0#32)⟩, ⟨S1, broadcastInDim S1 ![] bcast_S_S1 (constantI S_ 32 0#32)⟩] concatenates_S1_S1_S2_d0)
      (shapeCast S_ (extractStridedSlice S1x1 ![5, 0] hp slices_S16x3_S1x1_5_0) shapeCasts_S1x1_S_))
      (concatenate S2 0 [⟨S1, broadcastInDim S1 ![] bcast_S_S1 (constantI S_ 32 2#32)⟩, ⟨S1, broadcastInDim S1 ![] bcast_S_S1 (constantI S_ 32 0#32)⟩] concatenates_S1_S1_S2_d0)
      (Host.negf (F := Ideal) (φ := .f32) (shapeCast S_ (extractStridedSlice S1x1 ![5, 0] hn slices_S16x3_S1x1_5_0) shapeCasts_S1x1_S_)))
def K5 (A : S64x64.Idx → EReal) (H : S3x3.Idx → EReal) : S192x192.Idx → EReal :=
  shapeCast S192x192 (mulf (F := Ideal) (φ := .f32)
      (broadcastInDim S64x3x64x3 ![0, 1, 2, 3] bcast_S64x1x64x1_S64x3x64x3_0_1_2_3 (broadcastInDim S64x1x64x1 ![0, 2] bcast_S64x64_S64x1x64x1_0_2 A))
      (broadcastInDim S64x3x64x3 ![0, 1, 2, 3] bcast_S1x3x1x3_S64x3x64x3_0_1_2_3 (broadcastInDim S1x3x1x3 ![1, 3] bcast_S3x3_S1x3x1x3_1_3 H)))
    shapeCasts_S64x3x64x3_S192x192
set_option maxHeartbeats 4000000 in
theorem blk5 (X : Valuation τ sig (Elt Ideal)) :
    after hostOps0_11 (after hostOps0_10 X) (Proc.devRef .tc main_v87)
      = K5 (A5 (X (Proc.devRef .tc main_arg1))) (H5 (X (Proc.devRef .tc main_arg2)) (X (Proc.devRef .tc main_arg3)) (X (Proc.devRef .tc main_arg4))) := by
  simp only [hostOps0_10, hostOps0_11]
  after_results_simp
  rfl
theorem K5_apply (A : S64x64.Idx → EReal) (H : S3x3.Idx → EReal) (mi o : Fin 64) (a : Fin 3) (b : Fin 3) (i : Fin 192) (j : Fin 192)
    (hi : i.val = mi.val * 3 + a.val) (hj : j.val = o.val * 3 + b.val) :
    K5 A H (ix2 i j) = A (ix2 mi o) * H (ix2 a b) :=
  kron_apply (r := 3) (s := 3) rfl A H _ _ _ _ _ mi o a b i j hi hj
theorem A5_apply (w : S65536.Idx → EReal) (mi o : Fin 64) (q : Fin 65536) (hq : q.val = 20480 + 64 * o.val + mi.val) :
    A5 w (ix2 mi o) = w (ix1 q) :=
  weightT_apply w 20480 _ _ _ mi o q hq
theorem H5_apply (hz : S16.Idx → EReal) (hp hn : S16x3.Idx → EReal) (a : Fin 3) (b : Fin 3) :
    H5 hz hp hn (ix2 a b)
      = chain (entries 1 1 (hz (ix1 (⟨5, by decide⟩ : Fin 16)))
          (fun μ => if h : μ < 3 then hp (ix2 (⟨5, by decide⟩ : Fin 16) (⟨μ, h⟩ : Fin 3)) else 0)
          (fun μ => if h : μ < 3 then hn (ix2 (⟨5, by decide⟩ : Fin 16) (⟨μ, h⟩ : Fin 3)) else 0)) a.val b.val := by
  unfold H5
  rw [set_read scatter_S3x3_S2_S__n_01_01_0 rfl rfl rfl rfl 2#32 0#32 _ _ (by decide) (by decide) (by decide) (by decide)]
  rw [set_read scatter_S3x3_S2_S__n_01_01_0 rfl rfl rfl rfl 0#32 0#32 _ _ (by decide) (by decide) (by decide) (by decide)]
  rw [set_read scatter_S3x3_S2_S__n_01_01_0 rfl rfl rfl rfl 0#32 2#32 _ _ (by decide) (by decide) (by decide) (by decide)]
  rw [set_read scatter_S3x3_S2_S__n_01_01_0 rfl rfl rfl rfl 2#32 2#32 _ _ (by decide) (by decide) (by decide) (by decide)]
  rw [set_read scatter_S3x3_S2_S__n_01_01_0 rfl rfl rfl rfl 1#32 1#32 _ _ (by decide) (by decide) (by decide) (by decide)]
  rw [zeros_apply]
  simp only [hostNegf_apply]
  rw [scalar1_read hz 5 _ _ (by decide)]
  rw [scalar2_read hp 5 0 _ _ (by decide) (by decide)]
  rw [scalar2_read hn 5 0 _ _ (by decide) (by decide)]
  rfl
/-- The block of degrees (1, 1) as its two stretches leave it, read at (mi·3 + a, o·3 + b). -/
theorem entry5 (X : Valuation τ sig (Elt Ideal)) (w : S65536.Idx → EReal) (hz : S16.Idx → EReal) (hp hn : S16x3.Idx → EReal)
    (h1 : X (Proc.devRef .tc main_arg1) = w) (h2 : X (Proc.devRef .tc main_arg2) = hz)
    (h3 : X (Proc.devRef .tc main_arg3) = hp) (h4 : X (Proc.devRef .tc main_arg4) = hn)
    (mi o : Fin 64) (a : Fin 3) (b : Fin 3) (i : Fin 192) (j : Fin 192)
    (hi : i.val = mi.val * 3 + a.val) (hj : j.val = o.val * 3 + b.val)
    (q : Fin 65536) (hq : q.val = 20480 + 64 * o.val + mi.val) :
    (after hostOps0_11 (after hostOps0_10 X) (Proc.devRef .tc main_v87) : S192x192.Idx → EReal) (ix2 i j)
      = w (ix1 q) * chain (entries 1 1 (hz (ix1 (⟨5, by decide⟩ : Fin 16)))
          (fun μ => if h : μ < 3 then hp (ix2 (⟨5, by decide⟩ : Fin 16) (⟨μ, h⟩ : Fin 3)) else 0)
          (fun μ => if h : μ < 3 then hn (ix2 (⟨5, by decide⟩ : Fin 16) (⟨μ, h⟩ : Fin 3)) else 0)) a.val b.val := by
  subst h1 h2 h3 h4
  rw [blk5]
  refine (K5_apply _ _ mi o a b i j hi hj).trans ?_
  rw [A5_apply _ mi o q hq, H5_apply]

/-- Degrees (li, lo) = (1, 2), path 9: the transposed weight matrix, the coefficient matrix and their Kronecker product. -/
def A6 (w : S65536.Idx → EReal) : S64x64.Idx → EReal :=
  transpose S64x64 [1, 0] (shapeCast S64x64 (extractStridedSlice S4096 ![36864] w slices_S65536_S4096_36864) shapeCasts_S4096_S64x64) transposes_S64x64_S64x64_1_0
def H6 (hz : S16.Idx → EReal) (hp hn : S16x3.Idx → EReal) : S3x5.Idx → EReal :=
  (Host.scatter scatter_S3x5_S2_S__n_01_01_0 (fun _ b => b)
      (Host.scatter scatter_S3x5_S2_S__n_01_01_0 (fun _ b => b)
      (Host.scatter scatter_S3x5_S2_S__n_01_01_0 (fun _ b => b)
      (Host.scatter scatter_S3x5_S2_S__n_01_01_0 (fun _ b => b)
      (Host.scatter scatter_S3x5_S2_S__n_01_01_0 (fun _ b => b)
      (broadcastInDim S3x5 ![] bcast_S_S3x5 (constant (F := Ideal) S_ .f32 0x00000000#32))
      (concatenate S2 0 [⟨S1, broadcastInDim S1 ![] bcast_S_S1 (constantI S_ 32 1#32)⟩, ⟨S1, broadcastInDim S1 ![] bcast_S_S1 (constantI S_ 32 2#32)⟩] concatenates_S1_S1_S2_d0)
      (shapeCast S_ (extractStridedSlice S1 ![9] hz slices_S16_S1_9) shapeCasts_S1_S_))
      (concatenate S2 0 [⟨S1, broadcastInDim S1 ![] bcast_S_S1 (constantI S_ 32 2#32)⟩, ⟨S1, broadcastInDim S1 ![] bcast_S_S1 (constantI S_ 32 3#32)⟩] concatenates_S1_S1_S2_d0)
      (shapeCast S_ (extractStridedSlice S1x1 ![9, 0] hp slices_S16x3_S1x1_9_0) shapeCasts_S1x1_S_))
      (concatenate S2 0 [⟨S1, broadcastInDim S1 ![] bcast_S_S1 (constantI S_ 32 0#32)⟩, ⟨S1, broadcastInDim S1 ![] bcast_S_S1 (constantI S_ 32 3#32)⟩] concatenates_S1_S1_S2_d0)
      (shapeCast S_ (extractStridedSlice S1x1 ![9, 0] hn slices_S16x3_S1x1_9_0) shapeCasts_S1x1_S_))
      (concatenate S2 0 [⟨S1, broadcastInDim S1 ![] bcast_S_S1 (constantI S_ 32 0#32)⟩, ⟨S1, broadcastInDim S1 ![] bcast_S_S1 (constantI S_ 32 1#32)⟩] concatenates_S1_S1_S2_d0)
      (shapeCast S_ (extractStridedSlice S1x1 ![9, 0] hp slices_S16x3_S1x1_9_0) shapeCasts_S1x1_S_))
      (concatenate S2 0 [⟨S1, broadcastInDim S1 ![] bcast_S_S1 (constantI S_ 32 2#32)⟩, ⟨S1, broadcastInDim S1 ![] bcast_S_S1 (constantI S_ 32 1#32)⟩] concatenates_S1_S1_S2_d0)
      (Host.negf (F := Ideal) (φ := .f32) (shapeCast S_ (extractStridedSlice S1x1 ![9, 0] hn slices_S16x3_S1x1_9_0) shapeCasts_S1x1_S_)))
def K6 (A : S64x64.Idx → EReal) (H : S3x5.Idx → EReal) : S192x320.Idx → EReal :=
  shapeCast S192x320 (mulf (F := Ideal) (φ := .f32)
      (broadcastInDim S64x3x64x5 ![0, 1, 2, 3] bcast_S64x1x64x1_S64x3x64x5_0_1_2_3 (broadcastInDim S64x1x64x1 ![0, 2] bcast_S64x64_S64x1x64x1_0_2 A))
      (broadcastInDim S64x3x64x5 ![0, 1, 2, 3] bcast_S1x3x1x5_S64x3x64x5_0_1_2_3 (broadcastInDim S1x3x1x5 ![1, 3] bcast_S3x5_S1x3x1x5_1_3 H)))
    shapeCasts_S64x3x64x5_S192x320
set_option maxHeartbeats 4000000 in
theorem blk6 (X : Valuation τ sig (Elt Ideal)) :
    after hostOps0_13 (after hostOps0_12 X) (Proc.devRef .tc main_v119)
      = K6 (A6 (X (Proc.devRef .tc main_arg1))) (H6 (X (Proc.devRef .tc main_arg2)) (X (Proc.devRef .tc main_arg3)) (X (Proc.devRef .tc main_arg4))) := by
  simp only [hostOps0_12, hostOps0_13]
  after_results_simp
  rfl
theorem K6_apply (A : S64x64.Idx → EReal) (H : S3x5.Idx → EReal) (mi o : Fin 64) (a : Fin 3) (b : Fin 5) (i : Fin 192) (j : Fin 320)
    (hi : i.val = mi.val * 3 + a.val) (hj : j.val = o.val * 5 + b.val) :
    K6 A H (ix2 i j) = A (ix2 mi o) * H (ix2 a b) :=
  kron_apply (r := 3) (s := 5) rfl A H _ _ _ _ _ mi o a b i j hi hj
theorem A6_apply (w : S65536.Idx → EReal) (mi o : Fin 64) (q : Fin 65536) (hq : q.val = 36864 + 64 * o.val + mi.val) :
    A6 w (ix2 mi o) = w (ix1 q) :=
  weightT_apply w 36864 _ _ _ mi o q hq
theorem H6_apply (hz : S16.Idx → EReal) (hp hn : S16x3.Idx → EReal) (a : Fin 3) (b : Fin 5) :
    H6 hz hp hn (ix2 a b)
      = chain (entries 1 2 (hz (ix1 (⟨9, by decide⟩ : Fin 16)))
          (fun μ => if h : μ < 3 then hp (ix2 (⟨9, by decide⟩ : Fin 16) (⟨μ, h⟩ : Fin 3)) else 0)
          (fun μ => if h : μ < 3 then hn (ix2 (⟨9, by decide⟩ : Fin 16) (⟨μ, h⟩ : Fin 3)) else 0)) a.val b.val := by
  unfold H6
  rw [set_read scatter_S3x5_S2_S__n_01_01_0 rfl rfl rfl rfl 2#32 1#32 _ _ (by decide) (by decide) (by decide) (by decide)]
  rw [set_read scatter_S3x5_S2_S__n_01_01_0 rfl rfl rfl rfl 0#32 1#32 _ _ (by decide) (by decide) (by decide) (by decide)]
  rw [set_read scatter_S3x5_S2_S__n_01_01_0 rfl rfl rfl rfl 0#32 3#32 _ _ (by decide) (by decide) (by decide) (by decide)]
  rw [set_read scatter_S3x5_S2_S__n_01_01_0 rfl rfl rfl rfl 2#32 3#32 _ _ (by decide) (by decide) (by decide) (by decide)]
  rw [set_read scatter_S3x5_S2_S__n_01_01_0 rfl rfl rfl rfl 1#32 2#32 _ _ (by decide) (by decide) (by decide) (by decide)]
  rw [zeros_apply]
  simp only [hostNegf_apply]
  rw [scalar1_read hz 9 _ _ (by decide)]
  rw [scalar2_read hp 9 0 _ _ (by decide) (by decide)]
  rw [scalar2_read hn 9 0 _ _ (by decide) (by decide)]
  rfl
/-- The block of degrees (1, 2) as its two stretches leave it, read at (mi·3 + a, o·5 + b). -/
theorem entry6 (X : Valuation τ sig (Elt Ideal)) (w : S65536.Idx → EReal) (hz : S16.Idx → EReal) (hp hn : S16x3.Idx → EReal)
    (h1 : X (Proc.devRef .tc main_arg1) = w) (h2 : X (Proc.devRef .tc main_arg2) = hz)
    (h3 : X (Proc.devRef .tc main_arg3) = hp) (h4 : X (Proc.devRef .tc main_arg4) = hn)
    (mi o : Fin 64) (a : Fin 3) (b : Fin 5) (i : Fin 192) (j : Fin 320)
    (hi : i.val = mi.val * 3 + a.val) (hj : j.val = o.val * 5 + b.val)
    (q : Fin 65536) (hq : q.val = 36864 + 64 * o.val + mi.val) :
    (after hostOps0_13 (after hostOps0_12 X) (Proc.devRef .tc main_v119) : S192x320.Idx → EReal) (ix2 i j)
      = w (ix1 q) * chain (entries 1 2 (hz (ix1 (⟨9, by decide⟩ : Fin 16)))
          (fun μ => if h : μ < 3 then hp (ix2 (⟨9, by decide⟩ : Fin 16) (⟨μ, h⟩ : Fin 3)) else 0)
          (fun μ => if h : μ < 3 then hn (ix2 (⟨9, by decide⟩ : Fin 16) (⟨μ, h⟩ : Fin 3)) else 0)) a.val b.val := by
  subst h1 h2 h3 h4
  rw [blk6]
  refine (K6_apply _ _ mi o a b i j hi hj).trans ?_
  rw [A6_apply _ mi o q hq, H6_apply]

/-- Degrees (li, lo) = (1, 3), path 13: the transposed weight matrix, the coefficient matrix and their Kronecker product. -/
def A7 (w : S65536.Idx → EReal) : S64x64.Idx → EReal :=
  transpose S64x64 [1, 0] (shapeCast S64x64 (extractStridedSlice S4096 ![53248] w slices_S65536_S4096_53248) shapeCasts_S4096_S64x64) transposes_S64x64_S64x64_1_0
def H7 (hz : S16.Idx → EReal) (hp hn : S16x3.Idx → EReal) : S3x7.Idx → EReal :=
  (Host.scatter scatter_S3x7_S2_S__n_01_01_0 (fun _ b => b)
      (Host.scatter scatter_S3x7_S2_S__n_01_01_0 (fun _ b => b)
      (Host.scatter scatter_S3x7_S2_S__n_01_01_0 (fun _ b => b)
      (Host.scatter scatter_S3x7_S2_S__n_01_01_0 (fun _ b => b)
      (Host.scatter scatter_S3x7_S2_S__n_01_01_0 (fun _ b => b)
      (broadcastInDim S3x7 ![] bcast_S_S3x7 (constant (F := Ideal) S_ .f32 0x00000000#32))
      (concatenate S2 0 [⟨S1, broadcastInDim S1 ![] bcast_S_S1 (constantI S_ 32 1#32)⟩, ⟨S1, broadcastInDim S1 ![] bcast_S_S1 (constantI S_ 32 3#32)⟩] concatenates_S1_S1_S2_d0)
      (shapeCast S_ (extractStridedSlice S1 ![13] hz slices_S16_S1_13) shapeCasts_S1_S_))
      (concatenate S2 0 [⟨S1, broadcastInDim S1 ![] bcast_S_S1 (constantI S_ 32 2#32)⟩, ⟨S1, broadcastInDim S1 ![] bcast_S_S1 (constantI S_ 32 4#32)⟩] concatenates_S1_S1_S2_d0)
      (shapeCast S_ (extractStridedSlice S1x1 ![13, 0] hp slices_S16x3_S1x1_13_0) shapeCasts_S1x1_S_))
      (concatenate S2 0 [⟨S1, broadcastInDim S1 ![] bcast_S_S1 (constantI S_ 32 0#32)⟩, ⟨S1, broadcastInDim S1 ![] bcast_S_S1 (constantI S_ 32 4#32)⟩] concatenates_S1_S1_S2_d0)
      (shapeCast S_ (extractStridedSlice S1x1 ![13, 0] hn slices_S16x3_S1x1_13_0) shapeCasts_S1x1_S_))
      (concatenate S2 0 [⟨S1, broadcastInDim S1 ![] bcast_S_S1 (constantI S_ 32 0#32)⟩, ⟨S1, broadcastInDim S1 ![] bcast_S_S1 (constantI S_ 32 2#32)⟩] concatenates_S1_S1_S2_d0)
      (shapeCast S_ (extractStridedSlice S1x1 ![13, 0] hp slices_S16x3_S1x1_13_0) shapeCasts_S1x1_S_))
      (concatenate S2 0 [⟨S1, broadcastInDim S1 ![] bcast_S_S1 (constantI S_ 32 2#32)⟩, ⟨S1, broadcastInDim S1 ![] bcast_S_S1 (constantI S_ 32 2#32)⟩] concatenates_S1_S1_S2_d0)
      (Host.negf (F := Ideal) (φ := .f32) (shapeCast S_ (extractStridedSlice S1x1 ![13, 0] hn slices_S16x3_S1x1_13_0) shapeCasts_S1x1_S_)))
def K7 (A : S64x64.Idx → EReal) (H : S3x7.Idx → EReal) : S192x448.Idx → EReal :=
  shapeCast S192x448 (mulf (F := Ideal) (φ := .f32)
      (broadcastInDim S64x3x64x7 ![0, 1, 2, 3] bcast_S64x1x64x1_S64x3x64x7_0_1_2_3 (broadcastInDim S64x1x64x1 ![0, 2] bcast_S64x64_S64x1x64x1_0_2 A))
      (broadcastInDim S64x3x64x7 ![0, 1, 2, 3] bcast_S1x3x1x7_S64x3x64x7_0_1_2_3 (broadcastInDim S1x3x1x7 ![1, 3] bcast_S3x7_S1x3x1x7_1_3 H)))
    shapeCasts_S64x3x64x7_S192x448
set_option maxHeartbeats 4000000 in
theorem blk7 (X : Valuation τ sig (Elt Ideal)) :
    after hostOps0_15 (after hostOps0_14 X) (Proc.devRef .tc main_v151)
      = K7 (A7 (X (Proc.devRef .tc main_arg1))) (H7 (X (Proc.devRef .tc main_arg2)) (X (Proc.devRef .tc main_arg3)) (X (Proc.devRef .tc main_arg4))) := by
  simp only [hostOps0_14, hostOps0_15]
  after_results_simp
  rfl
theorem K7_apply (A : S64x64.Idx → EReal) (H : S3x7.Idx → EReal) (mi o : Fin 64) (a : Fin 3) (b : Fin 7) (i : Fin 192) (j : Fin 448)
    (hi : i.val = mi.val * 3 + a.val) (hj : j.val = o.val * 7 + b.val) :
    K7 A H (ix2 i j) = A (ix2 mi o) * H (ix2 a b) :=
  kron_apply (r := 3) (s := 7) rfl A H _ _ _ _ _ mi o a b i j hi hj
theorem A7_apply (w : S65536.Idx → EReal) (mi o : Fin 64) (q : Fin 65536) (hq : q.val = 53248 + 64 * o.val + mi.val) :
    A7 w (ix2 mi o) = w (ix1 q) :=
  weightT_apply w 53248 _ _ _ mi o q hq
theorem H7_apply (hz : S16.Idx → EReal) (hp hn : S16x3.Idx → EReal) (a : Fin 3) (b : Fin 7) :
    H7 hz hp hn (ix2 a b)
      = chain (entries 1 3 (hz (ix1 (⟨13, by decide⟩ : Fin 16)))
          (fun μ => if h : μ < 3 then hp (ix2 (⟨13, by decide⟩ : Fin 16) (⟨μ, h⟩ : Fin 3)) else 0)
          (fun μ => if h : μ < 3 then hn (ix2 (⟨13, by decide⟩ : Fin 16) (⟨μ, h⟩ : Fin 3)) else 0)) a.val b.val := by
  unfold H7
  rw [set_read scatter_S3x7_S2_S__n_01_01_0 rfl rfl rfl rfl 2#32 2#32 _ _ (by decide) (by decide) (by decide) (by decide)]
  rw [set_read scatter_S3x7_S2_S__n_01_01_0 rfl rfl rfl rfl 0#32 2#32 _ _ (by decide) (by decide) (by decide) (by decide)]
  rw [set_read scatter_S3x7_S2_S__n_01_01_0 rfl rfl rfl rfl 0#32 4#32 _ _ (by decide) (by decide) (by decide) (by decide)]
  rw [set_read scatter_S3x7_S2_S__n_01_01_0 rfl rfl rfl rfl 2#32 4#32 _ _ (by decide) (by decide) (by decide) (by decide)]
  rw [set_read scatter_S3x7_S2_S__n_01_01_0 rfl rfl rfl rfl 1#32 3#32 _ _ (by decide) (by decide) (by decide) (by decide)]
  rw [zeros_apply]
  simp only [hostNegf_apply]
  rw [scalar1_read hz 13 _ _ (by decide)]
  rw [scalar2_read hp 13 0 _ _ (by decide) (by decide)]
  rw [scalar2_read hn 13 0 _ _ (by decide) (by decide)]
  rfl
/-- The block of degrees (1, 3) as its two stretches leave it, read at (mi·3 + a, o·7 + b). -/
theorem entry7 (X : Valuation τ sig (Elt Ideal)) (w : S65536.Idx → EReal) (hz : S16.Idx → EReal) (hp hn : S16x3.Idx → EReal)
    (h1 : X (Proc.devRef .tc main_arg1) = w) (h2 : X (Proc.devRef .tc main_arg2) = hz)
    (h3 : X (Proc.devRef .tc main_arg3) = hp) (h4 : X (Proc.devRef .tc main_arg4) = hn)
    (mi o : Fin 64) (a : Fin 3) (b : Fin 7) (i : Fin 192) (j : Fin 448)
    (hi : i.val = mi.val * 3 + a.val) (hj : j.val = o.val * 7 + b.val)
    (q : Fin 65536) (hq : q.val = 53248 + 64 * o.val + mi.val) :
    (after hostOps0_15 (after hostOps0_14 X) (Proc.devRef .tc main_v151) : S192x448.Idx → EReal) (ix2 i j)
      = w (ix1 q) * chain (entries 1 3 (hz (ix1 (⟨13, by decide⟩ : Fin 16)))
          (fun μ => if h : μ < 3 then hp (ix2 (⟨13, by decide⟩ : Fin 16) (⟨μ, h⟩ : Fin 3)) else 0)
          (fun μ => if h : μ < 3 then hn (ix2 (⟨13, by decide⟩ : Fin 16) (⟨μ, h⟩ : Fin 3)) else 0)) a.val b.val := by
  subst h1 h2 h3 h4
  rw [blk7]
  refine (K7_apply _ _ mi o a b i j hi hj).trans ?_
  rw [A7_apply _ mi o q hq, H7_apply]

end Cert.KernelIdeal.Hand.Mat

end
-- ==== Proof.KMatBlocks2.lean ====
import proofs.«118270_j50440095924880_1_alg».proof.Proof.Gen.KernelIdeal.Launch
import proofs.«118270_j50440095924880_1_alg».proof.Proof.KMatLib
import proofs.«118270_j50440095924880_1_alg».proof.Proof.KMatScatter
import proofs.«118270_j50440095924880_1_alg».proof.Proof.KMatChain
import Idealize.ShloMosaic.Lib.StableHlo.Run

set_option maxRecDepth 16384

/-!
# The four blocks of degree li = 2

For each lo: the transposed weight matrix A, the coefficient matrix H (zeros and the single writes, in program order),
their Kronecker product K; the block's buffer after the pair's two stretches is K (A w) (H hz hp hn) for any contents
of the buffers before them; K, A and H read at an index; and the block's buffer read at an index.
-/

noncomputable section

namespace Cert.KernelIdeal.Hand.Mat

open Idealize.ShloMosaic Idealize.ShloMosaic.TcCoe Idealize.ShloMosaic.StableHlo Idealize.ShloMosaic.ValueIdx
open Cert.KernelIdeal Cert.KernelIdeal.Gen Cert.KMat

/-- Degrees (li, lo) = (2, 0), path 2: the transposed weight matrix, the coefficient matrix and their Kronecker product. -/
def A8 (w : S65536.Idx → EReal) : S64x64.Idx → EReal :=
  transpose S64x64 [1, 0] (shapeCast S64x64 (extractStridedSlice S4096 ![8192] w slices_S65536_S4096_8192) shapeCasts_S4096_S64x64) transposes_S64x64_S64x64_1_0
def H8 (hz : S16.Idx → EReal) (hp hn : S16x3.Idx → EReal) : S5x1.Idx → EReal :=
  (Host.scatter scatter_S5x1_S2_S__n_01_01_0 (fun _ b => b)
      (broadcastInDim S5x1 ![] bcast_S_S5x1 (constant (F := Ideal) S_ .f32 0x00000000#32))
      (concatenate S2 0 [⟨S1, broadcastInDim S1 ![] bcast_S_S1 (constantI S_ 32 2#32)⟩, ⟨S1, broadcastInDim S1 ![] bcast_S_S1 (constantI S_ 32 0#32)⟩] concatenates_S1_S1_S2_d0)
      (shapeCast S_ (extractStridedSlice S1 ![2] hz slices_S16_S1_2) shapeCasts_S1_S_))
def K8 (A : S64x64.Idx → EReal) (H : S5x1.Idx → EReal) : S320x64.Idx → EReal :=
  shapeCast S320x64 (mulf (F := Ideal) (φ := .f32)
      (broadcastInDim S64x5x64x1 ![0, 1, 2, 3] bcast_S64x1x64x1_S64x5x64x1_0_1_2_3 (broadcastInDim S64x1x64x1 ![0, 2] bcast_S64x64_S64x1x64x1_0_2 A))
      (broadcastInDim S64x5x64x1 ![0, 1, 2, 3] bcast_S1x5x1x1_S64x5x64x1_0_1_2_3 (broadcastInDim S1x5x1x1 ![1, 3] bcast_S5x1_S1x5x1x1_1_3 H)))
    shapeCasts_S64x5x64x1_S320x64
set_option maxHeartbeats 4000000 in
theorem blk8 (X : Valuation τ sig (Elt Ideal)) :
    after hostOps0_17 (after hostOps0_16 X) (Proc.devRef .tc main_v163)
      = K8 (A8 (X (Proc.devRef .tc main_arg1))) (H8 (X (Proc.devRef .tc main_arg2)) (X (Proc.devRef .tc main_arg3)) (X (Proc.devRef .tc main_arg4))) := by
  simp only [hostOps0_16, hostOps0_17]
  after_results_simp
  rfl
theorem K8_apply (A : S64x64.Idx → EReal) (H : S5x1.Idx → EReal) (mi o : Fin 64) (a : Fin 5) (b : Fin 1) (i : Fin 320) (j : Fin 64)
    (hi : i.val = mi.val * 5 + a.val) (hj : j.val = o.val * 1 + b.val) :
    K8 A H (ix2 i j) = A (ix2 mi o) * H (ix2 a b) :=
  kron_apply (r := 5) (s := 1) rfl A H _ _ _ _ _ mi o a b i j hi hj
theorem A8_apply (w : S65536.Idx → EReal) (mi o : Fin 64) (q : Fin 65536) (hq : q.val = 8192 + 64 * o.val + mi.val) :
    A8 w (ix2 mi o) = w (ix1 q) :=
  weightT_apply w 8192 _ _ _ mi o q hq
theorem H8_apply (hz : S16.Idx → EReal) (hp hn : S16x3.Idx → EReal) (a : Fin 5) (b : Fin 1) :
    H8 hz hp hn (ix2 a b)
      = chain (entries 2 0 (hz (ix1 (⟨2, by decide⟩ : Fin 16)))
          (fun μ => if h : μ < 3 then hp (ix2 (⟨2, by decide⟩ : Fin 16) (⟨μ, h⟩ : Fin 3)) else 0)
          (fun μ => if h : μ < 3 then hn (ix2 (⟨2, by decide⟩ : Fin 16) (⟨μ, h⟩ : Fin 3)) else 0)) a.val b.val := by
  unfold H8
  rw [set_read scatter_S5x1_S2_S__n_01_01_0 rfl rfl rfl rfl 2#32 0#32 _ _ (by decide) (by decide) (by decide) (by decide)]
  rw [zeros_apply]
  rw [scalar1_read hz 2 _ _ (by decide)]
  rfl
/-- The block of degrees (2, 0) as its two stretches leave it, read at (mi·5 + a, o·1 + b). -/
theorem entry8 (X : Valuation τ sig (Elt Ideal)) (w : S65536.Idx → EReal) (hz : S16.Idx → EReal) (hp hn : S16x3.Idx → EReal)
    (h1 : X (Proc.devRef .tc main_arg1) = w) (h2 : X (Proc.devRef .tc main_arg2) = hz)
    (h3 : X (Proc.devRef .tc main_arg3) = hp) (h4 : X (Proc.devRef .tc main_arg4) = hn)
    (mi o : Fin 64) (a : Fin 5) (b : Fin 1) (i : Fin 320) (j : Fin 64)
    (hi : i.val = mi.val * 5 + a.val) (hj : j.val = o.val * 1 + b.val)
    (q : Fin 65536) (hq : q.val = 8192 + 64 * o.val + mi.val) :
    (after hostOps0_17 (after hostOps0_16 X) (Proc.devRef .tc main_v163) : S320x64.Idx → EReal) (ix2 i j)
      = w (ix1 q) * chain (entries 2 0 (hz (ix1 (⟨2, by decide⟩ : Fin 16)))
          (fun μ => if h : μ < 3 then hp (ix2 (⟨2, by decide⟩ : Fin 16) (⟨μ, h⟩ : Fin 3)) else 0)
          (fun μ => if h : μ < 3 then hn (ix2 (⟨2, by decide⟩ : Fin 16) (⟨μ, h⟩ : Fin 3)) else 0)) a.val b.val := by
  subst h1 h2 h3 h4
  rw [blk8]
  refine (K8_apply _ _ mi o a b i j hi hj).trans ?_
  rw [A8_apply _ mi o q hq, H8_apply]

/-- Degrees (li, lo) = (2, 1), path 6: the transposed weight matrix, the coefficient matrix and their Kronecker product. -/
def A9 (w : S65536.Idx → EReal) : S64x64.Idx → EReal :=
  transpose S64x64 [1, 0] (shapeCast S64x64 (extractStridedSlice S4096 ![24576] w slices_S65536_S4096_24576) shapeCasts_S4096_S64x64) transposes_S64x64_S64x64_1_0
def H9 (hz : S16.Idx → EReal) (hp hn : S16x3.Idx → EReal) : S5x3.Idx → EReal :=
  (Host.scatter scatter_S5x3_S2_S__n_01_01_0 (fun _ b => b)
      (Host.scatter scatter_S5x3_S2_S__n_01_01_0 (fun _ b => b)
      (Host.scatter scatter_S5x3_S2_S__n_01_01_0 (fun _ b => b)
      (Host.scatter scatter_S5x3_S2_S__n_01_01_0 (fun _ b => b)
      (Host.scatter scatter_S5x3_S2_S__n_01_01_0 (fun _ b => b)
      (broadcastInDim S5x3 ![] bcast_S_S5x3 (constant (F := Ideal) S_ .f32 0x00000000#32))
      (concatenate S2 0 [⟨S1, broadcastInDim S1 ![] bcast_S_S1 (constantI S_ 32 2#32)⟩, ⟨S1, broadcastInDim S1 ![] bcast_S_S1 (constantI S_ 32 1#32)⟩] concatenates_S1_S1_S2_d0)
      (shapeCast S_ (extractStridedSlice S1 ![6] hz slices_S16_S1_6) shapeCasts_S1_S_))
      (concatenate S2 0 [⟨S1, broadcastInDim S1 ![] bcast_S_S1 (constantI S_ 32 3#32)⟩, ⟨S1, broadcastInDim S1 ![] bcast_S_S1 (constantI S_ 32 2#32)⟩] concatenates_S1_S1_S2_d0)
      (shapeCast S_ (extractStridedSlice S1x1 ![6, 0] hp slices_S16x3_S1x1_6_0) shapeCasts_S1x1_S_))
      (concatenate S2 0 [⟨S1, broadcastInDim S1 ![] bcast_S_S1 (constantI S_ 32 1#32)⟩, ⟨S1, broadcastInDim S1 ![] bcast_S_S1 (constantI S_ 32 2#32)⟩] concatenates_S1_S1_S2_d0)
      (shapeCast S_ (extractStridedSlice S1x1 ![6, 0] hn slices_S16x3_S1x1_6_0) shapeCasts_S1x1_S_))
      (concatenate S2 0 [⟨S1, broadcastInDim S1 ![] bcast_S_S1 (constantI S_ 32 1#32)⟩, ⟨S1, broadcastInDim S1 ![] bcast_S_S1 (constantI S_ 32 0#32)⟩] concatenates_S1_S1_S2_d0)
      (shapeCast S_ (extractStridedSlice S1x1 ![6, 0] hp slices_S16x3_S1x1_6_0) shapeCasts_S1x1_S_))
      (concatenate S2 0 [⟨S1, broadcastInDim S1 ![] bcast_S_S1 (constantI S_ 32 3#32)⟩, ⟨S1, broadcastInDim S1 ![] bcast_S_S1 (constantI S_ 32 0#32)⟩] concatenates_S1_S1_S2_d0)
      (Host.negf (F := Ideal) (φ := .f32) (shapeCast S_ (extractStridedSlice S1x1 ![6, 0] hn slices_S16x3_S1x1_6_0) shapeCasts_S1x1_S_)))
def K9 (A : S64x64.Idx → EReal) (H : S5x3.Idx → EReal) : S320x192.Idx → EReal :=
  shapeCast S320x192 (mulf (F := Ideal) (φ := .f32)
      (broadcastInDim S64x5x64x3 ![0, 1, 2, 3] bcast_S64x1x64x1_S64x5x64x3_0_1_2_3 (broadcastInDim S64x1x64x1 ![0, 2] bcast_S64x64_S64x1x64x1_0_2 A))
      (broadcastInDim S64x5x64x3 ![0, 1, 2, 3] bcast_S1x5x1x3_S64x5x64x3_0_1_2_3 (broadcastInDim S1x5x1x3 ![1, 3] bcast_S5x3_S1x5x1x3_1_3 H)))
    shapeCasts_S64x5x64x3_S320x192
set_option maxHeartbeats 4000000 in
theorem blk9 (X : Valuation τ sig (Elt Ideal)) :
    after hostOps0_19 (after hostOps0_18 X) (Proc.devRef .tc main_v195)
      = K9 (A9 (X (Proc.devRef .tc main_arg1))) (H9 (X (Proc.devRef .tc main_arg2)) (X (Proc.devRef .tc main_arg3)) (X (Proc.devRef .tc main_arg4))) := by
  simp only [hostOps0_18, hostOps0_19]
  after_results_simp
  rfl
theorem K9_apply (A : S64x64.Idx → EReal) (H : S5x3.Idx → EReal) (mi o : Fin 64) (a : Fin 5) (b : Fin 3) (i : Fin 320) (j : Fin 192)
    (hi : i.val = mi.val * 5 + a.val) (hj : j.val = o.val * 3 + b.val) :
    K9 A H (ix2 i j) = A (ix2 mi o) * H (ix2 a b) :=
  kron_apply (r := 5) (s := 3) rfl A H _ _ _ _ _ mi o a b i j hi hj
theorem A9_apply (w : S65536.Idx → EReal) (mi o : Fin 64) (q : Fin 65536) (hq : q.val = 24576 + 64 * o.val + mi.val) :
    A9 w (ix2 mi o) = w (ix1 q) :=
  weightT_apply w 24576 _ _ _ mi o q hq
theorem H9_apply (hz : S16.Idx → EReal) (hp hn : S16x3.Idx → EReal) (a : Fin 5) (b : Fin 3) :
    H9 hz hp hn (ix2 a b)
      = chain (entries 2 1 (hz (ix1 (⟨6, by decide⟩ : Fin 16)))
          (fun μ => if h : μ < 3 then hp (ix2 (⟨6, by decide⟩ : Fin 16) (⟨μ, h⟩ : Fin 3)) else 0)
          (fun μ => if h : μ < 3 then hn (ix2 (⟨6, by decide⟩ : Fin 16) (⟨μ, h⟩ : Fin 3)) else 0)) a.val b.val := by
  unfold H9
  rw [set_read scatter_S5x3_S2_S__n_01_01_0 rfl rfl rfl rfl 3#32 0#32 _ _ (by decide) (by decide) (by decide) (by decide)]
  rw [set_read scatter_S5x3_S2_S__n_01_01_0 rfl rfl rfl rfl 1#32 0#32 _ _ (by decide) (by decide) (by decide) (by decide)]
  rw [set_read scatter_S5x3_S2_S__n_01_01_0 rfl rfl rfl rfl 1#32 2#32 _ _ (by decide) (by decide) (by decide) (by decide)]
  rw [set_read scatter_S5x3_S2_S__n_01_01_0 rfl rfl rfl rfl 3#32 2#32 _ _ (by decide) (by decide) (by decide) (by decide)]
  rw [set_read scatter_S5x3_S2_S__n_01_01_0 rfl rfl rfl rfl 2#32 1#32 _ _ (by decide) (by decide) (by decide) (by decide)]
  rw [zeros_apply]
  simp only [hostNegf_apply]
  rw [scalar1_read hz 6 _ _ (by decide)]
  rw [scalar2_read hp 6 0 _ _ (by decide) (by decide)]
  rw [scalar2_read hn 6 0 _ _ (by decide) (by decide)]
  rfl
/-- The block of degrees (2, 1) as its two stretches leave it, read at (mi·5 + a, o·3 + b). -/
theorem entry9 (X : Valuation τ sig (Elt Ideal)) (w : S65536.Idx → EReal) (hz : S16.Idx → EReal) (hp hn : S16x3.Idx → EReal)
    (h1 : X (Proc.devRef .tc main_arg1) = w) (h2 : X (Proc.devRef .tc main_arg2) = hz)
    (h3 : X (Proc.devRef .tc main_arg3) = hp) (h4 : X (Proc.devRef .tc main_arg4) = hn)
    (mi o : Fin 64) (a : Fin 5) (b : Fin 3) (i : Fin 320) (j : Fin 192)
    (hi : i.val = mi.val * 5 + a.val) (hj : j.val = o.val * 3 + b.val)
    (q : Fin 65536) (hq : q.val = 24576 + 64 * o.val + mi.val) :
    (after hostOps0_19 (after hostOps0_18 X) (Proc.devRef .tc main_v195) : S320x192.Idx → EReal) (ix2 i j)
      = w (ix1 q) * chain (entries 2 1 (hz (ix1 (⟨6, by decide⟩ : Fin 16)))
          (fun μ => if h : μ < 3 then hp (ix2 (⟨6, by decide⟩ : Fin 16) (⟨μ, h⟩ : Fin 3)) else 0)
          (fun μ => if h : μ < 3 then hn (ix2 (⟨6, by decide⟩ : Fin 16) (⟨μ, h⟩ : Fin 3)) else 0)) a.val b.val := by
  subst h1 h2 h3 h4
  rw [blk9]
  refine (K9_apply _ _ mi o a b i j hi hj).trans ?_
  rw [A9_apply _ mi o q hq, H9_apply]

/-- Degrees (li, lo) = (2, 2), path 10: the transposed weight matrix, the coefficient matrix and their Kronecker product. -/
def A10 (w : S65536.Idx → EReal) : S64x64.Idx → EReal :=
  transpose S64x64 [1, 0] (shapeCast S64x64 (extractStridedSlice S4096 ![40960] w slices_S65536_S4096_40960) shapeCasts_S4096_S64x64) transposes_S64x64_S64x64_1_0
def H10 (hz : S16.Idx → EReal) (hp hn : S16x3.Idx → EReal) : S5x5.Idx → EReal :=
  (Host.scatter scatter_S5x5_S2_S__n_01_01_0 (fun _ b => b)
      (Host.scatter scatter_S5x5_S2_S__n_01_01_0 (fun _ b => b)
      (Host.scatter scatter_S5x5_S2_S__n_01_01_0 (fun _ b => b)
      (Host.scatter scatter_S5x5_S2_S__n_01_01_0 (fun _ b => b)
      (Host.scatter scatter_S5x5_S2_S__n_01_01_0 (fun _ b => b)
      (Host.scatter scatter_S5x5_S2_S__n_01_01_0 (fun _ b => b)
      (Host.scatter scatter_S5x5_S2_S__n_01_01_0 (fun _ b => b)
      (Host.scatter scatter_S5x5_S2_S__n_01_01_0 (fun _ b => b)
      (Host.scatter scatter_S5x5_S2_S__n_01_01_0 (fun _ b => b)
      (broadcastInDim S5x5 ![] bcast_S_S5x5 (constant (F := Ideal) S_ .f32 0x00000000#32))
      (concatenate S2 0 [⟨S1, broadcastInDim S1 ![] bcast_S_S1 (constantI S_ 32 2#32)⟩, ⟨S1, broadcastInDim S1 ![] bcast_S_S1 (constantI S_ 32 2#32)⟩] concatenates_S1_S1_S2_d0)
      (shapeCast S_ (extractStridedSlice S1 ![10] hz slices_S16_S1_10) shapeCasts_S1_S_))
      (concatenate S2 0 [⟨S1, broadcastInDim S1 ![] bcast_S_S1 (constantI S_ 32 3#32)⟩, ⟨S1, broadcastInDim S1 ![] bcast_S_S1 (constantI S_ 32 3#32)⟩] concatenates_S1_S1_S2_d0)
      (shapeCast S_ (extractStridedSlice S1x1 ![10, 0] hp slices_S16x3_S1x1_10_0) shapeCasts_S1x1_S_))
      (concatenate S2 0 [⟨S1, broadcastInDim S1 ![] bcast_S_S1 (constantI S_ 32 1#32)⟩, ⟨S1, broadcastInDim S1 ![] bcast_S_S1 (constantI S_ 32 3#32)⟩] concatenates_S1_S1_S2_d0)
      (shapeCast S_ (extractStridedSlice S1x1 ![10, 0] hn slices_S16x3_S1x1_10_0) shapeCasts_S1x1_S_))
      (concatenate S2 0 [⟨S1, broadcastInDim S1 ![] bcast_S_S1 (constantI S_ 32 1#32)⟩, ⟨S1, broadcastInDim S1 ![] bcast_S_S1 (constantI S_ 32 1#32)⟩] concatenates_S1_S1_S2_d0)
      (shapeCast S_ (extractStridedSlice S1x1 ![10, 0] hp slices_S16x3_S1x1_10_0) shapeCasts_S1x1_S_))
      (concatenate S2 0 [⟨S1, broadcastInDim S1 ![] bcast_S_S1 (constantI S_ 32 3#32)⟩, ⟨S1, broadcastInDim S1 ![] bcast_S_S1 (constantI S_ 32 1#32)⟩] concatenates_S1_S1_S2_d0)
      (Host.negf (F := Ideal) (φ := .f32) (shapeCast S_ (extractStridedSlice S1x1 ![10, 0] hn slices_S16x3_S1x1_10_0) shapeCasts_S1x1_S_)))
      (concatenate S2 0 [⟨S1, broadcastInDim S1 ![] bcast_S_S1 (constantI S_ 32 4#32)⟩, ⟨S1, broadcastInDim S1 ![] bcast_S_S1 (constantI S_ 32 4#32)⟩] concatenates_S1_S1_S2_d0)
      (shapeCast S_ (extractStridedSlice S1x1 ![10, 1] hp slices_S16x3_S1x1_10_1) shapeCasts_S1x1_S_))
      (concatenate S2 0 [⟨S1, broadcastInDim S1 ![] bcast_S_S1 (constantI S_ 32 0#32)⟩, ⟨S1, broadcastInDim S1 ![] bcast_S_S1 (constantI S_ 32 4#32)⟩] concatenates_S1_S1_S2_d0)
      (shapeCast S_ (extractStridedSlice S1x1 ![10, 1] hn slices_S16x3_S1x1_10_1) shapeCasts_S1x1_S_))
      (concatenate S2 0 [⟨S1, broadcastInDim S1 ![] bcast_S_S1 (constantI S_ 32 0#32)⟩, ⟨S1, broadcastInDim S1 ![] bcast_S_S1 (constantI S_ 32 0#32)⟩] concatenates_S1_S1_S2_d0)
      (shapeCast S_ (extractStridedSlice S1x1 ![10, 1] hp slices_S16x3_S1x1_10_1) shapeCasts_S1x1_S_))
      (concatenate S2 0 [⟨S1, broadcastInDim S1 ![] bcast_S_S1 (constantI S_ 32 4#32)⟩, ⟨S1, broadcastInDim S1 ![] bcast_S_S1 (constantI S_ 32 0#32)⟩] concatenates_S1_S1_S2_d0)
      (Host.negf (F := Ideal) (φ := .f32) (shapeCast S_ (extractStridedSlice S1x1 ![10, 1] hn slices_S16x3_S1x1_10_1) shapeCasts_S1x1_S_)))
def K10 (A : S64x64.Idx → EReal) (H : S5x5.Idx → EReal) : S320x320.Idx → EReal :=
  shapeCast S320x320 (mulf (F := Ideal) (φ := .f32)
      (broadcastInDim S64x5x64x5 ![0, 1, 2, 3] bcast_S64x1x64x1_S64x5x64x5_0_1_2_3 (broadcastInDim S64x1x64x1 ![0, 2] bcast_S64x64_S64x1x64x1_0_2 A))
      (broadcastInDim S64x5x64x5 ![0, 1, 2, 3] bcast_S1x5x1x5_S64x5x64x5_0_1_2_3 (broadcastInDim S1x5x1x5 ![1, 3] bcast_S5x5_S1x5x1x5_1_3 H)))
    shapeCasts_S64x5x64x5_S320x320
set_option maxHeartbeats 4000000 in
theorem blk10 (X : Valuation τ sig (Elt Ideal)) :
    after hostOps0_21 (after hostOps0_20 X) (Proc.devRef .tc main_v248)
      = K10 (A10 (X (Proc.devRef .tc main_arg1))) (H10 (X (Proc.devRef .tc main_arg2)) (X (Proc.devRef .tc main_arg3)) (X (Proc.devRef .tc main_arg4))) := by
  simp only [hostOps0_20, hostOps0_21]
  after_results_simp
  rfl
theorem K10_apply (A : S64x64.Idx → EReal) (H : S5x5.Idx → EReal) (mi o : Fin 64) (a : Fin 5) (b : Fin 5) (i : Fin 320) (j : Fin 320)
    (hi : i.val = mi.val * 5 + a.val) (hj : j.val = o.val * 5 + b.val) :
    K10 A H (ix2 i j) = A (ix2 mi o) * H (ix2 a b) :=
  kron_apply (r := 5) (s := 5) rfl A H _ _ _ _ _ mi o a b i j hi hj
theorem A10_apply (w : S65536.Idx → EReal) (mi o : Fin 64) (q : Fin 65536) (hq : q.val = 40960 + 64 * o.val + mi.val) :
    A10 w (ix2 mi o) = w (ix1 q) :=
  weightT_apply w 40960 _ _ _ mi o q hq
theorem H10_apply (hz : S16.Idx → EReal) (hp hn : S16x3.Idx → EReal) (a : Fin 5) (b : Fin 5) :
    H10 hz hp hn (ix2 a b)
      = chain (entries 2 2 (hz (ix1 (⟨10, by decide⟩ : Fin 16)))
          (fun μ => if h : μ < 3 then hp (ix2 (⟨10, by decide⟩ : Fin 16) (⟨μ, h⟩ : Fin 3)) else 0)
          (fun μ => if h : μ < 3 then hn (ix2 (⟨10, by decide⟩ : Fin 16) (⟨μ, h⟩ : Fin 3)) else 0)) a.val b.val := by
  unfold H10
  rw [set_read scatter_S5x5_S2_S__n_01_01_0 rfl rfl rfl rfl 4#32 0#32 _ _ (by decide) (by decide) (by decide) (by decide)]
  rw [set_read scatter_S5x5_S2_S__n_01_01_0 rfl rfl rfl rfl 0#32 0#32 _ _ (by decide) (by decide) (by decide) (by decide)]
  rw [set_read scatter_S5x5_S2_S__n_01_01_0 rfl rfl rfl rfl 0#32 4#32 _ _ (by decide) (by decide) (by decide) (by decide)]
  rw [set_read scatter_S5x5_S2_S__n_01_01_0 rfl rfl rfl rfl 4#32 4#32 _ _ (by decide) (by decide) (by decide) (by decide)]
  rw [set_read scatter_S5x5_S2_S__n_01_01_0 rfl rfl rfl rfl 3#32 1#32 _ _ (by decide) (by decide) (by decide) (by decide)]
  rw [set_read scatter_S5x5_S2_S__n_01_01_0 rfl rfl rfl rfl 1#32 1#32 _ _ (by decide) (by decide) (by decide) (by decide)]
  rw [set_read scatter_S5x5_S2_S__n_01_01_0 rfl rfl rfl rfl 1#32 3#32 _ _ (by decide) (by decide) (by decide) (by decide)]
  rw [set_read scatter_S5x5_S2_S__n_01_01_0 rfl rfl rfl rfl 3#32 3#32 _ _ (by decide) (by decide) (by decide) (by decide)]
  rw [set_read scatter_S5x5_S2_S__n_01_01_0 rfl rfl rfl rfl 2#32 2#32 _ _ (by decide) (by decide) (by decide) (by decide)]
  rw [zeros_apply]
  simp only [hostNegf_apply]
  rw [scalar1_read hz 10 _ _ (by decide)]
  rw [scalar2_read hp 10 0 _ _ (by decide) (by decide)]
  rw [scalar2_read hn 10 0 _ _ (by decide) (by decide)]
  rw [scalar2_read hp 10 1 _ _ (by decide) (by decide)]
  rw [scalar2_read hn 10 1 _ _ (by decide) (by decide)]
  rfl
/-- The block of degrees (2, 2) as its two stretches leave it, read at (mi·5 + a, o·5 + b). -/
theorem entry10 (X : Valuation τ sig (Elt Ideal)) (w : S65536.Idx → EReal) (hz : S16.Idx → EReal) (hp hn : S16x3.Idx → EReal)
    (h1 : X (Proc.devRef .tc main_arg1) = w) (h2 : X (Proc.devRef .tc main_arg2) = hz)
    (h3 : X (Proc.devRef .tc main_arg3) = hp) (h4 : X (Proc.devRef .tc main_arg4) = hn)
    (mi o : Fin 64) (a : Fin 5) (b : Fin 5) (i : Fin 320) (j : Fin 320)
    (hi : i.val = mi.val * 5 + a.val) (hj : j.val = o.val * 5 + b.val)
    (q : Fin 65536) (hq : q.val = 40960 + 64 * o.val + mi.val) :
    (after hostOps0_21 (after hostOps0_20 X) (Proc.devRef .tc main_v248) : S320x320.Idx → EReal) (ix2 i j)
      = w (ix1 q) * chain (entries 2 2 (hz (ix1 (⟨10, by decide⟩ : Fin 16)))
          (fun μ => if h : μ < 3 then hp (ix2 (⟨10, by decide⟩ : Fin 16) (⟨μ, h⟩ : Fin 3)) else 0)
          (fun μ => if h : μ < 3 then hn (ix2 (⟨10, by decide⟩ : Fin 16) (⟨μ, h⟩ : Fin 3)) else 0)) a.val b.val := by
  subst h1 h2 h3 h4
  rw [blk10]
  refine (K10_apply _ _ mi o a b i j hi hj).trans ?_
  rw [A10_apply _ mi o q hq, H10_apply]

/-- Degrees (li, lo) = (2, 3), path 14: the transposed weight matrix, the coefficient matrix and their Kronecker product. -/
def A11 (w : S65536.Idx → EReal) : S64x64.Idx → EReal :=
  transpose S64x64 [1, 0] (shapeCast S64x64 (extractStridedSlice S4096 ![57344] w slices_S65536_S4096_57344) shapeCasts_S4096_S64x64) transposes_S64x64_S64x64_1_0
def H11 (hz : S16.Idx → EReal) (hp hn : S16x3.Idx → EReal) : S5x7.Idx → EReal :=
  (Host.scatter scatter_S5x7_S2_S__n_01_01_0 (fun _ b => b)
      (Host.scatter scatter_S5x7_S2_S__n_01_01_0 (fun _ b => b)
      (Host.scatter scatter_S5x7_S2_S__n_01_01_0 (fun _ b => b)
      (Host.scatter scatter_S5x7_S2_S__n_01_01_0 (fun _ b => b)
      (Host.scatter scatter_S5x7_S2_S__n_01_01_0 (fun _ b => b)
      (Host.scatter scatter_S5x7_S2_S__n_01_01_0 (fun _ b => b)
      (Host.scatter scatter_S5x7_S2_S__n_01_01_0 (fun _ b => b)
      (Host.scatter scatter_S5x7_S2_S__n_01_01_0 (fun _ b => b)
      (Host.scatter scatter_S5x7_S2_S__n_01_01_0 (fun _ b => b)
      (broadcastInDim S5x7 ![] bcast_S_S5x7 (constant (F := Ideal) S_ .f32 0x00000000#32))
      (concatenate S2 0 [⟨S1, broadcastInDim S1 ![] bcast_S_S1 (constantI S_ 32 2#32)⟩, ⟨S1, broadcastInDim S1 ![] bcast_S_S1 (constantI S_ 32 3#32)⟩] concatenates_S1_S1_S2_d0)
      (shapeCast S_ (extractStridedSlice S1 ![14] hz slices_S16_S1_14) shapeCasts_S1_S_))
      (concatenate S2 0 [⟨S1, broadcastInDim S1 ![] bcast_S_S1 (constantI S_ 32 3#32)⟩, ⟨S1, broadcastInDim S1 ![] bcast_S_S1 (constantI S_ 32 4#32)⟩] concatenates_S1_S1_S2_d0)
      (shapeCast S_ (extractStridedSlice S1x1 ![14, 0] hp slices_S16x3_S1x1_14_0) shapeCasts_S1x1_S_))
      (concatenate S2 0 [⟨S1, broadcastInDim S1 ![] bcast_S_S1 (constantI S_ 32 1#32)⟩, ⟨S1, broadcastInDim S1 ![] bcast_S_S1 (constantI S_ 32 4#32)⟩] concatenates_S1_S1_S2_d0)
      (shapeCast S_ (extractStridedSlice S1x1 ![14, 0] hn slices_S16x3_S1x1_14_0) shapeCasts_S1x1_S_))
      (concatenate S2 0 [⟨S1, broadcastInDim S1 ![] bcast_S_S1 (constantI S_ 32 1#32)⟩, ⟨S1, broadcastInDim S1 ![] bcast_S_S1 (constantI S_ 32 2#32)⟩] concatenates_S1_S1_S2_d0)
      (shapeCast S_ (extractStridedSlice S1x1 ![14, 0] hp slices_S16x3_S1x1_14_0) shapeCasts_S1x1_S_))
      (concatenate S2 0 [⟨S1, broadcastInDim S1 ![] bcast_S_S1 (constantI S_ 32 3#32)⟩, ⟨S1, broadcastInDim S1 ![] bcast_S_S1 (constantI S_ 32 2#32)⟩] concatenates_S1_S1_S2_d0)
      (Host.negf (F := Ideal) (φ := .f32) (shapeCast S_ (extractStridedSlice S1x1 ![14, 0] hn slices_S16x3_S1x1_14_0) shapeCasts_S1x1_S_)))
      (concatenate S2 0 [⟨S1, broadcastInDim S1 ![] bcast_S_S1 (constantI S_ 32 4#32)⟩, ⟨S1, broadcastInDim S1 ![] bcast_S_S1 (constantI S_ 32 5#32)⟩] concatenates_S1_S1_S2_d0)
      (shapeCast S_ (extractStridedSlice S1x1 ![14, 1] hp slices_S16x3_S1x1_14_1) shapeCasts_S1x1_S_))
      (concatenate S2 0 [⟨S1, broadcastInDim S1 ![] bcast_S_S1 (constantI S_ 32 0#32)⟩, ⟨S1, broadcastInDim S1 ![] bcast_S_S1 (constantI S_ 32 5#32)⟩] concatenates_S1_S1_S2_d0)
      (shapeCast S_ (extractStridedSlice S1x1 ![14, 1] hn slices_S16x3_S1x1_14_1) shapeCasts_S1x1_S_))
      (concatenate S2 0 [⟨S1, broadcastInDim S1 ![] bcast_S_S1 (constantI S_ 32 0#32)⟩, ⟨S1, broadcastInDim S1 ![] bcast_S_S1 (constantI S_ 32 1#32)⟩] concatenates_S1_S1_S2_d0)
      (shapeCast S_ (extractStridedSlice S1x1 ![14, 1] hp slices_S16x3_S1x1_14_1) shapeCasts_S1x1_S_))
      (concatenate S2 0 [⟨S1, broadcastInDim S1 ![] bcast_S_S1 (constantI S_ 32 4#32)⟩, ⟨S1, broadcastInDim S1 ![] bcast_S_S1 (constantI S_ 32 1#32)⟩] concatenates_S1_S1_S2_d0)
      (Host.negf (F := Ideal) (φ := .f32) (shapeCast S_ (extractStridedSlice S1x1 ![14, 1] hn slices_S16x3_S1x1_14_1) shapeCasts_S1x1_S_)))
def K11 (A : S64x64.Idx → EReal) (H : S5x7.Idx → EReal) : S320x448.Idx → EReal :=
  shapeCast S320x448 (mulf (F := Ideal) (φ := .f32)
      (broadcastInDim S64x5x64x7 ![0, 1, 2, 3] bcast_S64x1x64x1_S64x5x64x7_0_1_2_3 (broadcastInDim S64x1x64x1 ![0, 2] bcast_S64x64_S64x1x64x1_0_2 A))
      (broadcastInDim S64x5x64x7 ![0, 1, 2, 3] bcast_S1x5x1x7_S64x5x64x7_0_1_2_3 (broadcastInDim S1x5x1x7 ![1, 3] bcast_S5x7_S1x5x1x7_1_3 H)))
    shapeCasts_S64x5x64x7_S320x448
set_option maxHeartbeats 4000000 in
theorem blk11 (X : Valuation τ sig (Elt Ideal)) :
    after hostOps0_23 (after hostOps0_22 X) (Proc.devRef .tc main_v301)
      = K11 (A11 (X (Proc.devRef .tc main_arg1))) (H11 (X (Proc.devRef .tc main_arg2)) (X (Proc.devRef .tc main_arg3)) (X (Proc.devRef .tc main_arg4))) := by
  simp only [hostOps0_22, hostOps0_23]
  after_results_simp
  rfl
theorem K11_apply (A : S64x64.Idx → EReal) (H : S5x7.Idx → EReal) (mi o : Fin 64) (a : Fin 5) (b : Fin 7) (i : Fin 320) (j : Fin 448)
    (hi : i.val = mi.val * 5 + a.val) (hj : j.val = o.val * 7 + b.val) :
    K11 A H (ix2 i j) = A (ix2 mi o) * H (ix2 a b) :=
  kron_apply (r := 5) (s := 7) rfl A H _ _ _ _ _ mi o a b i j hi hj
theorem A11_apply (w : S65536.Idx → EReal) (mi o : Fin 64) (q : Fin 65536) (hq : q.val = 57344 + 64 * o.val + mi.val) :
    A11 w (ix2 mi o) = w (ix1 q) :=
  weightT_apply w 57344 _ _ _ mi o q hq
theorem H11_apply (hz : S16.Idx → EReal) (hp hn : S16x3.Idx → EReal) (a : Fin 5) (b : Fin 7) :
    H11 hz hp hn (ix2 a b)
      = chain (entries 2 3 (hz (ix1 (⟨14, by decide⟩ : Fin 16)))
          (fun μ => if h : μ < 3 then hp (ix2 (⟨14, by decide⟩ : Fin 16) (⟨μ, h⟩ : Fin 3)) else 0)
          (fun μ => if h : μ < 3 then hn (ix2 (⟨14, by decide⟩ : Fin 16) (⟨μ, h⟩ : Fin 3)) else 0)) a.val b.val := by
  unfold H11
  rw [set_read scatter_S5x7_S2_S__n_01_01_0 rfl rfl rfl rfl 4#32 1#32 _ _ (by decide) (by decide) (by decide) (by decide)]
  rw [set_read scatter_S5x7_S2_S__n_01_01_0 rfl rfl rfl rfl 0#32 1#32 _ _ (by decide) (by decide) (by decide) (by decide)]
  rw [set_read scatter_S5x7_S2_S__n_01_01_0 rfl rfl rfl rfl 0#32 5#32 _ _ (by decide) (by decide) (by decide) (by decide)]
  rw [set_read scatter_S5x7_S2_S__n_01_01_0 rfl rfl rfl rfl 4#32 5#32 _ _ (by decide) (by decide) (by decide) (by decide)]
  rw [set_read scatter_S5x7_S2_S__n_01_01_0 rfl rfl rfl rfl 3#32 2#32 _ _ (by decide) (by decide) (by decide) (by decide)]
  rw [set_read scatter_S5x7_S2_S__n_01_01_0 rfl rfl rfl rfl 1#32 2#32 _ _ (by decide) (by decide) (by decide) (by decide)]
  rw [set_read scatter_S5x7_S2_S__n_01_01_0 rfl rfl rfl rfl 1#32 4#32 _ _ (by decide) (by decide) (by decide) (by decide)]
  rw [set_read scatter_S5x7_S2_S__n_01_01_0 rfl rfl rfl rfl 3#32 4#32 _ _ (by decide) (by decide) (by decide) (by decide)]
  rw [set_read scatter_S5x7_S2_S__n_01_01_0 rfl rfl rfl rfl 2#32 3#32 _ _ (by decide) (by decide) (by decide) (by decide)]
  rw [zeros_apply]
  simp only [hostNegf_apply]
  rw [scalar1_read hz 14 _ _ (by decide)]
  rw [scalar2_read hp 14 0 _ _ (by decide) (by decide)]
  rw [scalar2_read hn 14 0 _ _ (by decide) (by decide)]
  rw [scalar2_read hp 14 1 _ _ (by decide) (by decide)]
  rw [scalar2_read hn 14 1 _ _ (by decide) (by decide)]
  rfl
/-- The block of degrees (2, 3) as its two stretches leave it, read at (mi·5 + a, o·7 + b). -/
theorem entry11 (X : Valuation τ sig (Elt Ideal)) (w : S65536.Idx → EReal) (hz : S16.Idx → EReal) (hp hn : S16x3.Idx → EReal)
    (h1 : X (Proc.devRef .tc main_arg1) = w) (h2 : X (Proc.devRef .tc main_arg2) = hz)
    (h3 : X (Proc.devRef .tc main_arg3) = hp) (h4 : X (Proc.devRef .tc main_arg4) = hn)
    (mi o : Fin 64) (a : Fin 5) (b : Fin 7) (i : Fin 320) (j : Fin 448)
    (hi : i.val = mi.val * 5 + a.val) (hj : j.val = o.val * 7 + b.val)
    (q : Fin 65536) (hq : q.val = 57344 + 64 * o.val + mi.val) :
    (after hostOps0_23 (after hostOps0_22 X) (Proc.devRef .tc main_v301) : S320x448.Idx → EReal) (ix2 i j)
      = w (ix1 q) * chain (entries 2 3 (hz (ix1 (⟨14, by decide⟩ : Fin 16)))
          (fun μ => if h : μ < 3 then hp (ix2 (⟨14, by decide⟩ : Fin 16) (⟨μ, h⟩ : Fin 3)) else 0)
          (fun μ => if h : μ < 3 then hn (ix2 (⟨14, by decide⟩ : Fin 16) (⟨μ, h⟩ : Fin 3)) else 0)) a.val b.val := by
  subst h1 h2 h3 h4
  rw [blk11]
  refine (K11_apply _ _ mi o a b i j hi hj).trans ?_
  rw [A11_apply _ mi o q hq, H11_apply]

end Cert.KernelIdeal.Hand.Mat

end
-- ==== Proof.KMatBlocks3.lean ====
import proofs.«118270_j50440095924880_1_alg».proof.Proof.Gen.KernelIdeal.Launch
import proofs.«118270_j50440095924880_1_alg».proof.Proof.KMatLib
import proofs.«118270_j50440095924880_1_alg».proof.Proof.KMatScatter
import proofs.«118270_j50440095924880_1_alg».proof.Proof.KMatChain
import Idealize.ShloMosaic.Lib.StableHlo.Run

set_option maxRecDepth 16384

/-!
# The four blocks of degree li = 3

For each lo: the transposed weight matrix A, the coefficient matrix H (zeros and the single writes, in program order),
their Kronecker product K; the block's buffer after the pair's two stretches is K (A w) (H hz hp hn) for any contents
of the buffers before them; K, A and H read at an index; and the block's buffer read at an index.
-/

noncomputable section

namespace Cert.KernelIdeal.Hand.Mat

open Idealize.ShloMosaic Idealize.ShloMosaic.TcCoe Idealize.ShloMosaic.StableHlo Idealize.ShloMosaic.ValueIdx
open Cert.KernelIdeal Cert.KernelIdeal.Gen Cert.KMat

/-- Degrees (li, lo) = (3, 0), path 3: the transposed weight matrix, the coefficient matrix and their Kronecker product. -/
def A12 (w : S65536.Idx → EReal) : S64x64.Idx → EReal :=
  transpose S64x64 [1, 0] (shapeCast S64x64 (extractStridedSlice S4096 ![12288] w slices_S65536_S4096_12288) shapeCasts_S4096_S64x64) transposes_S64x64_S64x64_1_0
def H12 (hz : S16.Idx → EReal) (hp hn : S16x3.Idx → EReal) : S7x1.Idx → EReal :=
  (Host.scatter scatter_S7x1_S2_S__n_01_01_0 (fun _ b => b)
      (broadcastInDim S7x1 ![] bcast_S_S7x1 (constant (F := Ideal) S_ .f32 0x00000000#32))
      (concatenate S2 0 [⟨S1, broadcastInDim S1 ![] bcast_S_S1 (constantI S_ 32 3#32)⟩, ⟨S1, broadcastInDim S1 ![] bcast_S_S1 (constantI S_ 32 0#32)⟩] concatenates_S1_S1_S2_d0)
      (shapeCast S_ (extractStridedSlice S1 ![3] hz slices_S16_S1_3) shapeCasts_S1_S_))
def K12 (A : S64x64.Idx → EReal) (H : S7x1.Idx → EReal) : S448x64.Idx → EReal :=
  shapeCast S448x64 (mulf (F := Ideal) (φ := .f32)
      (broadcastInDim S64x7x64x1 ![0, 1, 2, 3] bcast_S64x1x64x1_S64x7x64x1_0_1_2_3 (broadcastInDim S64x1x64x1 ![0, 2] bcast_S64x64_S64x1x64x1_0_2 A))
      (broadcastInDim S64x7x64x1 ![0, 1, 2, 3] bcast_S1x7x1x1_S64x7x64x1_0_1_2_3 (broadcastInDim S1x7x1x1 ![1, 3] bcast_S7x1_S1x7x1x1_1_3 H)))
    shapeCasts_S64x7x64x1_S448x64
set_option maxHeartbeats 4000000 in
theorem blk12 (X : Valuation τ sig (Elt Ideal)) :
    after hostOps0_25 (after hostOps0_24 X) (Proc.devRef .tc main_v313)
      = K12 (A12 (X (Proc.devRef .tc main_arg1))) (H12 (X (Proc.devRef .tc main_arg2)) (X (Proc.devRef .tc main_arg3)) (X (Proc.devRef .tc main_arg4))) := by
  simp only [hostOps0_24, hostOps0_25]
  after_results_simp
  rfl
theorem K12_apply (A : S64x64.Idx → EReal) (H : S7x1.Idx → EReal) (mi o : Fin 64) (a : Fin 7) (b : Fin 1) (i : Fin 448) (j : Fin 64)
    (hi : i.val = mi.val * 7 + a.val) (hj : j.val = o.val * 1 + b.val) :
    K12 A H (ix2 i j) = A (ix2 mi o) * H (ix2 a b) :=
  kron_apply (r := 7) (s := 1) rfl A H _ _ _ _ _ mi o a b i j hi hj
theorem A12_apply (w : S65536.Idx → EReal) (mi o : Fin 64) (q : Fin 65536) (hq : q.val = 12288 + 64 * o.val + mi.val) :
    A12 w (ix2 mi o) = w (ix1 q) :=
  weightT_apply w 12288 _ _ _ mi o q hq
theorem H12_apply (hz : S16.Idx → EReal) (hp hn : S16x3.Idx → EReal) (a : Fin 7) (b : Fin 1) :
    H12 hz hp hn (ix2 a b)
      = chain (entries 3 0 (hz (ix1 (⟨3, by decide⟩ : Fin 16)))
          (fun μ => if h : μ < 3 then hp (ix2 (⟨3, by decide⟩ : Fin 16) (⟨μ, h⟩ : Fin 3)) else 0)
          (fun μ => if h : μ < 3 then hn (ix2 (⟨3, by decide⟩ : Fin 16) (⟨μ, h⟩ : Fin 3)) else 0)) a.val b.val := by
  unfold H12
  rw [set_read scatter_S7x1_S2_S__n_01_01_0 rfl rfl rfl rfl 3#32 0#32 _ _ (by decide) (by decide) (by decide) (by decide)]
  rw [zeros_apply]
  rw [scalar1_read hz 3 _ _ (by decide)]
  rfl
/-- The block of degrees (3, 0) as its two stretches leave it, read at (mi·7 + a, o·1 + b). -/
theorem entry12 (X : Valuation τ sig (Elt Ideal)) (w : S65536.Idx → EReal) (hz : S16.Idx → EReal) (hp hn : S16x3.Idx → EReal)
    (h1 : X (Proc.devRef .tc main_arg1) = w) (h2 : X (Proc.devRef .tc main_arg2) = hz)
    (h3 : X (Proc.devRef .tc main_arg3) = hp) (h4 : X (Proc.devRef .tc main_arg4) = hn)
    (mi o : Fin 64) (a : Fin 7) (b : Fin 1) (i : Fin 448) (j : Fin 64)
    (hi : i.val = mi.val * 7 + a.val) (hj : j.val = o.val * 1 + b.val)
    (q : Fin 65536) (hq : q.val = 12288 + 64 * o.val + mi.val) :
    (after hostOps0_25 (after hostOps0_24 X) (Proc.devRef .tc main_v313) : S448x64.Idx → EReal) (ix2 i j)
      = w (ix1 q) * chain (entries 3 0 (hz (ix1 (⟨3, by decide⟩ : Fin 16)))
          (fun μ => if h : μ < 3 then hp (ix2 (⟨3, by decide⟩ : Fin 16) (⟨μ, h⟩ : Fin 3)) else 0)
          (fun μ => if h : μ < 3 then hn (ix2 (⟨3, by decide⟩ : Fin 16) (⟨μ, h⟩ : Fin 3)) else 0)) a.val b.val := by
  subst h1 h2 h3 h4
  rw [blk12]
  refine (K12_apply _ _ mi o a b i j hi hj).trans ?_
  rw [A12_apply _ mi o q hq, H12_apply]

/-- Degrees (li, lo) = (3, 1), path 7: the transposed weight matrix, the coefficient matrix and their Kronecker product. -/
def A13 (w : S65536.Idx → EReal) : S64x64.Idx → EReal :=
  transpose S64x64 [1, 0] (shapeCast S64x64 (extractStridedSlice S4096 ![28672] w slices_S65536_S4096_28672) shapeCasts_S4096_S64x64) transposes_S64x64_S64x64_1_0
def H13 (hz : S16.Idx → EReal) (hp hn : S16x3.Idx → EReal) : S7x3.Idx → EReal :=
  (Host.scatter scatter_S7x3_S2_S__n_01_01_0 (fun _ b => b)
      (Host.scatter scatter_S7x3_S2_S__n_01_01_0 (fun _ b => b)
      (Host.scatter scatter_S7x3_S2_S__n_01_01_0 (fun _ b => b)
      (Host.scatter scatter_S7x3_S2_S__n_01_01_0 (fun _ b => b)
      (Host.scatter scatter_S7x3_S2_S__n_01_01_0 (fun _ b => b)
      (broadcastInDim S7x3 ![] bcast_S_S7x3 (constant (F := Ideal) S_ .f32 0x00000000#32))
      (concatenate S2 0 [⟨S1, broadcastInDim S1 ![] bcast_S_S1 (constantI S_ 32 3#32)⟩, ⟨S1, broadcastInDim S1 ![] bcast_S_S1 (constantI S_ 32 1#32)⟩] concatenates_S1_S1_S2_d0)
      (shapeCast S_ (extractStridedSlice S1 ![7] hz slices_S16_S1_7) shapeCasts_S1_S_))
      (concatenate S2 0 [⟨S1, broadcastInDim S1 ![] bcast_S_S1 (constantI S_ 32 4#32)⟩, ⟨S1, broadcastInDim S1 ![] bcast_S_S1 (constantI S_ 32 2#32)⟩] concatenates_S1_S1_S2_d0)
      (shapeCast S_ (extractStridedSlice S1x1 ![7, 0] hp slices_S16x3_S1x1_7_0) shapeCasts_S1x1_S_))
      (concatenate S2 0 [⟨S1, broadcastInDim S1 ![] bcast_S_S1 (constantI S_ 32 2#32)⟩, ⟨S1, broadcastInDim S1 ![] bcast_S_S1 (constantI S_ 32 2#32)⟩] concatenates_S1_S1_S2_d0)
      (shapeCast S_ (extractStridedSlice S1x1 ![7, 0] hn slices_S16x3_S1x1_7_0) shapeCasts_S1x1_S_))
      (concatenate S2 0 [⟨S1, broadcastInDim S1 ![] bcast_S_S1 (constantI S_ 32 2#32)⟩, ⟨S1, broadcastInDim S1 ![] bcast_S_S1 (constantI S_ 32 0#32)⟩] concatenates_S1_S1_S2_d0)
      (shapeCast S_ (extractStridedSlice S1x1 ![7, 0] hp slices_S16x3_S1x1_7_0) shapeCasts_S1x1_S_))
      (concatenate S2 0 [⟨S1, broadcastInDim S1 ![] bcast_S_S1 (constantI S_ 32 4#32)⟩, ⟨S1, broadcastInDim S1 ![] bcast_S_S1 (constantI S_ 32 0#32)⟩] concatenates_S1_S1_S2_d0)
      (Host.negf (F := Ideal) (φ := .f32) (shapeCast S_ (extractStridedSlice S1x1 ![7, 0] hn slices_S16x3_S1x1_7_0) shapeCasts_S1x1_S_)))
def K13 (A : S64x64.Idx → EReal) (H : S7x3.Idx → EReal) : S448x192.Idx → EReal :=
  shapeCast S448x192 (mulf (F := Ideal) (φ := .f32)
      (broadcastInDim S64x7x64x3 ![0, 1, 2, 3] bcast_S64x1x64x1_S64x7x64x3_0_1_2_3 (broadcastInDim S64x1x64x1 ![0, 2] bcast_S64x64_S64x1x64x1_0_2 A))
      (broadcastInDim S64x7x64x3 ![0, 1, 2, 3] bcast_S1x7x1x3_S64x7x64x3_0_1_2_3 (broadcastInDim S1x7x1x3 ![1, 3] bcast_S7x3_S1x7x1x3_1_3 H)))
    shapeCasts_S64x7x64x3_S448x192
set_option maxHeartbeats 4000000 in
theorem blk13 (X : Valuation τ sig (Elt Ideal)) :
    after hostOps0_27 (after hostOps0_26 X) (Proc.devRef .tc main_v345)
      = K13 (A13 (X (Proc.devRef .tc main_arg1))) (H13 (X (Proc.devRef .tc main_arg2)) (X (Proc.devRef .tc main_arg3)) (X (Proc.devRef .tc main_arg4))) := by
  simp only [hostOps0_26, hostOps0_27]
  after_results_simp
  rfl
theorem K13_apply (A : S64x64.Idx → EReal) (H : S7x3.Idx → EReal) (mi o : Fin 64) (a : Fin 7) (b : Fin 3) (i : Fin 448) (j : Fin 192)
    (hi : i.val = mi.val * 7 + a.val) (hj : j.val = o.val * 3 + b.val) :
    K13 A H (ix2 i j) = A (ix2 mi o) * H (ix2 a b) :=
  kron_apply (r := 7) (s := 3) rfl A H _ _ _ _ _ mi o a b i j hi hj
theorem A13_apply (w : S65536.Idx → EReal) (mi o : Fin 64) (q : Fin 65536) (hq : q.val = 28672 + 64 * o.val + mi.val) :
    A13 w (ix2 mi o) = w (ix1 q) :=
  weightT_apply w 28672 _ _ _ mi o q hq
theorem H13_apply (hz : S16.Idx → EReal) (hp hn : S16x3.Idx → EReal) (a : Fin 7) (b : Fin 3) :
    H13 hz hp hn (ix2 a b)
      = chain (entries 3 1 (hz (ix1 (⟨7, by decide⟩ : Fin 16)))
          (fun μ => if h : μ < 3 then hp (ix2 (⟨7, by decide⟩ : Fin 16) (⟨μ, h⟩ : Fin 3)) else 0)
          (fun μ => if h : μ < 3 then hn (ix2 (⟨7, by decide⟩ : Fin 16) (⟨μ, h⟩ : Fin 3)) else 0)) a.val b.val := by
  unfold H13
  rw [set_read scatter_S7x3_S2_S__n_01_01_0 rfl rfl rfl rfl 4#32 0#32 _ _ (by decide) (by decide) (by decide) (by decide)]
  rw [set_read scatter_S7x3_S2_S__n_01_01_0 rfl rfl rfl rfl 2#32 0#32 _ _ (by decide) (by decide) (by decide) (by decide)]
  rw [set_read scatter_S7x3_S2_S__n_01_01_0 rfl rfl rfl rfl 2#32 2#32 _ _ (by decide) (by decide) (by decide) (by decide)]
  rw [set_read scatter_S7x3_S2_S__n_01_01_0 rfl rfl rfl rfl 4#32 2#32 _ _ (by decide) (by decide) (by decide) (by decide)]
  rw [set_read scatter_S7x3_S2_S__n_01_01_0 rfl rfl rfl rfl 3#32 1#32 _ _ (by decide) (by decide) (by decide) (by decide)]
  rw [zeros_apply]
  simp only [hostNegf_apply]
  rw [scalar1_read hz 7 _ _ (by decide)]
  rw [scalar2_read hp 7 0 _ _ (by decide) (by decide)]
  rw [scalar2_read hn 7 0 _ _ (by decide) (by decide)]
  rfl
/-- The block of degrees (3, 1) as its two stretches leave it, read at (mi·7 + a, o·3 + b). -/
theorem entry13 (X : Valuation τ sig (Elt Ideal)) (w : S65536.Idx → EReal) (hz : S16.Idx → EReal) (hp hn : S16x3.Idx → EReal)
    (h1 : X (Proc.devRef .tc main_arg1) = w) (h2 : X (Proc.devRef .tc main_arg2) = hz)
    (h3 : X (Proc.devRef .tc main_arg3) = hp) (h4 : X (Proc.devRef .tc main_arg4) = hn)
    (mi o : Fin 64) (a : Fin 7) (b : Fin 3) (i : Fin 448) (j : Fin 192)
    (hi : i.val = mi.val * 7 + a.val) (hj : j.val = o.val * 3 + b.val)
    (q : Fin 65536) (hq : q.val = 28672 + 64 * o.val + mi.val) :
    (after hostOps0_27 (after hostOps0_26 X) (Proc.devRef .tc main_v345) : S448x192.Idx → EReal) (ix2 i j)
      = w (ix1 q) * chain (entries 3 1 (hz (ix1 (⟨7, by decide⟩ : Fin 16)))
          (fun μ => if h : μ < 3 then hp (ix2 (⟨7, by decide⟩ : Fin 16) (⟨μ, h⟩ : Fin 3)) else 0)
          (fun μ => if h : μ < 3 then hn (ix2 (⟨7, by decide⟩ : Fin 16) (⟨μ, h⟩ : Fin 3)) else 0)) a.val b.val := by
  subst h1 h2 h3 h4
  rw [blk13]
  refine (K13_apply _ _ mi o a b i j hi hj).trans ?_
  rw [A13_apply _ mi o q hq, H13_apply]

/-- Degrees (li, lo) = (3, 2), path 11: the transposed weight matrix, the coefficient matrix and their Kronecker product. -/
def A14 (w : S65536.Idx → EReal) : S64x64.Idx → EReal :=
  transpose S64x64 [1, 0] (shapeCast S64x64 (extractStridedSlice S4096 ![45056] w slices_S65536_S4096_45056) shapeCasts_S4096_S64x64) transposes_S64x64_S64x64_1_0
def H14 (hz : S16.Idx → EReal) (hp hn : S16x3.Idx → EReal) : S7x5.Idx → EReal :=
  (Host.scatter scatter_S7x5_S2_S__n_01_01_0 (fun _ b => b)
      (Host.scatter scatter_S7x5_S2_S__n_01_01_0 (fun _ b => b)
      (Host.scatter scatter_S7x5_S2_S__n_01_01_0 (fun _ b => b)
      (Host.scatter scatter_S7x5_S2_S__n_01_01_0 (fun _ b => b)
      (Host.scatter scatter_S7x5_S2_S__n_01_01_0 (fun _ b => b)
      (Host.scatter scatter_S7x5_S2_S__n_01_01_0 (fun _ b => b)
      (Host.scatter scatter_S7x5_S2_S__n_01_01_0 (fun _ b => b)
      (Host.scatter scatter_S7x5_S2_S__n_01_01_0 (fun _ b => b)
      (Host.scatter scatter_S7x5_S2_S__n_01_01_0 (fun _ b => b)
      (broadcastInDim S7x5 ![] bcast_S_S7x5 (constant (F := Ideal) S_ .f32 0x00000000#32))
      (concatenate S2 0 [⟨S1, broadcastInDim S1 ![] bcast_S_S1 (constantI S_ 32 3#32)⟩, ⟨S1, broadcastInDim S1 ![] bcast_S_S1 (constantI S_ 32 2#32)⟩] concatenates_S1_S1_S2_d0)
      (shapeCast S_ (extractStridedSlice S1 ![11] hz slices_S16_S1_11) shapeCasts_S1_S_))
      (concatenate S2 0 [⟨S1, broadcastInDim S1 ![] bcast_S_S1 (constantI S_ 32 4#32)⟩, ⟨S1, broadcastInDim S1 ![] bcast_S_S1 (constantI S_ 32 3#32)⟩] concatenates_S1_S1_S2_d0)
      (shapeCast S_ (extractStridedSlice S1x1 ![11, 0] hp slices_S16x3_S1x1_11_0) shapeCasts_S1x1_S_))
      (concatenate S2 0 [⟨S1, broadcastInDim S1 ![] bcast_S_S1 (constantI S_ 32 2#32)⟩, ⟨S1, broadcastInDim S1 ![] bcast_S_S1 (constantI S_ 32 3#32)⟩] concatenates_S1_S1_S2_d0)
      (shapeCast S_ (extractStridedSlice S1x1 ![11, 0] hn slices_S16x3_S1x1_11_0) shapeCasts_S1x1_S_))
      (concatenate S2 0 [⟨S1, broadcastInDim S1 ![] bcast_S_S1 (constantI S_ 32 2#32)⟩, ⟨S1, broadcastInDim S1 ![] bcast_S_S1 (constantI S_ 32 1#32)⟩] concatenates_S1_S1_S2_d0)
      (shapeCast S_ (extractStridedSlice S1x1 ![11, 0] hp slices_S16x3_S1x1_11_0) shapeCasts_S1x1_S_))
      (concatenate S2 0 [⟨S1, broadcastInDim S1 ![] bcast_S_S1 (constantI S_ 32 4#32)⟩, ⟨S1, broadcastInDim S1 ![] bcast_S_S1 (constantI S_ 32 1#32)⟩] concatenates_S1_S1_S2_d0)
      (Host.negf (F := Ideal) (φ := .f32) (shapeCast S_ (extractStridedSlice S1x1 ![11, 0] hn slices_S16x3_S1x1_11_0) shapeCasts_S1x1_S_)))
      (concatenate S2 0 [⟨S1, broadcastInDim S1 ![] bcast_S_S1 (constantI S_ 32 5#32)⟩, ⟨S1, broadcastInDim S1 ![] bcast_S_S1 (constantI S_ 32 4#32)⟩] concatenates_S1_S1_S2_d0)
      (shapeCast S_ (extractStridedSlice S1x1 ![11, 1] hp slices_S16x3_S1x1_11_1) shapeCasts_S1x1_S_))
      (concatenate S2 0 [⟨S1, broadcastInDim S1 ![] bcast_S_S1 (constantI S_ 32 1#32)⟩, ⟨S1, broadcastInDim S1 ![] bcast_S_S1 (constantI S_ 32 4#32)⟩] concatenates_S1_S1_S2_d0)
      (shapeCast S_ (extractStridedSlice S1x1 ![11, 1] hn slices_S16x3_S1x1_11_1) shapeCasts_S1x1_S_))
      (concatenate S2 0 [⟨S1, broadcastInDim S1 ![] bcast_S_S1 (constantI S_ 32 1#32)⟩, ⟨S1, broadcastInDim S1 ![] bcast_S_S1 (constantI S_ 32 0#32)⟩] concatenates_S1_S1_S2_d0)
      (shapeCast S_ (extractStridedSlice S1x1 ![11, 1] hp slices_S16x3_S1x1_11_1) shapeCasts_S1x1_S_))
      (concatenate S2 0 [⟨S1, broadcastInDim S1 ![] bcast_S_S1 (constantI S_ 32 5#32)⟩, ⟨S1, broadcastInDim S1 ![] bcast_S_S1 (constantI S_ 32 0#32)⟩] concatenates_S1_S1_S2_d0)
      (Host.negf (F := Ideal) (φ := .f32) (shapeCast S_ (extractStridedSlice S1x1 ![11, 1] hn slices_S16x3_S1x1_11_1) shapeCasts_S1x1_S_)))
def K14 (A : S64x64.Idx → EReal) (H : S7x5.Idx → EReal) : S448x320.Idx → EReal :=
  shapeCast S448x320 (mulf (F := Ideal) (φ := .f32)
      (broadcastInDim S64x7x64x5 ![0, 1, 2, 3] bcast_S64x1x64x1_S64x7x64x5_0_1_2_3 (broadcastInDim S64x1x64x1 ![0, 2] bcast_S64x64_S64x1x64x1_0_2 A))
      (broadcastInDim S64x7x64x5 ![0, 1, 2, 3] bcast_S1x7x1x5_S64x7x64x5_0_1_2_3 (broadcastInDim S1x7x1x5 ![1, 3] bcast_S7x5_S1x7x1x5_1_3 H)))
    shapeCasts_S64x7x64x5_S448x320
set_option maxHeartbeats 4000000 in
theorem blk14 (X : Valuation τ sig (Elt Ideal)) :
    after hostOps0_29 (after hostOps0_28 X) (Proc.devRef .tc main_v398)
      = K14 (A14 (X (Proc.devRef .tc main_arg1))) (H14 (X (Proc.devRef .tc main_arg2)) (X (Proc.devRef .tc main_arg3)) (X (Proc.devRef .tc main_arg4))) := by
  simp only [hostOps0_28, hostOps0_29]
  after_results_simp
  rfl
theorem K14_apply (A : S64x64.Idx → EReal) (H : S7x5.Idx → EReal) (mi o : Fin 64) (a : Fin 7) (b : Fin 5) (i : Fin 448) (j : Fin 320)
    (hi : i.val = mi.val * 7 + a.val) (hj : j.val = o.val * 5 + b.val) :
    K14 A H (ix2 i j) = A (ix2 mi o) * H (ix2 a b) :=
  kron_apply (r := 7) (s := 5) rfl A H _ _ _ _ _ mi o a b i j hi hj
theorem A14_apply (w : S65536.Idx → EReal) (mi o : Fin 64) (q : Fin 65536) (hq : q.val = 45056 + 64 * o.val + mi.val) :
    A14 w (ix2 mi o) = w (ix1 q) :=
  weightT_apply w 45056 _ _ _ mi o q hq
theorem H14_apply (hz : S16.Idx → EReal) (hp hn : S16x3.Idx → EReal) (a : Fin 7) (b : Fin 5) :
    H14 hz hp hn (ix2 a b)
      = chain (entries 3 2 (hz (ix1 (⟨11, by decide⟩ : Fin 16)))
          (fun μ => if h : μ < 3 then hp (ix2 (⟨11, by decide⟩ : Fin 16) (⟨μ, h⟩ : Fin 3)) else 0)
          (fun μ => if h : μ < 3 then hn (ix2 (⟨11, by decide⟩ : Fin 16) (⟨μ, h⟩ : Fin 3)) else 0)) a.val b.val := by
  unfold H14
  rw [set_read scatter_S7x5_S2_S__n_01_01_0 rfl rfl rfl rfl 5#32 0#32 _ _ (by decide) (by decide) (by decide) (by decide)]
  rw [set_read scatter_S7x5_S2_S__n_01_01_0 rfl rfl rfl rfl 1#32 0#32 _ _ (by decide) (by decide) (by decide) (by decide)]
  rw [set_read scatter_S7x5_S2_S__n_01_01_0 rfl rfl rfl rfl 1#32 4#32 _ _ (by decide) (by decide) (by decide) (by decide)]
  rw [set_read scatter_S7x5_S2_S__n_01_01_0 rfl rfl rfl rfl 5#32 4#32 _ _ (by decide) (by decide) (by decide) (by decide)]
  rw [set_read scatter_S7x5_S2_S__n_01_01_0 rfl rfl rfl rfl 4#32 1#32 _ _ (by decide) (by decide) (by decide) (by decide)]
  rw [set_read scatter_S7x5_S2_S__n_01_01_0 rfl rfl rfl rfl 2#32 1#32 _ _ (by decide) (by decide) (by decide) (by decide)]
  rw [set_read scatter_S7x5_S2_S__n_01_01_0 rfl rfl rfl rfl 2#32 3#32 _ _ (by decide) (by decide) (by decide) (by decide)]
  rw [set_read scatter_S7x5_S2_S__n_01_01_0 rfl rfl rfl rfl 4#32 3#32 _ _ (by decide) (by decide) (by decide) (by decide)]
  rw [set_read scatter_S7x5_S2_S__n_01_01_0 rfl rfl rfl rfl 3#32 2#32 _ _ (by decide) (by decide) (by decide) (by decide)]
  rw [zeros_apply]
  simp only [hostNegf_apply]
  rw [scalar1_read hz 11 _ _ (by decide)]
  rw [scalar2_read hp 11 0 _ _ (by decide) (by decide)]
  rw [scalar2_read hn 11 0 _ _ (by decide) (by decide)]
  rw [scalar2_read hp 11 1 _ _ (by decide) (by decide)]
  rw [scalar2_read hn 11 1 _ _ (by decide) (by decide)]
  rfl
/-- The block of degrees (3, 2) as its two stretches leave it, read at (mi·7 + a, o·5 + b). -/
theorem entry14 (X : Valuation τ sig (Elt Ideal)) (w : S65536.Idx → EReal) (hz : S16.Idx → EReal) (hp hn : S16x3.Idx → EReal)
    (h1 : X (Proc.devRef .tc main_arg1) = w) (h2 : X (Proc.devRef .tc main_arg2) = hz)
    (h3 : X (Proc.devRef .tc main_arg3) = hp) (h4 : X (Proc.devRef .tc main_arg4) = hn)
    (mi o : Fin 64) (a : Fin 7) (b : Fin 5) (i : Fin 448) (j : Fin 320)
    (hi : i.val = mi.val * 7 + a.val) (hj : j.val = o.val * 5 + b.val)
    (q : Fin 65536) (hq : q.val = 45056 + 64 * o.val + mi.val) :
    (after hostOps0_29 (after hostOps0_28 X) (Proc.devRef .tc main_v398) : S448x320.Idx → EReal) (ix2 i j)
      = w (ix1 q) * chain (entries 3 2 (hz (ix1 (⟨11, by decide⟩ : Fin 16)))
          (fun μ => if h : μ < 3 then hp (ix2 (⟨11, by decide⟩ : Fin 16) (⟨μ, h⟩ : Fin 3)) else 0)
          (fun μ => if h : μ < 3 then hn (ix2 (⟨11, by decide⟩ : Fin 16) (⟨μ, h⟩ : Fin 3)) else 0)) a.val b.val := by
  subst h1 h2 h3 h4
  rw [blk14]
  refine (K14_apply _ _ mi o a b i j hi hj).trans ?_
  rw [A14_apply _ mi o q hq, H14_apply]

/-- Degrees (li, lo) = (3, 3), path 15: the transposed weight matrix, the coefficient matrix and their Kronecker product. -/
def A15 (w : S65536.Idx → EReal) : S64x64.Idx → EReal :=
  transpose S64x64 [1, 0] (shapeCast S64x64 (extractStridedSlice S4096 ![61440] w slices_S65536_S4096_61440) shapeCasts_S4096_S64x64) transposes_S64x64_S64x64_1_0
def H15 (hz : S16.Idx → EReal) (hp hn : S16x3.Idx → EReal) : S7x7.Idx → EReal :=
  (Host.scatter scatter_S7x7_S2_S__n_01_01_0 (fun _ b => b)
      (Host.scatter scatter_S7x7_S2_S__n_01_01_0 (fun _ b => b)
      (Host.scatter scatter_S7x7_S2_S__n_01_01_0 (fun _ b => b)
      (Host.scatter scatter_S7x7_S2_S__n_01_01_0 (fun _ b => b)
      (Host.scatter scatter_S7x7_S2_S__n_01_01_0 (fun _ b => b)
      (Host.scatter scatter_S7x7_S2_S__n_01_01_0 (fun _ b => b)
      (Host.scatter scatter_S7x7_S2_S__n_01_01_0 (fun _ b => b)
      (Host.scatter scatter_S7x7_S2_S__n_01_01_0 (fun _ b => b)
      (Host.scatter scatter_S7x7_S2_S__n_01_01_0 (fun _ b => b)
      (Host.scatter scatter_S7x7_S2_S__n_01_01_0 (fun _ b => b)
      (Host.scatter scatter_S7x7_S2_S__n_01_01_0 (fun _ b => b)
      (Host.scatter scatter_S7x7_S2_S__n_01_01_0 (fun _ b => b)
      (Host.scatter scatter_S7x7_S2_S__n_01_01_0 (fun _ b => b)
      (broadcastInDim S7x7 ![] bcast_S_S7x7 (constant (F := Ideal) S_ .f32 0x00000000#32))
      (concatenate S2 0 [⟨S1, broadcastInDim S1 ![] bcast_S_S1 (constantI S_ 32 3#32)⟩, ⟨S1, broadcastInDim S1 ![] bcast_S_S1 (constantI S_ 32 3#32)⟩] concatenates_S1_S1_S2_d0)
      (shapeCast S_ (extractStridedSlice S1 ![15] hz slices_S16_S1_15) shapeCasts_S1_S_))
      (concatenate S2 0 [⟨S1, broadcastInDim S1 ![] bcast_S_S1 (constantI S_ 32 4#32)⟩, ⟨S1, broadcastInDim S1 ![] bcast_S_S1 (constantI S_ 32 4#32)⟩] concatenates_S1_S1_S2_d0)
      (shapeCast S_ (extractStridedSlice S1x1 ![15, 0] hp slices_S16x3_S1x1_15_0) shapeCasts_S1x1_S_))
      (concatenate S2 0 [⟨S1, broadcastInDim S1 ![] bcast_S_S1 (constantI S_ 32 2#32)⟩, ⟨S1, broadcastInDim S1 ![] bcast_S_S1 (constantI S_ 32 4#32)⟩] concatenates_S1_S1_S2_d0)
      (shapeCast S_ (extractStridedSlice S1x1 ![15, 0] hn slices_S16x3_S1x1_15_0) shapeCasts_S1x1_S_))
      (concatenate S2 0 [⟨S1, broadcastInDim S1 ![] bcast_S_S1 (constantI S_ 32 2#32)⟩, ⟨S1, broadcastInDim S1 ![] bcast_S_S1 (constantI S_ 32 2#32)⟩] concatenates_S1_S1_S2_d0)
      (shapeCast S_ (extractStridedSlice S1x1 ![15, 0] hp slices_S16x3_S1x1_15_0) shapeCasts_S1x1_S_))
      (concatenate S2 0 [⟨S1, broadcastInDim S1 ![] bcast_S_S1 (constantI S_ 32 4#32)⟩, ⟨S1, broadcastInDim S1 ![] bcast_S_S1 (constantI S_ 32 2#32)⟩] concatenates_S1_S1_S2_d0)
      (Host.negf (F := Ideal) (φ := .f32) (shapeCast S_ (extractStridedSlice S1x1 ![15, 0] hn slices_S16x3_S1x1_15_0) shapeCasts_S1x1_S_)))
      (concatenate S2 0 [⟨S1, broadcastInDim S1 ![] bcast_S_S1 (constantI S_ 32 5#32)⟩, ⟨S1, broadcastInDim S1 ![] bcast_S_S1 (constantI S_ 32 5#32)⟩] concatenates_S1_S1_S2_d0)
      (shapeCast S_ (extractStridedSlice S1x1 ![15, 1] hp slices_S16x3_S1x1_15_1) shapeCasts_S1x1_S_))
      (concatenate S2 0 [⟨S1, broadcastInDim S1 ![] bcast_S_S1 (constantI S_ 32 1#32)⟩, ⟨S1, broadcastInDim S1 ![] bcast_S_S1 (constantI S_ 32 5#32)⟩] concatenates_S1_S1_S2_d0)
      (shapeCast S_ (extractStridedSlice S1x1 ![15, 1] hn slices_S16x3_S1x1_15_1) shapeCasts_S1x1_S_))
      (concatenate S2 0 [⟨S1, broadcastInDim S1 ![] bcast_S_S1 (constantI S_ 32 1#32)⟩, ⟨S1, broadcastInDim S1 ![] bcast_S_S1 (constantI S_ 32 1#32)⟩] concatenates_S1_S1_S2_d0)
      (shapeCast S_ (extractStridedSlice S1x1 ![15, 1] hp slices_S16x3_S1x1_15_1) shapeCasts_S1x1_S_))
      (concatenate S2 0 [⟨S1, broadcastInDim S1 ![] bcast_S_S1 (constantI S_ 32 5#32)⟩, ⟨S1, broadcastInDim S1 ![] bcast_S_S1 (constantI S_ 32 1#32)⟩] concatenates_S1_S1_S2_d0)
      (Host.negf (F := Ideal) (φ := .f32) (shapeCast S_ (extractStridedSlice S1x1 ![15, 1] hn slices_S16x3_S1x1_15_1) shapeCasts_S1x1_S_)))
      (concatenate S2 0 [⟨S1, broadcastInDim S1 ![] bcast_S_S1 (constantI S_ 32 6#32)⟩, ⟨S1, broadcastInDim S1 ![] bcast_S_S1 (constantI S_ 32 6#32)⟩] concatenates_S1_S1_S2_d0)
      (shapeCast S_ (extractStridedSlice S1x1 ![15, 2] hp slices_S16x3_S1x1_15_2) shapeCasts_S1x1_S_))
      (concatenate S2 0 [⟨S1, broadcastInDim S1 ![] bcast_S_S1 (constantI S_ 32 0#32)⟩, ⟨S1, broadcastInDim S1 ![] bcast_S_S1 (constantI S_ 32 6#32)⟩] concatenates_S1_S1_S2_d0)
      (shapeCast S_ (extractStridedSlice S1x1 ![15, 2] hn slices_S16x3_S1x1_15_2) shapeCasts_S1x1_S_))
      (concatenate S2 0 [⟨S1, broadcastInDim S1 ![] bcast_S_S1 (constantI S_ 32 0#32)⟩, ⟨S1, broadcastInDim S1 ![] bcast_S_S1 (constantI S_ 32 0#32)⟩] concatenates_S1_S1_S2_d0)
      (shapeCast S_ (extractStridedSlice S1x1 ![15, 2] hp slices_S16x3_S1x1_15_2) shapeCasts_S1x1_S_))
      (concatenate S2 0 [⟨S1, broadcastInDim S1 ![] bcast_S_S1 (constantI S_ 32 6#32)⟩, ⟨S1, broadcastInDim S1 ![] bcast_S_S1 (constantI S_ 32 0#32)⟩] concatenates_S1_S1_S2_d0)
      (Host.negf (F := Ideal) (φ := .f32) (shapeCast S_ (extractStridedSlice S1x1 ![15, 2] hn slices_S16x3_S1x1_15_2) shapeCasts_S1x1_S_)))
def K15 (A : S64x64.Idx → EReal) (H : S7x7.Idx → EReal) : S448x448.Idx → EReal :=
  shapeCast S448x448 (mulf (F := Ideal) (φ := .f32)
      (broadcastInDim S64x7x64x7 ![0, 1, 2, 3] bcast_S64x1x64x1_S64x7x64x7_0_1_2_3 (broadcastInDim S64x1x64x1 ![0, 2] bcast_S64x64_S64x1x64x1_0_2 A))
      (broadcastInDim S64x7x64x7 ![0, 1, 2, 3] bcast_S1x7x1x7_S64x7x64x7_0_1_2_3 (broadcastInDim S1x7x1x7 ![1, 3] bcast_S7x7_S1x7x1x7_1_3 H)))
    shapeCasts_S64x7x64x7_S448x448
set_option maxHeartbeats 4000000 in
theorem blk15 (X : Valuation τ sig (Elt Ideal)) :
    after hostOps0_31 (after hostOps0_30 X) (Proc.devRef .tc main_v472)
      = K15 (A15 (X (Proc.devRef .tc main_arg1))) (H15 (X (Proc.devRef .tc main_arg2)) (X (Proc.devRef .tc main_arg3)) (X (Proc.devRef .tc main_arg4))) := by
  simp only [hostOps0_30, hostOps0_31]
  after_results_simp
  rfl
theorem K15_apply (A : S64x64.Idx → EReal) (H : S7x7.Idx → EReal) (mi o : Fin 64) (a : Fin 7) (b : Fin 7) (i : Fin 448) (j : Fin 448)
    (hi : i.val = mi.val * 7 + a.val) (hj : j.val = o.val * 7 + b.val) :
    K15 A H (ix2 i j) = A (ix2 mi o) * H (ix2 a b) :=
  kron_apply (r := 7) (s := 7) rfl A H _ _ _ _ _ mi o a b i j hi hj
theorem A15_apply (w : S65536.Idx → EReal) (mi o : Fin 64) (q : Fin 65536) (hq : q.val = 61440 + 64 * o.val + mi.val) :
    A15 w (ix2 mi o) = w (ix1 q) :=
  weightT_apply w 61440 _ _ _ mi o q hq
theorem H15_apply (hz : S16.Idx → EReal) (hp hn : S16x3.Idx → EReal) (a : Fin 7) (b : Fin 7) :
    H15 hz hp hn (ix2 a b)
      = chain (entries 3 3 (hz (ix1 (⟨15, by decide⟩ : Fin 16)))
          (fun μ => if h : μ < 3 then hp (ix2 (⟨15, by decide⟩ : Fin 16) (⟨μ, h⟩ : Fin 3)) else 0)
          (fun μ => if h : μ < 3 then hn (ix2 (⟨15, by decide⟩ : Fin 16) (⟨μ, h⟩ : Fin 3)) else 0)) a.val b.val := by
  unfold H15
  rw [set_read scatter_S7x7_S2_S__n_01_01_0 rfl rfl rfl rfl 6#32 0#32 _ _ (by decide) (by decide) (by decide) (by decide)]
  rw [set_read scatter_S7x7_S2_S__n_01_01_0 rfl rfl rfl rfl 0#32 0#32 _ _ (by decide) (by decide) (by decide) (by decide)]
  rw [set_read scatter_S7x7_S2_S__n_01_01_0 rfl rfl rfl rfl 0#32 6#32 _ _ (by decide) (by decide) (by decide) (by decide)]
  rw [set_read scatter_S7x7_S2_S__n_01_01_0 rfl rfl rfl rfl 6#32 6#32 _ _ (by decide) (by decide) (by decide) (by decide)]
  rw [set_read scatter_S7x7_S2_S__n_01_01_0 rfl rfl rfl rfl 5#32 1#32 _ _ (by decide) (by decide) (by decide) (by decide)]
  rw [set_read scatter_S7x7_S2_S__n_01_01_0 rfl rfl rfl rfl 1#32 1#32 _ _ (by decide) (by decide) (by decide) (by decide)]
  rw [set_read scatter_S7x7_S2_S__n_01_01_0 rfl rfl rfl rfl 1#32 5#32 _ _ (by decide) (by decide) (by decide) (by decide)]
  rw [set_read scatter_S7x7_S2_S__n_01_01_0 rfl rfl rfl rfl 5#32 5#32 _ _ (by decide) (by decide) (by decide) (by decide)]
  rw [set_read scatter_S7x7_S2_S__n_01_01_0 rfl rfl rfl rfl 4#32 2#32 _ _ (by decide) (by decide) (by decide) (by decide)]
  rw [set_read scatter_S7x7_S2_S__n_01_01_0 rfl rfl rfl rfl 2#32 2#32 _ _ (by decide) (by decide) (by decide) (by decide)]
  rw [set_read scatter_S7x7_S2_S__n_01_01_0 rfl rfl rfl rfl 2#32 4#32 _ _ (by decide) (by decide) (by decide) (by decide)]
  rw [set_read scatter_S7x7_S2_S__n_01_01_0 rfl rfl rfl rfl 4#32 4#32 _ _ (by decide) (by decide) (by decide) (by decide)]
  rw [set_read scatter_S7x7_S2_S__n_01_01_0 rfl rfl rfl rfl 3#32 3#32 _ _ (by decide) (by decide) (by decide) (by decide)]
  rw [zeros_apply]
  simp only [hostNegf_apply]
  rw [scalar1_read hz 15 _ _ (by decide)]
  rw [scalar2_read hp 15 0 _ _ (by decide) (by decide)]
  rw [scalar2_read hn 15 0 _ _ (by decide) (by decide)]
  rw [scalar2_read hp 15 1 _ _ (by decide) (by decide)]
  rw [scalar2_read hn 15 1 _ _ (by decide) (by decide)]
  rw [scalar2_read hp 15 2 _ _ (by decide) (by decide)]
  rw [scalar2_read hn 15 2 _ _ (by decide) (by decide)]
  rfl
/-- The block of degrees (3, 3) as its two stretches leave it, read at (mi·7 + a, o·7 + b). -/
theorem entry15 (X : Valuation τ sig (Elt Ideal)) (w : S65536.Idx → EReal) (hz : S16.Idx → EReal) (hp hn : S16x3.Idx → EReal)
    (h1 : X (Proc.devRef .tc main_arg1) = w) (h2 : X (Proc.devRef .tc main_arg2) = hz)
    (h3 : X (Proc.devRef .tc main_arg3) = hp) (h4 : X (Proc.devRef .tc main_arg4) = hn)
    (mi o : Fin 64) (a : Fin 7) (b : Fin 7) (i : Fin 448) (j : Fin 448)
    (hi : i.val = mi.val * 7 + a.val) (hj : j.val = o.val * 7 + b.val)
    (q : Fin 65536) (hq : q.val = 61440 + 64 * o.val + mi.val) :
    (after hostOps0_31 (after hostOps0_30 X) (Proc.devRef .tc main_v472) : S448x448.Idx → EReal) (ix2 i j)
      = w (ix1 q) * chain (entries 3 3 (hz (ix1 (⟨15, by decide⟩ : Fin 16)))
          (fun μ => if h : μ < 3 then hp (ix2 (⟨15, by decide⟩ : Fin 16) (⟨μ, h⟩ : Fin 3)) else 0)
          (fun μ => if h : μ < 3 then hn (ix2 (⟨15, by decide⟩ : Fin 16) (⟨μ, h⟩ : Fin 3)) else 0)) a.val b.val := by
  subst h1 h2 h3 h4
  rw [blk15]
  refine (K15_apply _ _ mi o a b i j hi hj).trans ?_
  rw [A15_apply _ mi o q hq, H15_apply]

end Cert.KernelIdeal.Hand.Mat

end
-- ==== Proof.LibConcat4.lean ====
import Idealize.ShloMosaic.Lib.Pipeline.Value
import Idealize.ShloMosaic.Lib.ValueIdx

/-!
# A concatenation of four matrices read at an index

Four matrices laid side by side (along the columns) or one below the other (along the rows) make one matrix.
An entry of the result belongs to exactly one operand: the one whose span of columns (of rows) holds the entry's
column (row); inside that operand the entry sits at the same row (column) and at the column (row) less the extents
of the operands before it. Each theorem below reads the result at an index given as "the operands before, plus a
position inside operand number n" and returns operand n's entry there. The extents and the element type are
arbitrary; the position in the result is any `q` with `q = (extents before) + k`, so that a caller can pass its own
spelling of the column or row together with that one equation.
-/

namespace Cert.LibConcat4

open Idealize.ShloMosaic Idealize.ShloMosaic.ValueIdx

variable {α : Type}

/-- The four operands of a concatenation along the columns, each with its shape, as the list the operation takes. -/
abbrev cols4 {r c0 c1 c2 c3 : Nat} (u0 : (⟨2, ![r, c0]⟩ : Shape).Idx → α) (u1 : (⟨2, ![r, c1]⟩ : Shape).Idx → α)
    (u2 : (⟨2, ![r, c2]⟩ : Shape).Idx → α) (u3 : (⟨2, ![r, c3]⟩ : Shape).Idx → α) : List ((s : Shape) × (s.Idx → α)) :=
  [⟨⟨2, ![r, c0]⟩, u0⟩, ⟨⟨2, ![r, c1]⟩, u1⟩, ⟨⟨2, ![r, c2]⟩, u2⟩, ⟨⟨2, ![r, c3]⟩, u3⟩]

/-- The four operands of a concatenation along the rows, each with its shape, as the list the operation takes. -/
abbrev rows4 {c r0 r1 r2 r3 : Nat} (u0 : (⟨2, ![r0, c]⟩ : Shape).Idx → α) (u1 : (⟨2, ![r1, c]⟩ : Shape).Idx → α)
    (u2 : (⟨2, ![r2, c]⟩ : Shape).Idx → α) (u3 : (⟨2, ![r3, c]⟩ : Shape).Idx → α) : List ((s : Shape) × (s.Idx → α)) :=
  [⟨⟨2, ![r0, c]⟩, u0⟩, ⟨⟨2, ![r1, c]⟩, u1⟩, ⟨⟨2, ![r2, c]⟩, u2⟩, ⟨⟨2, ![r3, c]⟩, u3⟩]

section Cols

variable {r c c0 c1 c2 c3 : Nat}
  (u0 : (⟨2, ![r, c0]⟩ : Shape).Idx → α) (u1 : (⟨2, ![r, c1]⟩ : Shape).Idx → α)
  (u2 : (⟨2, ![r, c2]⟩ : Shape).Idx → α) (u3 : (⟨2, ![r, c3]⟩ : Shape).Idx → α)
  (h : Shape.Concatenates ((cols4 u0 u1 u2 u3).map (·.1)) ⟨2, ![r, c]⟩ 1)

/-- Side by side: the result at row `p` and column `q = k` is operand 0's entry at row `p`, column `k`. -/
theorem cols_apply0 (p : Fin r) (k : Fin c0) (q : Fin c) (hq : q.val = k.val) :
    concatenate ⟨2, ![r, c]⟩ 1 (cols4 u0 u1 u2 u3) h (ix2 p q) = u0 (ix2 p k) := by
  refine concatenate_apply_piece (1 : Fin 2) (cols4 u0 u1 u2 u3) h (ix2 p q) 0 (by simp) _ u0 rfl rfl _ rfl
    (ix2 p k) ?_ ?_
  · intro b hb
    match b with
    | ⟨0, _⟩ => rfl
    | ⟨1, _⟩ => exact absurd rfl hb
  · show 0 + k.val = q.val
    omega

/-- Side by side: the result at row `p` and column `q = c0 + k` is operand 1's entry at row `p`, column `k`. -/
theorem cols_apply1 (p : Fin r) (k : Fin c1) (q : Fin c) (hq : q.val = c0 + k.val) :
    concatenate ⟨2, ![r, c]⟩ 1 (cols4 u0 u1 u2 u3) h (ix2 p q) = u1 (ix2 p k) := by
  refine concatenate_apply_piece (1 : Fin 2) (cols4 u0 u1 u2 u3) h (ix2 p q) 1 (by simp) _ u1 rfl rfl _ rfl
    (ix2 p k) ?_ ?_
  · intro b hb
    match b with
    | ⟨0, _⟩ => rfl
    | ⟨1, _⟩ => exact absurd rfl hb
  · show c0 + 0 + k.val = q.val
    omega

/-- Side by side: the result at row `p` and column `q = c0 + c1 + k` is operand 2's entry at row `p`, column `k`. -/
theorem cols_apply2 (p : Fin r) (k : Fin c2) (q : Fin c) (hq : q.val = c0 + c1 + k.val) :
    concatenate ⟨2, ![r, c]⟩ 1 (cols4 u0 u1 u2 u3) h (ix2 p q) = u2 (ix2 p k) := by
  refine concatenate_apply_piece (1 : Fin 2) (cols4 u0 u1 u2 u3) h (ix2 p q) 2 (by simp) _ u2 rfl rfl _ rfl
    (ix2 p k) ?_ ?_
  · intro b hb
    match b with
    | ⟨0, _⟩ => rfl
    | ⟨1, _⟩ => exact absurd rfl hb
  · show c0 + (c1 + 0) + k.val = q.val
    omega

/-- Side by side: the result at row `p` and column `q = c0 + c1 + c2 + k` is operand 3's entry at row `p`, column `k`. -/
theorem cols_apply3 (p : Fin r) (k : Fin c3) (q : Fin c) (hq : q.val = c0 + c1 + c2 + k.val) :
    concatenate ⟨2, ![r, c]⟩ 1 (cols4 u0 u1 u2 u3) h (ix2 p q) = u3 (ix2 p k) := by
  refine concatenate_apply_piece (1 : Fin 2) (cols4 u0 u1 u2 u3) h (ix2 p q) 3 (by simp) _ u3 rfl rfl _ rfl
    (ix2 p k) ?_ ?_
  · intro b hb
    match b with
    | ⟨0, _⟩ => rfl
    | ⟨1, _⟩ => exact absurd rfl hb
  · show c0 + (c1 + (c2 + 0)) + k.val = q.val
    omega

end Cols

section Rows

variable {c r r0 r1 r2 r3 : Nat}
  (u0 : (⟨2, ![r0, c]⟩ : Shape).Idx → α) (u1 : (⟨2, ![r1, c]⟩ : Shape).Idx → α)
  (u2 : (⟨2, ![r2, c]⟩ : Shape).Idx → α) (u3 : (⟨2, ![r3, c]⟩ : Shape).Idx → α)
  (h : Shape.Concatenates ((rows4 u0 u1 u2 u3).map (·.1)) ⟨2, ![r, c]⟩ 0)

/-- One below the other: the result at row `p = k` and column `q` is operand 0's entry at row `k`, column `q`. -/
theorem rows_apply0 (k : Fin r0) (q : Fin c) (p : Fin r) (hp : p.val = k.val) :
    concatenate ⟨2, ![r, c]⟩ 0 (rows4 u0 u1 u2 u3) h (ix2 p q) = u0 (ix2 k q) := by
  refine concatenate_apply_piece (0 : Fin 2) (rows4 u0 u1 u2 u3) h (ix2 p q) 0 (by simp) _ u0 rfl rfl _ rfl
    (ix2 k q) ?_ ?_
  · intro b hb
    match b with
    | ⟨0, _⟩ => exact absurd rfl hb
    | ⟨1, _⟩ => rfl
  · show 0 + k.val = p.val
    omega

/-- One below the other: the result at row `p = r0 + k` and column `q` is operand 1's entry at row `k`, column `q`. -/
theorem rows_apply1 (k : Fin r1) (q : Fin c) (p : Fin r) (hp : p.val = r0 + k.val) :
    concatenate ⟨2, ![r, c]⟩ 0 (rows4 u0 u1 u2 u3) h (ix2 p q) = u1 (ix2 k q) := by
  refine concatenate_apply_piece (0 : Fin 2) (rows4 u0 u1 u2 u3) h (ix2 p q) 1 (by simp) _ u1 rfl rfl _ rfl
    (ix2 k q) ?_ ?_
  · intro b hb
    match b with
    | ⟨0, _⟩ => exact absurd rfl hb
    | ⟨1, _⟩ => rfl
  · show r0 + 0 + k.val = p.val
    omega

/-- One below the other: the result at row `p = r0 + r1 + k` and column `q` is operand 2's entry at row `k`, column `q`. -/
theorem rows_apply2 (k : Fin r2) (q : Fin c) (p : Fin r) (hp : p.val = r0 + r1 + k.val) :
    concatenate ⟨2, ![r, c]⟩ 0 (rows4 u0 u1 u2 u3) h (ix2 p q) = u2 (ix2 k q) := by
  refine concatenate_apply_piece (0 : Fin 2) (rows4 u0 u1 u2 u3) h (ix2 p q) 2 (by simp) _ u2 rfl rfl _ rfl
    (ix2 k q) ?_ ?_
  · intro b hb
    match b with
    | ⟨0, _⟩ => exact absurd rfl hb
    | ⟨1, _⟩ => rfl
  · show r0 + (r1 + 0) + k.val = p.val
    omega

/-- One below the other: the result at row `p = r0 + r1 + r2 + k` and column `q` is operand 3's entry at row `k`, column `q`. -/
theorem rows_apply3 (k : Fin r3) (q : Fin c) (p : Fin r) (hp : p.val = r0 + r1 + r2 + k.val) :
    concatenate ⟨2, ![r, c]⟩ 0 (rows4 u0 u1 u2 u3) h (ix2 p q) = u3 (ix2 k q) := by
  refine concatenate_apply_piece (0 : Fin 2) (rows4 u0 u1 u2 u3) h (ix2 p q) 3 (by simp) _ u3 rfl rfl _ rfl
    (ix2 k q) ?_ ?_
  · intro b hb
    match b with
    | ⟨0, _⟩ => exact absurd rfl hb
    | ⟨1, _⟩ => rfl
  · show r0 + (r1 + (r2 + 0)) + k.val = p.val
    omega

end Rows

end Cert.LibConcat4
-- ==== Proof.MixChain.lean ====
import Mathlib.Tactic.IntervalCases
import proofs.«118270_j50440095924880_1_alg».proof.Proof.Spec
import proofs.«118270_j50440095924880_1_alg».proof.Proof.KMatChain

/-!
# The coefficient matrix written entry by entry is the mixing coefficient

The coefficient matrix of a pair of degrees (li for the rows, lo for the columns) starts as zeros; the middle entry
(li, lo) and, for each distance d = 1 … min(lo, li), the four corners (li ± d, lo ± d) are then written. The corners
of different distances are different positions, and a position (a, b) of the matrix is a corner of distance d exactly
when a and b are both at distance d from their middles; so reading the matrix after the writes gives: zero off the
two diagonals through the middle, the middle value at the middle, and at distance d the value written at that
corner. That is the coefficient with which component a of degree li feeds component b of degree lo. The degrees are
below 4, so the finitely many positions are checked one by one.
-/

noncomputable section

namespace Cert.KMat

open Cert.Mix Idealize.ShloMosaic.ValueIdx

/-- The matrix after the writes, for row degree 0: every position of the (2·0+1) × (2·lo+1) matrix, for each of the
    four column degrees, is checked against the list of writes (the positions written are pairwise different, and a
    position at equal distances from the two middles is written exactly once). -/
theorem chain_entries_li0 (z : EReal) (P N : ℕ → EReal) (lo a b : ℕ) (hlo : lo < 4)
    (ha : a < 2 * 0 + 1) (hb : b < 2 * lo + 1) :
    chain (entries 0 lo z P N) a b =
      (if ((a : ℤ) - (0 : ℕ)).natAbs ≠ ((b : ℤ) - lo).natAbs then 0
      else if a = (0 : ℕ) then z
      else if ((0 : ℕ) < a ↔ lo < b) then P (((a : ℤ) - (0 : ℕ)).natAbs - 1)
      else if lo < b then N (((a : ℤ) - (0 : ℕ)).natAbs - 1)
      else -(N (((a : ℤ) - (0 : ℕ)).natAbs - 1))) := by
  interval_cases lo <;> interval_cases a <;> interval_cases b <;> simp [chain, entries, List.range_succ]

/-- The matrix after the writes, for row degree 1: every position of the (2·1+1) × (2·lo+1) matrix, for each of the
    four column degrees, is checked against the list of writes (the positions written are pairwise different, and a
    position at equal distances from the two middles is written exactly once). -/
theorem chain_entries_li1 (z : EReal) (P N : ℕ → EReal) (lo a b : ℕ) (hlo : lo < 4)
    (ha : a < 2 * 1 + 1) (hb : b < 2 * lo + 1) :
    chain (entries 1 lo z P N) a b =
      (if ((a : ℤ) - (1 : ℕ)).natAbs ≠ ((b : ℤ) - lo).natAbs then 0
      else if a = (1 : ℕ) then z
      else if ((1 : ℕ) < a ↔ lo < b) then P (((a : ℤ) - (1 : ℕ)).natAbs - 1)
      else if lo < b then N (((a : ℤ) - (1 : ℕ)).natAbs - 1)
      else -(N (((a : ℤ) - (1 : ℕ)).natAbs - 1))) := by
  interval_cases lo <;> interval_cases a <;> interval_cases b <;> simp [chain, entries, List.range_succ]

/-- The matrix after the writes, for row degree 2: every position of the (2·2+1) × (2·lo+1) matrix, for each of the
    four column degrees, is checked against the list of writes (the positions written are pairwise different, and a
    position at equal distances from the two middles is written exactly once). -/
theorem chain_entries_li2 (z : EReal) (P N : ℕ → EReal) (lo a b : ℕ) (hlo : lo < 4)
    (ha : a < 2 * 2 + 1) (hb : b < 2 * lo + 1) :
    chain (entries 2 lo z P N) a b =
      (if ((a : ℤ) - (2 : ℕ)).natAbs ≠ ((b : ℤ) - lo).natAbs then 0
      else if a = (2 : ℕ) then z
      else if ((2 : ℕ) < a ↔ lo < b) then P (((a : ℤ) - (2 : ℕ)).natAbs - 1)
      else if lo < b then N (((a : ℤ) - (2 : ℕ)).natAbs - 1)
      else -(N (((a : ℤ) - (2 : ℕ)).natAbs - 1))) := by
  interval_cases lo <;> interval_cases a <;> interval_cases b <;> simp [chain, entries, List.range_succ]

/-- The matrix after the writes, for row degree 3: every position of the (2·3+1) × (2·lo+1) matrix, for each of the
    four column degrees, is checked against the list of writes (the positions written are pairwise different, and a
    position at equal distances from the two middles is written exactly once). -/
theorem chain_entries_li3 (z : EReal) (P N : ℕ → EReal) (lo a b : ℕ) (hlo : lo < 4)
    (ha : a < 2 * 3 + 1) (hb : b < 2 * lo + 1) :
    chain (entries 3 lo z P N) a b =
      (if ((a : ℤ) - (3 : ℕ)).natAbs ≠ ((b : ℤ) - lo).natAbs then 0
      else if a = (3 : ℕ) then z
      else if ((3 : ℕ) < a ↔ lo < b) then P (((a : ℤ) - (3 : ℕ)).natAbs - 1)
      else if lo < b then N (((a : ℤ) - (3 : ℕ)).natAbs - 1)
      else -(N (((a : ℤ) - (3 : ℕ)).natAbs - 1))) := by
  interval_cases lo <;> interval_cases a <;> interval_cases b <;> simp [chain, entries, List.range_succ]

/-- The matrix of zeros after the writes, read at (a, b), for degrees below 4 and a position inside the
    (2·li+1) × (2·lo+1) matrix: zero unless a and b are equally far from the middles li and lo; at distance 0 the
    middle value; at distance d ≥ 1 the value P (d-1) when a and b lie on the same side of their middles, N (d-1)
    when a lies below and b above, and -(N (d-1)) when a lies above and b below. -/
theorem chain_entries_nat (z : EReal) (P N : ℕ → EReal) (li lo a b : ℕ) (hli : li < 4) (hlo : lo < 4)
    (ha : a < 2 * li + 1) (hb : b < 2 * lo + 1) :
    chain (entries li lo z P N) a b =
      (if ((a : ℤ) - li).natAbs ≠ ((b : ℤ) - lo).natAbs then 0
      else if a = li then z
      else if (li < a ↔ lo < b) then P (((a : ℤ) - li).natAbs - 1)
      else if lo < b then N (((a : ℤ) - li).natAbs - 1)
      else -(N (((a : ℤ) - li).natAbs - 1))) := by
  interval_cases li
  · exact chain_entries_li0 z P N lo a b hlo ha hb
  · exact chain_entries_li1 z P N lo a b hlo ha hb
  · exact chain_entries_li2 z P N lo a b hlo ha hb
  · exact chain_entries_li3 z P N lo a b hlo ha hb

/-- The coefficient matrix of a pair of degrees, built by writing its entries one by one into zeros, is the
    coefficient with which component a of degree li feeds component b of degree lo. -/
theorem chain_entries_eq_mixH (hz : ZArr) (hp hn : PArr) (lo li : Fin 4) (a : Fin (dim li)) (b : Fin (dim lo)) :
    chain (entries li.val lo.val (hz (ix1 (path lo li))) (tab hp (path lo li)) (tab hn (path lo li))) a.val b.val
      = mixH hz hp hn lo li a b := by
  rw [chain_entries_nat _ _ _ li.val lo.val a.val b.val li.isLt lo.isLt a.isLt b.isLt]
  rfl

end Cert.KMat

end
-- ==== Proof.KMatCases.lean ====
import proofs.«118270_j50440095924880_1_alg».proof.Proof.Spec
import proofs.«118270_j50440095924880_1_alg».proof.Proof.KMatApplyLib
import proofs.«118270_j50440095924880_1_alg».proof.Proof.KMatRows
import proofs.«118270_j50440095924880_1_alg».proof.Proof.KMatBlocks0
import proofs.«118270_j50440095924880_1_alg».proof.Proof.KMatBlocks1
import proofs.«118270_j50440095924880_1_alg».proof.Proof.KMatBlocks2
import proofs.«118270_j50440095924880_1_alg».proof.Proof.KMatBlocks3
import proofs.«118270_j50440095924880_1_alg».proof.Proof.LibConcat4
import proofs.«118270_j50440095924880_1_alg».proof.Proof.MixChain

/-!
# The matrix read at an index, degree by degree

The matrix the product reads is the narrowing of the four rows of blocks stacked. Read at row (li, mi, a): it is the
row of blocks of degree li at its local row mi·(2li+1) + a (`rowK_read`). Read further at column (lo, o, b): the block
of the pair of degrees at (mi·(2li+1) + a, o·(2lo+1) + b), which is the weight times the coefficient (`case_li_lo`).
-/

set_option maxRecDepth 16384

noncomputable section

namespace Cert.KernelIdeal.Hand.Mat

open Idealize.ShloMosaic Idealize.ShloMosaic.TcCoe Idealize.ShloMosaic.StableHlo Idealize.ShloMosaic.ValueIdx
open Cert.KernelIdeal Cert.KernelIdeal.Gen Cert.KernelIdeal.Hand Cert.Mix Cert.KMat Cert.LibConcat4

variable (m : (ℓ : Loc nD τ sig) → Buf (Elt Ideal) ℓ) (c : Dev nD)

set_option maxHeartbeats 4000000 in
/-- The matrix at a row of degree 0: the row of blocks of that degree at the local row. -/
theorem row0_read (mi : Fin 64) (a : Fin 1) (J I : Fin 1024) (hI : I.val = (mi.val * 1 + a.val)) :
    (V (F := Ideal) m c main_v475 : MArr) (ix2 I J)
      = (concatenate S64x1024 1 [⟨S64x64, Vn m c 8 (Proc.devRef .tc main_v10)⟩, ⟨S64x192, Vn m c 8 (Proc.devRef .tc main_v21)⟩, ⟨S64x320, Vn m c 8 (Proc.devRef .tc main_v32)⟩, ⟨S64x448, Vn m c 8 (Proc.devRef .tc main_v43)⟩] concatenates_S64x64_S64x192_S64x320_S64x448_S64x1024_d1) (ix2 (⟨mi.val * 1 + a.val, by have := mi.isLt; have := a.isLt; omega⟩ : Fin 64) J) := by
  have h475 := (V_eq_Vn m c main_v475).trans ((congrFun (Vn_step m c 32 33 hostOps0_32 rfl) _).trans (last (Vn m c 32)))
  rw [h475]
  refine (truncf_apply (φ := .f32) (ψ := .bf16) _ bitsLt_bf16_f32 _).trans ?_
  refine (rows_apply0 _ _ _ _ _ (⟨mi.val * 1 + a.val, by have := mi.isLt; have := a.isLt; omega⟩ : Fin 64) J I hI).trans ?_
  have hrow := (Vn_keep m c 9 32 rfl main_v44 (by decide)).trans ((congrFun (Vn_step m c 8 9 hostOps0_8 rfl) _).trans (row0 (Vn m c 8)))
  rw [hrow]

set_option maxHeartbeats 4000000 in
/-- Degrees (li, lo) = (0, 0). -/
theorem case_0_0 (o mi : Fin 64) (a : Fin (dim 0)) (b : Fin (dim 0)) :
    (V (F := Ideal) m c main_v475 : MArr) (ix2 (col 0 mi a) (col 0 o b))
      = matEntry (m ((c : Thread nD τ).loc main_arg1)) (m ((c : Thread nD τ).loc main_arg2))
          (m ((c : Thread nD τ).loc main_arg3)) (m ((c : Thread nD τ).loc main_arg4)) 0 0 o mi a b := by
  have ha : a.val < 1 := a.isLt
  have hb : b.val < 1 := b.isLt
  have hmi := mi.isLt
  have ho := o.isLt
  refine (row0_read m c mi ⟨a.val, ha⟩ (col 0 o b) (col 0 mi a)
    (by show 64 * (0 * 0) + mi.val * (2 * 0 + 1) + a.val = (mi.val * 1 + a.val); omega)).trans ?_
  refine (cols_apply0 _ _ _ _ _ (⟨mi.val * 1 + a.val, by omega⟩ : Fin 64) (⟨o.val * 1 + b.val, by omega⟩ : Fin 64) (col 0 o b)
    (by show 64 * (0 * 0) + o.val * (2 * 0 + 1) + b.val = (o.val * 1 + b.val); omega)).trans ?_
  rw [vn_block m c 0 1 2 8 hostOps0 hostOps0_1 main_v10 rfl rfl rfl (by decide)]
  refine (entry0 (Vn m c 0) _ _ _ _ (vn_arg m c 0 main_arg1 (by decide)) (vn_arg m c 0 main_arg2 (by decide))
    (vn_arg m c 0 main_arg3 (by decide)) (vn_arg m c 0 main_arg4 (by decide)) mi o ⟨a.val, ha⟩ ⟨b.val, hb⟩ _ _ rfl rfl
    (wix 0 0 o mi) (by show 4096 * (4 * 0 + 0) + 64 * o.val + mi.val = 0 + 64 * o.val + mi.val; omega)).trans ?_
  exact congrArg (fun y : EReal => _ * y) (chain_entries_eq_mixH _ _ _ 0 0 a b)

set_option maxHeartbeats 4000000 in
/-- Degrees (li, lo) = (0, 1). -/
theorem case_0_1 (o mi : Fin 64) (a : Fin (dim 0)) (b : Fin (dim 1)) :
    (V (F := Ideal) m c main_v475 : MArr) (ix2 (col 0 mi a) (col 1 o b))
      = matEntry (m ((c : Thread nD τ).loc main_arg1)) (m ((c : Thread nD τ).loc main_arg2))
          (m ((c : Thread nD τ).loc main_arg3)) (m ((c : Thread nD τ).loc main_arg4)) 1 0 o mi a b := by
  have ha : a.val < 1 := a.isLt
  have hb : b.val < 3 := b.isLt
  have hmi := mi.isLt
  have ho := o.isLt
  refine (row0_read m c mi ⟨a.val, ha⟩ (col 1 o b) (col 0 mi a)
    (by show 64 * (0 * 0) + mi.val * (2 * 0 + 1) + a.val = (mi.val * 1 + a.val); omega)).trans ?_
  refine (cols_apply1 _ _ _ _ _ (⟨mi.val * 1 + a.val, by omega⟩ : Fin 64) (⟨o.val * 3 + b.val, by omega⟩ : Fin 192) (col 1 o b)
    (by show 64 * (1 * 1) + o.val * (2 * 1 + 1) + b.val = 64 + (o.val * 3 + b.val); omega)).trans ?_
  rw [vn_block m c 2 3 4 8 hostOps0_2 hostOps0_3 main_v21 rfl rfl rfl (by decide)]
  refine (entry1 (Vn m c 2) _ _ _ _ (vn_arg m c 2 main_arg1 (by decide)) (vn_arg m c 2 main_arg2 (by decide))
    (vn_arg m c 2 main_arg3 (by decide)) (vn_arg m c 2 main_arg4 (by decide)) mi o ⟨a.val, ha⟩ ⟨b.val, hb⟩ _ _ rfl rfl
    (wix 1 0 o mi) (by show 4096 * (4 * 1 + 0) + 64 * o.val + mi.val = 16384 + 64 * o.val + mi.val; omega)).trans ?_
  exact congrArg (fun y : EReal => _ * y) (chain_entries_eq_mixH _ _ _ 1 0 a b)

set_option maxHeartbeats 4000000 in
/-- Degrees (li, lo) = (0, 2). -/
theorem case_0_2 (o mi : Fin 64) (a : Fin (dim 0)) (b : Fin (dim 2)) :
    (V (F := Ideal) m c main_v475 : MArr) (ix2 (col 0 mi a) (col 2 o b))
      = matEntry (m ((c : Thread nD τ).loc main_arg1)) (m ((c : Thread nD τ).loc main_arg2))
          (m ((c : Thread nD τ).loc main_arg3)) (m ((c : Thread nD τ).loc main_arg4)) 2 0 o mi a b := by
  have ha : a.val < 1 := a.isLt
  have hb : b.val < 5 := b.isLt
  have hmi := mi.isLt
  have ho := o.isLt
  refine (row0_read m c mi ⟨a.val, ha⟩ (col 2 o b) (col 0 mi a)
    (by show 64 * (0 * 0) + mi.val * (2 * 0 + 1) + a.val = (mi.val * 1 + a.val); omega)).trans ?_
  refine (cols_apply2 _ _ _ _ _ (⟨mi.val * 1 + a.val, by omega⟩ : Fin 64) (⟨o.val * 5 + b.val, by omega⟩ : Fin 320) (col 2 o b)
    (by show 64 * (2 * 2) + o.val * (2 * 2 + 1) + b.val = 64 + 192 + (o.val * 5 + b.val); omega)).trans ?_
  rw [vn_block m c 4 5 6 8 hostOps0_4 hostOps0_5 main_v32 rfl rfl rfl (by decide)]
  refine (entry2 (Vn m c 4) _ _ _ _ (vn_arg m c 4 main_arg1 (by decide)) (vn_arg m c 4 main_arg2 (by decide))
    (vn_arg m c 4 main_arg3 (by decide)) (vn_arg m c 4 main_arg4 (by decide)) mi o ⟨a.val, ha⟩ ⟨b.val, hb⟩ _ _ rfl rfl
    (wix 2 0 o mi) (by show 4096 * (4 * 2 + 0) + 64 * o.val + mi.val = 32768 + 64 * o.val + mi.val; omega)).trans ?_
  exact congrArg (fun y : EReal => _ * y) (chain_entries_eq_mixH _ _ _ 2 0 a b)

set_option maxHeartbeats 4000000 in
/-- Degrees (li, lo) = (0, 3). -/
theorem case_0_3 (o mi : Fin 64) (a : Fin (dim 0)) (b : Fin (dim 3)) :
    (V (F := Ideal) m c main_v475 : MArr) (ix2 (col 0 mi a) (col 3 o b))
      = matEntry (m ((c : Thread nD τ).loc main_arg1)) (m ((c : Thread nD τ).loc main_arg2))
          (m ((c : Thread nD τ).loc main_arg3)) (m ((c : Thread nD τ).loc main_arg4)) 3 0 o mi a b := by
  have ha : a.val < 1 := a.isLt
  have hb : b.val < 7 := b.isLt
  have hmi := mi.isLt
  have ho := o.isLt
  refine (row0_read m c mi ⟨a.val, ha⟩ (col 3 o b) (col 0 mi a)
    (by show 64 * (0 * 0) + mi.val * (2 * 0 + 1) + a.val = (mi.val * 1 + a.val); omega)).trans ?_
  refine (cols_apply3 _ _ _ _ _ (⟨mi.val * 1 + a.val, by omega⟩ : Fin 64) (⟨o.val * 7 + b.val, by omega⟩ : Fin 448) (col 3 o b)
    (by show 64 * (3 * 3) + o.val * (2 * 3 + 1) + b.val = 64 + 192 + 320 + (o.val * 7 + b.val); omega)).trans ?_
  rw [vn_block m c 6 7 8 8 hostOps0_6 hostOps0_7 main_v43 rfl rfl rfl (by decide)]
  refine (entry3 (Vn m c 6) _ _ _ _ (vn_arg m c 6 main_arg1 (by decide)) (vn_arg m c 6 main_arg2 (by decide))
    (vn_arg m c 6 main_arg3 (by decide)) (vn_arg m c 6 main_arg4 (by decide)) mi o ⟨a.val, ha⟩ ⟨b.val, hb⟩ _ _ rfl rfl
    (wix 3 0 o mi) (by show 4096 * (4 * 3 + 0) + 64 * o.val + mi.val = 49152 + 64 * o.val + mi.val; omega)).trans ?_
  exact congrArg (fun y : EReal => _ * y) (chain_entries_eq_mixH _ _ _ 3 0 a b)

set_option maxHeartbeats 4000000 in
/-- The matrix at a row of degree 1: the row of blocks of that degree at the local row. -/
theorem row1_read (mi : Fin 64) (a : Fin 3) (J I : Fin 1024) (hI : I.val = 64 + (mi.val * 3 + a.val)) :
    (V (F := Ideal) m c main_v475 : MArr) (ix2 I J)
      = (concatenate S192x1024 1 [⟨S192x64, Vn m c 16 (Proc.devRef .tc main_v55)⟩, ⟨S192x192, Vn m c 16 (Proc.devRef .tc main_v87)⟩, ⟨S192x320, Vn m c 16 (Proc.devRef .tc main_v119)⟩, ⟨S192x448, Vn m c 16 (Proc.devRef .tc main_v151)⟩] concatenates_S192x64_S192x192_S192x320_S192x448_S192x1024_d1) (ix2 (⟨mi.val * 3 + a.val, by have := mi.isLt; have := a.isLt; omega⟩ : Fin 192) J) := by
  have h475 := (V_eq_Vn m c main_v475).trans ((congrFun (Vn_step m c 32 33 hostOps0_32 rfl) _).trans (last (Vn m c 32)))
  rw [h475]
  refine (truncf_apply (φ := .f32) (ψ := .bf16) _ bitsLt_bf16_f32 _).trans ?_
  refine (rows_apply1 _ _ _ _ _ (⟨mi.val * 3 + a.val, by have := mi.isLt; have := a.isLt; omega⟩ : Fin 192) J I hI).trans ?_
  have hrow := (Vn_keep m c 17 32 rfl main_v152 (by decide)).trans ((congrFun (Vn_step m c 16 17 hostOps0_16 rfl) _).trans (row1 (Vn m c 16)))
  rw [hrow]

set_option maxHeartbeats 4000000 in
/-- Degrees (li, lo) = (1, 0). -/
theorem case_1_0 (o mi : Fin 64) (a : Fin (dim 1)) (b : Fin (dim 0)) :
    (V (F := Ideal) m c main_v475 : MArr) (ix2 (col 1 mi a) (col 0 o b))
      = matEntry (m ((c : Thread nD τ).loc main_arg1)) (m ((c : Thread nD τ).loc main_arg2))
          (m ((c : Thread nD τ).loc main_arg3)) (m ((c : Thread nD τ).loc main_arg4)) 0 1 o mi a b := by
  have ha : a.val < 3 := a.isLt
  have hb : b.val < 1 := b.isLt
  have hmi := mi.isLt
  have ho := o.isLt
  refine (row1_read m c mi ⟨a.val, ha⟩ (col 0 o b) (col 1 mi a)
    (by show 64 * (1 * 1) + mi.val * (2 * 1 + 1) + a.val = 64 + (mi.val * 3 + a.val); omega)).trans ?_
  refine (cols_apply0 _ _ _ _ _ (⟨mi.val * 3 + a.val, by omega⟩ : Fin 192) (⟨o.val * 1 + b.val, by omega⟩ : Fin 64) (col 0 o b)
    (by show 64 * (0 * 0) + o.val * (2 * 0 + 1) + b.val = (o.val * 1 + b.val); omega)).trans ?_
  rw [vn_block m c 8 9 10 16 hostOps0_8 hostOps0_9 main_v55 rfl rfl rfl (by decide)]
  refine (entry4 (Vn m c 8) _ _ _ _ (vn_arg m c 8 main_arg1 (by decide)) (vn_arg m c 8 main_arg2 (by decide))
    (vn_arg m c 8 main_arg3 (by decide)) (vn_arg m c 8 main_arg4 (by decide)) mi o ⟨a.val, ha⟩ ⟨b.val, hb⟩ _ _ rfl rfl
    (wix 0 1 o mi) (by show 4096 * (4 * 0 + 1) + 64 * o.val + mi.val = 4096 + 64 * o.val + mi.val; omega)).trans ?_
  exact congrArg (fun y : EReal => _ * y) (chain_entries_eq_mixH _ _ _ 0 1 a b)

set_option maxHeartbeats 4000000 in
/-- Degrees (li, lo) = (1, 1). -/
theorem case_1_1 (o mi : Fin 64) (a : Fin (dim 1)) (b : Fin (dim 1)) :
    (V (F := Ideal) m c main_v475 : MArr) (ix2 (col 1 mi a) (col 1 o b))
      = matEntry (m ((c : Thread nD τ).loc main_arg1)) (m ((c : Thread nD τ).loc main_arg2))
          (m ((c : Thread nD τ).loc main_arg3)) (m ((c : Thread nD τ).loc main_arg4)) 1 1 o mi a b := by
  have ha : a.val < 3 := a.isLt
  have hb : b.val < 3 := b.isLt
  have hmi := mi.isLt
  have ho := o.isLt
  refine (row1_read m c mi ⟨a.val, ha⟩ (col 1 o b) (col 1 mi a)
    (by show 64 * (1 * 1) + mi.val * (2 * 1 + 1) + a.val = 64 + (mi.val * 3 + a.val); omega)).trans ?_
  refine (cols_apply1 _ _ _ _ _ (⟨mi.val * 3 + a.val, by omega⟩ : Fin 192) (⟨o.val * 3 + b.val, by omega⟩ : Fin 192) (col 1 o b)
    (by show 64 * (1 * 1) + o.val * (2 * 1 + 1) + b.val = 64 + (o.val * 3 + b.val); omega)).trans ?_
  rw [vn_block m c 10 11 12 16 hostOps0_10 hostOps0_11 main_v87 rfl rfl rfl (by decide)]
  refine (entry5 (Vn m c 10) _ _ _ _ (vn_arg m c 10 main_arg1 (by decide)) (vn_arg m c 10 main_arg2 (by decide))
    (vn_arg m c 10 main_arg3 (by decide)) (vn_arg m c 10 main_arg4 (by decide)) mi o ⟨a.val, ha⟩ ⟨b.val, hb⟩ _ _ rfl rfl
    (wix 1 1 o mi) (by show 4096 * (4 * 1 + 1) + 64 * o.val + mi.val = 20480 + 64 * o.val + mi.val; omega)).trans ?_
  exact congrArg (fun y : EReal => _ * y) (chain_entries_eq_mixH _ _ _ 1 1 a b)

set_option maxHeartbeats 4000000 in
/-- Degrees (li, lo) = (1, 2). -/
theorem case_1_2 (o mi : Fin 64) (a : Fin (dim 1)) (b : Fin (dim 2)) :
    (V (F := Ideal) m c main_v475 : MArr) (ix2 (col 1 mi a) (col 2 o b))
      = matEntry (m ((c : Thread nD τ).loc main_arg1)) (m ((c : Thread nD τ).loc main_arg2))
          (m ((c : Thread nD τ).loc main_arg3)) (m ((c : Thread nD τ).loc main_arg4)) 2 1 o mi a b := by
  have ha : a.val < 3 := a.isLt
  have hb : b.val < 5 := b.isLt
  have hmi := mi.isLt
  have ho := o.isLt
  refine (row1_read m c mi ⟨a.val, ha⟩ (col 2 o b) (col 1 mi a)
    (by show 64 * (1 * 1) + mi.val * (2 * 1 + 1) + a.val = 64 + (mi.val * 3 + a.val); omega)).trans ?_
  refine (cols_apply2 _ _ _ _ _ (⟨mi.val * 3 + a.val, by omega⟩ : Fin 192) (⟨o.val * 5 + b.val, by omega⟩ : Fin 320) (col 2 o b)
    (by show 64 * (2 * 2) + o.val * (2 * 2 + 1) + b.val = 64 + 192 + (o.val * 5 + b.val); omega)).trans ?_
  rw [vn_block m c 12 13 14 16 hostOps0_12 hostOps0_13 main_v119 rfl rfl rfl (by decide)]
  refine (entry6 (Vn m c 12) _ _ _ _ (vn_arg m c 12 main_arg1 (by decide)) (vn_arg m c 12 main_arg2 (by decide))
    (vn_arg m c 12 main_arg3 (by decide)) (vn_arg m c 12 main_arg4 (by decide)) mi o ⟨a.val, ha⟩ ⟨b.val, hb⟩ _ _ rfl rfl
    (wix 2 1 o mi) (by show 4096 * (4 * 2 + 1) + 64 * o.val + mi.val = 36864 + 64 * o.val + mi.val; omega)).trans ?_
  exact congrArg (fun y : EReal => _ * y) (chain_entries_eq_mixH _ _ _ 2 1 a b)

set_option maxHeartbeats 4000000 in
/-- Degrees (li, lo) = (1, 3). -/
theorem case_1_3 (o mi : Fin 64) (a : Fin (dim 1)) (b : Fin (dim 3)) :
    (V (F := Ideal) m c main_v475 : MArr) (ix2 (col 1 mi a) (col 3 o b))
      = matEntry (m ((c : Thread nD τ).loc main_arg1)) (m ((c : Thread nD τ).loc main_arg2))
          (m ((c : Thread nD τ).loc main_arg3)) (m ((c : Thread nD τ).loc main_arg4)) 3 1 o mi a b := by
  have ha : a.val < 3 := a.isLt
  have hb : b.val < 7 := b.isLt
  have hmi := mi.isLt
  have ho := o.isLt
  refine (row1_read m c mi ⟨a.val, ha⟩ (col 3 o b) (col 1 mi a)
    (by show 64 * (1 * 1) + mi.val * (2 * 1 + 1) + a.val = 64 + (mi.val * 3 + a.val); omega)).trans ?_
  refine (cols_apply3 _ _ _ _ _ (⟨mi.val * 3 + a.val, by omega⟩ : Fin 192) (⟨o.val * 7 + b.val, by omega⟩ : Fin 448) (col 3 o b)
    (by show 64 * (3 * 3) + o.val * (2 * 3 + 1) + b.val = 64 + 192 + 320 + (o.val * 7 + b.val); omega)).trans ?_
  rw [vn_block m c 14 15 16 16 hostOps0_14 hostOps0_15 main_v151 rfl rfl rfl (by decide)]
  refine (entry7 (Vn m c 14) _ _ _ _ (vn_arg m c 14 main_arg1 (by decide)) (vn_arg m c 14 main_arg2 (by decide))
    (vn_arg m c 14 main_arg3 (by decide)) (vn_arg m c 14 main_arg4 (by decide)) mi o ⟨a.val, ha⟩ ⟨b.val, hb⟩ _ _ rfl rfl
    (wix 3 1 o mi) (by show 4096 * (4 * 3 + 1) + 64 * o.val + mi.val = 53248 + 64 * o.val + mi.val; omega)).trans ?_
  exact congrArg (fun y : EReal => _ * y) (chain_entries_eq_mixH _ _ _ 3 1 a b)

set_option maxHeartbeats 4000000 in
/-- The matrix at a row of degree 2: the row of blocks of that degree at the local row. -/
theorem row2_read (mi : Fin 64) (a : Fin 5) (J I : Fin 1024) (hI : I.val = 64 + 192 + (mi.val * 5 + a.val)) :
    (V (F := Ideal) m c main_v475 : MArr) (ix2 I J)
      = (concatenate S320x1024 1 [⟨S320x64, Vn m c 24 (Proc.devRef .tc main_v163)⟩, ⟨S320x192, Vn m c 24 (Proc.devRef .tc main_v195)⟩, ⟨S320x320, Vn m c 24 (Proc.devRef .tc main_v248)⟩, ⟨S320x448, Vn m c 24 (Proc.devRef .tc main_v301)⟩] concatenates_S320x64_S320x192_S320x320_S320x448_S320x1024_d1) (ix2 (⟨mi.val * 5 + a.val, by have := mi.isLt; have := a.isLt; omega⟩ : Fin 320) J) := by
  have h475 := (V_eq_Vn m c main_v475).trans ((congrFun (Vn_step m c 32 33 hostOps0_32 rfl) _).trans (last (Vn m c 32)))
  rw [h475]
  refine (truncf_apply (φ := .f32) (ψ := .bf16) _ bitsLt_bf16_f32 _).trans ?_
  refine (rows_apply2 _ _ _ _ _ (⟨mi.val * 5 + a.val, by have := mi.isLt; have := a.isLt; omega⟩ : Fin 320) J I hI).trans ?_
  have hrow := (Vn_keep m c 25 32 rfl main_v302 (by decide)).trans ((congrFun (Vn_step m c 24 25 hostOps0_24 rfl) _).trans (row2 (Vn m c 24)))
  rw [hrow]

set_option maxHeartbeats 4000000 in
/-- Degrees (li, lo) = (2, 0). -/
theorem case_2_0 (o mi : Fin 64) (a : Fin (dim 2)) (b : Fin (dim 0)) :
    (V (F := Ideal) m c main_v475 : MArr) (ix2 (col 2 mi a) (col 0 o b))
      = matEntry (m ((c : Thread nD τ).loc main_arg1)) (m ((c : Thread nD τ).loc main_arg2))
          (m ((c : Thread nD τ).loc main_arg3)) (m ((c : Thread nD τ).loc main_arg4)) 0 2 o mi a b := by
  have ha : a.val < 5 := a.isLt
  have hb : b.val < 1 := b.isLt
  have hmi := mi.isLt
  have ho := o.isLt
  refine (row2_read m c mi ⟨a.val, ha⟩ (col 0 o b) (col 2 mi a)
    (by show 64 * (2 * 2) + mi.val * (2 * 2 + 1) + a.val = 64 + 192 + (mi.val * 5 + a.val); omega)).trans ?_
  refine (cols_apply0 _ _ _ _ _ (⟨mi.val * 5 + a.val, by omega⟩ : Fin 320) (⟨o.val * 1 + b.val, by omega⟩ : Fin 64) (col 0 o b)
    (by show 64 * (0 * 0) + o.val * (2 * 0 + 1) + b.val = (o.val * 1 + b.val); omega)).trans ?_
  rw [vn_block m c 16 17 18 24 hostOps0_16 hostOps0_17 main_v163 rfl rfl rfl (by decide)]
  refine (entry8 (Vn m c 16) _ _ _ _ (vn_arg m c 16 main_arg1 (by decide)) (vn_arg m c 16 main_arg2 (by decide))
    (vn_arg m c 16 main_arg3 (by decide)) (vn_arg m c 16 main_arg4 (by decide)) mi o ⟨a.val, ha⟩ ⟨b.val, hb⟩ _ _ rfl rfl
    (wix 0 2 o mi) (by show 4096 * (4 * 0 + 2) + 64 * o.val + mi.val = 8192 + 64 * o.val + mi.val; omega)).trans ?_
  exact congrArg (fun y : EReal => _ * y) (chain_entries_eq_mixH _ _ _ 0 2 a b)

set_option maxHeartbeats 4000000 in
/-- Degrees (li, lo) = (2, 1). -/
theorem case_2_1 (o mi : Fin 64) (a : Fin (dim 2)) (b : Fin (dim 1)) :
    (V (F := Ideal) m c main_v475 : MArr) (ix2 (col 2 mi a) (col 1 o b))
      = matEntry (m ((c : Thread nD τ).loc main_arg1)) (m ((c : Thread nD τ).loc main_arg2))
          (m ((c : Thread nD τ).loc main_arg3)) (m ((c : Thread nD τ).loc main_arg4)) 1 2 o mi a b := by
  have ha : a.val < 5 := a.isLt
  have hb : b.val < 3 := b.isLt
  have hmi := mi.isLt
  have ho := o.isLt
  refine (row2_read m c mi ⟨a.val, ha⟩ (col 1 o b) (col 2 mi a)
    (by show 64 * (2 * 2) + mi.val * (2 * 2 + 1) + a.val = 64 + 192 + (mi.val * 5 + a.val); omega)).trans ?_
  refine (cols_apply1 _ _ _ _ _ (⟨mi.val * 5 + a.val, by omega⟩ : Fin 320) (⟨o.val * 3 + b.val, by omega⟩ : Fin 192) (col 1 o b)
    (by show 64 * (1 * 1) + o.val * (2 * 1 + 1) + b.val = 64 + (o.val * 3 + b.val); omega)).trans ?_
  rw [vn_block m c 18 19 20 24 hostOps0_18 hostOps0_19 main_v195 rfl rfl rfl (by decide)]
  refine (entry9 (Vn m c 18) _ _ _ _ (vn_arg m c 18 main_arg1 (by decide)) (vn_arg m c 18 main_arg2 (by decide))
    (vn_arg m c 18 main_arg3 (by decide)) (vn_arg m c 18 main_arg4 (by decide)) mi o ⟨a.val, ha⟩ ⟨b.val, hb⟩ _ _ rfl rfl
    (wix 1 2 o mi) (by show 4096 * (4 * 1 + 2) + 64 * o.val + mi.val = 24576 + 64 * o.val + mi.val; omega)).trans ?_
  exact congrArg (fun y : EReal => _ * y) (chain_entries_eq_mixH _ _ _ 1 2 a b)

set_option maxHeartbeats 4000000 in
/-- Degrees (li, lo) = (2, 2). -/
theorem case_2_2 (o mi : Fin 64) (a : Fin (dim 2)) (b : Fin (dim 2)) :
    (V (F := Ideal) m c main_v475 : MArr) (ix2 (col 2 mi a) (col 2 o b))
      = matEntry (m ((c : Thread nD τ).loc main_arg1)) (m ((c : Thread nD τ).loc main_arg2))
          (m ((c : Thread nD τ).loc main_arg3)) (m ((c : Thread nD τ).loc main_arg4)) 2 2 o mi a b := by
  have ha : a.val < 5 := a.isLt
  have hb : b.val < 5 := b.isLt
  have hmi := mi.isLt
  have ho := o.isLt
  refine (row2_read m c mi ⟨a.val, ha⟩ (col 2 o b) (col 2 mi a)
    (by show 64 * (2 * 2) + mi.val * (2 * 2 + 1) + a.val = 64 + 192 + (mi.val * 5 + a.val); omega)).trans ?_
  refine (cols_apply2 _ _ _ _ _ (⟨mi.val * 5 + a.val, by omega⟩ : Fin 320) (⟨o.val * 5 + b.val, by omega⟩ : Fin 320) (col 2 o b)
    (by show 64 * (2 * 2) + o.val * (2 * 2 + 1) + b.val = 64 + 192 + (o.val * 5 + b.val); omega)).trans ?_
  rw [vn_block m c 20 21 22 24 hostOps0_20 hostOps0_21 main_v248 rfl rfl rfl (by decide)]
  refine (entry10 (Vn m c 20) _ _ _ _ (vn_arg m c 20 main_arg1 (by decide)) (vn_arg m c 20 main_arg2 (by decide))
    (vn_arg m c 20 main_arg3 (by decide)) (vn_arg m c 20 main_arg4 (by decide)) mi o ⟨a.val, ha⟩ ⟨b.val, hb⟩ _ _ rfl rfl
    (wix 2 2 o mi) (by show 4096 * (4 * 2 + 2) + 64 * o.val + mi.val = 40960 + 64 * o.val + mi.val; omega)).trans ?_
  exact congrArg (fun y : EReal => _ * y) (chain_entries_eq_mixH _ _ _ 2 2 a b)

set_option maxHeartbeats 4000000 in
/-- Degrees (li, lo) = (2, 3). -/
theorem case_2_3 (o mi : Fin 64) (a : Fin (dim 2)) (b : Fin (dim 3)) :
    (V (F := Ideal) m c main_v475 : MArr) (ix2 (col 2 mi a) (col 3 o b))
      = matEntry (m ((c : Thread nD τ).loc main_arg1)) (m ((c : Thread nD τ).loc main_arg2))
          (m ((c : Thread nD τ).loc main_arg3)) (m ((c : Thread nD τ).loc main_arg4)) 3 2 o mi a b := by
  have ha : a.val < 5 := a.isLt
  have hb : b.val < 7 := b.isLt
  have hmi := mi.isLt
  have ho := o.isLt
  refine (row2_read m c mi ⟨a.val, ha⟩ (col 3 o b) (col 2 mi a)
    (by show 64 * (2 * 2) + mi.val * (2 * 2 + 1) + a.val = 64 + 192 + (mi.val * 5 + a.val); omega)).trans ?_
  refine (cols_apply3 _ _ _ _ _ (⟨mi.val * 5 + a.val, by omega⟩ : Fin 320) (⟨o.val * 7 + b.val, by omega⟩ : Fin 448) (col 3 o b)
    (by show 64 * (3 * 3) + o.val * (2 * 3 + 1) + b.val = 64 + 192 + 320 + (o.val * 7 + b.val); omega)).trans ?_
  rw [vn_block m c 22 23 24 24 hostOps0_22 hostOps0_23 main_v301 rfl rfl rfl (by decide)]
  refine (entry11 (Vn m c 22) _ _ _ _ (vn_arg m c 22 main_arg1 (by decide)) (vn_arg m c 22 main_arg2 (by decide))
    (vn_arg m c 22 main_arg3 (by decide)) (vn_arg m c 22 main_arg4 (by decide)) mi o ⟨a.val, ha⟩ ⟨b.val, hb⟩ _ _ rfl rfl
    (wix 3 2 o mi) (by show 4096 * (4 * 3 + 2) + 64 * o.val + mi.val = 57344 + 64 * o.val + mi.val; omega)).trans ?_
  exact congrArg (fun y : EReal => _ * y) (chain_entries_eq_mixH _ _ _ 3 2 a b)

set_option maxHeartbeats 4000000 in
/-- The matrix at a row of degree 3: the row of blocks of that degree at the local row. -/
theorem row3_read (mi : Fin 64) (a : Fin 7) (J I : Fin 1024) (hI : I.val = 64 + 192 + 320 + (mi.val * 7 + a.val)) :
    (V (F := Ideal) m c main_v475 : MArr) (ix2 I J)
      = (concatenate S448x1024 1 [⟨S448x64, Vn m c 32 (Proc.devRef .tc main_v313)⟩, ⟨S448x192, Vn m c 32 (Proc.devRef .tc main_v345)⟩, ⟨S448x320, Vn m c 32 (Proc.devRef .tc main_v398)⟩, ⟨S448x448, Vn m c 32 (Proc.devRef .tc main_v472)⟩] concatenates_S448x64_S448x192_S448x320_S448x448_S448x1024_d1) (ix2 (⟨mi.val * 7 + a.val, by have := mi.isLt; have := a.isLt; omega⟩ : Fin 448) J) := by
  have h475 := (V_eq_Vn m c main_v475).trans ((congrFun (Vn_step m c 32 33 hostOps0_32 rfl) _).trans (last (Vn m c 32)))
  rw [h475]
  refine (truncf_apply (φ := .f32) (ψ := .bf16) _ bitsLt_bf16_f32 _).trans ?_
  refine (rows_apply3 _ _ _ _ _ (⟨mi.val * 7 + a.val, by have := mi.isLt; have := a.isLt; omega⟩ : Fin 448) J I hI).trans ?_
  rfl

set_option maxHeartbeats 4000000 in
/-- Degrees (li, lo) = (3, 0). -/
theorem case_3_0 (o mi : Fin 64) (a : Fin (dim 3)) (b : Fin (dim 0)) :
    (V (F := Ideal) m c main_v475 : MArr) (ix2 (col 3 mi a) (col 0 o b))
      = matEntry (m ((c : Thread nD τ).loc main_arg1)) (m ((c : Thread nD τ).loc main_arg2))
          (m ((c : Thread nD τ).loc main_arg3)) (m ((c : Thread nD τ).loc main_arg4)) 0 3 o mi a b := by
  have ha : a.val < 7 := a.isLt
  have hb : b.val < 1 := b.isLt
  have hmi := mi.isLt
  have ho := o.isLt
  refine (row3_read m c mi ⟨a.val, ha⟩ (col 0 o b) (col 3 mi a)
    (by show 64 * (3 * 3) + mi.val * (2 * 3 + 1) + a.val = 64 + 192 + 320 + (mi.val * 7 + a.val); omega)).trans ?_
  refine (cols_apply0 _ _ _ _ _ (⟨mi.val * 7 + a.val, by omega⟩ : Fin 448) (⟨o.val * 1 + b.val, by omega⟩ : Fin 64) (col 0 o b)
    (by show 64 * (0 * 0) + o.val * (2 * 0 + 1) + b.val = (o.val * 1 + b.val); omega)).trans ?_
  rw [vn_block m c 24 25 26 32 hostOps0_24 hostOps0_25 main_v313 rfl rfl rfl (by decide)]
  refine (entry12 (Vn m c 24) _ _ _ _ (vn_arg m c 24 main_arg1 (by decide)) (vn_arg m c 24 main_arg2 (by decide))
    (vn_arg m c 24 main_arg3 (by decide)) (vn_arg m c 24 main_arg4 (by decide)) mi o ⟨a.val, ha⟩ ⟨b.val, hb⟩ _ _ rfl rfl
    (wix 0 3 o mi) (by show 4096 * (4 * 0 + 3) + 64 * o.val + mi.val = 12288 + 64 * o.val + mi.val; omega)).trans ?_
  exact congrArg (fun y : EReal => _ * y) (chain_entries_eq_mixH _ _ _ 0 3 a b)

set_option maxHeartbeats 4000000 in
/-- Degrees (li, lo) = (3, 1). -/
theorem case_3_1 (o mi : Fin 64) (a : Fin (dim 3)) (b : Fin (dim 1)) :
    (V (F := Ideal) m c main_v475 : MArr) (ix2 (col 3 mi a) (col 1 o b))
      = matEntry (m ((c : Thread nD τ).loc main_arg1)) (m ((c : Thread nD τ).loc main_arg2))
          (m ((c : Thread nD τ).loc main_arg3)) (m ((c : Thread nD τ).loc main_arg4)) 1 3 o mi a b := by
  have ha : a.val < 7 := a.isLt
  have hb : b.val < 3 := b.isLt
  have hmi := mi.isLt
  have ho := o.isLt
  refine (row3_read m c mi ⟨a.val, ha⟩ (col 1 o b) (col 3 mi a)
    (by show 64 * (3 * 3) + mi.val * (2 * 3 + 1) + a.val = 64 + 192 + 320 + (mi.val * 7 + a.val); omega)).trans ?_
  refine (cols_apply1 _ _ _ _ _ (⟨mi.val * 7 + a.val, by omega⟩ : Fin 448) (⟨o.val * 3 + b.val, by omega⟩ : Fin 192) (col 1 o b)
    (by show 64 * (1 * 1) + o.val * (2 * 1 + 1) + b.val = 64 + (o.val * 3 + b.val); omega)).trans ?_
  rw [vn_block m c 26 27 28 32 hostOps0_26 hostOps0_27 main_v345 rfl rfl rfl (by decide)]
  refine (entry13 (Vn m c 26) _ _ _ _ (vn_arg m c 26 main_arg1 (by decide)) (vn_arg m c 26 main_arg2 (by decide))
    (vn_arg m c 26 main_arg3 (by decide)) (vn_arg m c 26 main_arg4 (by decide)) mi o ⟨a.val, ha⟩ ⟨b.val, hb⟩ _ _ rfl rfl
    (wix 1 3 o mi) (by show 4096 * (4 * 1 + 3) + 64 * o.val + mi.val = 28672 + 64 * o.val + mi.val; omega)).trans ?_
  exact congrArg (fun y : EReal => _ * y) (chain_entries_eq_mixH _ _ _ 1 3 a b)

set_option maxHeartbeats 4000000 in
/-- Degrees (li, lo) = (3, 2). -/
theorem case_3_2 (o mi : Fin 64) (a : Fin (dim 3)) (b : Fin (dim 2)) :
    (V (F := Ideal) m c main_v475 : MArr) (ix2 (col 3 mi a) (col 2 o b))
      = matEntry (m ((c : Thread nD τ).loc main_arg1)) (m ((c : Thread nD τ).loc main_arg2))
          (m ((c : Thread nD τ).loc main_arg3)) (m ((c : Thread nD τ).loc main_arg4)) 2 3 o mi a b := by
  have ha : a.val < 7 := a.isLt
  have hb : b.val < 5 := b.isLt
  have hmi := mi.isLt
  have ho := o.isLt
  refine (row3_read m c mi ⟨a.val, ha⟩ (col 2 o b) (col 3 mi a)
    (by show 64 * (3 * 3) + mi.val * (2 * 3 + 1) + a.val = 64 + 192 + 320 + (mi.val * 7 + a.val); omega)).trans ?_
  refine (cols_apply2 _ _ _ _ _ (⟨mi.val * 7 + a.val, by omega⟩ : Fin 448) (⟨o.val * 5 + b.val, by omega⟩ : Fin 320) (col 2 o b)
    (by show 64 * (2 * 2) + o.val * (2 * 2 + 1) + b.val = 64 + 192 + (o.val * 5 + b.val); omega)).trans ?_
  rw [vn_block m c 28 29 30 32 hostOps0_28 hostOps0_29 main_v398 rfl rfl rfl (by decide)]
  refine (entry14 (Vn m c 28) _ _ _ _ (vn_arg m c 28 main_arg1 (by decide)) (vn_arg m c 28 main_arg2 (by decide))
    (vn_arg m c 28 main_arg3 (by decide)) (vn_arg m c 28 main_arg4 (by decide)) mi o ⟨a.val, ha⟩ ⟨b.val, hb⟩ _ _ rfl rfl
    (wix 2 3 o mi) (by show 4096 * (4 * 2 + 3) + 64 * o.val + mi.val = 45056 + 64 * o.val + mi.val; omega)).trans ?_
  exact congrArg (fun y : EReal => _ * y) (chain_entries_eq_mixH _ _ _ 2 3 a b)

set_option maxHeartbeats 4000000 in
/-- Degrees (li, lo) = (3, 3). -/
theorem case_3_3 (o mi : Fin 64) (a : Fin (dim 3)) (b : Fin (dim 3)) :
    (V (F := Ideal) m c main_v475 : MArr) (ix2 (col 3 mi a) (col 3 o b))
      = matEntry (m ((c : Thread nD τ).loc main_arg1)) (m ((c : Thread nD τ).loc main_arg2))
          (m ((c : Thread nD τ).loc main_arg3)) (m ((c : Thread nD τ).loc main_arg4)) 3 3 o mi a b := by
  have ha : a.val < 7 := a.isLt
  have hb : b.val < 7 := b.isLt
  have hmi := mi.isLt
  have ho := o.isLt
  refine (row3_read m c mi ⟨a.val, ha⟩ (col 3 o b) (col 3 mi a)
    (by show 64 * (3 * 3) + mi.val * (2 * 3 + 1) + a.val = 64 + 192 + 320 + (mi.val * 7 + a.val); omega)).trans ?_
  refine (cols_apply3 _ _ _ _ _ (⟨mi.val * 7 + a.val, by omega⟩ : Fin 448) (⟨o.val * 7 + b.val, by omega⟩ : Fin 448) (col 3 o b)
    (by show 64 * (3 * 3) + o.val * (2 * 3 + 1) + b.val = 64 + 192 + 320 + (o.val * 7 + b.val); omega)).trans ?_
  rw [vn_block m c 30 31 32 32 hostOps0_30 hostOps0_31 main_v472 rfl rfl rfl (by decide)]
  refine (entry15 (Vn m c 30) _ _ _ _ (vn_arg m c 30 main_arg1 (by decide)) (vn_arg m c 30 main_arg2 (by decide))
    (vn_arg m c 30 main_arg3 (by decide)) (vn_arg m c 30 main_arg4 (by decide)) mi o ⟨a.val, ha⟩ ⟨b.val, hb⟩ _ _ rfl rfl
    (wix 3 3 o mi) (by show 4096 * (4 * 3 + 3) + 64 * o.val + mi.val = 61440 + 64 * o.val + mi.val; omega)).trans ?_
  exact congrArg (fun y : EReal => _ * y) (chain_entries_eq_mixH _ _ _ 3 3 a b)

end Cert.KernelIdeal.Hand.Mat

end
-- ==== Proof.KMat.lean ====
import proofs.«118270_j50440095924880_1_alg».proof.Proof.KMatCases

/-!
# The dense matrix read at an index

The host operations before the matrix product build, for every pair of degrees (li, lo), the Kronecker product of
the pair's transposed weight matrix with its small coefficient matrix, lay the blocks of one li side by side, stack
the four rows and narrow the result to bf16 (the identity on extended reals). So the matrix the product reads holds,
at the row of component a of channel mi of degree li and the column of component b of channel o of degree lo, the
weight (o, mi) of the path times the coefficient with which a feeds b. The proof is by the pair of degrees: each
pair's reading is in the module of the cases.
-/

noncomputable section

namespace Cert.KernelIdeal.Hand

open Idealize.ShloMosaic Idealize.ShloMosaic.TcCoe Idealize.SL.Sem Idealize.ShloMosaic.ValueIdx
open Cert.KernelIdeal Cert.KernelIdeal.Gen Cert.Mix

/-- The matrix the product reads, at (col li mi a, col lo o b): the weight times the coefficient. -/
theorem mat_apply (m : (ℓ : Loc nD τ sig) → Buf (Elt Ideal) ℓ) (c : Dev nD) (lo li : Fin 4) (o mi : Fin 64)
    (a : Fin (dim li)) (b : Fin (dim lo)) :
    (V (F := Ideal) m c main_v475 : MArr) (ix2 (col li mi a) (col lo o b))
      = matEntry (m ((c : Thread nD τ).loc main_arg1)) (m ((c : Thread nD τ).loc main_arg2))
          (m ((c : Thread nD τ).loc main_arg3)) (m ((c : Thread nD τ).loc main_arg4)) lo li o mi a b :=
  match li, lo, a, b with
  | ⟨0, _⟩, ⟨0, _⟩, a, b => Mat.case_0_0 m c o mi a b
  | ⟨0, _⟩, ⟨1, _⟩, a, b => Mat.case_0_1 m c o mi a b
  | ⟨0, _⟩, ⟨2, _⟩, a, b => Mat.case_0_2 m c o mi a b
  | ⟨0, _⟩, ⟨3, _⟩, a, b => Mat.case_0_3 m c o mi a b
  | ⟨1, _⟩, ⟨0, _⟩, a, b => Mat.case_1_0 m c o mi a b
  | ⟨1, _⟩, ⟨1, _⟩, a, b => Mat.case_1_1 m c o mi a b
  | ⟨1, _⟩, ⟨2, _⟩, a, b => Mat.case_1_2 m c o mi a b
  | ⟨1, _⟩, ⟨3, _⟩, a, b => Mat.case_1_3 m c o mi a b
  | ⟨2, _⟩, ⟨0, _⟩, a, b => Mat.case_2_0 m c o mi a b
  | ⟨2, _⟩, ⟨1, _⟩, a, b => Mat.case_2_1 m c o mi a b
  | ⟨2, _⟩, ⟨2, _⟩, a, b => Mat.case_2_2 m c o mi a b
  | ⟨2, _⟩, ⟨3, _⟩, a, b => Mat.case_2_3 m c o mi a b
  | ⟨3, _⟩, ⟨0, _⟩, a, b => Mat.case_3_0 m c o mi a b
  | ⟨3, _⟩, ⟨1, _⟩, a, b => Mat.case_3_1 m c o mi a b
  | ⟨3, _⟩, ⟨2, _⟩, a, b => Mat.case_3_2 m c o mi a b
  | ⟨3, _⟩, ⟨3, _⟩, a, b => Mat.case_3_3 m c o mi a b
  | ⟨_ + 4, h⟩, _, _, _ => absurd h (by omega)
  | _, ⟨_ + 4, h⟩, _, _ => absurd h (by omega)

end Cert.KernelIdeal.Hand

end
-- ==== Proof.RefReadLib.lean ====
import Idealize.ShloMosaic.Lib.ValueLayout
import Idealize.ShloMosaic.Lib.IdealHost
import proofs.«118270_j50440095924880_1_alg».proof.Proof.LibScatterRead

/-!
# Host operations of a path-by-path accumulation, read at an index

Generic in the extents. A row of W numbers holds blocks of M channels of D components, channel-major; the
operations below cut such a block out of the row, pick one component of every channel, contract the channels
with a weight matrix stored row by row in a flat vector, add the result into one component of an accumulator
[N, M, D], and flatten the accumulator back into a row block.

* reshapes and slices: each reads its operand at the index with the same row-major position, shifted by the offsets;
* the contraction over the second axis of both operands: (x W)(n, o) = ∑ m, x(n, m) · W(o, m);
* the update of one component: the scatter with one index k along the last axis, whose window is the first two
  axes, sends the update (n, o) to (n, o, k); these targets are pairwise distinct, so the result at (n, o, b)
  is the old value plus the update when b = k and the old value otherwise.
-/

noncomputable section

open scoped BigOperators

namespace Cert.RefReadLib

open Idealize.ShloMosaic Idealize.ShloMosaic.ValueIdx

variable {α : Type}

/-! ## Reshapes and slices -/

/-- The block of M channels of D components that starts at column o of a row, as an [N, M, D] array: the
    component a of channel m is the column o + m·D + a of the row. -/
theorem rowBlock_apply {N W C M D : ℕ} (o : ℕ) (hC : C = M * D) (x : (⟨2, ![N, W]⟩ : Shape).Idx → α)
    (hs : (⟨2, ![N, W]⟩ : Shape).Slices ![0, o] ⟨2, ![N, C]⟩) (hc : (⟨2, ![N, C]⟩ : Shape).ShapeCasts ⟨3, ![N, M, D]⟩)
    (n : Fin N) (m : Fin M) (a : Fin D) (j : Fin W) (hj : j.val = o + m.val * D + a.val) :
    shapeCast ⟨3, ![N, M, D]⟩ (extractStridedSlice ⟨2, ![N, C]⟩ ![0, o] x hs) hc (ix3 n m a) = x (ix2 n j) := by
  have hlt : m.val * D + a.val < C := by
    rw [hC]
    calc m.val * D + a.val < m.val * D + D := Nat.add_lt_add_left a.isLt _
      _ = (m.val + 1) * D := by ring
      _ ≤ M * D := Nat.mul_le_mul_right D m.isLt
  refine (shapeCast_apply _ hc (ix3 n m a) (ix2 n ⟨m.val * D + a.val, hlt⟩) ?_).trans ?_
  · rw [Shape.rowMajor_val_two, Shape.rowMajor_val_three]
    show n.val * C + (m.val * D + a.val) = (n.val * M + m.val) * D + a.val
    rw [hC]; ring
  · exact slice2_axis1_apply o x hs n _ j (by rw [hj]; show _ = o + (m.val * D + a.val); omega)

/-- The component c of every channel of an [N, M, D] block, as an [N, M] array. -/
theorem component_apply {N M D : ℕ} (c : ℕ) (blk : (⟨3, ![N, M, D]⟩ : Shape).Idx → α)
    (hs : (⟨3, ![N, M, D]⟩ : Shape).Slices ![0, 0, c] ⟨3, ![N, M, 1]⟩) (hc : (⟨3, ![N, M, 1]⟩ : Shape).ShapeCasts ⟨2, ![N, M]⟩)
    (n : Fin N) (m : Fin M) (a : Fin D) (ha : a.val = c) :
    shapeCast ⟨2, ![N, M]⟩ (extractStridedSlice ⟨3, ![N, M, 1]⟩ ![0, 0, c] blk hs) hc (ix2 n m) = blk (ix3 n m a) := by
  refine (shapeCast_apply _ hc (ix2 n m) (ix3 n m (0 : Fin 1)) ?_).trans ?_
  · rw [Shape.rowMajor_val_two, Shape.rowMajor_val_three]
    show (n.val * M + m.val) * 1 + 0 = n.val * M + m.val
    ring
  · exact extractStridedSlice_apply _ blk hs _ _ (fun ax => by
      match ax with
      | ⟨0, _⟩ => exact (Nat.zero_add _).symm
      | ⟨1, _⟩ => exact (Nat.zero_add _).symm
      | ⟨2, _⟩ => show a.val = c + 0; omega)

/-- An [N, M, 1] block as an [N, M] array. -/
theorem dropUnit_apply {N M : ℕ} (blk : (⟨3, ![N, M, 1]⟩ : Shape).Idx → α) (hc : (⟨3, ![N, M, 1]⟩ : Shape).ShapeCasts ⟨2, ![N, M]⟩)
    (n : Fin N) (m : Fin M) : shapeCast ⟨2, ![N, M]⟩ blk hc (ix2 n m) = blk (ix3 n m (0 : Fin 1)) := by
  refine shapeCast_apply _ hc (ix2 n m) (ix3 n m (0 : Fin 1)) ?_
  rw [Shape.rowMajor_val_two, Shape.rowMajor_val_three]
  show (n.val * M + m.val) * 1 + 0 = n.val * M + m.val
  ring

/-- An A×B matrix stored row by row from position o of a flat vector: the entry (p, q) is at o + p·B + q. -/
theorem flatMatrix_apply {T C A B : ℕ} (o : ℕ) (hC : C = A * B) (w : (⟨1, ![T]⟩ : Shape).Idx → α)
    (hs : (⟨1, ![T]⟩ : Shape).Slices ![o] ⟨1, ![C]⟩) (hc : (⟨1, ![C]⟩ : Shape).ShapeCasts ⟨2, ![A, B]⟩)
    (p : Fin A) (q : Fin B) (j : Fin T) (hj : j.val = o + p.val * B + q.val) :
    shapeCast ⟨2, ![A, B]⟩ (extractStridedSlice ⟨1, ![C]⟩ ![o] w hs) hc (ix2 p q) = w (ix1 j) := by
  have hlt : p.val * B + q.val < C := by
    rw [hC]
    calc p.val * B + q.val < p.val * B + B := Nat.add_lt_add_left q.isLt _
      _ = (p.val + 1) * B := by ring
      _ ≤ A * B := Nat.mul_le_mul_right B p.isLt
  refine (shapeCast_apply _ hc (ix2 p q) (ix1 ⟨p.val * B + q.val, hlt⟩) ?_).trans ?_
  · rw [Shape.rowMajor_val_one, Shape.rowMajor_val_two]
    rfl
  · exact extractStridedSlice_apply _ w hs _ _ (fun ax => by
      match ax with
      | ⟨0, _⟩ => show j.val = o + (p.val * B + q.val); omega)

/-- The entry p of a vector, as a scalar. -/
theorem entry1_apply {T : ℕ} (p : ℕ) (h : (⟨1, ![T]⟩ : Shape).Idx → α)
    (hs : (⟨1, ![T]⟩ : Shape).Slices ![p] ⟨1, ![1]⟩) (hc : (⟨1, ![1]⟩ : Shape).ShapeCasts ⟨0, ![]⟩)
    (i : (⟨0, ![]⟩ : Shape).Idx) (j : Fin T) (hj : j.val = p) :
    shapeCast ⟨0, ![]⟩ (extractStridedSlice ⟨1, ![1]⟩ ![p] h hs) hc i = h (ix1 j) := by
  refine (shapeCast_apply _ hc i (ix1 (0 : Fin 1)) ?_).trans ?_
  · rw [Shape.rowMajor_val_one]
    exact (Shape.rowMajorPi_zero _ _).symm
  · exact extractStridedSlice_apply _ h hs _ _ (fun ax => by
      match ax with
      | ⟨0, _⟩ => show j.val = p + 0; omega)

/-- The entry (p, k) of a matrix, as a scalar. -/
theorem entry2_apply {T U : ℕ} (p k : ℕ) (h : (⟨2, ![T, U]⟩ : Shape).Idx → α)
    (hs : (⟨2, ![T, U]⟩ : Shape).Slices ![p, k] ⟨2, ![1, 1]⟩) (hc : (⟨2, ![1, 1]⟩ : Shape).ShapeCasts ⟨0, ![]⟩)
    (i : (⟨0, ![]⟩ : Shape).Idx) (j : Fin T) (l : Fin U) (hj : j.val = p) (hl : l.val = k) :
    shapeCast ⟨0, ![]⟩ (extractStridedSlice ⟨2, ![1, 1]⟩ ![p, k] h hs) hc i = h (ix2 j l) := by
  refine (shapeCast_apply _ hc i (ix2 (0 : Fin 1) (0 : Fin 1)) ?_).trans ?_
  · rw [Shape.rowMajor_val_two]
    exact (Shape.rowMajorPi_zero _ _).symm
  · exact extractStridedSlice_apply _ h hs _ _ (fun ax => by
      match ax with
      | ⟨0, _⟩ => show j.val = p + 0; omega
      | ⟨1, _⟩ => show l.val = k + 0; omega)

/-- An [N, M, D] accumulator flattened into a row block: the column o·D + b is the component b of channel o. -/
theorem flatten_apply {N M D C : ℕ} (hC : C = M * D) (acc : (⟨3, ![N, M, D]⟩ : Shape).Idx → α)
    (hc : (⟨3, ![N, M, D]⟩ : Shape).ShapeCasts ⟨2, ![N, C]⟩) (n : Fin N) (o : Fin M) (b : Fin D) (j : Fin C)
    (hj : j.val = o.val * D + b.val) : shapeCast ⟨2, ![N, C]⟩ acc hc (ix2 n j) = acc (ix3 n o b) := by
  refine shapeCast_apply _ hc (ix2 n j) (ix3 n o b) ?_
  rw [Shape.rowMajor_val_two, Shape.rowMajor_val_three]
  show (n.val * M + o.val) * D + b.val = n.val * C + j.val
  rw [hj, hC]; ring

/-! ## Scalars and zeros -/

/-- The array of zeros. -/
theorem zeros_apply {T : Shape} (h : (⟨0, ![]⟩ : Shape).BroadcastsInDim T ![]) (i : T.Idx) :
    broadcastInDim T ![] h (constant (F := Ideal) ⟨0, ![]⟩ .f32 0x00000000#32) i = (0 : EReal) :=
  (broadcastInDim_scalar_apply h _ i).trans Ideal.ofBits_zero_f32

/-! ## The contraction over the second axis of both operands -/

/-- (x W)(n, o) = ∑ m, x(n, m) · W(o, m). -/
theorem dotSecond_apply {N K O : ℕ} {φ₁ φ₂ : FTy}
    (wf : DotDims.WF ⟨2, ![N, K]⟩ ⟨2, ![O, K]⟩ ⟨2, ![N, O]⟩ [1] [1] [0] [0] [] [])
    (prec : Option ContractPrecision) (A : FVec Ideal ⟨2, ![N, K]⟩ φ₁) (B : FVec Ideal ⟨2, ![O, K]⟩ φ₂) (n : Fin N) (o : Fin O) :
    Host.dotGeneral (⟨[1], [1], [0], [0], [], [], wf⟩ : DotDims _ _ _) prec A B (ix2 n o) = ∑ c : Fin K, A (ix2 n c) * B (ix2 o c) := by
  show FloatOps.dotGeneral _ prec _ A B (ix2 n o) = _
  rw [Ideal.dotGeneral_apply, ← Equiv.sum_comp (contrEquiv1 (⟨[1], [1], [0], [0], [], [], wf⟩ : DotDims _ _ _) K rfl rfl).symm]
  refine Finset.sum_congr rfl fun c _ => ?_
  have c2 := contrEquiv1_symm_val
    (⟨[1], [1], [0], [0], [], [], wf⟩ : DotDims ⟨2, ![N, K]⟩ ⟨2, ![O, K]⟩ ⟨2, ![N, O]⟩) K rfl rfl c
  have l2 : (⟨[1], [1], [0], [0], [], [], wf⟩ : DotDims ⟨2, ![N, K]⟩ ⟨2, ![O, K]⟩ ⟨2, ![N, O]⟩).lhsIdx (ix2 n o)
      ((contrEquiv1 _ K rfl rfl).symm c) = ix2 n c := by
    funext ax; apply Fin.ext
    match ax with
    | ⟨0, _⟩ => simp [DotDims.lhsIdx]; rfl
    | ⟨1, _⟩ => simp [DotDims.lhsIdx]; exact c2
  have r2 : (⟨[1], [1], [0], [0], [], [], wf⟩ : DotDims ⟨2, ![N, K]⟩ ⟨2, ![O, K]⟩ ⟨2, ![N, O]⟩).rhsIdx (ix2 n o)
      ((contrEquiv1 _ K rfl rfl).symm c) = ix2 o c := by
    funext ax; apply Fin.ext
    match ax with
    | ⟨0, _⟩ => simp [DotDims.rhsIdx]; rfl
    | ⟨1, _⟩ => simp [DotDims.rhsIdx]; exact c2
  rw [l2, r2]

/-! ## The update of one component -/

section Scatter
variable {N M D w : ℕ}

/-- Where the update (n, o) of the component k lands: at (n, o, k). -/
theorem component_resultIdx (wf : ScatterDims.WF ⟨3, ![N, M, D]⟩ ⟨1, ![1]⟩ ⟨2, ![N, M]⟩ [0, 1] [2] [2] 0)
    (idx : IVec ⟨1, ![1]⟩ w) (k : Fin D) (hidx : ∀ i, (idx i).toInt = (k.val : ℤ)) (j : (⟨2, ![N, M]⟩ : Shape).Idx) :
    (⟨[0, 1], [2], [2], 0, wf⟩ : ScatterDims ⟨3, ![N, M, D]⟩ ⟨1, ![1]⟩ ⟨2, ![N, M]⟩).resultIdx? j idx
      = some (ix3 (n0 := N) (n1 := M) (n2 := D) (j 0) (j 1) k) := by
  have hsw : ∀ a : Fin 3,
      (⟨[0, 1], [2], [2], 0, wf⟩ : ScatterDims ⟨3, ![N, M, D]⟩ ⟨1, ![1]⟩ ⟨2, ![N, M]⟩).start j idx a
        + (((⟨[0, 1], [2], [2], 0, wf⟩ : ScatterDims ⟨3, ![N, M, D]⟩ ⟨1, ![1]⟩ ⟨2, ![N, M]⟩).window j a : ℕ) : ℤ)
        = (((ix3 (n0 := N) (n1 := M) (n2 := D) (j 0) (j 1) k a).val : ℕ) : ℤ) := by
    intro a
    match a with
    | ⟨0, _⟩ => show (0 : ℤ) + (((j 0).val : ℕ) : ℤ) = _; exact zero_add _
    | ⟨1, _⟩ => show (0 : ℤ) + (((j 1).val : ℕ) : ℤ) = _; exact zero_add _
    | ⟨2, _⟩ => show (idx _).toInt + ((0 : ℕ) : ℤ) = _; rw [hidx]; exact add_zero _
  unfold ScatterDims.resultIdx?
  rw [dif_pos (fun a => by
    rw [hsw a]
    exact ⟨Int.natCast_nonneg _, by exact_mod_cast (ix3 (n0 := N) (n1 := M) (n2 := D) (j 0) (j 1) k a).isLt⟩)]
  refine congrArg some (funext fun a => Fin.ext ?_)
  show (_ + _ : ℤ).toNat = _
  rw [hsw a]; exact Int.toNat_natCast _

/-- The scatter of the component k read at (n, o, b): the combination of the old value and the update (n, o)
    when b = k, the old value otherwise. -/
theorem componentScatter_apply (wf : ScatterDims.WF ⟨3, ![N, M, D]⟩ ⟨1, ![1]⟩ ⟨2, ![N, M]⟩ [0, 1] [2] [2] 0)
    (f : α → α → α) (x : (⟨3, ![N, M, D]⟩ : Shape).Idx → α) (idx : IVec ⟨1, ![1]⟩ w)
    (upd : (⟨2, ![N, M]⟩ : Shape).Idx → α) (k : Fin D) (hidx : ∀ i, (idx i).toInt = (k.val : ℤ))
    (n : Fin N) (o : Fin M) (b : Fin D) :
    Host.scatter (⟨[0, 1], [2], [2], 0, wf⟩ : ScatterDims ⟨3, ![N, M, D]⟩ ⟨1, ![1]⟩ ⟨2, ![N, M]⟩) f x idx upd (ix3 n o b)
      = if b = k then f (x (ix3 n o b)) (upd (ix2 n o)) else x (ix3 n o b) := by
  have hr := component_resultIdx wf idx k hidx
  have hinj : Function.Injective
      (fun j : (⟨2, ![N, M]⟩ : Shape).Idx => ix3 (n0 := N) (n1 := M) (n2 := D) (j 0) (j 1) k) := by
    intro j j' h
    have h0 : j 0 = j' 0 := congrFun h 0
    have h1 : j 1 = j' 1 := congrFun h 1
    rw [eq_ix2 j, eq_ix2 j', h0, h1]
  by_cases hb : b = k
  · subst hb
    rw [if_pos rfl]
    exact Cert.LibScatterRead.scatter_apply_of_hit _ f x idx upd _ hr hinj (ix2 n o)
  · rw [if_neg hb]
    exact Cert.LibScatterRead.scatter_apply_of_miss _ f x idx upd _ hr (ix3 n o b)
      (fun j h => hb (congrFun h 2).symm)

/-- At the extended reals, with addition: the old value plus the update when b = k. -/
theorem componentAdd_apply (wf : ScatterDims.WF ⟨3, ![N, M, D]⟩ ⟨1, ![1]⟩ ⟨2, ![N, M]⟩ [0, 1] [2] [2] 0)
    (x : FVec Ideal ⟨3, ![N, M, D]⟩ .f32) (idx : IVec ⟨1, ![1]⟩ w) (upd : FVec Ideal ⟨2, ![N, M]⟩ .f32)
    (k : Fin D) (hidx : ∀ i, (idx i).toInt = (k.val : ℤ)) (n : Fin N) (o : Fin M) (b : Fin D) :
    Host.scatter (⟨[0, 1], [2], [2], 0, wf⟩ : ScatterDims ⟨3, ![N, M, D]⟩ ⟨1, ![1]⟩ ⟨2, ![N, M]⟩) FloatOps.addf x idx upd (ix3 n o b)
      = x (ix3 n o b) + if b = k then upd (ix2 n o) else 0 := by
  rw [componentScatter_apply wf _ x idx upd k hidx]
  by_cases hb : b = k
  · rw [if_pos hb, if_pos hb]; rfl
  · rw [if_neg hb, if_neg hb]; exact (add_zero _).symm

end Scatter

/-! ## The three kinds of update, at the extended reals -/

section Updates
variable {N K O : ℕ}

/-- The middle component contracted with the weights, then scaled (the scalar on the right). -/
theorem midUpdate_apply (wf : DotDims.WF ⟨2, ![N, K]⟩ ⟨2, ![O, K]⟩ ⟨2, ![N, O]⟩ [1] [1] [0] [0] [] [])
    (prec : Option ContractPrecision) (hb : (⟨0, ![]⟩ : Shape).BroadcastsInDim ⟨2, ![N, O]⟩ ![])
    (xm : FVec Ideal ⟨2, ![N, K]⟩ .f32) (W : FVec Ideal ⟨2, ![O, K]⟩ .f32) (s : FVec Ideal ⟨0, ![]⟩ .f32) (n : Fin N) (o : Fin O) :
    mulf (Host.dotGeneral (⟨[1], [1], [0], [0], [], [], wf⟩ : DotDims _ _ _) prec xm W) (broadcastInDim ⟨2, ![N, O]⟩ ![] hb s) (ix2 n o)
      = (∑ m : Fin K, xm (ix2 n m) * W (ix2 o m)) * s ix0 := by
  rw [mulf_apply, dotSecond_apply, broadcastInDim_scalar_apply]

/-- The combination p·x₊ + q·x₋ contracted with the weights (the scalars on the left). -/
theorem upUpdate_apply (wf : DotDims.WF ⟨2, ![N, K]⟩ ⟨2, ![O, K]⟩ ⟨2, ![N, O]⟩ [1] [1] [0] [0] [] [])
    (prec : Option ContractPrecision) (hb : (⟨0, ![]⟩ : Shape).BroadcastsInDim ⟨2, ![N, K]⟩ ![])
    (p q : FVec Ideal ⟨0, ![]⟩ .f32) (xp xn : FVec Ideal ⟨2, ![N, K]⟩ .f32) (W : FVec Ideal ⟨2, ![O, K]⟩ .f32) (n : Fin N) (o : Fin O) :
    Host.dotGeneral (⟨[1], [1], [0], [0], [], [], wf⟩ : DotDims _ _ _) prec
        (addf (mulf (broadcastInDim ⟨2, ![N, K]⟩ ![] hb p) xp) (mulf (broadcastInDim ⟨2, ![N, K]⟩ ![] hb q) xn)) W (ix2 n o)
      = ∑ m : Fin K, (p ix0 * xp (ix2 n m) + q ix0 * xn (ix2 n m)) * W (ix2 o m) := by
  rw [dotSecond_apply]
  refine Finset.sum_congr rfl fun m _ => ?_
  rw [addf_apply, mulf_apply, mulf_apply, broadcastInDim_scalar_apply, broadcastInDim_scalar_apply]

/-- The combination p·x₋ - q·x₊ contracted with the weights (the scalars on the left). -/
theorem downUpdate_apply (wf : DotDims.WF ⟨2, ![N, K]⟩ ⟨2, ![O, K]⟩ ⟨2, ![N, O]⟩ [1] [1] [0] [0] [] [])
    (prec : Option ContractPrecision) (hb : (⟨0, ![]⟩ : Shape).BroadcastsInDim ⟨2, ![N, K]⟩ ![])
    (p q : FVec Ideal ⟨0, ![]⟩ .f32) (xn xp : FVec Ideal ⟨2, ![N, K]⟩ .f32) (W : FVec Ideal ⟨2, ![O, K]⟩ .f32) (n : Fin N) (o : Fin O) :
    Host.dotGeneral (⟨[1], [1], [0], [0], [], [], wf⟩ : DotDims _ _ _) prec
        (subf (mulf (broadcastInDim ⟨2, ![N, K]⟩ ![] hb p) xn) (mulf (broadcastInDim ⟨2, ![N, K]⟩ ![] hb q) xp)) W (ix2 n o)
      = ∑ m : Fin K, (p ix0 * xn (ix2 n m) - q ix0 * xp (ix2 n m)) * W (ix2 o m) := by
  rw [dotSecond_apply]
  refine Finset.sum_congr rfl fun m _ => ?_
  rw [subf_apply, mulf_apply, mulf_apply, broadcastInDim_scalar_apply, broadcastInDim_scalar_apply]

end Updates

end Cert.RefReadLib

end
-- ==== Proof.RefReadSpec.lean ====
import proofs.«118270_j50440095924880_1_alg».proof.Proof.Spec
import proofs.«118270_j50440095924880_1_alg».proof.Proof.RefReadLib

/-!
# The path-by-path operations in the vocabulary of the specification

At the literal extents (65536 rows of 1024 numbers, 64 channels, 16 paths): the block of a degree read at a
component is the specification's component reader, a 64×64 slab of the flat weight vector is the path's weight
matrix, an entry of a coefficient table is the path's coefficient; and the three kinds of update, read at
(n, o), are the specification's middle, upper and lower terms of the path.
-/

noncomputable section

open scoped BigOperators

namespace Cert.RefReadSpec

open Cert.Mix Cert.RefReadLib Idealize.ShloMosaic Idealize.ShloMosaic.ValueIdx

/-- Inside the block the component reader reads the row. -/
theorem comp_of_lt (x : XArr) (n : Fin 65536) (l : Fin 4) (m : Fin 64) (a : ℕ) (ha : a < dim l) :
    comp x n l m a = x (ix2 n (col l m ⟨a, ha⟩)) := dif_pos ha

/-- Inside the table the coefficient reader reads the table. -/
theorem tab_of_lt (h : PArr) (p : Fin 16) (k : ℕ) (hk : k < 3) : tab h p k = h (ix2 p ⟨k, hk⟩) := dif_pos hk

/-- The block of degree l of every row, as an array [65536, 64, 2l+1]. -/
theorem block_apply (x : XArr) (l : Fin 4) {C D : ℕ} (hD : D = dim l) (hC : C = 64 * D) (o : ℕ) (ho : o = off l)
    (hs : (⟨2, ![65536, 1024]⟩ : Shape).Slices ![0, o] ⟨2, ![65536, C]⟩)
    (hc : (⟨2, ![65536, C]⟩ : Shape).ShapeCasts ⟨3, ![65536, 64, D]⟩)
    (n : Fin 65536) (m : Fin 64) (a : Fin D) :
    shapeCast ⟨3, ![65536, 64, D]⟩ (extractStridedSlice ⟨2, ![65536, C]⟩ ![0, o] x hs) hc (ix3 n m a) = comp x n l m a.val := by
  subst hD ho
  rw [comp_of_lt x n l m a.val a.isLt]
  exact rowBlock_apply (off l) hC x hs hc n m a _ rfl

/-- The component c of a degree's block, as an array [65536, 64]. -/
theorem blockComponent_apply (x : XArr) (l : Fin 4) {D : ℕ} (blk : (⟨3, ![65536, 64, D]⟩ : Shape).Idx → EReal)
    (hblk : ∀ (n : Fin 65536) (m : Fin 64) (a : Fin D), blk (ix3 n m a) = comp x n l m a.val) (c : ℕ)
    (hs : (⟨3, ![65536, 64, D]⟩ : Shape).Slices ![0, 0, c] ⟨3, ![65536, 64, 1]⟩)
    (hc : (⟨3, ![65536, 64, 1]⟩ : Shape).ShapeCasts ⟨2, ![65536, 64]⟩) (n : Fin 65536) (m : Fin 64) :
    shapeCast ⟨2, ![65536, 64]⟩ (extractStridedSlice ⟨3, ![65536, 64, 1]⟩ ![0, 0, c] blk hs) hc (ix2 n m) = comp x n l m c :=
  (component_apply c blk hs hc n m ⟨c, Nat.lt_of_succ_le (hs.2 2)⟩ rfl).trans (hblk n m _)

/-- The block of degree 0 has one component. -/
theorem blockUnit_apply (x : XArr) (l : Fin 4) (blk : (⟨3, ![65536, 64, 1]⟩ : Shape).Idx → EReal)
    (hblk : ∀ (n : Fin 65536) (m : Fin 64) (a : Fin 1), blk (ix3 n m a) = comp x n l m a.val)
    (hc : (⟨3, ![65536, 64, 1]⟩ : Shape).ShapeCasts ⟨2, ![65536, 64]⟩) (n : Fin 65536) (m : Fin 64) :
    shapeCast ⟨2, ![65536, 64]⟩ blk hc (ix2 n m) = comp x n l m 0 :=
  (dropUnit_apply blk hc n m).trans (hblk n m _)

/-- The weight matrix of the path (lo, li). -/
theorem weights_apply (w : WArr) (lo li : Fin 4) (p : ℕ) (hp : p = 4096 * (4 * lo.val + li.val))
    (hs : (⟨1, ![65536]⟩ : Shape).Slices ![p] ⟨1, ![4096]⟩) (hc : (⟨1, ![4096]⟩ : Shape).ShapeCasts ⟨2, ![64, 64]⟩)
    (o m : Fin 64) :
    shapeCast ⟨2, ![64, 64]⟩ (extractStridedSlice ⟨1, ![4096]⟩ ![p] w hs) hc (ix2 o m) = w (ix1 (wix lo li o m)) :=
  flatMatrix_apply p (by norm_num) w hs hc o m _ (by
    subst hp
    show 4096 * (4 * lo.val + li.val) + 64 * o.val + m.val = _
    omega)

/-- The coefficient hz of the path (lo, li). -/
theorem hzero_apply (hz : ZArr) (lo li : Fin 4) (p : ℕ) (hp : p = 4 * lo.val + li.val)
    (hs : (⟨1, ![16]⟩ : Shape).Slices ![p] ⟨1, ![1]⟩) (hc : (⟨1, ![1]⟩ : Shape).ShapeCasts ⟨0, ![]⟩)
    (i : (⟨0, ![]⟩ : Shape).Idx) :
    shapeCast ⟨0, ![]⟩ (extractStridedSlice ⟨1, ![1]⟩ ![p] hz hs) hc i = hz (ix1 (path lo li)) :=
  entry1_apply p hz hs hc i _ hp.symm

/-- The coefficient k of a table for the path (lo, li). -/
theorem coef_apply (h : PArr) (lo li : Fin 4) (p k : ℕ) (hp : p = 4 * lo.val + li.val)
    (hs : (⟨2, ![16, 3]⟩ : Shape).Slices ![p, k] ⟨2, ![1, 1]⟩) (hc : (⟨2, ![1, 1]⟩ : Shape).ShapeCasts ⟨0, ![]⟩)
    (i : (⟨0, ![]⟩ : Shape).Idx) :
    shapeCast ⟨0, ![]⟩ (extractStridedSlice ⟨2, ![1, 1]⟩ ![p, k] h hs) hc i = tab h (path lo li) k := by
  rw [tab_of_lt h _ k (Nat.lt_of_succ_le (hs.2 1))]
  exact entry2_apply p k h hs hc i _ _ hp.symm rfl

/-! ## The three kinds of update are the specification's terms -/

section Terms
variable (x : XArr) (w : WArr) (hz : ZArr) (hp hn : PArr) (lo li : Fin 4)

/-- The middle component of degree li contracted with the path's weights, then scaled by hz. -/
theorem mid_eq (wf : DotDims.WF ⟨2, ![65536, 64]⟩ ⟨2, ![64, 64]⟩ ⟨2, ![65536, 64]⟩ [1] [1] [0] [0] [] [])
    (prec : Option ContractPrecision) (hb : (⟨0, ![]⟩ : Shape).BroadcastsInDim ⟨2, ![65536, 64]⟩ ![])
    (xm : FVec Ideal ⟨2, ![65536, 64]⟩ .f32) (W : FVec Ideal ⟨2, ![64, 64]⟩ .f32) (s : FVec Ideal ⟨0, ![]⟩ .f32)
    (hx : ∀ n m, xm (ix2 n m) = comp x n li m li.val) (hW : ∀ o m, W (ix2 o m) = w (ix1 (wix lo li o m)))
    (hs : s ix0 = hz (ix1 (path lo li))) (n : Fin 65536) (o : Fin 64) :
    mulf (Host.dotGeneral (⟨[1], [1], [0], [0], [], [], wf⟩ : DotDims _ _ _) prec xm W) (broadcastInDim ⟨2, ![65536, 64]⟩ ![] hb s) (ix2 n o)
      = midTerm x w hz lo li n o := by
  rw [midUpdate_apply, hs]
  unfold midTerm
  exact congrArg (· * hz (ix1 (path lo li))) (Finset.sum_congr rfl fun m _ => by rw [hx, hW])

/-- The combination hp·x₊ + hn·x₋ at distance μ+1, contracted with the path's weights. -/
theorem up_eq (μ : Fin 3) (wf : DotDims.WF ⟨2, ![65536, 64]⟩ ⟨2, ![64, 64]⟩ ⟨2, ![65536, 64]⟩ [1] [1] [0] [0] [] [])
    (prec : Option ContractPrecision) (hb : (⟨0, ![]⟩ : Shape).BroadcastsInDim ⟨2, ![65536, 64]⟩ ![])
    (p q : FVec Ideal ⟨0, ![]⟩ .f32) (xp xn : FVec Ideal ⟨2, ![65536, 64]⟩ .f32) (W : FVec Ideal ⟨2, ![64, 64]⟩ .f32)
    (hp' : p ix0 = tab hp (path lo li) μ.val) (hq : q ix0 = tab hn (path lo li) μ.val)
    (hxp : ∀ n m, xp (ix2 n m) = comp x n li m (li.val + (μ.val + 1)))
    (hxn : ∀ n m, xn (ix2 n m) = comp x n li m (li.val - (μ.val + 1)))
    (hW : ∀ o m, W (ix2 o m) = w (ix1 (wix lo li o m))) (n : Fin 65536) (o : Fin 64) :
    Host.dotGeneral (⟨[1], [1], [0], [0], [], [], wf⟩ : DotDims _ _ _) prec
        (addf (mulf (broadcastInDim ⟨2, ![65536, 64]⟩ ![] hb p) xp) (mulf (broadcastInDim ⟨2, ![65536, 64]⟩ ![] hb q) xn)) W (ix2 n o)
      = upTerm x w hp hn lo li μ n o := by
  rw [upUpdate_apply, hp', hq]
  unfold upTerm
  exact Finset.sum_congr rfl fun m _ => by rw [hxp, hxn, hW]

/-- The combination hp·x₋ - hn·x₊ at distance μ+1, contracted with the path's weights. -/
theorem down_eq (μ : Fin 3) (wf : DotDims.WF ⟨2, ![65536, 64]⟩ ⟨2, ![64, 64]⟩ ⟨2, ![65536, 64]⟩ [1] [1] [0] [0] [] [])
    (prec : Option ContractPrecision) (hb : (⟨0, ![]⟩ : Shape).BroadcastsInDim ⟨2, ![65536, 64]⟩ ![])
    (p q : FVec Ideal ⟨0, ![]⟩ .f32) (xn xp : FVec Ideal ⟨2, ![65536, 64]⟩ .f32) (W : FVec Ideal ⟨2, ![64, 64]⟩ .f32)
    (hp' : p ix0 = tab hp (path lo li) μ.val) (hq : q ix0 = tab hn (path lo li) μ.val)
    (hxn : ∀ n m, xn (ix2 n m) = comp x n li m (li.val - (μ.val + 1)))
    (hxp : ∀ n m, xp (ix2 n m) = comp x n li m (li.val + (μ.val + 1)))
    (hW : ∀ o m, W (ix2 o m) = w (ix1 (wix lo li o m))) (n : Fin 65536) (o : Fin 64) :
    Host.dotGeneral (⟨[1], [1], [0], [0], [], [], wf⟩ : DotDims _ _ _) prec
        (subf (mulf (broadcastInDim ⟨2, ![65536, 64]⟩ ![] hb p) xn) (mulf (broadcastInDim ⟨2, ![65536, 64]⟩ ![] hb q) xp)) W (ix2 n o)
      = downTerm x w hp hn lo li μ n o := by
  rw [downUpdate_apply, hp', hq]
  unfold downTerm
  exact Finset.sum_congr rfl fun m _ => by rw [hxn, hxp, hW]

end Terms

end Cert.RefReadSpec

end
-- ==== Proof.RefReadOps.lean ====
import proofs.«118270_j50440095924880_1_alg».proof.Proof.Gen.ReferenceIdeal.Run
import proofs.«118270_j50440095924880_1_alg».proof.Proof.RefReadSpec

/-!
# The path-by-path program's operations, at its own records

The generic readings at the program's own dimension records: one update of one component of each of the four
accumulators, the accumulators' zero start, and the four degree blocks of the input with their components, in
the vocabulary of the specification.
-/

noncomputable section

namespace Cert.ReferenceIdeal.Hand

open Cert.ReferenceIdeal Cert.ReferenceIdeal.Value Cert.Mix Cert.RefReadLib Cert.RefReadSpec
open Idealize.ShloMosaic Idealize.ShloMosaic.ValueIdx

/-- The five argument arrays of a valuation. -/
abbrev argX (V0 : Valuation τ sig (Elt Ideal)) : XArr := V0 (Proc.devRef .tc main_arg0)
abbrev argW (V0 : Valuation τ sig (Elt Ideal)) : WArr := V0 (Proc.devRef .tc main_arg1)
abbrev argZ (V0 : Valuation τ sig (Elt Ideal)) : ZArr := V0 (Proc.devRef .tc main_arg2)
abbrev argP (V0 : Valuation τ sig (Elt Ideal)) : PArr := V0 (Proc.devRef .tc main_arg3)
abbrev argN (V0 : Valuation τ sig (Elt Ideal)) : PArr := V0 (Proc.devRef .tc main_arg4)

/-! ## One update of one component: the old value there plus the update at (n, o) when b is the updated component -/

/-- The accumulator of degree 0, [65536, 64, 1]. -/
theorem step1 (acc : FVec Ideal S65536x64x1 .f32) (kw : BitVec 32) (upd : FVec Ideal S65536x64 .f32) (k : Fin 1)
    (hk : kw.toInt = (k.val : ℤ)) (n : Fin 65536) (o : Fin 64) (b : Fin 1) (A T : EReal)
    (hacc : acc (ix3 n o b) = A) (hupd : upd (ix2 n o) = T) :
    Host.scatter scatter_S65536x64x1_S1_S65536x64_01_2_2_0 FloatOps.addf acc
        (broadcastInDim S1 ![] Gen.bcast_S_S1 (constantI S_ 32 kw)) upd (ix3 n o b)
      = A + if b = k then T else 0 := by
  rw [← hacc, ← hupd]
  exact componentAdd_apply Gen.scatter_S65536x64x1_S1_S65536x64_01_2_2_0_wf acc _ upd k (fun _ => hk) n o b

/-- The accumulator of degree 1, [65536, 64, 3]. -/
theorem step3 (acc : FVec Ideal S65536x64x3 .f32) (kw : BitVec 32) (upd : FVec Ideal S65536x64 .f32) (k : Fin 3)
    (hk : kw.toInt = (k.val : ℤ)) (n : Fin 65536) (o : Fin 64) (b : Fin 3) (A T : EReal)
    (hacc : acc (ix3 n o b) = A) (hupd : upd (ix2 n o) = T) :
    Host.scatter scatter_S65536x64x3_S1_S65536x64_01_2_2_0 FloatOps.addf acc
        (broadcastInDim S1 ![] Gen.bcast_S_S1 (constantI S_ 32 kw)) upd (ix3 n o b)
      = A + if b = k then T else 0 := by
  rw [← hacc, ← hupd]
  exact componentAdd_apply Gen.scatter_S65536x64x3_S1_S65536x64_01_2_2_0_wf acc _ upd k (fun _ => hk) n o b

/-- The accumulator of degree 2, [65536, 64, 5]. -/
theorem step5 (acc : FVec Ideal S65536x64x5 .f32) (kw : BitVec 32) (upd : FVec Ideal S65536x64 .f32) (k : Fin 5)
    (hk : kw.toInt = (k.val : ℤ)) (n : Fin 65536) (o : Fin 64) (b : Fin 5) (A T : EReal)
    (hacc : acc (ix3 n o b) = A) (hupd : upd (ix2 n o) = T) :
    Host.scatter scatter_S65536x64x5_S1_S65536x64_01_2_2_0 FloatOps.addf acc
        (broadcastInDim S1 ![] Gen.bcast_S_S1 (constantI S_ 32 kw)) upd (ix3 n o b)
      = A + if b = k then T else 0 := by
  rw [← hacc, ← hupd]
  exact componentAdd_apply Gen.scatter_S65536x64x5_S1_S65536x64_01_2_2_0_wf acc _ upd k (fun _ => hk) n o b

/-- The accumulator of degree 3, [65536, 64, 7]. -/
theorem step7 (acc : FVec Ideal S65536x64x7 .f32) (kw : BitVec 32) (upd : FVec Ideal S65536x64 .f32) (k : Fin 7)
    (hk : kw.toInt = (k.val : ℤ)) (n : Fin 65536) (o : Fin 64) (b : Fin 7) (A T : EReal)
    (hacc : acc (ix3 n o b) = A) (hupd : upd (ix2 n o) = T) :
    Host.scatter scatter_S65536x64x7_S1_S65536x64_01_2_2_0 FloatOps.addf acc
        (broadcastInDim S1 ![] Gen.bcast_S_S1 (constantI S_ 32 kw)) upd (ix3 n o b)
      = A + if b = k then T else 0 := by
  rw [← hacc, ← hupd]
  exact componentAdd_apply Gen.scatter_S65536x64x7_S1_S65536x64_01_2_2_0_wf acc _ upd k (fun _ => hk) n o b

/-! ## Every accumulator starts at zero -/

theorem zero1 (i : S65536x64x1.Idx) :
    broadcastInDim S65536x64x1 ![] Gen.bcast_S_S65536x64x1 (constant (F := Ideal) S_ .f32 0x00000000#32) i = (0 : EReal) :=
  zeros_apply _ i

theorem zero3 (i : S65536x64x3.Idx) :
    broadcastInDim S65536x64x3 ![] Gen.bcast_S_S65536x64x3 (constant (F := Ideal) S_ .f32 0x00000000#32) i = (0 : EReal) :=
  zeros_apply _ i

theorem zero5 (i : S65536x64x5.Idx) :
    broadcastInDim S65536x64x5 ![] Gen.bcast_S_S65536x64x5 (constant (F := Ideal) S_ .f32 0x00000000#32) i = (0 : EReal) :=
  zeros_apply _ i

theorem zero7 (i : S65536x64x7.Idx) :
    broadcastInDim S65536x64x7 ![] Gen.bcast_S_S65536x64x7 (constant (F := Ideal) S_ .f32 0x00000000#32) i = (0 : EReal) :=
  zeros_apply _ i

/-! ## The four degree blocks of the input, read at a component -/

/-- Degree 0: columns 0 … 63, one component. -/
theorem blk0 (V0 : Valuation τ sig (Elt Ideal)) (n : Fin 65536) (m : Fin 64) (a : Fin 1) :
    (res_main_v1 (F := Ideal) V0 : S65536x64x1.Idx → EReal) (ix3 n m a) = comp (argX V0) n 0 m a.val := by
  unfold res_main_v1
  exact block_apply (C := 64) (D := 1) (argX V0) 0 (by decide) (by decide) 0 (by decide) _ _ n m a

/-- Degree 1: columns 64 … 255, three components. -/
theorem blk1 (V0 : Valuation τ sig (Elt Ideal)) (n : Fin 65536) (m : Fin 64) (a : Fin 3) :
    (res_main_v3 (F := Ideal) V0 : S65536x64x3.Idx → EReal) (ix3 n m a) = comp (argX V0) n 1 m a.val := by
  unfold res_main_v3
  exact block_apply (C := 192) (D := 3) (argX V0) 1 (by decide) (by decide) 64 (by decide) _ _ n m a

/-- Degree 2: columns 256 … 575, five components. -/
theorem blk2 (V0 : Valuation τ sig (Elt Ideal)) (n : Fin 65536) (m : Fin 64) (a : Fin 5) :
    (res_main_v5 (F := Ideal) V0 : S65536x64x5.Idx → EReal) (ix3 n m a) = comp (argX V0) n 2 m a.val := by
  unfold res_main_v5
  exact block_apply (C := 320) (D := 5) (argX V0) 2 (by decide) (by decide) 256 (by decide) _ _ n m a

/-- Degree 3: columns 576 … 1023, seven components. -/
theorem blk3 (V0 : Valuation τ sig (Elt Ideal)) (n : Fin 65536) (m : Fin 64) (a : Fin 7) :
    (res_main_v7 (F := Ideal) V0 : S65536x64x7.Idx → EReal) (ix3 n m a) = comp (argX V0) n 3 m a.val := by
  unfold res_main_v7
  exact block_apply (C := 448) (D := 7) (argX V0) 3 (by decide) (by decide) 576 (by decide) _ _ n m a

/-! ## One component of a degree, as an array [65536, 64] -/

/-- The one component of degree 0. -/
theorem x0 (V0 : Valuation τ sig (Elt Ideal)) (hc : S65536x64x1.ShapeCasts S65536x64) (n : Fin 65536) (m : Fin 64) :
    shapeCast S65536x64 (res_main_v1 (F := Ideal) V0 : S65536x64x1.Idx → EReal) hc (ix2 n m) = comp (argX V0) n 0 m 0 :=
  blockUnit_apply (argX V0) 0 _ (blk0 V0) hc n m

/-- The component c of degree 1. -/
theorem x1 (V0 : Valuation τ sig (Elt Ideal)) (c : ℕ) (hs : S65536x64x3.Slices ![0, 0, c] S65536x64x1)
    (hc : S65536x64x1.ShapeCasts S65536x64) (n : Fin 65536) (m : Fin 64) :
    shapeCast S65536x64 (extractStridedSlice S65536x64x1 ![0, 0, c] (res_main_v3 (F := Ideal) V0 : S65536x64x3.Idx → EReal) hs) hc (ix2 n m)
      = comp (argX V0) n 1 m c :=
  blockComponent_apply (argX V0) 1 _ (blk1 V0) c hs hc n m

/-- The component c of degree 2. -/
theorem x2 (V0 : Valuation τ sig (Elt Ideal)) (c : ℕ) (hs : S65536x64x5.Slices ![0, 0, c] S65536x64x1)
    (hc : S65536x64x1.ShapeCasts S65536x64) (n : Fin 65536) (m : Fin 64) :
    shapeCast S65536x64 (extractStridedSlice S65536x64x1 ![0, 0, c] (res_main_v5 (F := Ideal) V0 : S65536x64x5.Idx → EReal) hs) hc (ix2 n m)
      = comp (argX V0) n 2 m c :=
  blockComponent_apply (argX V0) 2 _ (blk2 V0) c hs hc n m

/-- The component c of degree 3. -/
theorem x3 (V0 : Valuation τ sig (Elt Ideal)) (c : ℕ) (hs : S65536x64x7.Slices ![0, 0, c] S65536x64x1)
    (hc : S65536x64x1.ShapeCasts S65536x64) (n : Fin 65536) (m : Fin 64) :
    shapeCast S65536x64 (extractStridedSlice S65536x64x1 ![0, 0, c] (res_main_v7 (F := Ideal) V0 : S65536x64x7.Idx → EReal) hs) hc (ix2 n m)
      = comp (argX V0) n 3 m c :=
  blockComponent_apply (argX V0) 3 _ (blk3 V0) c hs hc n m

end Cert.ReferenceIdeal.Hand

end
-- ==== Proof.RefReadSum.lean ====
import proofs.«118270_j50440095924880_1_alg».proof.Proof.Spec

/-!
# The paths into one degree, in the order the path-by-path program adds them

For each output degree lo, the sum over the input degrees li of what the path (lo, li) adds to the component b
is written out as one left-nested sum of terms "if b is the component the term feeds, the term, else zero": the
middle term of each path feeds the middle component lo, the upper term at distance μ the component lo + μ, the
lower term the component lo - μ, for μ up to min(lo, li). Only the order and grouping of an addition of extended
reals, and the dropping of zero terms, separate the two sides.
-/

noncomputable section

namespace Cert.RefReadSum

open Cert.Mix

variable (x : XArr) (w : WArr) (hz : ZArr) (hp hn : PArr) (n : Fin 65536) (o : Fin 64)

/-- The paths into degree 0: four middle terms. -/
theorem pathSum0_eq (b : Fin 1) :
    pathSum x w hz hp hn 0 n o b =
      ((((0
        + if b = 0 then midTerm x w hz 0 0 n o else 0)
        + if b = 0 then midTerm x w hz 0 1 n o else 0)
        + if b = 0 then midTerm x w hz 0 2 n o else 0)
        + if b = 0 then midTerm x w hz 0 3 n o else 0) := by
  unfold pathSum pathTerm
  rw [Fin.sum_univ_four]
  simp only [Fin.sum_univ_three]
  fin_cases b <;> simp

/-- The paths into degree 1: distance 1 from the degrees 1, 2, 3. -/
theorem pathSum1_eq (b : Fin 3) :
    pathSum x w hz hp hn 1 n o b =
      ((((((((((0
        + if b = 1 then midTerm x w hz 1 0 n o else 0)
        + if b = 1 then midTerm x w hz 1 1 n o else 0)
        + if b = 2 then upTerm x w hp hn 1 1 0 n o else 0)
        + if b = 0 then downTerm x w hp hn 1 1 0 n o else 0)
        + if b = 1 then midTerm x w hz 1 2 n o else 0)
        + if b = 2 then upTerm x w hp hn 1 2 0 n o else 0)
        + if b = 0 then downTerm x w hp hn 1 2 0 n o else 0)
        + if b = 1 then midTerm x w hz 1 3 n o else 0)
        + if b = 2 then upTerm x w hp hn 1 3 0 n o else 0)
        + if b = 0 then downTerm x w hp hn 1 3 0 n o else 0) := by
  unfold pathSum pathTerm
  rw [Fin.sum_univ_four]
  simp only [Fin.sum_univ_three]
  fin_cases b <;> simp

/-- The paths into degree 2: distance 1 from the degrees 1, 2, 3 and distance 2 from the degrees 2, 3. -/
theorem pathSum2_eq (b : Fin 5) :
    pathSum x w hz hp hn 2 n o b =
      ((((((((((((((0
        + if b = 2 then midTerm x w hz 2 0 n o else 0)
        + if b = 2 then midTerm x w hz 2 1 n o else 0)
        + if b = 3 then upTerm x w hp hn 2 1 0 n o else 0)
        + if b = 1 then downTerm x w hp hn 2 1 0 n o else 0)
        + if b = 2 then midTerm x w hz 2 2 n o else 0)
        + if b = 3 then upTerm x w hp hn 2 2 0 n o else 0)
        + if b = 1 then downTerm x w hp hn 2 2 0 n o else 0)
        + if b = 4 then upTerm x w hp hn 2 2 1 n o else 0)
        + if b = 0 then downTerm x w hp hn 2 2 1 n o else 0)
        + if b = 2 then midTerm x w hz 2 3 n o else 0)
        + if b = 3 then upTerm x w hp hn 2 3 0 n o else 0)
        + if b = 1 then downTerm x w hp hn 2 3 0 n o else 0)
        + if b = 4 then upTerm x w hp hn 2 3 1 n o else 0)
        + if b = 0 then downTerm x w hp hn 2 3 1 n o else 0) := by
  unfold pathSum pathTerm
  rw [Fin.sum_univ_four]
  simp only [Fin.sum_univ_three]
  fin_cases b <;> simp

/-- The paths into degree 3: distance 1 from the degrees 1, 2, 3, distance 2 from 2, 3 and distance 3 from 3. -/
theorem pathSum3_eq (b : Fin 7) :
    pathSum x w hz hp hn 3 n o b =
      ((((((((((((((((0
        + if b = 3 then midTerm x w hz 3 0 n o else 0)
        + if b = 3 then midTerm x w hz 3 1 n o else 0)
        + if b = 4 then upTerm x w hp hn 3 1 0 n o else 0)
        + if b = 2 then downTerm x w hp hn 3 1 0 n o else 0)
        + if b = 3 then midTerm x w hz 3 2 n o else 0)
        + if b = 4 then upTerm x w hp hn 3 2 0 n o else 0)
        + if b = 2 then downTerm x w hp hn 3 2 0 n o else 0)
        + if b = 5 then upTerm x w hp hn 3 2 1 n o else 0)
        + if b = 1 then downTerm x w hp hn 3 2 1 n o else 0)
        + if b = 3 then midTerm x w hz 3 3 n o else 0)
        + if b = 4 then upTerm x w hp hn 3 3 0 n o else 0)
        + if b = 2 then downTerm x w hp hn 3 3 0 n o else 0)
        + if b = 5 then upTerm x w hp hn 3 3 1 n o else 0)
        + if b = 1 then downTerm x w hp hn 3 3 1 n o else 0)
        + if b = 6 then upTerm x w hp hn 3 3 2 n o else 0)
        + if b = 0 then downTerm x w hp hn 3 3 2 n o else 0) := by
  unfold pathSum pathTerm
  rw [Fin.sum_univ_four]
  simp only [Fin.sum_univ_three]
  fin_cases b <;> simp

end Cert.RefReadSum

end
-- ==== Proof.RefReadOut.lean ====
import proofs.«118270_j50440095924880_1_alg».proof.Proof.Spec
import proofs.«118270_j50440095924880_1_alg».proof.Proof.RefReadLib
import proofs.«118270_j50440095924880_1_alg».proof.Proof.LibConcat4

/-!
# The result's columns are the four accumulators' entries

The result is the concatenation, along the columns, of the four accumulators flattened to [65536, 64·(2l+1)]:
the block of degree l starts at column 64·l², so the column 64·l² + o·(2l+1) + b of the result — the
specification's column of the component b of channel o of degree l — is the column o·(2l+1) + b of the flattened
accumulator of degree l, which is its entry (n, o, b).
-/

noncomputable section

namespace Cert.RefReadOut

open Cert.Mix Cert.RefReadLib Cert.LibConcat4 Idealize.ShloMosaic Idealize.ShloMosaic.ValueIdx

/-- Degree 0: the first operand, columns 0 … 63. -/
theorem out0 (acc : (⟨3, ![65536, 64, 1]⟩ : Shape).Idx → EReal)
    (hc : (⟨3, ![65536, 64, 1]⟩ : Shape).ShapeCasts ⟨2, ![65536, 64]⟩)
    (u1 : (⟨2, ![65536, 192]⟩ : Shape).Idx → EReal) (u2 : (⟨2, ![65536, 320]⟩ : Shape).Idx → EReal)
    (u3 : (⟨2, ![65536, 448]⟩ : Shape).Idx → EReal)
    (h : Shape.Concatenates ((cols4 (shapeCast ⟨2, ![65536, 64]⟩ acc hc) u1 u2 u3).map (·.1)) ⟨2, ![65536, 1024]⟩ 1)
    (n : Fin 65536) (o : Fin 64) (b : Fin 1) :
    concatenate ⟨2, ![65536, 1024]⟩ 1 (cols4 (shapeCast ⟨2, ![65536, 64]⟩ acc hc) u1 u2 u3) h (ix2 n (col 0 o b))
      = acc (ix3 n o b) := by
  have hk : o.val * 1 + b.val < 64 := by have := o.isLt; have := b.isLt; omega
  refine (cols_apply0 _ _ _ _ h n ⟨o.val * 1 + b.val, hk⟩ (col 0 o b) ?_).trans ?_
  · show 64 * (0 * 0) + o.val * (2 * 0 + 1) + b.val = o.val * 1 + b.val
    omega
  · exact flatten_apply (by norm_num) acc hc n o b _ rfl

/-- Degree 1: the second operand, columns 64 … 255. -/
theorem out1 (u0 : (⟨2, ![65536, 64]⟩ : Shape).Idx → EReal) (acc : (⟨3, ![65536, 64, 3]⟩ : Shape).Idx → EReal)
    (hc : (⟨3, ![65536, 64, 3]⟩ : Shape).ShapeCasts ⟨2, ![65536, 192]⟩)
    (u2 : (⟨2, ![65536, 320]⟩ : Shape).Idx → EReal) (u3 : (⟨2, ![65536, 448]⟩ : Shape).Idx → EReal)
    (h : Shape.Concatenates ((cols4 u0 (shapeCast ⟨2, ![65536, 192]⟩ acc hc) u2 u3).map (·.1)) ⟨2, ![65536, 1024]⟩ 1)
    (n : Fin 65536) (o : Fin 64) (b : Fin 3) :
    concatenate ⟨2, ![65536, 1024]⟩ 1 (cols4 u0 (shapeCast ⟨2, ![65536, 192]⟩ acc hc) u2 u3) h (ix2 n (col 1 o b))
      = acc (ix3 n o b) := by
  have hk : o.val * 3 + b.val < 192 := by have := o.isLt; have := b.isLt; omega
  refine (cols_apply1 _ _ _ _ h n ⟨o.val * 3 + b.val, hk⟩ (col 1 o b) ?_).trans ?_
  · show 64 * (1 * 1) + o.val * (2 * 1 + 1) + b.val = 64 + (o.val * 3 + b.val)
    omega
  · exact flatten_apply (by norm_num) acc hc n o b _ rfl

/-- Degree 2: the third operand, columns 256 … 575. -/
theorem out2 (u0 : (⟨2, ![65536, 64]⟩ : Shape).Idx → EReal) (u1 : (⟨2, ![65536, 192]⟩ : Shape).Idx → EReal)
    (acc : (⟨3, ![65536, 64, 5]⟩ : Shape).Idx → EReal)
    (hc : (⟨3, ![65536, 64, 5]⟩ : Shape).ShapeCasts ⟨2, ![65536, 320]⟩) (u3 : (⟨2, ![65536, 448]⟩ : Shape).Idx → EReal)
    (h : Shape.Concatenates ((cols4 u0 u1 (shapeCast ⟨2, ![65536, 320]⟩ acc hc) u3).map (·.1)) ⟨2, ![65536, 1024]⟩ 1)
    (n : Fin 65536) (o : Fin 64) (b : Fin 5) :
    concatenate ⟨2, ![65536, 1024]⟩ 1 (cols4 u0 u1 (shapeCast ⟨2, ![65536, 320]⟩ acc hc) u3) h (ix2 n (col 2 o b))
      = acc (ix3 n o b) := by
  have hk : o.val * 5 + b.val < 320 := by have := o.isLt; have := b.isLt; omega
  refine (cols_apply2 _ _ _ _ h n ⟨o.val * 5 + b.val, hk⟩ (col 2 o b) ?_).trans ?_
  · show 64 * (2 * 2) + o.val * (2 * 2 + 1) + b.val = 64 + 192 + (o.val * 5 + b.val)
    omega
  · exact flatten_apply (by norm_num) acc hc n o b _ rfl

/-- Degree 3: the fourth operand, columns 576 … 1023. -/
theorem out3 (u0 : (⟨2, ![65536, 64]⟩ : Shape).Idx → EReal) (u1 : (⟨2, ![65536, 192]⟩ : Shape).Idx → EReal)
    (u2 : (⟨2, ![65536, 320]⟩ : Shape).Idx → EReal) (acc : (⟨3, ![65536, 64, 7]⟩ : Shape).Idx → EReal)
    (hc : (⟨3, ![65536, 64, 7]⟩ : Shape).ShapeCasts ⟨2, ![65536, 448]⟩)
    (h : Shape.Concatenates ((cols4 u0 u1 u2 (shapeCast ⟨2, ![65536, 448]⟩ acc hc)).map (·.1)) ⟨2, ![65536, 1024]⟩ 1)
    (n : Fin 65536) (o : Fin 64) (b : Fin 7) :
    concatenate ⟨2, ![65536, 1024]⟩ 1 (cols4 u0 u1 u2 (shapeCast ⟨2, ![65536, 448]⟩ acc hc)) h (ix2 n (col 3 o b))
      = acc (ix3 n o b) := by
  have hk : o.val * 7 + b.val < 448 := by have := o.isLt; have := b.isLt; omega
  refine (cols_apply3 _ _ _ _ h n ⟨o.val * 7 + b.val, hk⟩ (col 3 o b) ?_).trans ?_
  · show 64 * (3 * 3) + o.val * (2 * 3 + 1) + b.val = 64 + 192 + 320 + (o.val * 7 + b.val)
    omega
  · exact flatten_apply (by norm_num) acc hc n o b _ rfl

end Cert.RefReadOut

end
-- ==== Proof.RefRead0.lean ====
import proofs.«118270_j50440095924880_1_alg».proof.Proof.RefReadOps
import proofs.«118270_j50440095924880_1_alg».proof.Proof.RefReadSum
import proofs.«118270_j50440095924880_1_alg».proof.Proof.RefReadOut

/-!
# The path-by-path result at a component of degree 0

The accumulator of degree 0 starts at zero and receives 4 updates, one line each below, in program order read
from the last to the first: a middle term of the path from degree li goes into the middle component 0, an upper
term at distance μ into the component 0 + μ, a lower term into the component 0 - μ. Read at (n, o, b) the
accumulator is the sum of the terms that feed b, which is the specification's sum over the paths into degree 0;
the result's column of the component b of channel o of degree 0 is that entry of the accumulator.
-/

noncomputable section

namespace Cert.ReferenceIdeal.Hand

open Cert.ReferenceIdeal Cert.ReferenceIdeal.Value Cert.Mix Cert.RefReadLib Cert.RefReadSpec Cert.RefReadSum Cert.RefReadOut
open Idealize.ShloMosaic Idealize.ShloMosaic.ValueIdx

/-- The result at the column of the component b of channel o of degree 0. -/
theorem ref_apply_0 (V0 : Valuation τ sig (Elt Ideal)) (n : Fin 65536) (o : Fin 64) (b : Fin 1) :
    (res_out0 (F := Ideal) V0 : XArr) (ix2 n (col 0 o b))
      = pathSum (argX V0) (argW V0) (argZ V0) (argP V0) (argN V0) 0 n o b := by
  rw [pathSum0_eq]
  show (res_main_v524 (F := Ideal) V0 : XArr) (ix2 n (col 0 o b)) = _
  unfold res_main_v524
  refine (out0 _ _ _ _ _ _ n o b).trans ?_
  refine step1 _ _ _ 0 (by decide) n o b _ _ ?_
    (mid_eq _ _ _ 0 3 _ _ _ _ _ _ (x3 V0 3 _ _) (weights_apply _ 0 3 12288 (by decide) _ _)
      (hzero_apply _ 0 3 3 (by decide) _ _ _) n o)
  refine step1 _ _ _ 0 (by decide) n o b _ _ ?_
    (mid_eq _ _ _ 0 2 _ _ _ _ _ _ (x2 V0 2 _ _) (weights_apply _ 0 2 8192 (by decide) _ _)
      (hzero_apply _ 0 2 2 (by decide) _ _ _) n o)
  refine step1 _ _ _ 0 (by decide) n o b _ _ ?_
    (mid_eq _ _ _ 0 1 _ _ _ _ _ _ (x1 V0 1 _ _) (weights_apply _ 0 1 4096 (by decide) _ _)
      (hzero_apply _ 0 1 1 (by decide) _ _ _) n o)
  refine step1 _ _ _ 0 (by decide) n o b _ _ ?_
    (mid_eq _ _ _ 0 0 _ _ _ _ _ _ (x0 V0 _) (weights_apply _ 0 0 0 (by decide) _ _)
      (hzero_apply _ 0 0 0 (by decide) _ _ _) n o)
  exact zero1 _

end Cert.ReferenceIdeal.Hand

end
-- ==== Proof.RefRead1.lean ====
import proofs.«118270_j50440095924880_1_alg».proof.Proof.RefReadOps
import proofs.«118270_j50440095924880_1_alg».proof.Proof.RefReadSum
import proofs.«118270_j50440095924880_1_alg».proof.Proof.RefReadOut

/-!
# The path-by-path result at a component of degree 1

The accumulator of degree 1 starts at zero and receives 10 updates, one line each below, in program order read
from the last to the first: a middle term of the path from degree li goes into the middle component 1, an upper
term at distance μ into the component 1 + μ, a lower term into the component 1 - μ. Read at (n, o, b) the
accumulator is the sum of the terms that feed b, which is the specification's sum over the paths into degree 1;
the result's column of the component b of channel o of degree 1 is that entry of the accumulator.
-/

noncomputable section

namespace Cert.ReferenceIdeal.Hand

open Cert.ReferenceIdeal Cert.ReferenceIdeal.Value Cert.Mix Cert.RefReadLib Cert.RefReadSpec Cert.RefReadSum Cert.RefReadOut
open Idealize.ShloMosaic Idealize.ShloMosaic.ValueIdx

/-- The accumulator of degree 1 after its first nine updates. -/
theorem inner1 (V0 : Valuation τ sig (Elt Ideal)) (n : Fin 65536) (o : Fin 64) (b : Fin 3) :
    (res_main_v161 (F := Ideal) V0 : S65536x64x3.Idx → EReal) (ix3 n o b) =
      (((((((((0
        + if b = 1 then midTerm (argX V0) (argW V0) (argZ V0) 1 0 n o else 0)
        + if b = 1 then midTerm (argX V0) (argW V0) (argZ V0) 1 1 n o else 0)
        + if b = 2 then upTerm (argX V0) (argW V0) (argP V0) (argN V0) 1 1 0 n o else 0)
        + if b = 0 then downTerm (argX V0) (argW V0) (argP V0) (argN V0) 1 1 0 n o else 0)
        + if b = 1 then midTerm (argX V0) (argW V0) (argZ V0) 1 2 n o else 0)
        + if b = 2 then upTerm (argX V0) (argW V0) (argP V0) (argN V0) 1 2 0 n o else 0)
        + if b = 0 then downTerm (argX V0) (argW V0) (argP V0) (argN V0) 1 2 0 n o else 0)
        + if b = 1 then midTerm (argX V0) (argW V0) (argZ V0) 1 3 n o else 0)
        + if b = 2 then upTerm (argX V0) (argW V0) (argP V0) (argN V0) 1 3 0 n o else 0) := by
  unfold res_main_v161
  refine step3 _ _ _ 2 (by decide) n o b _ _ ?_
    (up_eq _ _ _ _ 1 3 0 _ _ _ _ _ _ _ _ (coef_apply _ 1 3 7 0 (by decide) _ _ _) (coef_apply _ 1 3 7 0 (by decide) _ _ _)
      (x3 V0 4 _ _) (x3 V0 2 _ _) (weights_apply _ 1 3 28672 (by decide) _ _) n o)
  refine step3 _ _ _ 1 (by decide) n o b _ _ ?_
    (mid_eq _ _ _ 1 3 _ _ _ _ _ _ (x3 V0 3 _ _) (weights_apply _ 1 3 28672 (by decide) _ _)
      (hzero_apply _ 1 3 7 (by decide) _ _ _) n o)
  refine step3 _ _ _ 0 (by decide) n o b _ _ ?_
    (down_eq _ _ _ _ 1 2 0 _ _ _ _ _ _ _ _ (coef_apply _ 1 2 6 0 (by decide) _ _ _) (coef_apply _ 1 2 6 0 (by decide) _ _ _)
      (x2 V0 1 _ _) (x2 V0 3 _ _) (weights_apply _ 1 2 24576 (by decide) _ _) n o)
  refine step3 _ _ _ 2 (by decide) n o b _ _ ?_
    (up_eq _ _ _ _ 1 2 0 _ _ _ _ _ _ _ _ (coef_apply _ 1 2 6 0 (by decide) _ _ _) (coef_apply _ 1 2 6 0 (by decide) _ _ _)
      (x2 V0 3 _ _) (x2 V0 1 _ _) (weights_apply _ 1 2 24576 (by decide) _ _) n o)
  refine step3 _ _ _ 1 (by decide) n o b _ _ ?_
    (mid_eq _ _ _ 1 2 _ _ _ _ _ _ (x2 V0 2 _ _) (weights_apply _ 1 2 24576 (by decide) _ _)
      (hzero_apply _ 1 2 6 (by decide) _ _ _) n o)
  refine step3 _ _ _ 0 (by decide) n o b _ _ ?_
    (down_eq _ _ _ _ 1 1 0 _ _ _ _ _ _ _ _ (coef_apply _ 1 1 5 0 (by decide) _ _ _) (coef_apply _ 1 1 5 0 (by decide) _ _ _)
      (x1 V0 0 _ _) (x1 V0 2 _ _) (weights_apply _ 1 1 20480 (by decide) _ _) n o)
  refine step3 _ _ _ 2 (by decide) n o b _ _ ?_
    (up_eq _ _ _ _ 1 1 0 _ _ _ _ _ _ _ _ (coef_apply _ 1 1 5 0 (by decide) _ _ _) (coef_apply _ 1 1 5 0 (by decide) _ _ _)
      (x1 V0 2 _ _) (x1 V0 0 _ _) (weights_apply _ 1 1 20480 (by decide) _ _) n o)
  refine step3 _ _ _ 1 (by decide) n o b _ _ ?_
    (mid_eq _ _ _ 1 1 _ _ _ _ _ _ (x1 V0 1 _ _) (weights_apply _ 1 1 20480 (by decide) _ _)
      (hzero_apply _ 1 1 5 (by decide) _ _ _) n o)
  refine step3 _ _ _ 1 (by decide) n o b _ _ ?_
    (mid_eq _ _ _ 1 0 _ _ _ _ _ _ (x0 V0 _) (weights_apply _ 1 0 16384 (by decide) _ _)
      (hzero_apply _ 1 0 4 (by decide) _ _ _) n o)
  exact zero3 _

/-- The result at the column of the component b of channel o of degree 1. -/
theorem ref_apply_1 (V0 : Valuation τ sig (Elt Ideal)) (n : Fin 65536) (o : Fin 64) (b : Fin 3) :
    (res_out0 (F := Ideal) V0 : XArr) (ix2 n (col 1 o b))
      = pathSum (argX V0) (argW V0) (argZ V0) (argP V0) (argN V0) 1 n o b := by
  rw [pathSum1_eq]
  show (res_main_v524 (F := Ideal) V0 : XArr) (ix2 n (col 1 o b)) = _
  unfold res_main_v524
  refine (out1 _ _ _ _ _ _ n o b).trans ?_
  refine step3 _ _ _ 0 (by decide) n o b _ _ (inner1 V0 n o b)
    (down_eq _ _ _ _ 1 3 0 _ _ _ _ _ _ _ _ (coef_apply _ 1 3 7 0 (by decide) _ _ _) (coef_apply _ 1 3 7 0 (by decide) _ _ _)
      (x3 V0 2 _ _) (x3 V0 4 _ _) (weights_apply _ 1 3 28672 (by decide) _ _) n o)

end Cert.ReferenceIdeal.Hand

end
-- ==== Proof.RefRead2.lean ====
import proofs.«118270_j50440095924880_1_alg».proof.Proof.RefReadOps
import proofs.«118270_j50440095924880_1_alg».proof.Proof.RefReadSum
import proofs.«118270_j50440095924880_1_alg».proof.Proof.RefReadOut

/-!
# The path-by-path result at a component of degree 2

The accumulator of degree 2 starts at zero and receives 14 updates, one line each below, in program order read
from the last to the first: a middle term of the path from degree li goes into the middle component 2, an upper
term at distance μ into the component 2 + μ, a lower term into the component 2 - μ. Read at (n, o, b) the
accumulator is the sum of the terms that feed b, which is the specification's sum over the paths into degree 2;
the result's column of the component b of channel o of degree 2 is that entry of the accumulator.
-/

noncomputable section

namespace Cert.ReferenceIdeal.Hand

open Cert.ReferenceIdeal Cert.ReferenceIdeal.Value Cert.Mix Cert.RefReadLib Cert.RefReadSpec Cert.RefReadSum Cert.RefReadOut
open Idealize.ShloMosaic Idealize.ShloMosaic.ValueIdx

/-- The accumulator of degree 2 after its first nine updates. -/
theorem inner2 (V0 : Valuation τ sig (Elt Ideal)) (n : Fin 65536) (o : Fin 64) (b : Fin 5) :
    (res_main_v273 (F := Ideal) V0 : S65536x64x5.Idx → EReal) (ix3 n o b) =
      (((((((((0
        + if b = 2 then midTerm (argX V0) (argW V0) (argZ V0) 2 0 n o else 0)
        + if b = 2 then midTerm (argX V0) (argW V0) (argZ V0) 2 1 n o else 0)
        + if b = 3 then upTerm (argX V0) (argW V0) (argP V0) (argN V0) 2 1 0 n o else 0)
        + if b = 1 then downTerm (argX V0) (argW V0) (argP V0) (argN V0) 2 1 0 n o else 0)
        + if b = 2 then midTerm (argX V0) (argW V0) (argZ V0) 2 2 n o else 0)
        + if b = 3 then upTerm (argX V0) (argW V0) (argP V0) (argN V0) 2 2 0 n o else 0)
        + if b = 1 then downTerm (argX V0) (argW V0) (argP V0) (argN V0) 2 2 0 n o else 0)
        + if b = 4 then upTerm (argX V0) (argW V0) (argP V0) (argN V0) 2 2 1 n o else 0)
        + if b = 0 then downTerm (argX V0) (argW V0) (argP V0) (argN V0) 2 2 1 n o else 0) := by
  unfold res_main_v273
  refine step5 _ _ _ 0 (by decide) n o b _ _ ?_
    (down_eq _ _ _ _ 2 2 1 _ _ _ _ _ _ _ _ (coef_apply _ 2 2 10 1 (by decide) _ _ _) (coef_apply _ 2 2 10 1 (by decide) _ _ _)
      (x2 V0 0 _ _) (x2 V0 4 _ _) (weights_apply _ 2 2 40960 (by decide) _ _) n o)
  refine step5 _ _ _ 4 (by decide) n o b _ _ ?_
    (up_eq _ _ _ _ 2 2 1 _ _ _ _ _ _ _ _ (coef_apply _ 2 2 10 1 (by decide) _ _ _) (coef_apply _ 2 2 10 1 (by decide) _ _ _)
      (x2 V0 4 _ _) (x2 V0 0 _ _) (weights_apply _ 2 2 40960 (by decide) _ _) n o)
  refine step5 _ _ _ 1 (by decide) n o b _ _ ?_
    (down_eq _ _ _ _ 2 2 0 _ _ _ _ _ _ _ _ (coef_apply _ 2 2 10 0 (by decide) _ _ _) (coef_apply _ 2 2 10 0 (by decide) _ _ _)
      (x2 V0 1 _ _) (x2 V0 3 _ _) (weights_apply _ 2 2 40960 (by decide) _ _) n o)
  refine step5 _ _ _ 3 (by decide) n o b _ _ ?_
    (up_eq _ _ _ _ 2 2 0 _ _ _ _ _ _ _ _ (coef_apply _ 2 2 10 0 (by decide) _ _ _) (coef_apply _ 2 2 10 0 (by decide) _ _ _)
      (x2 V0 3 _ _) (x2 V0 1 _ _) (weights_apply _ 2 2 40960 (by decide) _ _) n o)
  refine step5 _ _ _ 2 (by decide) n o b _ _ ?_
    (mid_eq _ _ _ 2 2 _ _ _ _ _ _ (x2 V0 2 _ _) (weights_apply _ 2 2 40960 (by decide) _ _)
      (hzero_apply _ 2 2 10 (by decide) _ _ _) n o)
  refine step5 _ _ _ 1 (by decide) n o b _ _ ?_
    (down_eq _ _ _ _ 2 1 0 _ _ _ _ _ _ _ _ (coef_apply _ 2 1 9 0 (by decide) _ _ _) (coef_apply _ 2 1 9 0 (by decide) _ _ _)
      (x1 V0 0 _ _) (x1 V0 2 _ _) (weights_apply _ 2 1 36864 (by decide) _ _) n o)
  refine step5 _ _ _ 3 (by decide) n o b _ _ ?_
    (up_eq _ _ _ _ 2 1 0 _ _ _ _ _ _ _ _ (coef_apply _ 2 1 9 0 (by decide) _ _ _) (coef_apply _ 2 1 9 0 (by decide) _ _ _)
      (x1 V0 2 _ _) (x1 V0 0 _ _) (weights_apply _ 2 1 36864 (by decide) _ _) n o)
  refine step5 _ _ _ 2 (by decide) n o b _ _ ?_
    (mid_eq _ _ _ 2 1 _ _ _ _ _ _ (x1 V0 1 _ _) (weights_apply _ 2 1 36864 (by decide) _ _)
      (hzero_apply _ 2 1 9 (by decide) _ _ _) n o)
  refine step5 _ _ _ 2 (by decide) n o b _ _ ?_
    (mid_eq _ _ _ 2 0 _ _ _ _ _ _ (x0 V0 _) (weights_apply _ 2 0 32768 (by decide) _ _)
      (hzero_apply _ 2 0 8 (by decide) _ _ _) n o)
  exact zero5 _

/-- The result at the column of the component b of channel o of degree 2. -/
theorem ref_apply_2 (V0 : Valuation τ sig (Elt Ideal)) (n : Fin 65536) (o : Fin 64) (b : Fin 5) :
    (res_out0 (F := Ideal) V0 : XArr) (ix2 n (col 2 o b))
      = pathSum (argX V0) (argW V0) (argZ V0) (argP V0) (argN V0) 2 n o b := by
  rw [pathSum2_eq]
  show (res_main_v524 (F := Ideal) V0 : XArr) (ix2 n (col 2 o b)) = _
  unfold res_main_v524
  refine (out2 _ _ _ _ _ _ n o b).trans ?_
  refine step5 _ _ _ 0 (by decide) n o b _ _ ?_
    (down_eq _ _ _ _ 2 3 1 _ _ _ _ _ _ _ _ (coef_apply _ 2 3 11 1 (by decide) _ _ _) (coef_apply _ 2 3 11 1 (by decide) _ _ _)
      (x3 V0 1 _ _) (x3 V0 5 _ _) (weights_apply _ 2 3 45056 (by decide) _ _) n o)
  refine step5 _ _ _ 4 (by decide) n o b _ _ ?_
    (up_eq _ _ _ _ 2 3 1 _ _ _ _ _ _ _ _ (coef_apply _ 2 3 11 1 (by decide) _ _ _) (coef_apply _ 2 3 11 1 (by decide) _ _ _)
      (x3 V0 5 _ _) (x3 V0 1 _ _) (weights_apply _ 2 3 45056 (by decide) _ _) n o)
  refine step5 _ _ _ 1 (by decide) n o b _ _ ?_
    (down_eq _ _ _ _ 2 3 0 _ _ _ _ _ _ _ _ (coef_apply _ 2 3 11 0 (by decide) _ _ _) (coef_apply _ 2 3 11 0 (by decide) _ _ _)
      (x3 V0 2 _ _) (x3 V0 4 _ _) (weights_apply _ 2 3 45056 (by decide) _ _) n o)
  refine step5 _ _ _ 3 (by decide) n o b _ _ ?_
    (up_eq _ _ _ _ 2 3 0 _ _ _ _ _ _ _ _ (coef_apply _ 2 3 11 0 (by decide) _ _ _) (coef_apply _ 2 3 11 0 (by decide) _ _ _)
      (x3 V0 4 _ _) (x3 V0 2 _ _) (weights_apply _ 2 3 45056 (by decide) _ _) n o)
  refine step5 _ _ _ 2 (by decide) n o b _ _ (inner2 V0 n o b)
    (mid_eq _ _ _ 2 3 _ _ _ _ _ _ (x3 V0 3 _ _) (weights_apply _ 2 3 45056 (by decide) _ _)
      (hzero_apply _ 2 3 11 (by decide) _ _ _) n o)

end Cert.ReferenceIdeal.Hand

end
-- ==== Proof.RefRead3.lean ====
import proofs.«118270_j50440095924880_1_alg».proof.Proof.RefReadOps
import proofs.«118270_j50440095924880_1_alg».proof.Proof.RefReadSum
import proofs.«118270_j50440095924880_1_alg».proof.Proof.RefReadOut

/-!
# The path-by-path result at a component of degree 3

The accumulator of degree 3 starts at zero and receives 16 updates, one line each below, in program order read
from the last to the first: a middle term of the path from degree li goes into the middle component 3, an upper
term at distance μ into the component 3 + μ, a lower term into the component 3 - μ. Read at (n, o, b) the
accumulator is the sum of the terms that feed b, which is the specification's sum over the paths into degree 3;
the result's column of the component b of channel o of degree 3 is that entry of the accumulator.
-/

noncomputable section

namespace Cert.ReferenceIdeal.Hand

open Cert.ReferenceIdeal Cert.ReferenceIdeal.Value Cert.Mix Cert.RefReadLib Cert.RefReadSpec Cert.RefReadSum Cert.RefReadOut
open Idealize.ShloMosaic Idealize.ShloMosaic.ValueIdx

/-- The accumulator of degree 3 after its first nine updates. -/
theorem inner3 (V0 : Valuation τ sig (Elt Ideal)) (n : Fin 65536) (o : Fin 64) (b : Fin 7) :
    (res_main_v436 (F := Ideal) V0 : S65536x64x7.Idx → EReal) (ix3 n o b) =
      (((((((((0
        + if b = 3 then midTerm (argX V0) (argW V0) (argZ V0) 3 0 n o else 0)
        + if b = 3 then midTerm (argX V0) (argW V0) (argZ V0) 3 1 n o else 0)
        + if b = 4 then upTerm (argX V0) (argW V0) (argP V0) (argN V0) 3 1 0 n o else 0)
        + if b = 2 then downTerm (argX V0) (argW V0) (argP V0) (argN V0) 3 1 0 n o else 0)
        + if b = 3 then midTerm (argX V0) (argW V0) (argZ V0) 3 2 n o else 0)
        + if b = 4 then upTerm (argX V0) (argW V0) (argP V0) (argN V0) 3 2 0 n o else 0)
        + if b = 2 then downTerm (argX V0) (argW V0) (argP V0) (argN V0) 3 2 0 n o else 0)
        + if b = 5 then upTerm (argX V0) (argW V0) (argP V0) (argN V0) 3 2 1 n o else 0)
        + if b = 1 then downTerm (argX V0) (argW V0) (argP V0) (argN V0) 3 2 1 n o else 0) := by
  unfold res_main_v436
  refine step7 _ _ _ 1 (by decide) n o b _ _ ?_
    (down_eq _ _ _ _ 3 2 1 _ _ _ _ _ _ _ _ (coef_apply _ 3 2 14 1 (by decide) _ _ _) (coef_apply _ 3 2 14 1 (by decide) _ _ _)
      (x2 V0 0 _ _) (x2 V0 4 _ _) (weights_apply _ 3 2 57344 (by decide) _ _) n o)
  refine step7 _ _ _ 5 (by decide) n o b _ _ ?_
    (up_eq _ _ _ _ 3 2 1 _ _ _ _ _ _ _ _ (coef_apply _ 3 2 14 1 (by decide) _ _ _) (coef_apply _ 3 2 14 1 (by decide) _ _ _)
      (x2 V0 4 _ _) (x2 V0 0 _ _) (weights_apply _ 3 2 57344 (by decide) _ _) n o)
  refine step7 _ _ _ 2 (by decide) n o b _ _ ?_
    (down_eq _ _ _ _ 3 2 0 _ _ _ _ _ _ _ _ (coef_apply _ 3 2 14 0 (by decide) _ _ _) (coef_apply _ 3 2 14 0 (by decide) _ _ _)
      (x2 V0 1 _ _) (x2 V0 3 _ _) (weights_apply _ 3 2 57344 (by decide) _ _) n o)
  refine step7 _ _ _ 4 (by decide) n o b _ _ ?_
    (up_eq _ _ _ _ 3 2 0 _ _ _ _ _ _ _ _ (coef_apply _ 3 2 14 0 (by decide) _ _ _) (coef_apply _ 3 2 14 0 (by decide) _ _ _)
      (x2 V0 3 _ _) (x2 V0 1 _ _) (weights_apply _ 3 2 57344 (by decide) _ _) n o)
  refine step7 _ _ _ 3 (by decide) n o b _ _ ?_
    (mid_eq _ _ _ 3 2 _ _ _ _ _ _ (x2 V0 2 _ _) (weights_apply _ 3 2 57344 (by decide) _ _)
      (hzero_apply _ 3 2 14 (by decide) _ _ _) n o)
  refine step7 _ _ _ 2 (by decide) n o b _ _ ?_
    (down_eq _ _ _ _ 3 1 0 _ _ _ _ _ _ _ _ (coef_apply _ 3 1 13 0 (by decide) _ _ _) (coef_apply _ 3 1 13 0 (by decide) _ _ _)
      (x1 V0 0 _ _) (x1 V0 2 _ _) (weights_apply _ 3 1 53248 (by decide) _ _) n o)
  refine step7 _ _ _ 4 (by decide) n o b _ _ ?_
    (up_eq _ _ _ _ 3 1 0 _ _ _ _ _ _ _ _ (coef_apply _ 3 1 13 0 (by decide) _ _ _) (coef_apply _ 3 1 13 0 (by decide) _ _ _)
      (x1 V0 2 _ _) (x1 V0 0 _ _) (weights_apply _ 3 1 53248 (by decide) _ _) n o)
  refine step7 _ _ _ 3 (by decide) n o b _ _ ?_
    (mid_eq _ _ _ 3 1 _ _ _ _ _ _ (x1 V0 1 _ _) (weights_apply _ 3 1 53248 (by decide) _ _)
      (hzero_apply _ 3 1 13 (by decide) _ _ _) n o)
  refine step7 _ _ _ 3 (by decide) n o b _ _ ?_
    (mid_eq _ _ _ 3 0 _ _ _ _ _ _ (x0 V0 _) (weights_apply _ 3 0 49152 (by decide) _ _)
      (hzero_apply _ 3 0 12 (by decide) _ _ _) n o)
  exact zero7 _

/-- The result at the column of the component b of channel o of degree 3. -/
theorem ref_apply_3 (V0 : Valuation τ sig (Elt Ideal)) (n : Fin 65536) (o : Fin 64) (b : Fin 7) :
    (res_out0 (F := Ideal) V0 : XArr) (ix2 n (col 3 o b))
      = pathSum (argX V0) (argW V0) (argZ V0) (argP V0) (argN V0) 3 n o b := by
  rw [pathSum3_eq]
  show (res_main_v524 (F := Ideal) V0 : XArr) (ix2 n (col 3 o b)) = _
  unfold res_main_v524
  refine (out3 _ _ _ _ _ _ n o b).trans ?_
  refine step7 _ _ _ 0 (by decide) n o b _ _ ?_
    (down_eq _ _ _ _ 3 3 2 _ _ _ _ _ _ _ _ (coef_apply _ 3 3 15 2 (by decide) _ _ _) (coef_apply _ 3 3 15 2 (by decide) _ _ _)
      (x3 V0 0 _ _) (x3 V0 6 _ _) (weights_apply _ 3 3 61440 (by decide) _ _) n o)
  refine step7 _ _ _ 6 (by decide) n o b _ _ ?_
    (up_eq _ _ _ _ 3 3 2 _ _ _ _ _ _ _ _ (coef_apply _ 3 3 15 2 (by decide) _ _ _) (coef_apply _ 3 3 15 2 (by decide) _ _ _)
      (x3 V0 6 _ _) (x3 V0 0 _ _) (weights_apply _ 3 3 61440 (by decide) _ _) n o)
  refine step7 _ _ _ 1 (by decide) n o b _ _ ?_
    (down_eq _ _ _ _ 3 3 1 _ _ _ _ _ _ _ _ (coef_apply _ 3 3 15 1 (by decide) _ _ _) (coef_apply _ 3 3 15 1 (by decide) _ _ _)
      (x3 V0 1 _ _) (x3 V0 5 _ _) (weights_apply _ 3 3 61440 (by decide) _ _) n o)
  refine step7 _ _ _ 5 (by decide) n o b _ _ ?_
    (up_eq _ _ _ _ 3 3 1 _ _ _ _ _ _ _ _ (coef_apply _ 3 3 15 1 (by decide) _ _ _) (coef_apply _ 3 3 15 1 (by decide) _ _ _)
      (x3 V0 5 _ _) (x3 V0 1 _ _) (weights_apply _ 3 3 61440 (by decide) _ _) n o)
  refine step7 _ _ _ 2 (by decide) n o b _ _ ?_
    (down_eq _ _ _ _ 3 3 0 _ _ _ _ _ _ _ _ (coef_apply _ 3 3 15 0 (by decide) _ _ _) (coef_apply _ 3 3 15 0 (by decide) _ _ _)
      (x3 V0 2 _ _) (x3 V0 4 _ _) (weights_apply _ 3 3 61440 (by decide) _ _) n o)
  refine step7 _ _ _ 4 (by decide) n o b _ _ ?_
    (up_eq _ _ _ _ 3 3 0 _ _ _ _ _ _ _ _ (coef_apply _ 3 3 15 0 (by decide) _ _ _) (coef_apply _ 3 3 15 0 (by decide) _ _ _)
      (x3 V0 4 _ _) (x3 V0 2 _ _) (weights_apply _ 3 3 61440 (by decide) _ _) n o)
  refine step7 _ _ _ 3 (by decide) n o b _ _ (inner3 V0 n o b)
    (mid_eq _ _ _ 3 3 _ _ _ _ _ _ (x3 V0 3 _ _) (weights_apply _ 3 3 61440 (by decide) _ _)
      (hzero_apply _ 3 3 15 (by decide) _ _ _) n o)

end Cert.ReferenceIdeal.Hand

end
-- ==== Proof.RefRead.lean ====
import proofs.«118270_j50440095924880_1_alg».proof.Proof.RefRead0
import proofs.«118270_j50440095924880_1_alg».proof.Proof.RefRead1
import proofs.«118270_j50440095924880_1_alg».proof.Proof.RefRead2
import proofs.«118270_j50440095924880_1_alg».proof.Proof.RefRead3

/-!
# The path-by-path program's result, read at an index

At the column of the component b of channel o of degree lo, row n, the result is the specification's sum over
the paths into degree lo: the four degrees are the four cases.
-/

noncomputable section

namespace Cert.ReferenceIdeal.Hand

open Cert.ReferenceIdeal Cert.ReferenceIdeal.Value Cert.Mix Idealize.ShloMosaic Idealize.ShloMosaic.ValueIdx

theorem ref_apply (V0 : Valuation τ sig (Elt Ideal)) (lo : Fin 4) (n : Fin 65536) (o : Fin 64) (b : Fin (dim lo)) :
    (res_out0 (F := Ideal) V0 : XArr) (ix2 n (col lo o b))
      = pathSum (V0 (Proc.devRef .tc main_arg0)) (V0 (Proc.devRef .tc main_arg1)) (V0 (Proc.devRef .tc main_arg2))
          (V0 (Proc.devRef .tc main_arg3)) (V0 (Proc.devRef .tc main_arg4)) lo n o b := by
  match lo, b with
  | ⟨0, _⟩, b => exact ref_apply_0 V0 n o b
  | ⟨1, _⟩, b => exact ref_apply_1 V0 n o b
  | ⟨2, _⟩, b => exact ref_apply_2 V0 n o b
  | ⟨3, _⟩, b => exact ref_apply_3 V0 n o b

end Cert.ReferenceIdeal.Hand

end
-- ==== Proof.Bridge.lean ====
import proofs.«118270_j50440095924880_1_alg».proof.Proof.Spec
import Mathlib.Algebra.BigOperators.Fin
import Mathlib.Data.Fintype.BigOperators
import Mathlib.Data.Fintype.Sigma
import Mathlib.Data.EReal.Basic

/-!
# The two arrangements agree on finite inputs

The dense matrix has, at (col li m a, col lo o b), the weight of (o, m) times the coefficient mixH a b. So the
row-times-matrix sum over 1024 columns is a sum over degrees li, channels m and components a. For a fixed degree li and
channel m the coefficient is zero except at the one or two components as far from the middle as b is, and what is left
is exactly the channel's share of the path-by-path terms — an identity of polynomials in finitely many reals, checked
for each pair of degrees and each b (channel_identity). Summing the shares over the channels gives the path's term:
this is where a scalar moves across a sum, which the extended reals allow only for finite entries, so the entries are
first written as coercions of reals.
-/

noncomputable section

namespace Cert.Mix

open Idealize.ShloMosaic Idealize.ShloMosaic.ValueIdx

/-! ## Columns as degree, channel and component -/

/-- Degree, channel and component as one index. -/
def colS (s : (l : Fin 4) × (Fin 64 × Fin (dim l))) : Fin 1024 := col s.1 s.2.1 s.2.2

/-- Blocks of different degrees are disjoint, and inside a block channel and component are quotient and remainder. -/
theorem colS_injective : Function.Injective colS := by
  rintro ⟨l, m, a⟩ ⟨l', m', a'⟩ h
  have h' : off l + m.val * dim l + a.val = off l' + m'.val * dim l' + a'.val := congrArg Fin.val h
  have ha := a.isLt; have ha' := a'.isLt; have hm := m.isLt; have hm' := m'.isLt
  have hl : l = l' := by
    fin_cases l <;> fin_cases l' <;> first | rfl | (exfalso; simp only [dim, off] at h' ha ha'; omega)
  subst hl
  have hma : m.val = m'.val ∧ a.val = a'.val := by
    fin_cases l <;> simp only [dim, off] at h' ha ha' <;> omega
  obtain ⟨e1, e2⟩ := hma
  have em : m = m' := Fin.ext e1
  have ea : a = a' := Fin.ext e2
  subst em; subst ea; rfl

/-- 64·(1 + 3 + 5 + 7) = 1024: the blocks fill the row. -/
theorem colS_bijective : Function.Bijective colS :=
  (Fintype.bijective_iff_injective_and_card colS).2 ⟨colS_injective, by
    rw [Fintype.card_sigma]
    simp only [Fintype.card_prod, Fintype.card_fin, Fin.sum_univ_four, dim]
    rfl⟩

/-- Every column is a component of a channel of a degree. -/
theorem exists_col (j : Fin 1024) : ∃ (l : Fin 4) (m : Fin 64) (a : Fin (dim l)), j = col l m a := by
  obtain ⟨⟨l, m, a⟩, h⟩ := colS_bijective.2 j
  exact ⟨l, m, a, h.symm⟩

/-- A sum over the 1024 columns, taken degree by degree, channel by channel, component by component. -/
theorem sum_cols {A : Type} [AddCommMonoid A] (g : Fin 1024 → A) :
    ∑ k, g k = ∑ l : Fin 4, ∑ m : Fin 64, ∑ a : Fin (dim l), g (col l m a) := by
  rw [← Fintype.sum_bijective colS colS_bijective (fun s => g (colS s)) g (fun _ => rfl), Fintype.sum_sigma]
  refine Finset.sum_congr rfl (fun l _ => ?_)
  rw [Fintype.sum_prod_type]
  rfl

/-! ## One channel, on the reals -/

/-- The coefficient with which component a of degree li feeds component b of degree lo, the path's coefficients
    given as a real z and two real sequences. -/
def mixN (z : ℝ) (P N : ℕ → ℝ) (lo li a b : ℕ) : ℝ :=
  if ((a : ℤ) - li).natAbs ≠ ((b : ℤ) - lo).natAbs then 0
  else if a = li then z
  else if (li < a ↔ lo < b) then P (((a : ℤ) - li).natAbs - 1)
  else if lo < b then N (((a : ℤ) - li).natAbs - 1)
  else -(N (((a : ℤ) - li).natAbs - 1))

/-- One channel's share of the path's term: c k is the channel's component k, w its weight. -/
def termR (c : ℕ → ℝ) (w z : ℝ) (P N : ℕ → ℝ) (lo li b : ℕ) : ℝ :=
  (if b = lo then c li * w * z else 0)
  + ∑ μ : Fin 3, if μ.val + 1 ≤ min lo li then
      ((if b = lo + (μ.val + 1) then (P μ.val * c (li + (μ.val + 1)) + N μ.val * c (li - (μ.val + 1))) * w else 0)
        + (if b + (μ.val + 1) = lo then (P μ.val * c (li - (μ.val + 1)) - N μ.val * c (li + (μ.val + 1))) * w else 0))
    else 0

set_option maxHeartbeats 1000000 in
/-- Only the components as far from the middle as b is carry a nonzero coefficient; what they carry is the
    channel's share. Checked for each pair of degrees and each b. -/
theorem channel_identity (c : ℕ → ℝ) (w z : ℝ) (P N : ℕ → ℝ) (lo li : Fin 4) (b : Fin (dim lo)) :
    ∑ a ∈ Finset.range (dim li), c a * (w * mixN z P N lo.val li.val a b.val) = termR c w z P N lo.val li.val b.val := by
  fin_cases lo <;> fin_cases li <;> fin_cases b <;>
    simp [dim, mixN, termR, Finset.sum_range_succ, Fin.sum_univ_three] <;> ring

/-- The path's term with every entry real: c m k is component k of channel m, w m the channel's weight. -/
def pathTermR (c : Fin 64 → ℕ → ℝ) (w : Fin 64 → ℝ) (z : ℝ) (P N : ℕ → ℝ) (lo li b : ℕ) : ℝ :=
  (if b = lo then (∑ m : Fin 64, c m li * w m) * z else 0)
  + ∑ μ : Fin 3, if μ.val + 1 ≤ min lo li then
      ((if b = lo + (μ.val + 1) then ∑ m : Fin 64, (P μ.val * c m (li + (μ.val + 1)) + N μ.val * c m (li - (μ.val + 1))) * w m else 0)
        + (if b + (μ.val + 1) = lo then ∑ m : Fin 64, (P μ.val * c m (li - (μ.val + 1)) - N μ.val * c m (li + (μ.val + 1))) * w m else 0))
    else 0

/-- The path's term is the sum of the channels' shares: on the reals a scalar moves across a sum. -/
theorem pathTermR_eq_sum (c : Fin 64 → ℕ → ℝ) (w : Fin 64 → ℝ) (z : ℝ) (P N : ℕ → ℝ) (lo li b : ℕ) :
    pathTermR c w z P N lo li b = ∑ m : Fin 64, termR (c m) (w m) z P N lo li b := by
  unfold pathTermR termR
  rw [Finset.sum_add_distrib, Finset.sum_comm]
  congr 1
  · split_ifs
    · rw [Finset.sum_mul]
    · simp
  · refine Finset.sum_congr rfl (fun μ _ => ?_)
    split_ifs <;> simp [Finset.sum_add_distrib]

/-! ## Finite extended reals as coercions of reals -/

theorem coe_finset_sum {ι : Type} (s : Finset ι) (f : ι → ℝ) :
    ((∑ i ∈ s, f i : ℝ) : EReal) = ∑ i ∈ s, (f i : EReal) := by
  classical
  refine Finset.induction_on s (by simp) (fun a s ha ih => ?_)
  rw [Finset.sum_insert ha, Finset.sum_insert ha, EReal.coe_add, ih]

theorem coe_ite (p : Prop) [Decidable p] (a b : ℝ) : ((if p then a else b : ℝ) : EReal) = if p then (a : EReal) else (b : EReal) :=
  apply_ite _ _ _ _

/-- A component read at its own position is the row's entry. -/
theorem comp_val (x : XArr) (n : Fin 65536) (l : Fin 4) (m : Fin 64) (a : Fin (dim l)) :
    comp x n l m a.val = x (ix2 n (col l m a)) := by
  unfold comp
  rw [dif_pos a.isLt]

theorem comp_finite (x : XArr) (fx : ∀ i, x i ≠ ⊤ ∧ x i ≠ ⊥) (n : Fin 65536) (l : Fin 4) (m : Fin 64) (k : ℕ) :
    comp x n l m k ≠ ⊤ ∧ comp x n l m k ≠ ⊥ := by
  unfold comp
  split_ifs
  · exact fx _
  · exact ⟨by simp, by simp⟩

theorem tab_finite (h : PArr) (fh : ∀ i, h i ≠ ⊤ ∧ h i ≠ ⊥) (p : Fin 16) (k : ℕ) :
    tab h p k ≠ ⊤ ∧ tab h p k ≠ ⊥ := by
  unfold tab
  split_ifs
  · exact fh _
  · exact ⟨by simp, by simp⟩

/-- The coefficient on the extended reals is the coercion of the real one. -/
theorem mixH_coe (hz : ZArr) (hp hn : PArr) (lo li : Fin 4) (a : Fin (dim li)) (b : Fin (dim lo)) (z : ℝ) (P N : ℕ → ℝ)
    (hzz : hz (ix1 (path lo li)) = (z : EReal)) (hP : ∀ k, tab hp (path lo li) k = (P k : EReal))
    (hN : ∀ k, tab hn (path lo li) k = (N k : EReal)) :
    mixH hz hp hn lo li a b = (mixN z P N lo.val li.val a.val b.val : EReal) := by
  unfold mixH mixN
  split_ifs <;> simp only [hzz, hP, hN, EReal.coe_zero, EReal.coe_neg]

/-- The path's term on the extended reals is the coercion of the real one. -/
theorem pathTerm_coe (x : XArr) (w : WArr) (hz : ZArr) (hp hn : PArr) (lo li : Fin 4) (n : Fin 65536) (o : Fin 64) (b : Fin (dim lo))
    (c : Fin 64 → ℕ → ℝ) (wr : Fin 64 → ℝ) (z : ℝ) (P N : ℕ → ℝ)
    (hc : ∀ m k, comp x n li m k = (c m k : EReal)) (hw : ∀ m, w (ix1 (wix lo li o m)) = (wr m : EReal))
    (hzz : hz (ix1 (path lo li)) = (z : EReal)) (hP : ∀ k, tab hp (path lo li) k = (P k : EReal))
    (hN : ∀ k, tab hn (path lo li) k = (N k : EReal)) :
    pathTerm x w hz hp hn lo li n o b = (pathTermR c wr z P N lo.val li.val b.val : EReal) := by
  unfold pathTerm pathTermR midTerm upTerm downTerm
  simp only [hc, hw, hzz, hP, hN, EReal.coe_add, EReal.coe_mul, EReal.coe_sub, EReal.coe_zero, coe_finset_sum, coe_ite]

/-! ## The two arrangements -/

/-- For finite inputs, a matrix whose entries are weight times coefficient turns the row-times-matrix sum into the
    path-by-path sum. -/
theorem bridge (x : XArr) (w : WArr) (hz : ZArr) (hp hn : PArr) (M : MArr)
    (fx : ∀ i, x i ≠ ⊤ ∧ x i ≠ ⊥) (fw : ∀ i, w i ≠ ⊤ ∧ w i ≠ ⊥) (fz : ∀ i, hz i ≠ ⊤ ∧ hz i ≠ ⊥)
    (fp : ∀ i, hp i ≠ ⊤ ∧ hp i ≠ ⊥) (fn : ∀ i, hn i ≠ ⊤ ∧ hn i ≠ ⊥)
    (hM : ∀ (lo li : Fin 4) (o mi : Fin 64) (a : Fin (dim li)) (b : Fin (dim lo)),
      M (ix2 (col li mi a) (col lo o b)) = matEntry w hz hp hn lo li o mi a b)
    (lo : Fin 4) (n : Fin 65536) (o : Fin 64) (b : Fin (dim lo)) :
    rowTimesMatrix x M n (col lo o b) = pathSum x w hz hp hn lo n o b := by
  unfold rowTimesMatrix pathSum
  rw [sum_cols]
  refine Finset.sum_congr rfl (fun li _ => ?_)
  obtain ⟨c, hc⟩ : ∃ c : Fin 64 → ℕ → ℝ, ∀ m k, comp x n li m k = (c m k : EReal) :=
    ⟨fun m k => (comp x n li m k).toReal, fun m k =>
      (EReal.coe_toReal (comp_finite x fx n li m k).1 (comp_finite x fx n li m k).2).symm⟩
  obtain ⟨wr, hw⟩ : ∃ wr : Fin 64 → ℝ, ∀ m, w (ix1 (wix lo li o m)) = (wr m : EReal) :=
    ⟨fun m => (w (ix1 (wix lo li o m))).toReal, fun m => (EReal.coe_toReal (fw _).1 (fw _).2).symm⟩
  obtain ⟨z, hzz⟩ : ∃ z : ℝ, hz (ix1 (path lo li)) = (z : EReal) :=
    ⟨(hz (ix1 (path lo li))).toReal, (EReal.coe_toReal (fz _).1 (fz _).2).symm⟩
  obtain ⟨P, hP⟩ : ∃ P : ℕ → ℝ, ∀ k, tab hp (path lo li) k = (P k : EReal) :=
    ⟨fun k => (tab hp (path lo li) k).toReal, fun k =>
      (EReal.coe_toReal (tab_finite hp fp _ k).1 (tab_finite hp fp _ k).2).symm⟩
  obtain ⟨N, hN⟩ : ∃ N : ℕ → ℝ, ∀ k, tab hn (path lo li) k = (N k : EReal) :=
    ⟨fun k => (tab hn (path lo li) k).toReal, fun k =>
      (EReal.coe_toReal (tab_finite hn fn _ k).1 (tab_finite hn fn _ k).2).symm⟩
  rw [pathTerm_coe x w hz hp hn lo li n o b c wr z P N hc hw hzz hP hN]
  have hL : ∀ m : Fin 64, ∑ a : Fin (dim li), x (ix2 n (col li m a)) * M (ix2 (col li m a) (col lo o b))
      = ((∑ a ∈ Finset.range (dim li), c m a * (wr m * mixN z P N lo.val li.val a b.val) : ℝ) : EReal) := by
    intro m
    rw [coe_finset_sum, ← Fin.sum_univ_eq_sum_range
      (fun a => ((c m a * (wr m * mixN z P N lo.val li.val a b.val) : ℝ) : EReal)) (dim li)]
    refine Finset.sum_congr rfl (fun a _ => ?_)
    rw [hM, matEntry, ← comp_val x n li m a, hc, hw, mixH_coe hz hp hn lo li a b z P N hzz hP hN, ← EReal.coe_mul, ← EReal.coe_mul]
  rw [Finset.sum_congr rfl (fun m _ => hL m), ← coe_finset_sum]
  refine congrArg _ ?_
  rw [Finset.sum_congr rfl (fun m _ => channel_identity (c m) (wr m) z P N lo li b), pathTermR_eq_sum]

end Cert.Mix

end
-- ==== Proof.lean ====
import proofs.«118270_j50440095924880_1_alg».proof.Defs
import proofs.«118270_j50440095924880_1_alg».proof.Proof.Gen.Kernel
import proofs.«118270_j50440095924880_1_alg».proof.Proof.Gen.KernelIdeal
import proofs.«118270_j50440095924880_1_alg».proof.Proof.Gen.ReferenceIdeal
import proofs.«118270_j50440095924880_1_alg».proof.Proof.Gen.Pre_finite_inputs
import proofs.«118270_j50440095924880_1_alg».proof.Proof.Gen.ReferenceIdeal.Run
import proofs.«118270_j50440095924880_1_alg».proof.Proof.KFrameBits
import proofs.«118270_j50440095924880_1_alg».proof.Proof.KFrameValue
import proofs.«118270_j50440095924880_1_alg».proof.Proof.PreFinite
import proofs.«118270_j50440095924880_1_alg».proof.Proof.KMat
import proofs.«118270_j50440095924880_1_alg».proof.Proof.RefRead
import proofs.«118270_j50440095924880_1_alg».proof.Proof.Bridge

/-!
# A dense mixing matrix against the path-by-path sum

The kernel folds the weights and the coefficients of the sixteen paths into one 1024×1024 matrix — for each pair of
degrees a Kronecker product of the transposed weight matrix with a small coefficient matrix — and multiplies the
rows by it, 1024 rows at a time. The reference contracts each degree's components with each path's weights and adds
the scaled results into the output's components. On finite inputs the two are one function of the inputs: a column
of the matrix is weight times coefficient (mat_apply), the reference's entry is the sum of the paths' terms
(ref_apply), and the two sums agree term by term once a scalar may move across a sum (Cert.Mix.bridge), which the
precondition's finiteness allows. Rounding the matrix to bf16 is the identity on extended reals, so nothing else
separates the programs.
-/

noncomputable section

namespace Cert.Proof

open Idealize.ShloMosaic Idealize.ShloMosaic.TcCoe Idealize.ShloMosaic.ValueIdx Idealize.SL.Sem Idealize.ShloMosaic.StableHlo

/-- The kernel's program runs to the end with its arguments unchanged, on words. -/
theorem frame_k : Cert.frame_Kernel := fun m ρ _ => Cert.Kernel.Hand.frame m ρ
/-- The same on extended reals. -/
theorem frame_ki : Cert.frame_KernelIdeal := fun m ρ _ => Cert.KernelIdeal.Hand.frame m ρ
/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)
/-- Nothing was rewritten when the kernel was read on extended reals. -/
theorem preserves : Cert.preserves_Kernel_KernelIdeal := trivial

section
open Cert.Mix

/-- Both programs end with the row-times-matrix sum in the result: the kernel by its run; the reference because its
    path-by-path sum is that sum once the matrix's entries are weight times coefficient and the inputs are finite. -/
theorem algebraic : Cert.algebraic_KernelIdeal_ReferenceIdeal := by
  intro m ρ m' ρ' hpre hagree
  refine ⟨fun c i => rowTimesMatrix (m ((c.tc : Thread Cert.KernelIdeal.nD Cert.KernelIdeal.τ).loc Cert.KernelIdeal.main_arg0))
      (Cert.KernelIdeal.Hand.V m c Cert.KernelIdeal.main_v475) (i 0) (i 1), Cert.KernelIdeal.Hand.run_out m ρ, ?_⟩
  refine (θ_run Cert.ReferenceIdeal.defs _ _).mono (fun _ h c => ⟨(h c).1.trans ?_, (h c).2⟩)
    (Cert.ReferenceIdeal.Value.run (F := Ideal) m' ρ')
  obtain ⟨f0, f1, f2, f3, f4⟩ := Cert.KernelIdeal.Hand.finite_of_pre m hpre c
  funext i
  obtain ⟨n, j, rfl⟩ : ∃ (n : Fin 65536) (j : Fin 1024), i = ix2 n j := ⟨i 0, i 1, eq_ix2 i⟩
  obtain ⟨lo, o, b, rfl⟩ := exists_col j
  refine (Cert.ReferenceIdeal.Hand.ref_apply _ lo n o b).trans ?_
  have e0 : launchContents m' c (Proc.devRef .tc Cert.ReferenceIdeal.main_arg0)
      = m ((c.tc : Thread Cert.KernelIdeal.nD Cert.KernelIdeal.τ).loc Cert.KernelIdeal.main_arg0) := (hagree c).1
  have e1 : launchContents m' c (Proc.devRef .tc Cert.ReferenceIdeal.main_arg1)
      = m ((c.tc : Thread Cert.KernelIdeal.nD Cert.KernelIdeal.τ).loc Cert.KernelIdeal.main_arg1) := (hagree c).2.1
  have e2 : launchContents m' c (Proc.devRef .tc Cert.ReferenceIdeal.main_arg2)
      = m ((c.tc : Thread Cert.KernelIdeal.nD Cert.KernelIdeal.τ).loc Cert.KernelIdeal.main_arg2) := (hagree c).2.2.1
  have e3 : launchContents m' c (Proc.devRef .tc Cert.ReferenceIdeal.main_arg3)
      = m ((c.tc : Thread Cert.KernelIdeal.nD Cert.KernelIdeal.τ).loc Cert.KernelIdeal.main_arg3) := (hagree c).2.2.2.1
  have e4 : launchContents m' c (Proc.devRef .tc Cert.ReferenceIdeal.main_arg4)
      = m ((c.tc : Thread Cert.KernelIdeal.nD Cert.KernelIdeal.τ).loc Cert.KernelIdeal.main_arg4) := (hagree c).2.2.2.2
  rw [e0, e1, e2, e3, e4]
  exact (bridge _ _ _ _ _ _ f0 f1 f2 f3 f4 (fun lo li o mi a b => Cert.KernelIdeal.Hand.mat_apply m c lo li o mi a b) lo n o b).symm
end

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
